-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part2 {F : FTy → Type} [FloatOps F] (main_arg1 : IVec S1024x200 32) (main_v30 : IVec S_ 1) (main_v32 : IVec S1024x200 1) (main_c_12 : IVec S_ 32) : IVec S_ 1 :=
  let main_v33 : IVec S1024x200 32 := broadcastInDim S1024x200 ![] bcast_S_S1024x200 main_c_12
  let main_v34 : IVec S1024x200 1 := cmpi .sle main_arg1 main_v33
  let main_v35 : IVec S1024x200 1 := andi main_v32 main_v34
  let main_c_13 : IVec S_ 1 := constantI S_ 1 1#1
  let main_v36 : IVec S_ 1 := (fun x v => Host.reduce IntOp.andi x v reducesTo_S1024x200_S_d0_1 h_S_) main_v35 main_c_13
  let main_v37 : IVec S_ 1 := andi main_v30 main_v36
  main_v37

def fn_part1 {F : FTy → Type} [FloatOps F] (main_arg0 : IVec S1024x200 32) (main_arg1 : IVec S1024x200 32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1024x200 32 := broadcastInDim S1024x200 ![] bcast_S_S1024x200 main_c_8
  let main_v25 : IVec S1024x200 1 := cmpi .sge main_arg0 main_v24
  let main_c_9 : IVec S_ 32 := constantI S_ 32 99999#32
  let main_v26 : IVec S1024x200 32 := broadcastInDim S1024x200 ![] bcast_S_S1024x200 main_c_9
  let main_v27 : IVec S1024x200 1 := cmpi .sle main_arg0 main_v26
  let main_v28 : IVec S1024x200 1 := andi main_v25 main_v27
  let main_c_10 : IVec S_ 1 := constantI S_ 1 1#1
  let main_v29 : IVec S_ 1 := (fun x v => Host.reduce IntOp.andi x v reducesTo_S1024x200_S_d0_1 h_S_) main_v28 main_c_10
  let main_v30 : IVec S_ 1 := andi main_v23 main_v29
  let main_c_11 : IVec S_ 32 := constantI S_ 32 0#32
  let main_v31 : IVec S1024x200 32 := broadcastInDim S1024x200 ![] bcast_S_S1024x200 main_c_11
  let main_v32 : IVec S1024x200 1 := cmpi .sge main_arg1 main_v31
  let main_c_12 : IVec S_ 32 := constantI S_ 32 1#32
  fn_part2 (F := F) main_arg1 main_v30 main_v32 main_c_12

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_v13 main_v16
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S204800 : Shape := ⟨1, ![204800]⟩
abbrev S200x128 : Shape := ⟨2, ![200, 128]⟩
abbrev S1x200x128 : Shape := ⟨3, ![1, 200, 128]⟩
abbrev S1x128 : Shape := ⟨2, ![1, 128]⟩
abbrev S51200x128 : Shape := ⟨2, ![51200, 128]⟩
abbrev S1600 : Shape := ⟨1, ![1600]⟩
abbrev S80x128 : Shape := ⟨2, ![80, 128]⟩
abbrev S_ : Shape := ⟨0, ![]⟩
abbrev S80 : Shape := ⟨1, ![80]⟩
abbrev S256x200x128 : Shape := ⟨3, ![256, 200, 128]⟩
abbrev S1024x200x128 : Shape := ⟨3, ![1024, 200, 128]⟩
abbrev S64x200x128 : Shape := ⟨3, ![64, 200, 128]⟩
abbrev S64x200 : Shape := ⟨2, ![64, 200]⟩
abbrev S64x200x1 : Shape := ⟨3, ![64, 200, 1]⟩
abbrev S1x1x128 : Shape := ⟨3, ![1, 1, 128]⟩
abbrev S12800x128 : Shape := ⟨2, ![12800, 128]⟩
abbrev S128x128 : Shape := ⟨2, ![128, 128]⟩

abbrev nBuf : Table → Nat
  | .hbm => 24
  | .local .tc .vmem => 40
  | .local .scVector .vmem => 20
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S204800, .i32⟩
  | .hbm, ⟨8, _⟩ => ⟨S200x128, .f32⟩
  | .hbm, ⟨9, _⟩ => ⟨S1x200x128, .f32⟩
  | .hbm, ⟨10, _⟩ => ⟨S1x128, .f32⟩
  | .hbm, ⟨11, _⟩ => ⟨S1x128, .f32⟩
  | .hbm, ⟨12, _⟩ => ⟨S51200x128, .f32⟩
  | .hbm, ⟨13, _⟩ => ⟨S256x200x128, .f32⟩
  | .hbm, ⟨14, _⟩ => ⟨S51200x128, .f32⟩
  | .hbm, ⟨15, _⟩ => ⟨S256x200x128, .f32⟩
  | .hbm, ⟨16, _⟩ => ⟨S51200x128, .f32⟩
  | .hbm, ⟨17, _⟩ => ⟨S256x200x128, .f32⟩
  | .hbm, ⟨18, _⟩ => ⟨S51200x128, .f32⟩
  | .hbm, ⟨19, _⟩ => ⟨S256x200x128, .f32⟩
  | .hbm, ⟨20, _⟩ => ⟨S1024x200x128, .f32⟩
  | .hbm, ⟨21, _⟩ => ⟨S1024x200x128, .f32⟩
  | .hbm, ⟨22, _⟩ => ⟨S1024x200x128, .f32⟩
  | .hbm, ⟨23, _⟩ => ⟨S1024x200x128, .f32⟩
  | .local .tc .vmem, ⟨0, _⟩ => ⟨S64x200x128, .f32⟩
  | .local .tc .vmem, ⟨1, _⟩ => ⟨S64x200x128, .f32⟩
  | .local .tc .vmem, ⟨2, _⟩ => ⟨S64x200, .i32⟩
  | .local .tc .vmem, ⟨3, _⟩ => ⟨S64x200, .i32⟩
  | .local .tc .vmem, ⟨4, _⟩ => ⟨S1x200x128, .f32⟩
  | .local .tc .vmem, ⟨5, _⟩ => ⟨S2x128, .f32⟩
  | .local .tc .vmem, ⟨6, _⟩ => ⟨S1x128, .f32⟩
  | .local .tc .vmem, ⟨7, _⟩ => ⟨S1x128, .f32⟩
  | .local .tc .vmem, ⟨8, _⟩ => ⟨S64x200x128, .f32⟩
  | .local .tc .vmem, ⟨9, _⟩ => ⟨S64x200x128, .f32⟩
  | .local .tc .vmem, ⟨10, _⟩ => ⟨S64x200x128, .f32⟩
  | .local .tc .vmem, ⟨11, _⟩ => ⟨S64x200x128, .f32⟩
  | .local .tc .vmem, ⟨12, _⟩ => ⟨S64x200, .i32⟩
  | .local .tc .vmem, ⟨13, _⟩ => ⟨S64x200, .i32⟩
  | .local .tc .vmem, ⟨14, _⟩ => ⟨S1x200x128, .f32⟩
  | .local .tc .vmem, ⟨15, _⟩ => ⟨S2x128, .f32⟩
  | .local .tc .vmem, ⟨16, _⟩ => ⟨S1x128, .f32⟩
  | .local .tc .vmem, ⟨17, _⟩ => ⟨S1x128, .f32⟩
  | .local .tc .vmem, ⟨18, _⟩ => ⟨S64x200x128, .f32⟩
  | .local .tc .vmem, ⟨19, _⟩ => ⟨S64x200x128, .f32⟩
  | .local .tc .vmem, ⟨20, _⟩ => ⟨S64x200x128, .f32⟩
  | .local .tc .vmem, ⟨21, _⟩ => ⟨S64x200x128, .f32⟩
  | .local .tc .vmem, ⟨22, _⟩ => ⟨S64x200, .i32⟩
  | .local .tc .vmem, ⟨23, _⟩ => ⟨S64x200, .i32⟩
  | .local .tc .vmem, ⟨24, _⟩ => ⟨S1x200x128, .f32⟩
  | .local .tc .vmem, ⟨25, _⟩ => ⟨S2x128, .f32⟩
  | .local .tc .vmem, ⟨26, _⟩ => ⟨S1x128, .f32⟩
  | .local .tc .vmem, ⟨27, _⟩ => ⟨S1x128, .f32⟩
  | .local .tc .vmem, ⟨28, _⟩ => ⟨S64x200x128, .f32⟩
  | .local .tc .vmem, ⟨29, _⟩ => ⟨S64x200x128, .f32⟩
  | .local .tc .vmem, ⟨30, _⟩ => ⟨S64x200x128, .f32⟩
  | .local .tc .vmem, ⟨31, _⟩ => ⟨S64x200x128, .f32⟩
  | .local .tc .vmem, ⟨32, _⟩ => ⟨S64x200, .i32⟩
  | .local .tc .vmem, ⟨33, _⟩ => ⟨S64x200, .i32⟩
  | .local .tc .vmem, ⟨34, _⟩ => ⟨S1x200x128, .f32⟩
  | .local .tc .vmem, ⟨35, _⟩ => ⟨S2x128, .f32⟩
  | .local .tc .vmem, ⟨36, _⟩ => ⟨S1x128, .f32⟩
  | .local .tc .vmem, ⟨37, _⟩ => ⟨S1x128, .f32⟩
  | .local .tc .vmem, ⟨38, _⟩ => ⟨S64x200x128, .f32⟩
  | .local .tc .vmem, ⟨39, _⟩ => ⟨S64x200x128, .f32⟩
  | .local .scVector .vmem, ⟨0, _⟩ => ⟨S1600, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S1600, .i32⟩
  | .local .scVector .vmem, ⟨6, _⟩ => ⟨S80x128, .f32⟩
  | .local .scVector .vmem, ⟨7, _⟩ => ⟨S80x128, .f32⟩
  | .local .scVector .vmem, ⟨8, _⟩ => ⟨S80x128, .f32⟩
  | .local .scVector .vmem, ⟨9, _⟩ => ⟨S80x128, .f32⟩
  | .local .scVector .vmem, ⟨10, _⟩ => ⟨S1600, .i32⟩
  | .local .scVector .vmem, ⟨11, _⟩ => ⟨S80x128, .f32⟩
  | .local .scVector .vmem, ⟨12, _⟩ => ⟨S80x128, .f32⟩
  | .local .scVector .vmem, ⟨13, _⟩ => ⟨S80x128, .f32⟩
  | .local .scVector .vmem, ⟨14, _⟩ => ⟨S80x128, .f32⟩
  | .local .scVector .vmem, ⟨15, _⟩ => ⟨S1600, .i32⟩
  | .local .scVector .vmem, ⟨16, _⟩ => ⟨S80x128, .f32⟩
  | .local .scVector .vmem, ⟨17, _⟩ => ⟨S80x128, .f32⟩
  | .local .scVector .vmem, ⟨18, _⟩ => ⟨S80x128, .f32⟩
  | .local .scVector .vmem, ⟨19, _⟩ => ⟨S80x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 76 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTables nBuf rfl bufTy 4 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_arg2_scv : Ref sig .scVector := ⟨.hbm, 2, rfl⟩
abbrev main_v0_scv : Ref sig .scVector := ⟨.hbm, 7, rfl⟩
abbrev main_v5_scv : Ref sig .scVector := ⟨.hbm, 12, rfl⟩
abbrev main_v7_scv : Ref sig .scVector := ⟨.hbm, 14, rfl⟩
abbrev main_v9_scv : Ref sig .scVector := ⟨.hbm, 16, rfl⟩
abbrev main_v11_scv : Ref sig .scVector := ⟨.hbm, 18, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg3_0 : Ref sig .tc := ⟨.vmem, 5, rfl⟩
abbrev cc4_stg4_0 : Ref sig .tc := ⟨.vmem, 6, rfl⟩
abbrev cc4_stg5_0 : Ref sig .tc := ⟨.vmem, 7, rfl⟩
abbrev cc4_stg6_0 : Ref sig .tc := ⟨.vmem, 8, rfl⟩
abbrev cc4_stg6_1 : Ref sig .tc := ⟨.vmem, 9, rfl⟩
abbrev cc5_stg0_0 : Ref sig .tc := ⟨.vmem, 10, rfl⟩
abbrev cc5_stg0_1 : Ref sig .tc := ⟨.vmem, 11, rfl⟩
abbrev cc5_stg1_0 : Ref sig .tc := ⟨.vmem, 12, rfl⟩
abbrev cc5_stg1_1 : Ref sig .tc := ⟨.vmem, 13, rfl⟩
abbrev cc5_stg2_0 : Ref sig .tc := ⟨.vmem, 14, rfl⟩
abbrev cc5_stg3_0 : Ref sig .tc := ⟨.vmem, 15, rfl⟩
abbrev cc5_stg4_0 : Ref sig .tc := ⟨.vmem, 16, rfl⟩
abbrev cc5_stg5_0 : Ref sig .tc := ⟨.vmem, 17, rfl⟩
abbrev cc5_stg6_0 : Ref sig .tc := ⟨.vmem, 18, rfl⟩
abbrev cc5_stg6_1 : Ref sig .tc := ⟨.vmem, 19, rfl⟩
abbrev cc6_stg0_0 : Ref sig .tc := ⟨.vmem, 20, rfl⟩
abbrev cc6_stg0_1 : Ref sig .tc := ⟨.vmem, 21, rfl⟩
abbrev cc6_stg1_0 : Ref sig .tc := ⟨.vmem, 22, rfl⟩
abbrev cc6_stg1_1 : Ref sig .tc := ⟨.vmem, 23, rfl⟩
abbrev cc6_stg2_0 : Ref sig .tc := ⟨.vmem, 24, rfl⟩
abbrev cc6_stg3_0 : Ref sig .tc := ⟨.vmem, 25, rfl⟩
abbrev cc6_stg4_0 : Ref sig .tc := ⟨.vmem, 26, rfl⟩
abbrev cc6_stg5_0 : Ref sig .tc := ⟨.vmem, 27, rfl⟩
abbrev cc6_stg6_0 : Ref sig .tc := ⟨.vmem, 28, rfl⟩
abbrev cc6_stg6_1 : Ref sig .tc := ⟨.vmem, 29, rfl⟩
abbrev cc7_stg0_0 : Ref sig .tc := ⟨.vmem, 30, rfl⟩
abbrev cc7_stg0_1 : Ref sig .tc := ⟨.vmem, 31, rfl⟩
abbrev cc7_stg1_0 : Ref sig .tc := ⟨.vmem, 32, rfl⟩
abbrev cc7_stg1_1 : Ref sig .tc := ⟨.vmem, 33, rfl⟩
abbrev cc7_stg2_0 : Ref sig .tc := ⟨.vmem, 34, rfl⟩
abbrev cc7_stg3_0 : Ref sig .tc := ⟨.vmem, 35, rfl⟩
abbrev cc7_stg4_0 : Ref sig .tc := ⟨.vmem, 36, rfl⟩
abbrev cc7_stg5_0 : Ref sig .tc := ⟨.vmem, 37, rfl⟩
abbrev cc7_stg6_0 : Ref sig .tc := ⟨.vmem, 38, rfl⟩
abbrev cc7_stg6_1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_scratch0 : Ref sig .scVector := ⟨.vmem, 10, rfl⟩
abbrev cc2_scratch1 : Ref sig .scVector := ⟨.vmem, 11, rfl⟩
abbrev cc2_scratch2 : Ref sig .scVector := ⟨.vmem, 12, rfl⟩
abbrev cc2_scratch3 : Ref sig .scVector := ⟨.vmem, 13, rfl⟩
abbrev cc2_scratch4 : Ref sig .scVector := ⟨.vmem, 14, rfl⟩
abbrev cc3_scratch0 : Ref sig .scVector := ⟨.vmem, 15, rfl⟩
abbrev cc3_scratch1 : Ref sig .scVector := ⟨.vmem, 16, rfl⟩
abbrev cc3_scratch2 : Ref sig .scVector := ⟨.vmem, 17, rfl⟩
abbrev cc3_scratch3 : Ref sig .scVector := ⟨.vmem, 18, rfl⟩
abbrev cc3_scratch4 : Ref sig .scVector := ⟨.vmem, 19, rfl⟩
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem6_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3 : BitVec 32 := Scalar.addi c0_i32 v2
  ![v3.toNat]
@[reducible] def k0_t1_loop : Scf.Loop 32 :=
  let c0_i32_9 : BitVec 32 := 0#32
  let c5_i32 : BitVec 32 := 5#32
  let v12 : BitVec 32 := Scalar.addi c0_i32_9 c5_i32
  let c1_i32 : BitVec 32 := 1#32
  ⟨c0_i32_9, v12, c1_i32⟩
def k0_cond1 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c0_i32_12 : BitVec 32 := 0#32
  let v15 : BitVec 32 := Scalar.addi v14 c0_i32_12
  let c20_i32 : BitVec 32 := 20#32
  let v16 : BitVec 1 := Scalar.cmpi .slt v15 c20_i32
  let v17 : BitVec 32 := Scalar.extui v16
  let c0_i32_13 : BitVec 32 := 0#32
  let v18 : BitVec 1 := Scalar.cmpi .ne v17 c0_i32_13
  v18

def k0_off2 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c0_i32_22 : BitVec 32 := 0#32
  let v31 : BitVec 32 := Scalar.addi v14 c0_i32_22
  let c80_i32_23 : BitVec 32 := 80#32
  let v32 : BitVec 32 := Scalar.muli v31 c80_i32_23
  ![v32.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c0_i32_26 : BitVec 32 := 0#32
  let v35 : BitVec 32 := Scalar.addi v14 c0_i32_26
  let c80_i32_27 : BitVec 32 := 80#32
  let v36 : BitVec 32 := Scalar.muli v35 c80_i32_27
  let v37 : BitVec 32 := Scalar.addi v2 v36
  let c0_i32_32_r1 : BitVec 32 := 0#32
  ![v37.toNat, 0]
def k0_cond2 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c0_i32_28 : BitVec 32 := 0#32
  let v38 : BitVec 32 := Scalar.addi v14 c0_i32_28
  let c4_i32_29 : BitVec 32 := 4#32
  let v39 : BitVec 32 := Scalar.addi v38 c4_i32_29
  let c20_i32_30 : BitVec 32 := 20#32
  let v40 : BitVec 1 := Scalar.cmpi .slt v39 c20_i32_30
  let v41 : BitVec 32 := Scalar.extui v40
  let c0_i32_31 : BitVec 32 := 0#32
  let v42 : BitVec 1 := Scalar.cmpi .ne v41 c0_i32_31
  v42

def k0_off4 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c0_i32_32 : BitVec 32 := 0#32
  let v43 : BitVec 32 := Scalar.addi v14 c0_i32_32
  let c4_i32_33 : BitVec 32 := 4#32
  let v44 : BitVec 32 := Scalar.addi v43 c4_i32_33
  let c80_i32_34 : BitVec 32 := 80#32
  let v45 : BitVec 32 := Scalar.muli v44 c80_i32_34
  ![v45.toNat]
def k0_cond3 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c1_i32_14 : BitVec 32 := 1#32
  let v19 : BitVec 32 := Scalar.addi v14 c1_i32_14
  let c20_i32_15 : BitVec 32 := 20#32
  let v20 : BitVec 1 := Scalar.cmpi .slt v19 c20_i32_15
  let v21 : BitVec 32 := Scalar.extui v20
  let c0_i32_16 : BitVec 32 := 0#32
  let v22 : BitVec 1 := Scalar.cmpi .ne v21 c0_i32_16
  v22

def k0_off5 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c1_i32_22 : BitVec 32 := 1#32
  let v31 : BitVec 32 := Scalar.addi v14 c1_i32_22
  let c80_i32_23 : BitVec 32 := 80#32
  let v32 : BitVec 32 := Scalar.muli v31 c80_i32_23
  ![v32.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c1_i32_26 : BitVec 32 := 1#32
  let v35 : BitVec 32 := Scalar.addi v14 c1_i32_26
  let c80_i32_27 : BitVec 32 := 80#32
  let v36 : BitVec 32 := Scalar.muli v35 c80_i32_27
  let v37 : BitVec 32 := Scalar.addi v2 v36
  let c0_i32_32_r2 : BitVec 32 := 0#32
  ![v37.toNat, 0]
def k0_cond4 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c1_i32_28 : BitVec 32 := 1#32
  let v38 : BitVec 32 := Scalar.addi v14 c1_i32_28
  let c4_i32_29 : BitVec 32 := 4#32
  let v39 : BitVec 32 := Scalar.addi v38 c4_i32_29
  let c20_i32_30 : BitVec 32 := 20#32
  let v40 : BitVec 1 := Scalar.cmpi .slt v39 c20_i32_30
  let v41 : BitVec 32 := Scalar.extui v40
  let c0_i32_31 : BitVec 32 := 0#32
  let v42 : BitVec 1 := Scalar.cmpi .ne v41 c0_i32_31
  v42

def k0_off7 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c1_i32_32 : BitVec 32 := 1#32
  let v43 : BitVec 32 := Scalar.addi v14 c1_i32_32
  let c4_i32_33 : BitVec 32 := 4#32
  let v44 : BitVec 32 := Scalar.addi v43 c4_i32_33
  let c80_i32_34 : BitVec 32 := 80#32
  let v45 : BitVec 32 := Scalar.muli v44 c80_i32_34
  ![v45.toNat]
def k0_cond5 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c2_i32_17 : BitVec 32 := 2#32
  let v23 : BitVec 32 := Scalar.addi v14 c2_i32_17
  let c20_i32_18 : BitVec 32 := 20#32
  let v24 : BitVec 1 := Scalar.cmpi .slt v23 c20_i32_18
  let v25 : BitVec 32 := Scalar.extui v24
  let c0_i32_19 : BitVec 32 := 0#32
  let v26 : BitVec 1 := Scalar.cmpi .ne v25 c0_i32_19
  v26

def k0_off8 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c2_i32_22 : BitVec 32 := 2#32
  let v31 : BitVec 32 := Scalar.addi v14 c2_i32_22
  let c80_i32_23 : BitVec 32 := 80#32
  let v32 : BitVec 32 := Scalar.muli v31 c80_i32_23
  ![v32.toNat]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c2_i32_26 : BitVec 32 := 2#32
  let v35 : BitVec 32 := Scalar.addi v14 c2_i32_26
  let c80_i32_27 : BitVec 32 := 80#32
  let v36 : BitVec 32 := Scalar.muli v35 c80_i32_27
  let v37 : BitVec 32 := Scalar.addi v2 v36
  let c0_i32_32_r3 : BitVec 32 := 0#32
  ![v37.toNat, 0]
def k0_cond6 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c2_i32_28 : BitVec 32 := 2#32
  let v38 : BitVec 32 := Scalar.addi v14 c2_i32_28
  let c4_i32_29 : BitVec 32 := 4#32
  let v39 : BitVec 32 := Scalar.addi v38 c4_i32_29
  let c20_i32_30 : BitVec 32 := 20#32
  let v40 : BitVec 1 := Scalar.cmpi .slt v39 c20_i32_30
  let v41 : BitVec 32 := Scalar.extui v40
  let c0_i32_31 : BitVec 32 := 0#32
  let v42 : BitVec 1 := Scalar.cmpi .ne v41 c0_i32_31
  v42

def k0_off10 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c2_i32_32 : BitVec 32 := 2#32
  let v43 : BitVec 32 := Scalar.addi v14 c2_i32_32
  let c4_i32_33 : BitVec 32 := 4#32
  let v44 : BitVec 32 := Scalar.addi v43 c4_i32_33
  let c80_i32_34 : BitVec 32 := 80#32
  let v45 : BitVec 32 := Scalar.muli v44 c80_i32_34
  ![v45.toNat]
def k0_cond7 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c3_i32 : BitVec 32 := 3#32
  let v27 : BitVec 32 := Scalar.addi v14 c3_i32
  let c20_i32_20 : BitVec 32 := 20#32
  let v28 : BitVec 1 := Scalar.cmpi .slt v27 c20_i32_20
  let v29 : BitVec 32 := Scalar.extui v28
  let c0_i32_21 : BitVec 32 := 0#32
  let v30 : BitVec 1 := Scalar.cmpi .ne v29 c0_i32_21
  v30

def k0_off11 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c3_i32_22 : BitVec 32 := 3#32
  let v31 : BitVec 32 := Scalar.addi v14 c3_i32_22
  let c80_i32_23 : BitVec 32 := 80#32
  let v32 : BitVec 32 := Scalar.muli v31 c80_i32_23
  ![v32.toNat]
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c3_i32_26 : BitVec 32 := 3#32
  let v35 : BitVec 32 := Scalar.addi v14 c3_i32_26
  let c80_i32_27 : BitVec 32 := 80#32
  let v36 : BitVec 32 := Scalar.muli v35 c80_i32_27
  let v37 : BitVec 32 := Scalar.addi v2 v36
  let c0_i32_32_r4 : BitVec 32 := 0#32
  ![v37.toNat, 0]
def k0_cond8 (k0_t1 : Fin k0_t1_loop.trips) : BitVec 1 :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c3_i32_28 : BitVec 32 := 3#32
  let v38 : BitVec 32 := Scalar.addi v14 c3_i32_28
  let c4_i32_29 : BitVec 32 := 4#32
  let v39 : BitVec 32 := Scalar.addi v38 c4_i32_29
  let c20_i32_30 : BitVec 32 := 20#32
  let v40 : BitVec 1 := Scalar.cmpi .slt v39 c20_i32_30
  let v41 : BitVec 32 := Scalar.extui v40
  let c0_i32_31 : BitVec 32 := 0#32
  let v42 : BitVec 1 := Scalar.cmpi .ne v41 c0_i32_31
  v42

def k0_off13 (k0_t1 : Fin k0_t1_loop.trips) : Fin 1 → Nat :=
  let c0_i32_11 : BitVec 32 := 0#32
  let c0_i32_9 : BitVec 32 := 0#32
  let c1_i32 : BitVec 32 := 1#32
  let arg14 : BitVec 32 := Scf.iv c0_i32_9 c1_i32 k0_t1
  let c4_i32 : BitVec 32 := 4#32
  let v13 : BitVec 32 := Scalar.muli arg14 c4_i32
  let v14 : BitVec 32 := Scalar.addi c0_i32_11 v13
  let c3_i32_32 : BitVec 32 := 3#32
  let v43 : BitVec 32 := Scalar.addi v14 c3_i32_32
  let c4_i32_33 : BitVec 32 := 4#32
  let v44 : BitVec 32 := Scalar.addi v43 c4_i32_33
  let c80_i32_34 : BitVec 32 := 80#32
  let v45 : BitVec 32 := Scalar.muli v44 c80_i32_34
  ![v45.toNat]
abbrev grid1 : Pipeline.Grid := ⟨2, ![2, 16], ![false, false]⟩

def k1_off1 (i : grid1.Coords) : Fin 1 → Nat :=
  let c51200_i32 : BitVec 32 := 51200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3 : BitVec 32 := Scalar.addi c51200_i32 v2
  ![v3.toNat]
@[reducible] def k1_t1_loop : Scf.Loop 32 :=
  let c0_i32_8 : BitVec 32 := 0#32
  let c5_i32 : BitVec 32 := 5#32
  let v12 : BitVec 32 := Scalar.addi c0_i32_8 c5_i32
  let c1_i32 : BitVec 32 := 1#32
  ⟨c0_i32_8, v12, c1_i32⟩
def k1_cond1 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c0_i32_11 : BitVec 32 := 0#32
  let v15 : BitVec 32 := Scalar.addi v14 c0_i32_11
  let c20_i32 : BitVec 32 := 20#32
  let v16 : BitVec 1 := Scalar.cmpi .slt v15 c20_i32
  let v17 : BitVec 32 := Scalar.extui v16
  let c0_i32_12 : BitVec 32 := 0#32
  let v18 : BitVec 1 := Scalar.cmpi .ne v17 c0_i32_12
  v18

def k1_off2 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c0_i32_21 : BitVec 32 := 0#32
  let v31 : BitVec 32 := Scalar.addi v14 c0_i32_21
  let c80_i32_22 : BitVec 32 := 80#32
  let v32 : BitVec 32 := Scalar.muli v31 c80_i32_22
  ![v32.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c0_i32_25 : BitVec 32 := 0#32
  let v35 : BitVec 32 := Scalar.addi v14 c0_i32_25
  let c80_i32_26 : BitVec 32 := 80#32
  let v36 : BitVec 32 := Scalar.muli v35 c80_i32_26
  let v37 : BitVec 32 := Scalar.addi v2 v36
  let c0_i32_31_r1 : BitVec 32 := 0#32
  ![v37.toNat, 0]
def k1_cond2 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c0_i32_27 : BitVec 32 := 0#32
  let v38 : BitVec 32 := Scalar.addi v14 c0_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k1_off4 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c0_i32_31 : BitVec 32 := 0#32
  let v43 : BitVec 32 := Scalar.addi v14 c0_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k1_cond3 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c1_i32_13 : BitVec 32 := 1#32
  let v19 : BitVec 32 := Scalar.addi v14 c1_i32_13
  let c20_i32_14 : BitVec 32 := 20#32
  let v20 : BitVec 1 := Scalar.cmpi .slt v19 c20_i32_14
  let v21 : BitVec 32 := Scalar.extui v20
  let c0_i32_15 : BitVec 32 := 0#32
  let v22 : BitVec 1 := Scalar.cmpi .ne v21 c0_i32_15
  v22

def k1_off5 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c1_i32_21 : BitVec 32 := 1#32
  let v31 : BitVec 32 := Scalar.addi v14 c1_i32_21
  let c80_i32_22 : BitVec 32 := 80#32
  let v32 : BitVec 32 := Scalar.muli v31 c80_i32_22
  ![v32.toNat]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c1_i32_25 : BitVec 32 := 1#32
  let v35 : BitVec 32 := Scalar.addi v14 c1_i32_25
  let c80_i32_26 : BitVec 32 := 80#32
  let v36 : BitVec 32 := Scalar.muli v35 c80_i32_26
  let v37 : BitVec 32 := Scalar.addi v2 v36
  let c0_i32_31_r2 : BitVec 32 := 0#32
  ![v37.toNat, 0]
def k1_cond4 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c1_i32_27 : BitVec 32 := 1#32
  let v38 : BitVec 32 := Scalar.addi v14 c1_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k1_off7 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c1_i32_31 : BitVec 32 := 1#32
  let v43 : BitVec 32 := Scalar.addi v14 c1_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k1_cond5 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c2_i32_16 : BitVec 32 := 2#32
  let v23 : BitVec 32 := Scalar.addi v14 c2_i32_16
  let c20_i32_17 : BitVec 32 := 20#32
  let v24 : BitVec 1 := Scalar.cmpi .slt v23 c20_i32_17
  let v25 : BitVec 32 := Scalar.extui v24
  let c0_i32_18 : BitVec 32 := 0#32
  let v26 : BitVec 1 := Scalar.cmpi .ne v25 c0_i32_18
  v26

def k1_off8 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c2_i32_21 : BitVec 32 := 2#32
  let v31 : BitVec 32 := Scalar.addi v14 c2_i32_21
  let c80_i32_22 : BitVec 32 := 80#32
  let v32 : BitVec 32 := Scalar.muli v31 c80_i32_22
  ![v32.toNat]
def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c2_i32_25 : BitVec 32 := 2#32
  let v35 : BitVec 32 := Scalar.addi v14 c2_i32_25
  let c80_i32_26 : BitVec 32 := 80#32
  let v36 : BitVec 32 := Scalar.muli v35 c80_i32_26
  let v37 : BitVec 32 := Scalar.addi v2 v36
  let c0_i32_31_r3 : BitVec 32 := 0#32
  ![v37.toNat, 0]
def k1_cond6 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c2_i32_27 : BitVec 32 := 2#32
  let v38 : BitVec 32 := Scalar.addi v14 c2_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k1_off10 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c2_i32_31 : BitVec 32 := 2#32
  let v43 : BitVec 32 := Scalar.addi v14 c2_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k1_cond7 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c3_i32 : BitVec 32 := 3#32
  let v27 : BitVec 32 := Scalar.addi v14 c3_i32
  let c20_i32_19 : BitVec 32 := 20#32
  let v28 : BitVec 1 := Scalar.cmpi .slt v27 c20_i32_19
  let v29 : BitVec 32 := Scalar.extui v28
  let c0_i32_20 : BitVec 32 := 0#32
  let v30 : BitVec 1 := Scalar.cmpi .ne v29 c0_i32_20
  v30

def k1_off11 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c3_i32_21 : BitVec 32 := 3#32
  let v31 : BitVec 32 := Scalar.addi v14 c3_i32_21
  let c80_i32_22 : BitVec 32 := 80#32
  let v32 : BitVec 32 := Scalar.muli v31 c80_i32_22
  ![v32.toNat]
def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c3_i32_25 : BitVec 32 := 3#32
  let v35 : BitVec 32 := Scalar.addi v14 c3_i32_25
  let c80_i32_26 : BitVec 32 := 80#32
  let v36 : BitVec 32 := Scalar.muli v35 c80_i32_26
  let v37 : BitVec 32 := Scalar.addi v2 v36
  let c0_i32_31_r4 : BitVec 32 := 0#32
  ![v37.toNat, 0]
def k1_cond8 (k1_t1 : Fin k1_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c3_i32_27 : BitVec 32 := 3#32
  let v38 : BitVec 32 := Scalar.addi v14 c3_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k1_off13 (k1_t1 : Fin k1_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k1_t1
  let c4_i32 : BitVec 32 := 4#32
  let v13 : BitVec 32 := Scalar.muli arg14 c4_i32
  let v14 : BitVec 32 := Scalar.addi c0_i32_10 v13
  let c3_i32_31 : BitVec 32 := 3#32
  let v43 : BitVec 32 := Scalar.addi v14 c3_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
abbrev grid2 : Pipeline.Grid := ⟨2, ![2, 16], ![false, false]⟩

def k2_off1 (i : grid2.Coords) : Fin 1 → Nat :=
  let c102400_i32 : BitVec 32 := 102400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3 : BitVec 32 := Scalar.addi c102400_i32 v2
  ![v3.toNat]
@[reducible] def k2_t1_loop : Scf.Loop 32 :=
  let c0_i32_8 : BitVec 32 := 0#32
  let c5_i32 : BitVec 32 := 5#32
  let v12 : BitVec 32 := Scalar.addi c0_i32_8 c5_i32
  let c1_i32 : BitVec 32 := 1#32
  ⟨c0_i32_8, v12, c1_i32⟩
def k2_cond1 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c0_i32_11 : BitVec 32 := 0#32
  let v15 : BitVec 32 := Scalar.addi v14 c0_i32_11
  let c20_i32 : BitVec 32 := 20#32
  let v16 : BitVec 1 := Scalar.cmpi .slt v15 c20_i32
  let v17 : BitVec 32 := Scalar.extui v16
  let c0_i32_12 : BitVec 32 := 0#32
  let v18 : BitVec 1 := Scalar.cmpi .ne v17 c0_i32_12
  v18

def k2_off2 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c0_i32_21 : BitVec 32 := 0#32
  let v31 : BitVec 32 := Scalar.addi v14 c0_i32_21
  let c80_i32_22 : BitVec 32 := 80#32
  let v32 : BitVec 32 := Scalar.muli v31 c80_i32_22
  ![v32.toNat]
def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c0_i32_25 : BitVec 32 := 0#32
  let v35 : BitVec 32 := Scalar.addi v14 c0_i32_25
  let c80_i32_26 : BitVec 32 := 80#32
  let v36 : BitVec 32 := Scalar.muli v35 c80_i32_26
  let v37 : BitVec 32 := Scalar.addi v2 v36
  let c0_i32_31_r1 : BitVec 32 := 0#32
  ![v37.toNat, 0]
def k2_cond2 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c0_i32_27 : BitVec 32 := 0#32
  let v38 : BitVec 32 := Scalar.addi v14 c0_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k2_off4 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c0_i32_31 : BitVec 32 := 0#32
  let v43 : BitVec 32 := Scalar.addi v14 c0_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k2_cond3 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c1_i32_13 : BitVec 32 := 1#32
  let v19 : BitVec 32 := Scalar.addi v14 c1_i32_13
  let c20_i32_14 : BitVec 32 := 20#32
  let v20 : BitVec 1 := Scalar.cmpi .slt v19 c20_i32_14
  let v21 : BitVec 32 := Scalar.extui v20
  let c0_i32_15 : BitVec 32 := 0#32
  let v22 : BitVec 1 := Scalar.cmpi .ne v21 c0_i32_15
  v22

def k2_off5 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c1_i32_21 : BitVec 32 := 1#32
  let v31 : BitVec 32 := Scalar.addi v14 c1_i32_21
  let c80_i32_22 : BitVec 32 := 80#32
  let v32 : BitVec 32 := Scalar.muli v31 c80_i32_22
  ![v32.toNat]
def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c1_i32_25 : BitVec 32 := 1#32
  let v35 : BitVec 32 := Scalar.addi v14 c1_i32_25
  let c80_i32_26 : BitVec 32 := 80#32
  let v36 : BitVec 32 := Scalar.muli v35 c80_i32_26
  let v37 : BitVec 32 := Scalar.addi v2 v36
  let c0_i32_31_r2 : BitVec 32 := 0#32
  ![v37.toNat, 0]
def k2_cond4 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c1_i32_27 : BitVec 32 := 1#32
  let v38 : BitVec 32 := Scalar.addi v14 c1_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k2_off7 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c1_i32_31 : BitVec 32 := 1#32
  let v43 : BitVec 32 := Scalar.addi v14 c1_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k2_cond5 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c2_i32_16 : BitVec 32 := 2#32
  let v23 : BitVec 32 := Scalar.addi v14 c2_i32_16
  let c20_i32_17 : BitVec 32 := 20#32
  let v24 : BitVec 1 := Scalar.cmpi .slt v23 c20_i32_17
  let v25 : BitVec 32 := Scalar.extui v24
  let c0_i32_18 : BitVec 32 := 0#32
  let v26 : BitVec 1 := Scalar.cmpi .ne v25 c0_i32_18
  v26

def k2_off8 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c2_i32_21 : BitVec 32 := 2#32
  let v31 : BitVec 32 := Scalar.addi v14 c2_i32_21
  let c80_i32_22 : BitVec 32 := 80#32
  let v32 : BitVec 32 := Scalar.muli v31 c80_i32_22
  ![v32.toNat]
def k2_off9 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c2_i32_25 : BitVec 32 := 2#32
  let v35 : BitVec 32 := Scalar.addi v14 c2_i32_25
  let c80_i32_26 : BitVec 32 := 80#32
  let v36 : BitVec 32 := Scalar.muli v35 c80_i32_26
  let v37 : BitVec 32 := Scalar.addi v2 v36
  let c0_i32_31_r3 : BitVec 32 := 0#32
  ![v37.toNat, 0]
def k2_cond6 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c2_i32_27 : BitVec 32 := 2#32
  let v38 : BitVec 32 := Scalar.addi v14 c2_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k2_off10 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c2_i32_31 : BitVec 32 := 2#32
  let v43 : BitVec 32 := Scalar.addi v14 c2_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k2_cond7 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c3_i32 : BitVec 32 := 3#32
  let v27 : BitVec 32 := Scalar.addi v14 c3_i32
  let c20_i32_19 : BitVec 32 := 20#32
  let v28 : BitVec 1 := Scalar.cmpi .slt v27 c20_i32_19
  let v29 : BitVec 32 := Scalar.extui v28
  let c0_i32_20 : BitVec 32 := 0#32
  let v30 : BitVec 1 := Scalar.cmpi .ne v29 c0_i32_20
  v30

def k2_off11 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c3_i32_21 : BitVec 32 := 3#32
  let v31 : BitVec 32 := Scalar.addi v14 c3_i32_21
  let c80_i32_22 : BitVec 32 := 80#32
  let v32 : BitVec 32 := Scalar.muli v31 c80_i32_22
  ![v32.toNat]
def k2_off12 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c3_i32_25 : BitVec 32 := 3#32
  let v35 : BitVec 32 := Scalar.addi v14 c3_i32_25
  let c80_i32_26 : BitVec 32 := 80#32
  let v36 : BitVec 32 := Scalar.muli v35 c80_i32_26
  let v37 : BitVec 32 := Scalar.addi v2 v36
  let c0_i32_31_r4 : BitVec 32 := 0#32
  ![v37.toNat, 0]
def k2_cond8 (k2_t1 : Fin k2_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c3_i32_27 : BitVec 32 := 3#32
  let v38 : BitVec 32 := Scalar.addi v14 c3_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k2_off13 (k2_t1 : Fin k2_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k2_t1
  let c4_i32 : BitVec 32 := 4#32
  let v13 : BitVec 32 := Scalar.muli arg14 c4_i32
  let v14 : BitVec 32 := Scalar.addi c0_i32_10 v13
  let c3_i32_31 : BitVec 32 := 3#32
  let v43 : BitVec 32 := Scalar.addi v14 c3_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
abbrev grid3 : Pipeline.Grid := ⟨2, ![2, 16], ![false, false]⟩

def k3_off1 (i : grid3.Coords) : Fin 1 → Nat :=
  let c153600_i32 : BitVec 32 := 153600#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3 : BitVec 32 := Scalar.addi c153600_i32 v2
  ![v3.toNat]
@[reducible] def k3_t1_loop : Scf.Loop 32 :=
  let c0_i32_8 : BitVec 32 := 0#32
  let c5_i32 : BitVec 32 := 5#32
  let v12 : BitVec 32 := Scalar.addi c0_i32_8 c5_i32
  let c1_i32 : BitVec 32 := 1#32
  ⟨c0_i32_8, v12, c1_i32⟩
def k3_cond1 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c0_i32_11 : BitVec 32 := 0#32
  let v15 : BitVec 32 := Scalar.addi v14 c0_i32_11
  let c20_i32 : BitVec 32 := 20#32
  let v16 : BitVec 1 := Scalar.cmpi .slt v15 c20_i32
  let v17 : BitVec 32 := Scalar.extui v16
  let c0_i32_12 : BitVec 32 := 0#32
  let v18 : BitVec 1 := Scalar.cmpi .ne v17 c0_i32_12
  v18

def k3_off2 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c0_i32_21 : BitVec 32 := 0#32
  let v31 : BitVec 32 := Scalar.addi v14 c0_i32_21
  let c80_i32_22 : BitVec 32 := 80#32
  let v32 : BitVec 32 := Scalar.muli v31 c80_i32_22
  ![v32.toNat]
def k3_off3 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c0_i32_25 : BitVec 32 := 0#32
  let v35 : BitVec 32 := Scalar.addi v14 c0_i32_25
  let c80_i32_26 : BitVec 32 := 80#32
  let v36 : BitVec 32 := Scalar.muli v35 c80_i32_26
  let v37 : BitVec 32 := Scalar.addi v2 v36
  let c0_i32_31_r1 : BitVec 32 := 0#32
  ![v37.toNat, 0]
def k3_cond2 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c0_i32_27 : BitVec 32 := 0#32
  let v38 : BitVec 32 := Scalar.addi v14 c0_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k3_off4 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c0_i32_31 : BitVec 32 := 0#32
  let v43 : BitVec 32 := Scalar.addi v14 c0_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k3_cond3 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c1_i32_13 : BitVec 32 := 1#32
  let v19 : BitVec 32 := Scalar.addi v14 c1_i32_13
  let c20_i32_14 : BitVec 32 := 20#32
  let v20 : BitVec 1 := Scalar.cmpi .slt v19 c20_i32_14
  let v21 : BitVec 32 := Scalar.extui v20
  let c0_i32_15 : BitVec 32 := 0#32
  let v22 : BitVec 1 := Scalar.cmpi .ne v21 c0_i32_15
  v22

def k3_off5 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c1_i32_21 : BitVec 32 := 1#32
  let v31 : BitVec 32 := Scalar.addi v14 c1_i32_21
  let c80_i32_22 : BitVec 32 := 80#32
  let v32 : BitVec 32 := Scalar.muli v31 c80_i32_22
  ![v32.toNat]
def k3_off6 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c1_i32_25 : BitVec 32 := 1#32
  let v35 : BitVec 32 := Scalar.addi v14 c1_i32_25
  let c80_i32_26 : BitVec 32 := 80#32
  let v36 : BitVec 32 := Scalar.muli v35 c80_i32_26
  let v37 : BitVec 32 := Scalar.addi v2 v36
  let c0_i32_31_r2 : BitVec 32 := 0#32
  ![v37.toNat, 0]
def k3_cond4 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c1_i32_27 : BitVec 32 := 1#32
  let v38 : BitVec 32 := Scalar.addi v14 c1_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k3_off7 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c1_i32_31 : BitVec 32 := 1#32
  let v43 : BitVec 32 := Scalar.addi v14 c1_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k3_cond5 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c2_i32_16 : BitVec 32 := 2#32
  let v23 : BitVec 32 := Scalar.addi v14 c2_i32_16
  let c20_i32_17 : BitVec 32 := 20#32
  let v24 : BitVec 1 := Scalar.cmpi .slt v23 c20_i32_17
  let v25 : BitVec 32 := Scalar.extui v24
  let c0_i32_18 : BitVec 32 := 0#32
  let v26 : BitVec 1 := Scalar.cmpi .ne v25 c0_i32_18
  v26

def k3_off8 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c2_i32_21 : BitVec 32 := 2#32
  let v31 : BitVec 32 := Scalar.addi v14 c2_i32_21
  let c80_i32_22 : BitVec 32 := 80#32
  let v32 : BitVec 32 := Scalar.muli v31 c80_i32_22
  ![v32.toNat]
def k3_off9 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c2_i32_25 : BitVec 32 := 2#32
  let v35 : BitVec 32 := Scalar.addi v14 c2_i32_25
  let c80_i32_26 : BitVec 32 := 80#32
  let v36 : BitVec 32 := Scalar.muli v35 c80_i32_26
  let v37 : BitVec 32 := Scalar.addi v2 v36
  let c0_i32_31_r3 : BitVec 32 := 0#32
  ![v37.toNat, 0]
def k3_cond6 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c2_i32_27 : BitVec 32 := 2#32
  let v38 : BitVec 32 := Scalar.addi v14 c2_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k3_off10 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c2_i32_31 : BitVec 32 := 2#32
  let v43 : BitVec 32 := Scalar.addi v14 c2_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
def k3_cond7 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c3_i32 : BitVec 32 := 3#32
  let v27 : BitVec 32 := Scalar.addi v14 c3_i32
  let c20_i32_19 : BitVec 32 := 20#32
  let v28 : BitVec 1 := Scalar.cmpi .slt v27 c20_i32_19
  let v29 : BitVec 32 := Scalar.extui v28
  let c0_i32_20 : BitVec 32 := 0#32
  let v30 : BitVec 1 := Scalar.cmpi .ne v29 c0_i32_20
  v30

def k3_off11 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c3_i32_21 : BitVec 32 := 3#32
  let v31 : BitVec 32 := Scalar.addi v14 c3_i32_21
  let c80_i32_22 : BitVec 32 := 80#32
  let v32 : BitVec 32 := Scalar.muli v31 c80_i32_22
  ![v32.toNat]
def k3_off12 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c3_i32_25 : BitVec 32 := 3#32
  let v35 : BitVec 32 := Scalar.addi v14 c3_i32_25
  let c80_i32_26 : BitVec 32 := 80#32
  let v36 : BitVec 32 := Scalar.muli v35 c80_i32_26
  let v37 : BitVec 32 := Scalar.addi v2 v36
  let c0_i32_31_r4 : BitVec 32 := 0#32
  ![v37.toNat, 0]
def k3_cond8 (k3_t1 : Fin k3_t1_loop.trips) : BitVec 1 :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c3_i32_27 : BitVec 32 := 3#32
  let v38 : BitVec 32 := Scalar.addi v14 c3_i32_27
  let c4_i32_28 : BitVec 32 := 4#32
  let v39 : BitVec 32 := Scalar.addi v38 c4_i32_28
  let c20_i32_29 : BitVec 32 := 20#32
  let v40 : BitVec 1 := Scalar.cmpi .slt v39 c20_i32_29
  let v41 : BitVec 32 := Scalar.extui v40
  let c0_i32_30 : BitVec 32 := 0#32
  let v42 : BitVec 1 := Scalar.cmpi .ne v41 c0_i32_30
  v42

def k3_off13 (k3_t1 : Fin k3_t1_loop.trips) : Fin 1 → Nat :=
  let c0_i32_10 : BitVec 32 := 0#32
  let c0_i32_8 : BitVec 32 := 0#32
  let c1_i32 : BitVec 32 := 1#32
  let arg14 : BitVec 32 := Scf.iv c0_i32_8 c1_i32 k3_t1
  let c4_i32 : BitVec 32 := 4#32
  let v13 : BitVec 32 := Scalar.muli arg14 c4_i32
  let v14 : BitVec 32 := Scalar.addi c0_i32_10 v13
  let c3_i32_31 : BitVec 32 := 3#32
  let v43 : BitVec 32 := Scalar.addi v14 c3_i32_31
  let c4_i32_32 : BitVec 32 := 4#32
  let v44 : BitVec 32 := Scalar.addi v43 c4_i32_32
  let c80_i32_33 : BitVec 32 := 80#32
  let v45 : BitVec 32 := Scalar.muli v44 c80_i32_33
  ![v45.toNat]
abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

abbrev stage4_0 : Fin 2 → Memref sig .tc .vmem S64x200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x200 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x200x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S64x200x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S64x200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x200 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S64x200x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S64x200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x200 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x200x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S64x200x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![4], ![false]⟩

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S64x200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x200 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x200x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S64x200x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S1024x200_S204800 : S1024x200.ShapeCasts S204800
  slices_S512x128_S200x128_0_0 : S512x128.Slices ![0, 0] S200x128
  shapeCasts_S200x128_S1x200x128 : S200x128.ShapeCasts S1x200x128
  shapeCasts_S128_S1x128 : S128.ShapeCasts S1x128
  inb_S1600_S80_0 : ∀ a, (![0] : Fin 1 → Nat) a + S80.size a ≤ S1600.size a
  inb_S100000x128_S100000x128_0_0 : ∀ a, (![0, 0] : Fin 2 → Nat) a + S100000x128.size a ≤ S100000x128.size a
  gathers_S100000x128_S80x128 : S100000x128.Gathers 0 S80x128
  inb_S1600_S80_80 : ∀ a, (![80] : Fin 1 → Nat) a + S80.size a ≤ S1600.size a
  inb_S1600_S80_160 : ∀ a, (![160] : Fin 1 → Nat) a + S80.size a ≤ S1600.size a
  inb_S1600_S80_240 : ∀ a, (![240] : Fin 1 → Nat) a + S80.size a ≤ S1600.size a
  shapeCasts_S51200x128_S256x200x128 : S51200x128.ShapeCasts S256x200x128
  inb_S64x200x128_S64x200x128_0_0_0 : ∀ a, (![0, 0, 0] : Fin 3 → Nat) a + S64x200x128.size a ≤ S64x200x128.size a
  h_S64x200x128 : 0 < S64x200x128.numel
  shapeCasts_S64x200x128_S64x200x128 : S64x200x128.ShapeCasts S64x200x128
  inb_S1x200x128_S1x200x128_0_0_0 : ∀ a, (![0, 0, 0] : Fin 3 → Nat) a + S1x200x128.size a ≤ S1x200x128.size a
  h_S1x200x128 : 0 < S1x200x128.numel
  shapeCasts_S1x200x128_S1x200x128 : S1x200x128.ShapeCasts S1x200x128
  broadcasts_S1x200x128_S64x200x128 : S1x200x128.Broadcasts S64x200x128
  inb_S64x200_S64x200_0_0 : ∀ a, (![0, 0] : Fin 2 → Nat) a + S64x200.size a ≤ S64x200.size a
  h_S64x200 : 0 < S64x200.numel
  shapeCasts_S64x200_S64x200x1 : S64x200.ShapeCasts S64x200x1
  inb_S2x128_S1x128_0_0 : ∀ a, (![0, 0] : Fin 2 → Nat) a + S1x128.size a ≤ S2x128.size a
  h_S1x128 : 0 < S1x128.numel
  shapeCasts_S1x128_S1x1x128 : S1x128.ShapeCasts S1x1x128
  inb_S2x128_S1x128_1_0 : ∀ a, (![1, 0] : Fin 2 → Nat) a + S1x128.size a ≤ S2x128.size a
  broadcasts_S1x1x128_S64x200x128 : S1x1x128.Broadcasts S64x200x128
  broadcasts_S64x200x1_S64x200x128 : S64x200x1.Broadcasts S64x200x128
  shapeCasts_S64x200x128_S12800x128 : S64x200x128.ShapeCasts S12800x128
  bitsLt_bf16_f32 : FTy.bits .bf16 < FTy.bits .f32
  inb_S1x128_S1x128_0_0 : ∀ a, (![0, 0] : Fin 2 → Nat) a + S1x128.size a ≤ S1x128.size a
  shapeCasts_S1x128_S1x128 : S1x128.ShapeCasts S1x128
  broadcasts_S1x128_S12800x128 : S1x128.Broadcasts S12800x128
  shapeCasts_S12800x128_S64x200x128 : S12800x128.ShapeCasts S64x200x128
  dot_S12800x128_S128x128_S12800x128_1_0_0_1_n_n_wf : DotDims.WF S12800x128 S128x128 S12800x128 [1] [0] [0] [1] [] []
  hcc0_scratch5 : 0 + S_.numel ≤ 76
  hcc0_scratch6 : 1 + S_.numel ≤ 76
  hcc0_scratch7 : 2 + S_.numel ≤ 76
  hcc0_scratch8 : 3 + S_.numel ≤ 76
  hcc0_scoped0 : 4 + S_.numel ≤ 76
  hcc0_scoped1 : 5 + S_.numel ≤ 76
  hcc0_scoped2 : 6 + S_.numel ≤ 76
  hcc0_scoped3 : 7 + S_.numel ≤ 76
  hcc0_scoped4 : 8 + S_.numel ≤ 76
  hcc1_scratch5 : 9 + S_.numel ≤ 76
  hcc1_scratch6 : 10 + S_.numel ≤ 76
  hcc1_scratch7 : 11 + S_.numel ≤ 76
  hcc1_scratch8 : 12 + S_.numel ≤ 76
  hcc1_scoped0 : 13 + S_.numel ≤ 76
  hcc1_scoped1 : 14 + S_.numel ≤ 76
  hcc1_scoped2 : 15 + S_.numel ≤ 76
  hcc1_scoped3 : 16 + S_.numel ≤ 76
  hcc1_scoped4 : 17 + S_.numel ≤ 76
  hcc2_scratch5 : 18 + S_.numel ≤ 76
  hcc2_scratch6 : 19 + S_.numel ≤ 76
  hcc2_scratch7 : 20 + S_.numel ≤ 76
  hcc2_scratch8 : 21 + S_.numel ≤ 76
  hcc2_scoped0 : 22 + S_.numel ≤ 76
  hcc2_scoped1 : 23 + S_.numel ≤ 76
  hcc2_scoped2 : 24 + S_.numel ≤ 76
  hcc2_scoped3 : 25 + S_.numel ≤ 76
  hcc2_scoped4 : 26 + S_.numel ≤ 76
  hcc3_scratch5 : 27 + S_.numel ≤ 76
  hcc3_scratch6 : 28 + S_.numel ≤ 76
  hcc3_scratch7 : 29 + S_.numel ≤ 76
  hcc3_scratch8 : 30 + S_.numel ≤ 76
  hcc3_scoped0 : 31 + S_.numel ≤ 76
  hcc3_scoped1 : 32 + S_.numel ≤ 76
  hcc3_scoped2 : 33 + S_.numel ≤ 76
  hcc3_scoped3 : 34 + S_.numel ≤ 76
  hcc3_scoped4 : 35 + S_.numel ≤ 76
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1600.size a ≤ S204800.size a
  k0_t1_ok : k0_t1_loop.OK
  k0_off2_inb : ∀ k0_t1 : Fin k0_t1_loop.trips, ∀ (k0_h1 : k0_cond1 k0_t1 = 1#1), ∀ a, (k0_off2 k0_t1) a + S80.size a ≤ S1600.size a
  k0_off3_inb : ∀ (i : grid0.Coords) (k0_t1 : Fin k0_t1_loop.trips), ∀ (k0_h1 : k0_cond1 k0_t1 = 1#1), ∀ a, (k0_off3 i k0_t1) a + S80x128.size a ≤ S51200x128.size a
  k0_off4_inb : ∀ k0_t1 : Fin k0_t1_loop.trips, ∀ (k0_h1 : k0_cond1 k0_t1 = 1#1), ∀ (k0_h2 : k0_cond2 k0_t1 = 1#1), ∀ a, (k0_off4 k0_t1) a + S80.size a ≤ S1600.size a
  k0_off5_inb : ∀ k0_t1 : Fin k0_t1_loop.trips, ∀ (k0_h3 : k0_cond3 k0_t1 = 1#1), ∀ a, (k0_off5 k0_t1) a + S80.size a ≤ S1600.size a
  k0_off6_inb : ∀ (i : grid0.Coords) (k0_t1 : Fin k0_t1_loop.trips), ∀ (k0_h3 : k0_cond3 k0_t1 = 1#1), ∀ a, (k0_off6 i k0_t1) a + S80x128.size a ≤ S51200x128.size a
  k0_off7_inb : ∀ k0_t1 : Fin k0_t1_loop.trips, ∀ (k0_h3 : k0_cond3 k0_t1 = 1#1), ∀ (k0_h4 : k0_cond4 k0_t1 = 1#1), ∀ a, (k0_off7 k0_t1) a + S80.size a ≤ S1600.size a
  k0_off8_inb : ∀ k0_t1 : Fin k0_t1_loop.trips, ∀ (k0_h5 : k0_cond5 k0_t1 = 1#1), ∀ a, (k0_off8 k0_t1) a + S80.size a ≤ S1600.size a
  k0_off9_inb : ∀ (i : grid0.Coords) (k0_t1 : Fin k0_t1_loop.trips), ∀ (k0_h5 : k0_cond5 k0_t1 = 1#1), ∀ a, (k0_off9 i k0_t1) a + S80x128.size a ≤ S51200x128.size a
  k0_off10_inb : ∀ k0_t1 : Fin k0_t1_loop.trips, ∀ (k0_h5 : k0_cond5 k0_t1 = 1#1), ∀ (k0_h6 : k0_cond6 k0_t1 = 1#1), ∀ a, (k0_off10 k0_t1) a + S80.size a ≤ S1600.size a
  k0_off11_inb : ∀ k0_t1 : Fin k0_t1_loop.trips, ∀ (k0_h7 : k0_cond7 k0_t1 = 1#1), ∀ a, (k0_off11 k0_t1) a + S80.size a ≤ S1600.size a
  k0_off12_inb : ∀ (i : grid0.Coords) (k0_t1 : Fin k0_t1_loop.trips), ∀ (k0_h7 : k0_cond7 k0_t1 = 1#1), ∀ a, (k0_off12 i k0_t1) a + S80x128.size a ≤ S51200x128.size a
  k0_off13_inb : ∀ k0_t1 : Fin k0_t1_loop.trips, ∀ (k0_h7 : k0_cond7 k0_t1 = 1#1), ∀ (k0_h8 : k0_cond8 k0_t1 = 1#1), ∀ a, (k0_off13 k0_t1) a + S80.size a ≤ S1600.size a
  hcore1 : grid1.bound 0 ≤ τ.nSC
  hsub1 : grid1.bound 1 ≤ τ.nSub
  k1_off1_inb : ∀ i : grid1.Coords, ∀ a, (k1_off1 i) a + S1600.size a ≤ S204800.size a
  k1_t1_ok : k1_t1_loop.OK
  k1_off2_inb : ∀ k1_t1 : Fin k1_t1_loop.trips, ∀ (k1_h1 : k1_cond1 k1_t1 = 1#1), ∀ a, (k1_off2 k1_t1) a + S80.size a ≤ S1600.size a
  k1_off3_inb : ∀ (i : grid1.Coords) (k1_t1 : Fin k1_t1_loop.trips), ∀ (k1_h1 : k1_cond1 k1_t1 = 1#1), ∀ a, (k1_off3 i k1_t1) a + S80x128.size a ≤ S51200x128.size a
  k1_off4_inb : ∀ k1_t1 : Fin k1_t1_loop.trips, ∀ (k1_h1 : k1_cond1 k1_t1 = 1#1), ∀ (k1_h2 : k1_cond2 k1_t1 = 1#1), ∀ a, (k1_off4 k1_t1) a + S80.size a ≤ S1600.size a
  k1_off5_inb : ∀ k1_t1 : Fin k1_t1_loop.trips, ∀ (k1_h3 : k1_cond3 k1_t1 = 1#1), ∀ a, (k1_off5 k1_t1) a + S80.size a ≤ S1600.size a
  k1_off6_inb : ∀ (i : grid1.Coords) (k1_t1 : Fin k1_t1_loop.trips), ∀ (k1_h3 : k1_cond3 k1_t1 = 1#1), ∀ a, (k1_off6 i k1_t1) a + S80x128.size a ≤ S51200x128.size a
  k1_off7_inb : ∀ k1_t1 : Fin k1_t1_loop.trips, ∀ (k1_h3 : k1_cond3 k1_t1 = 1#1), ∀ (k1_h4 : k1_cond4 k1_t1 = 1#1), ∀ a, (k1_off7 k1_t1) a + S80.size a ≤ S1600.size a
  k1_off8_inb : ∀ k1_t1 : Fin k1_t1_loop.trips, ∀ (k1_h5 : k1_cond5 k1_t1 = 1#1), ∀ a, (k1_off8 k1_t1) a + S80.size a ≤ S1600.size a
  k1_off9_inb : ∀ (i : grid1.Coords) (k1_t1 : Fin k1_t1_loop.trips), ∀ (k1_h5 : k1_cond5 k1_t1 = 1#1), ∀ a, (k1_off9 i k1_t1) a + S80x128.size a ≤ S51200x128.size a
  k1_off10_inb : ∀ k1_t1 : Fin k1_t1_loop.trips, ∀ (k1_h5 : k1_cond5 k1_t1 = 1#1), ∀ (k1_h6 : k1_cond6 k1_t1 = 1#1), ∀ a, (k1_off10 k1_t1) a + S80.size a ≤ S1600.size a
  k1_off11_inb : ∀ k1_t1 : Fin k1_t1_loop.trips, ∀ (k1_h7 : k1_cond7 k1_t1 = 1#1), ∀ a, (k1_off11 k1_t1) a + S80.size a ≤ S1600.size a
  k1_off12_inb : ∀ (i : grid1.Coords) (k1_t1 : Fin k1_t1_loop.trips), ∀ (k1_h7 : k1_cond7 k1_t1 = 1#1), ∀ a, (k1_off12 i k1_t1) a + S80x128.size a ≤ S51200x128.size a
  k1_off13_inb : ∀ k1_t1 : Fin k1_t1_loop.trips, ∀ (k1_h7 : k1_cond7 k1_t1 = 1#1), ∀ (k1_h8 : k1_cond8 k1_t1 = 1#1), ∀ a, (k1_off13 k1_t1) a + S80.size a ≤ S1600.size a
  hcore2 : grid2.bound 0 ≤ τ.nSC
  hsub2 : grid2.bound 1 ≤ τ.nSub
  k2_off1_inb : ∀ i : grid2.Coords, ∀ a, (k2_off1 i) a + S1600.size a ≤ S204800.size a
  k2_t1_ok : k2_t1_loop.OK
  k2_off2_inb : ∀ k2_t1 : Fin k2_t1_loop.trips, ∀ (k2_h1 : k2_cond1 k2_t1 = 1#1), ∀ a, (k2_off2 k2_t1) a + S80.size a ≤ S1600.size a
  k2_off3_inb : ∀ (i : grid2.Coords) (k2_t1 : Fin k2_t1_loop.trips), ∀ (k2_h1 : k2_cond1 k2_t1 = 1#1), ∀ a, (k2_off3 i k2_t1) a + S80x128.size a ≤ S51200x128.size a
  k2_off4_inb : ∀ k2_t1 : Fin k2_t1_loop.trips, ∀ (k2_h1 : k2_cond1 k2_t1 = 1#1), ∀ (k2_h2 : k2_cond2 k2_t1 = 1#1), ∀ a, (k2_off4 k2_t1) a + S80.size a ≤ S1600.size a
  k2_off5_inb : ∀ k2_t1 : Fin k2_t1_loop.trips, ∀ (k2_h3 : k2_cond3 k2_t1 = 1#1), ∀ a, (k2_off5 k2_t1) a + S80.size a ≤ S1600.size a
  k2_off6_inb : ∀ (i : grid2.Coords) (k2_t1 : Fin k2_t1_loop.trips), ∀ (k2_h3 : k2_cond3 k2_t1 = 1#1), ∀ a, (k2_off6 i k2_t1) a + S80x128.size a ≤ S51200x128.size a
  k2_off7_inb : ∀ k2_t1 : Fin k2_t1_loop.trips, ∀ (k2_h3 : k2_cond3 k2_t1 = 1#1), ∀ (k2_h4 : k2_cond4 k2_t1 = 1#1), ∀ a, (k2_off7 k2_t1) a + S80.size a ≤ S1600.size a
  k2_off8_inb : ∀ k2_t1 : Fin k2_t1_loop.trips, ∀ (k2_h5 : k2_cond5 k2_t1 = 1#1), ∀ a, (k2_off8 k2_t1) a + S80.size a ≤ S1600.size a
  k2_off9_inb : ∀ (i : grid2.Coords) (k2_t1 : Fin k2_t1_loop.trips), ∀ (k2_h5 : k2_cond5 k2_t1 = 1#1), ∀ a, (k2_off9 i k2_t1) a + S80x128.size a ≤ S51200x128.size a
  k2_off10_inb : ∀ k2_t1 : Fin k2_t1_loop.trips, ∀ (k2_h5 : k2_cond5 k2_t1 = 1#1), ∀ (k2_h6 : k2_cond6 k2_t1 = 1#1), ∀ a, (k2_off10 k2_t1) a + S80.size a ≤ S1600.size a
  k2_off11_inb : ∀ k2_t1 : Fin k2_t1_loop.trips, ∀ (k2_h7 : k2_cond7 k2_t1 = 1#1), ∀ a, (k2_off11 k2_t1) a + S80.size a ≤ S1600.size a
  k2_off12_inb : ∀ (i : grid2.Coords) (k2_t1 : Fin k2_t1_loop.trips), ∀ (k2_h7 : k2_cond7 k2_t1 = 1#1), ∀ a, (k2_off12 i k2_t1) a + S80x128.size a ≤ S51200x128.size a
  k2_off13_inb : ∀ k2_t1 : Fin k2_t1_loop.trips, ∀ (k2_h7 : k2_cond7 k2_t1 = 1#1), ∀ (k2_h8 : k2_cond8 k2_t1 = 1#1), ∀ a, (k2_off13 k2_t1) a + S80.size a ≤ S1600.size a
  hcore3 : grid3.bound 0 ≤ τ.nSC
  hsub3 : grid3.bound 1 ≤ τ.nSub
  k3_off1_inb : ∀ i : grid3.Coords, ∀ a, (k3_off1 i) a + S1600.size a ≤ S204800.size a
  k3_t1_ok : k3_t1_loop.OK
  k3_off2_inb : ∀ k3_t1 : Fin k3_t1_loop.trips, ∀ (k3_h1 : k3_cond1 k3_t1 = 1#1), ∀ a, (k3_off2 k3_t1) a + S80.size a ≤ S1600.size a
  k3_off3_inb : ∀ (i : grid3.Coords) (k3_t1 : Fin k3_t1_loop.trips), ∀ (k3_h1 : k3_cond1 k3_t1 = 1#1), ∀ a, (k3_off3 i k3_t1) a + S80x128.size a ≤ S51200x128.size a
  k3_off4_inb : ∀ k3_t1 : Fin k3_t1_loop.trips, ∀ (k3_h1 : k3_cond1 k3_t1 = 1#1), ∀ (k3_h2 : k3_cond2 k3_t1 = 1#1), ∀ a, (k3_off4 k3_t1) a + S80.size a ≤ S1600.size a
  k3_off5_inb : ∀ k3_t1 : Fin k3_t1_loop.trips, ∀ (k3_h3 : k3_cond3 k3_t1 = 1#1), ∀ a, (k3_off5 k3_t1) a + S80.size a ≤ S1600.size a
  k3_off6_inb : ∀ (i : grid3.Coords) (k3_t1 : Fin k3_t1_loop.trips), ∀ (k3_h3 : k3_cond3 k3_t1 = 1#1), ∀ a, (k3_off6 i k3_t1) a + S80x128.size a ≤ S51200x128.size a
  k3_off7_inb : ∀ k3_t1 : Fin k3_t1_loop.trips, ∀ (k3_h3 : k3_cond3 k3_t1 = 1#1), ∀ (k3_h4 : k3_cond4 k3_t1 = 1#1), ∀ a, (k3_off7 k3_t1) a + S80.size a ≤ S1600.size a
  k3_off8_inb : ∀ k3_t1 : Fin k3_t1_loop.trips, ∀ (k3_h5 : k3_cond5 k3_t1 = 1#1), ∀ a, (k3_off8 k3_t1) a + S80.size a ≤ S1600.size a
  k3_off9_inb : ∀ (i : grid3.Coords) (k3_t1 : Fin k3_t1_loop.trips), ∀ (k3_h5 : k3_cond5 k3_t1 = 1#1), ∀ a, (k3_off9 i k3_t1) a + S80x128.size a ≤ S51200x128.size a
  k3_off10_inb : ∀ k3_t1 : Fin k3_t1_loop.trips, ∀ (k3_h5 : k3_cond5 k3_t1 = 1#1), ∀ (k3_h6 : k3_cond6 k3_t1 = 1#1), ∀ a, (k3_off10 k3_t1) a + S80.size a ≤ S1600.size a
  k3_off11_inb : ∀ k3_t1 : Fin k3_t1_loop.trips, ∀ (k3_h7 : k3_cond7 k3_t1 = 1#1), ∀ a, (k3_off11 k3_t1) a + S80.size a ≤ S1600.size a
  k3_off12_inb : ∀ (i : grid3.Coords) (k3_t1 : Fin k3_t1_loop.trips), ∀ (k3_h7 : k3_cond7 k3_t1 = 1#1), ∀ a, (k3_off12 i k3_t1) a + S80x128.size a ≤ S51200x128.size a
  k3_off13_inb : ∀ k3_t1 : Fin k3_t1_loop.trips, ∀ (k3_h7 : k3_cond7 k3_t1 = 1#1), ∀ (k3_h8 : k3_cond8 k3_t1 = 1#1), ∀ a, (k3_off13 k3_t1) a + S80.size a ≤ S1600.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x200x128.size a ≤ S256x200x128.size a
  hwx4_0 : ∀ i : grid4.Coords, EltTy.bits .f32 = 32 ∨ (Rect.block (s := S256x200x128) S64x200x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x200.size a ≤ S1024x200.size a
  hwx4_1 : ∀ i : grid4.Coords, EltTy.bits .i32 = 32 ∨ (Rect.block (s := S1024x200) S64x200.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x200x128.size a ≤ S1x200x128.size a
  hwx4_2 : ∀ i : grid4.Coords, EltTy.bits .f32 = 32 ∨ (Rect.block (s := S1x200x128) S1x200x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x128.size a ≤ S2x128.size a
  hwx4_3 : ∀ i : grid4.Coords, EltTy.bits .f32 = 32 ∨ (Rect.block (s := S2x128) S2x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x200x128.size a ≤ S1024x200x128.size a
  hwx4_6 : ∀ i : grid4.Coords, EltTy.bits .f32 = 32 ∨ (Rect.block (s := S1024x200x128) S64x200x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S64x200x128.size a ≤ S256x200x128.size a
  hwx5_0 : ∀ i : grid5.Coords, EltTy.bits .f32 = 32 ∨ (Rect.block (s := S256x200x128) S64x200x128.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S64x200.size a ≤ S1024x200.size a
  hwx5_1 : ∀ i : grid5.Coords, EltTy.bits .i32 = 32 ∨ (Rect.block (s := S1024x200) S64x200.size (cc5_transform_2 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_3 i = cc5_transform_3 i'
  hinb5_2 : ∀ (i : grid5.Coords) a, (cc5_transform_3 i a + 1) * S1x200x128.size a ≤ S1x200x128.size a
  hwx5_2 : ∀ i : grid5.Coords, EltTy.bits .f32 = 32 ∨ (Rect.block (s := S1x200x128) S1x200x128.size (cc5_transform_3 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_4 i = cc5_transform_4 i'
  hinb5_3 : ∀ (i : grid5.Coords) a, (cc5_transform_4 i a + 1) * S2x128.size a ≤ S2x128.size a
  hwx5_3 : ∀ i : grid5.Coords, EltTy.bits .f32 = 32 ∨ (Rect.block (s := S2x128) S2x128.size (cc5_transform_4 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_5 i = cc5_transform_5 i'
  hinb5_4 : ∀ (i : grid5.Coords) a, (cc5_transform_5 i a + 1) * S1x128.size a ≤ S1x128.size a
  hwx5_4 : ∀ i : grid5.Coords, EltTy.bits .f32 = 32 ∨ (Rect.block (s := S1x128) S1x128.size (cc5_transform_5 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_6 i = cc5_transform_6 i'
  hinb5_5 : ∀ (i : grid5.Coords) a, (cc5_transform_6 i a + 1) * S1x128.size a ≤ S1x128.size a
  hwx5_5 : ∀ i : grid5.Coords, EltTy.bits .f32 = 32 ∨ (Rect.block (s := S1x128) S1x128.size (cc5_transform_6 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_7 i = cc5_transform_7 i'
  hinb5_6 : ∀ (i : grid5.Coords) a, (cc5_transform_7 i a + 1) * S64x200x128.size a ≤ S1024x200x128.size a
  hwx5_6 : ∀ i : grid5.Coords, EltTy.bits .f32 = 32 ∨ (Rect.block (s := S1024x200x128) S64x200x128.size (cc5_transform_7 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S64x200x128.size a ≤ S256x200x128.size a
  hwx6_0 : ∀ i : grid6.Coords, EltTy.bits .f32 = 32 ∨ (Rect.block (s := S256x200x128) S64x200x128.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S64x200.size a ≤ S1024x200.size a
  hwx6_1 : ∀ i : grid6.Coords, EltTy.bits .i32 = 32 ∨ (Rect.block (s := S1024x200) S64x200.size (cc6_transform_2 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_3 i = cc6_transform_3 i'
  hinb6_2 : ∀ (i : grid6.Coords) a, (cc6_transform_3 i a + 1) * S1x200x128.size a ≤ S1x200x128.size a
  hwx6_2 : ∀ i : grid6.Coords, EltTy.bits .f32 = 32 ∨ (Rect.block (s := S1x200x128) S1x200x128.size (cc6_transform_3 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_4 i = cc6_transform_4 i'
  hinb6_3 : ∀ (i : grid6.Coords) a, (cc6_transform_4 i a + 1) * S2x128.size a ≤ S2x128.size a
  hwx6_3 : ∀ i : grid6.Coords, EltTy.bits .f32 = 32 ∨ (Rect.block (s := S2x128) S2x128.size (cc6_transform_4 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_5 i = cc6_transform_5 i'
  hinb6_4 : ∀ (i : grid6.Coords) a, (cc6_transform_5 i a + 1) * S1x128.size a ≤ S1x128.size a
  hwx6_4 : ∀ i : grid6.Coords, EltTy.bits .f32 = 32 ∨ (Rect.block (s := S1x128) S1x128.size (cc6_transform_5 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_6 i = cc6_transform_6 i'
  hinb6_5 : ∀ (i : grid6.Coords) a, (cc6_transform_6 i a + 1) * S1x128.size a ≤ S1x128.size a
  hwx6_5 : ∀ i : grid6.Coords, EltTy.bits .f32 = 32 ∨ (Rect.block (s := S1x128) S1x128.size (cc6_transform_6 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_7 i = cc6_transform_7 i'
  hinb6_6 : ∀ (i : grid6.Coords) a, (cc6_transform_7 i a + 1) * S64x200x128.size a ≤ S1024x200x128.size a
  hwx6_6 : ∀ i : grid6.Coords, EltTy.bits .f32 = 32 ∨ (Rect.block (s := S1024x200x128) S64x200x128.size (cc6_transform_7 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S64x200x128.size a ≤ S256x200x128.size a
  hwx7_0 : ∀ i : grid7.Coords, EltTy.bits .f32 = 32 ∨ (Rect.block (s := S256x200x128) S64x200x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S64x200.size a ≤ S1024x200.size a
  hwx7_1 : ∀ i : grid7.Coords, EltTy.bits .i32 = 32 ∨ (Rect.block (s := S1024x200) S64x200.size (cc7_transform_2 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_3 i = cc7_transform_3 i'
  hinb7_2 : ∀ (i : grid7.Coords) a, (cc7_transform_3 i a + 1) * S1x200x128.size a ≤ S1x200x128.size a
  hwx7_2 : ∀ i : grid7.Coords, EltTy.bits .f32 = 32 ∨ (Rect.block (s := S1x200x128) S1x200x128.size (cc7_transform_3 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_4 i = cc7_transform_4 i'
  hinb7_3 : ∀ (i : grid7.Coords) a, (cc7_transform_4 i a + 1) * S2x128.size a ≤ S2x128.size a
  hwx7_3 : ∀ i : grid7.Coords, EltTy.bits .f32 = 32 ∨ (Rect.block (s := S2x128) S2x128.size (cc7_transform_4 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_5 i = cc7_transform_5 i'
  hinb7_4 : ∀ (i : grid7.Coords) a, (cc7_transform_5 i a + 1) * S1x128.size a ≤ S1x128.size a
  hwx7_4 : ∀ i : grid7.Coords, EltTy.bits .f32 = 32 ∨ (Rect.block (s := S1x128) S1x128.size (cc7_transform_5 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_6 i = cc7_transform_6 i'
  hinb7_5 : ∀ (i : grid7.Coords) a, (cc7_transform_6 i a + 1) * S1x128.size a ≤ S1x128.size a
  hwx7_5 : ∀ i : grid7.Coords, EltTy.bits .f32 = 32 ∨ (Rect.block (s := S1x128) S1x128.size (cc7_transform_6 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_7 i = cc7_transform_7 i'
  hinb7_6 : ∀ (i : grid7.Coords) a, (cc7_transform_7 i a + 1) * S64x200x128.size a ≤ S1024x200x128.size a
  hwx7_6 : ∀ i : grid7.Coords, EltTy.bits .f32 = 32 ∨ (Rect.block (s := S1024x200x128) S64x200x128.size (cc7_transform_7 i) (hinb7_6 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scoped0 : DmaSems sig S_ := SemArray.consecutive 13 S_ hcc1_scoped0
abbrev cc1_scoped1 : DmaSems sig S_ := SemArray.consecutive 14 S_ hcc1_scoped1
abbrev cc1_scoped2 : DmaSems sig S_ := SemArray.consecutive 15 S_ hcc1_scoped2
abbrev cc1_scoped3 : DmaSems sig S_ := SemArray.consecutive 16 S_ hcc1_scoped3
abbrev cc1_scoped4 : DmaSems sig S_ := SemArray.consecutive 17 S_ hcc1_scoped4
abbrev cc2_scratch5 : DmaSems sig S_ := SemArray.consecutive 18 S_ hcc2_scratch5
abbrev cc2_scratch6 : DmaSems sig S_ := SemArray.consecutive 19 S_ hcc2_scratch6
abbrev cc2_scratch7 : DmaSems sig S_ := SemArray.consecutive 20 S_ hcc2_scratch7
abbrev cc2_scratch8 : DmaSems sig S_ := SemArray.consecutive 21 S_ hcc2_scratch8
abbrev cc2_scoped0 : DmaSems sig S_ := SemArray.consecutive 22 S_ hcc2_scoped0
abbrev cc2_scoped1 : DmaSems sig S_ := SemArray.consecutive 23 S_ hcc2_scoped1
abbrev cc2_scoped2 : DmaSems sig S_ := SemArray.consecutive 24 S_ hcc2_scoped2
abbrev cc2_scoped3 : DmaSems sig S_ := SemArray.consecutive 25 S_ hcc2_scoped3
abbrev cc2_scoped4 : DmaSems sig S_ := SemArray.consecutive 26 S_ hcc2_scoped4
abbrev cc3_scratch5 : DmaSems sig S_ := SemArray.consecutive 27 S_ hcc3_scratch5
abbrev cc3_scratch6 : DmaSems sig S_ := SemArray.consecutive 28 S_ hcc3_scratch6
abbrev cc3_scratch7 : DmaSems sig S_ := SemArray.consecutive 29 S_ hcc3_scratch7
abbrev cc3_scratch8 : DmaSems sig S_ := SemArray.consecutive 30 S_ hcc3_scratch8
abbrev cc3_scoped0 : DmaSems sig S_ := SemArray.consecutive 31 S_ hcc3_scoped0
abbrev cc3_scoped1 : DmaSems sig S_ := SemArray.consecutive 32 S_ hcc3_scoped1
abbrev cc3_scoped2 : DmaSems sig S_ := SemArray.consecutive 33 S_ hcc3_scoped2
abbrev cc3_scoped3 : DmaSems sig S_ := SemArray.consecutive 34 S_ hcc3_scoped3
abbrev cc3_scoped4 : DmaSems sig S_ := SemArray.consecutive 35 S_ hcc3_scoped4
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf

abbrev win4_0 : Pipeline.Window sig grid4 :=
  Pipeline.Window.ofSpec (Memref.whole main_v6) S64x200x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S64x200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x200x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg4) S2x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S64x200x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v8) S64x200x128.size cc5_transform_1 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S64x200.size cc5_transform_2 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S1x200x128.size cc5_transform_3 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg4) S2x128.size cc5_transform_4 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S1x128.size cc5_transform_5 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S1x128.size cc5_transform_6 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v14) S64x200x128.size cc5_transform_7 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v10) S64x200x128.size cc6_transform_1 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S64x200.size cc6_transform_2 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v2) S1x200x128.size cc6_transform_3 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg4) S2x128.size cc6_transform_4 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v3) S1x128.size cc6_transform_5 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v4) S1x128.size cc6_transform_6 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v15) S64x200x128.size cc6_transform_7 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v12) S64x200x128.size cc7_transform_1 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg1) S64x200.size cc7_transform_2 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v2) S1x200x128.size cc7_transform_3 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S2x128.size cc7_transform_4 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v3) S1x128.size cc7_transform_5 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v4) S1x128.size cc7_transform_6 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v16) S64x200x128.size cc7_transform_7 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200 : Shape := ⟨1, ![200]⟩
abbrev S1x200 : Shape := ⟨2, ![1, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S200, .i32⟩
  | .hbm, ⟨8, _⟩ => ⟨S1x200, .i32⟩
  | .hbm, ⟨9, _⟩ => ⟨S1024x200, .i32⟩
  | .hbm, ⟨10, _⟩ => ⟨S_, .i32⟩
  | .hbm, ⟨11, _⟩ => ⟨S1024x200, .i32⟩
  | .hbm, ⟨12, _⟩ => ⟨S1024x200, .i1⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S1024x200, .i32⟩
  | .hbm, ⟨17, _⟩ => ⟨S1024x200x1, .i32⟩
  | .hbm, ⟨18, _⟩ => ⟨S1, .i32⟩
  | .hbm, ⟨19, _⟩ => ⟨S_, .i32⟩
  | .hbm, ⟨20, _⟩ => ⟨S1024x200x1, .i32⟩
  | .hbm, ⟨21, _⟩ => ⟨S1024x200x1, .i1⟩
  | .hbm, ⟨22, _⟩ => ⟨S1x1x1, .i32⟩
  | .hbm, ⟨23, _⟩ => ⟨S1024x200x1, .i32⟩
  | .hbm, ⟨24, _⟩ => ⟨S1024x200x1, .i1⟩
  | .hbm, ⟨25, _⟩ => ⟨S1024x200x1, .i1⟩
  | .hbm, ⟨26, _⟩ => ⟨S_, .i1⟩
  | .hbm, ⟨27, _⟩ => ⟨S1024x200, .i1⟩
  | .hbm, ⟨28, _⟩ => ⟨S1024x200x128, .f32⟩
  | .hbm, ⟨29, _⟩ => ⟨S1024x200x128, .i1⟩
  | .hbm, ⟨30, _⟩ => ⟨S_, .f32⟩
  | .hbm, ⟨31, _⟩ => ⟨S1024x200x128, .f32⟩
  | .hbm, ⟨32, _⟩ => ⟨S1024x200x128, .f32⟩
  | .hbm, ⟨33, _⟩ => ⟨S_, .i32⟩
  | .hbm, ⟨34, _⟩ => ⟨S1024x200, .i32⟩
  | .hbm, ⟨35, _⟩ => ⟨S1024x200, .i1⟩
  | .hbm, ⟨36, _⟩ => ⟨S_, .i32⟩
  | .hbm, ⟨37, _⟩ => ⟨S1024x200, .i32⟩
  | .hbm, ⟨38, _⟩ => ⟨S1024x200, .i32⟩
  | .hbm, ⟨39, _⟩ => ⟨S1024x200, .i32⟩
  | .hbm, ⟨40, _⟩ => ⟨S1024x200x1, .i32⟩
  | .hbm, ⟨41, _⟩ => ⟨S1, .i32⟩
  | .hbm, ⟨42, _⟩ => ⟨S_, .i32⟩
  | .hbm, ⟨43, _⟩ => ⟨S1024x200x1, .i32⟩
  | .hbm, ⟨44, _⟩ => ⟨S1024x200x1, .i1⟩
  | .hbm, ⟨45, _⟩ => ⟨S1x1x1, .i32⟩
  | .hbm, ⟨46, _⟩ => ⟨S1024x200x1, .i32⟩
  | .hbm, ⟨47, _⟩ => ⟨S1024x200x1, .i1⟩
  | .hbm, ⟨48, _⟩ => ⟨S1024x200x1, .i1⟩
  | .hbm, ⟨49, _⟩ => ⟨S_, .i1⟩
  | .hbm, ⟨50, _⟩ => ⟨S1024x200, .i1⟩
  | .hbm, ⟨51, _⟩ => ⟨S1024x200x128, .f32⟩
  | .hbm, ⟨52, _⟩ => ⟨S1024x200x128, .i1⟩
  | .hbm, ⟨53, _⟩ => ⟨S_, .f32⟩
  | .hbm, ⟨54, _⟩ => ⟨S1024x200x128, .f32⟩
  | .hbm, ⟨55, _⟩ => ⟨S1024x200x128, .f32⟩
  | .hbm, ⟨56, _⟩ => ⟨S1024x200x128, .f32⟩
  | .hbm, ⟨57, _⟩ => ⟨S_, .i32⟩
  | .hbm, ⟨58, _⟩ => ⟨S1024x200, .i32⟩
  | .hbm, ⟨59, _⟩ => ⟨S1024x200, .i1⟩
  | .hbm, ⟨60, _⟩ => ⟨S_, .i32⟩
  | .hbm, ⟨61, _⟩ => ⟨S1024x200, .i32⟩
  | .hbm, ⟨62, _⟩ => ⟨S1024x200, .i32⟩
  | .hbm, ⟨63, _⟩ => ⟨S1024x200, .i32⟩
  | .hbm, ⟨64, _⟩ => ⟨S1024x200x1, .i32⟩
  | .hbm, ⟨65, _⟩ => ⟨S1, .i32⟩
  | .hbm, ⟨66, _⟩ => ⟨S_, .i32⟩
  | .hbm, ⟨67, _⟩ => ⟨S1024x200x1, .i32⟩
  | .hbm, ⟨68, _⟩ => ⟨S1024x200x1, .i1⟩
  | .hbm, ⟨69, _⟩ => ⟨S1x1x1, .i32⟩
  | .hbm, ⟨70, _⟩ => ⟨S1024x200x1, .i32⟩
  | .hbm, ⟨71, _⟩ => ⟨S1024x200x1, .i1⟩
  | .hbm, ⟨72, _⟩ => ⟨S1024x200x1, .i1⟩
  | .hbm, ⟨73, _⟩ => ⟨S_, .i1⟩
  | .hbm, ⟨74, _⟩ => ⟨S1024x200, .i1⟩
  | .hbm, ⟨75, _⟩ => ⟨S1024x200x128, .f32⟩
  | .hbm, ⟨76, _⟩ => ⟨S1024x200x128, .i1⟩
  | .hbm, ⟨77, _⟩ => ⟨S_, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S1024x200x128, .f32⟩
  | .hbm, ⟨88, _⟩ => ⟨S1024x200x128, .f32⟩
  | .hbm, ⟨89, _⟩ => ⟨S1024x200x128, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x128, .f32⟩
  | .hbm, ⟨97, _⟩ => ⟨S1024x200x128, .f32⟩
  | .hbm, ⟨98, _⟩ => ⟨S_, .f32⟩
  | .hbm, ⟨99, _⟩ => ⟨S1024x200x1, .f32⟩
  | .hbm, ⟨100, _⟩ => ⟨S1024x200x1, .f32⟩
  | .hbm, ⟨101, _⟩ => ⟨S1024x200x1, .f32⟩
  | .hbm, ⟨102, _⟩ => ⟨S1024x200x128, .f32⟩
  | .hbm, ⟨103, _⟩ => ⟨S1024x200x128, .f32⟩
  | .hbm, ⟨104, _⟩ => ⟨S1x1x128, .f32⟩
  | .hbm, ⟨105, _⟩ => ⟨S1024x200x128, .f32⟩
  | .hbm, ⟨106, _⟩ => ⟨S1024x200x128, .f32⟩
  | .hbm, ⟨107, _⟩ => ⟨S1x1x128, .f32⟩
  | .hbm, ⟨108, _⟩ => ⟨S1024x200x128, .f32⟩
  | .hbm, ⟨109, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_1 : Ref sig .tc := ⟨.hbm, 90, rfl⟩
abbrev main_v15 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]
  gather_S512x128_S1024x200x1_S1024x200x128_2_0_n_n_0_2_1128_wf : GatherDims.WF S512x128 S1024x200x1 S1024x200x128 [2] [0] [] [0] [] 2 ![1, 128]
  gather_S2x128_S1024x200x1_S1024x200x128_2_0_n_n_0_2_1128_wf : GatherDims.WF S2x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def gather_S512x128_S1024x200x1_S1024x200x128_2_0_n_n_0_2_1128 : GatherDims S512x128 S1024x200x1 S1024x200x128 where
  offsetDims := [2]
  collapsedSliceDims := [0]
  operandBatchingDims := []
  startIndicesBatchingDims := []
  startIndexMap := [0]
  indexVectorDim := 2
  sliceSizes := ![1, 128]
  wf := gather_S512x128_S1024x200x1_S1024x200x128_2_0_n_n_0_2_1128_wf
def gather_S2x128_S1024x200x1_S1024x200x128_2_0_n_n_0_2_1128 : GatherDims S2x128 S1024x200x1 S1024x200x128 where
  offsetDims := [2]
  collapsedSliceDims := [0]
  operandBatchingDims := []
  startIndicesBatchingDims := []
  startIndexMap := [0]
  indexVectorDim := 2
  sliceSizes := ![1, 128]
  wf := gather_S2x128_S1024x200x1_S1024x200x128_2_0_n_n_0_2_1128_wf

class Facts : Prop extends Facts₀ where

variable [Facts]
-- ==== Proof.Common.lean ====
/-
  The kernel's program as the SparseCore launch theorem sees it, and the ghost state its proof runs over:
  four vector-subcore gather calls (each SparseCore tile copies 1600 word-embedding rows, eighty at a time, through
  four row buffers) followed by four TensorCore regions (position and token-type rows added, each row normalised).
  The ghost state is a product: the launch handshakes' rounds, the TensorCore regions' staging cells' rounds, and the
  counters of the tiles' own local copies.
-/
import proofs.«203472_g22600117912246_cont_8to1_820_34_alg».proof.Defs
import proofs.«203472_g22600117912246_cont_8to1_820_34_alg».proof.Proof.Gen.KernelIdeal
import proofs.«203472_g22600117912246_cont_8to1_820_34_alg».proof.Proof.Gen.KernelIdeal.Skeleton
import proofs.«203472_g22600117912246_cont_8to1_820_34_alg».proof.Proof.Gen.KernelIdeal.Launch
import proofs.«203472_g22600117912246_cont_8to1_820_34_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 4) (Elt F) ℕ UU ℕ

/-- The handshakes' rounds: the left factor. -/
abbrev EH : Emb UH (MT nD τ sig (HIx 4) (Elt F) ℕ UU ℕ) := embL
/-- The TensorCore regions' staging cells' rounds: the left factor of the right factor. -/
def EP : Emb UP (MT nD τ sig (HIx 4) (Elt F) ℕ UU ℕ) :=
  ((Emb.inl : Emb UP (UP × Counters)).trans (Emb.inr : Emb (UP × Counters) UU)).trans
    (uEmb (nD := nD) (sig := sig) (Ix := HIx 4) (Val := Elt F) (Name := ℕ) (U := UU) (Lvl := ℕ)).toEmb

instance EP_landsIn : (EP : Emb UP 𝕄).LandsIn (upEmb : UEmb _ 𝕄) := by unfold EP; infer_instance

/-! ## The launch memory, the arrays, and what the gather calls carry -/

variable (m : (ℓ : Loc nD τ sig) → Buf (Elt F) ℓ) (ρ : Dev nD → PrngReg)

/-- The word-embedding table, the flattened token ids, and the four gathered chunks, at the TensorCore's names. -/
abbrev tabLoc (d : Dev nD) : Loc nD τ sig := (SparseCore.T d).loc main_arg2
abbrev idsLoc (d : Dev nD) : Loc nD τ sig := (SparseCore.T d).loc main_v0

/-- Core `d`'s buffers at launch. -/
abbrev W0 (d : Dev nD) : Valuation τ sig (Elt F) := fun b => m (d, b)

variable [FloatOps F]

/-- The host operations before the first gather call: the ids flattened, the first 200 position rows cut out and
    given a leading unit axis, gamma and beta given a leading unit axis. -/
abbrev hostOps0 : List (HloOp τ sig (Elt F)) :=
  [StableHlo.reshape main_arg0 main_v0 rfl shapeCasts_S1024x200_S204800,
   StableHlo.unary main_arg3 main_v1 ((extractStridedSlice S200x128 ![0, 0] · slices_S512x128_S200x128_0_0) : (⟨S512x128, .f32⟩ : BufTy).Contents (Elt F) → (⟨S200x128, .f32⟩ : BufTy).Contents (Elt F)),
   StableHlo.reshape main_v1 main_v2 rfl shapeCasts_S200x128_S1x200x128,
   StableHlo.reshape main_arg5 main_v3 rfl shapeCasts_S128_S1x128,
   StableHlo.reshape main_arg6 main_v4 rfl shapeCasts_S128_S1x128]

/-- The buffers when the first gather call starts. -/
abbrev W1 (d : Dev nD) : Valuation τ sig (Elt F) := StableHlo.after hostOps0 (W0 m d)

/-- The flattened ids as the gather calls find them. -/
abbrev idsB (d : Dev nD) : Buf (Elt F) (idsLoc d) := W1 m d (Proc.devRef .tc main_v0)

/-- Rows of a 51200-row chunk: SparseCore `c`'s tiles copy the rows whose 1600-row band has parity `c`; tile `i` of
    SparseCore `c` copies band `2 i + c`. -/
def coreRows (c : ℕ) : Finset S51200x128.Idx := Finset.univ.filter fun j => ((j 0).val / 1600) % 2 = c
def tileRows (c i : ℕ) : Finset S51200x128.Idx := Finset.univ.filter fun j => (j 0).val / 1600 = 2 * i + c

/-- The read shares of the table and of the ids: one per SparseCore, cut again one per tile. -/
def coreSh (c : ℕ) : PosShare TreeShare := Transfers.shareTokN fullShare c
def tileSh (c i : ℕ) : PosShare TreeShare := Transfers.shareTokN (coreSh c) i

/-- What gather call `q` leaves at index `j` of its chunk: entry `j 1` of the table row that token `51200 q + j 0`
    names (the row number reduced into the table's extent, which changes nothing for an id in range). -/
def gathVal (q : Fin 4) (d : Dev nD) (j : S51200x128.Idx) : Elt F .f32 :=
  m (tabLoc d) (ValueIdx.ix2 (n0 := 100000) (n1 := 128)
    ⟨(idsB m d (ValueIdx.ix1 (n := 204800) ⟨q.val * 51200 + (j 0).val, by have h0 : (j 0).val < 51200 := (j 0).isLt; have := q.isLt; omega⟩)).toNat % 100000, Nat.mod_lt _ (by norm_num)⟩
    (j 1))

/-- Every token id names a row of the table. -/
def IdsInRange : Prop := ∀ (d : Dev nD) (j : S204800.Idx), (idsB m d j).toNat < 100000

/-- The rows `R` of `f` hold what call `q` gathers. -/
def RowsOK (q : Fin 4) (d : Dev nD) (R : Finset S51200x128.Idx) (f : S51200x128.Idx → Elt F .f32) : Prop :=
  ∀ j ∈ R, f j = gathVal m q d j

/-- Chunk `q`'s rows `R`, held outright at contents `f`. -/
def outPts (q : Fin 4) (d : Dev nD) (R : Finset S51200x128.Idx) (f : S51200x128.Idx → Elt F .f32) : sProp 𝕄 :=
  match q with
  | 0 => (SparseCore.T d).loc main_v5 ↦[R]{fullShare} f
  | 1 => (SparseCore.T d).loc main_v7 ↦[R]{fullShare} f
  | 2 => (SparseCore.T d).loc main_v9 ↦[R]{fullShare} f
  | 3 => (SparseCore.T d).loc main_v11 ↦[R]{fullShare} f

/-- What call `q` hands SparseCore `c`, and what comes back; what the sequencer hands tile `i`, and what comes back. -/
def stRes (q : Fin 4) (d : Dev nD) (c : ℕ) : sProp 𝕄 :=
  iprop((tabLoc d ↦{coreSh c} m (tabLoc d)) ∗ (idsLoc d ↦{coreSh c} idsB m d) ∗ ∃ f, outPts q d (coreRows c) f)
def dnRes (q : Fin 4) (d : Dev nD) (c : ℕ) : sProp 𝕄 :=
  iprop((tabLoc d ↦{coreSh c} m (tabLoc d)) ∗ (idsLoc d ↦{coreSh c} idsB m d) ∗ ∃ f, ⌜RowsOK m q d (coreRows c) f⌝ ∗ outPts q d (coreRows c) f)
def goRes (q : Fin 4) (d : Dev nD) (c i : ℕ) : sProp 𝕄 :=
  iprop((tabLoc d ↦{tileSh c i} m (tabLoc d)) ∗ (idsLoc d ↦{tileSh c i} idsB m d) ∗ ∃ f, outPts q d (tileRows c i) f)
def tdRes (q : Fin 4) (d : Dev nD) (c i : ℕ) : sProp 𝕄 :=
  iprop((tabLoc d ↦{tileSh c i} m (tabLoc d)) ∗ (idsLoc d ↦{tileSh c i} idsB m d) ∗ ∃ f, ⌜RowsOK m q d (tileRows c i) f⌝ ∗ outPts q d (tileRows c i) f)

instance outPts_storable (q : Fin 4) (d : Dev nD) (R : Finset S51200x128.Idx) (f : S51200x128.Idx → Elt F .f32) :
    BI.Storable (upEmb : UEmb _ 𝕄) (outPts (F := F) q d R f) := by
  unfold outPts; split <;> infer_instance

/-- The calls' payloads; no kernel's proof consumes anything of the launch's (the tiles' copies run over the counters). -/
def P : (K (F := F)).Pay (nD := nD) (Val := Elt F) (Name := ℕ) (U := UU) where
  st := fun q d c => stRes m q d c.val
  dn := fun q d c => dnRes m q d c.val
  go := fun q d c i => goRes m q d c.val i.val
  td := fun q d c i => tdRes m q d c.val i.val
  x := fun _ _ => iprop(emp)

instance P_storable : (P (F := F) m).IsStorable where
  st q d c := by unfold P stRes; infer_instance
  dn q d c := by unfold P dnRes; infer_instance
  go q d c i := by unfold P goRes; infer_instance
  td q d c i := by unfold P tdRes; infer_instance

end Cert.KernelIdeal.Hand

end
-- ==== Proof.Tile0.lean ====
/-
  Gather call 0 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Common

noncomputable section

namespace Cert.KernelIdeal.Hand.Tile0

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.KernelIdeal.main_arg2_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S51200x128 EltTy.f32)
local notation "sV" => (Memref.whole Cert.KernelIdeal.cc0_scratch0 : Memref Cert.KernelIdeal.sig Kind.scVector Space.vmem Cert.KernelIdeal.S1600 EltTy.i32)
local notation "r1V" => (Memref.whole Cert.KernelIdeal.cc0_scratch1 : Memref Cert.KernelIdeal.sig Kind.scVector Space.vmem Cert.KernelIdeal.S80x128 EltTy.f32)
local notation "r2V" => (Memref.whole Cert.KernelIdeal.cc0_scratch2 : Memref Cert.KernelIdeal.sig Kind.scVector Space.vmem Cert.KernelIdeal.S80x128 EltTy.f32)
local notation "r3V" => (Memref.whole Cert.KernelIdeal.cc0_scratch3 : Memref Cert.KernelIdeal.sig Kind.scVector Space.vmem Cert.KernelIdeal.S80x128 EltTy.f32)
local notation "r4V" => (Memref.whole Cert.KernelIdeal.cc0_scratch4 : Memref Cert.KernelIdeal.sig Kind.scVector Space.vmem Cert.KernelIdeal.S80x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc0_scratch5.sem) : GSem nD τ sig) 0 ∗ semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0 ∗ semVal (((V d (cV L) (jV L)), SemLoc.dma cc0_scoped3.sem) : GSem nD τ sig) 0 ∗ semVal (((V d (cV L) (jV L)), SemLoc.dma cc0_scoped4.sem) : GSem nD τ sig) 0
          ∗ bigSep ((((((((((ownCells (V d (cV L) (jV L))).erase (((V d (cV L) (jV L)), SemLoc.dma cc0_scratch5.sem) : GSem nD τ sig)).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)).erase (((V d (cV L) (jV L)), SemLoc.dma cc0_scoped3.sem) : GSem nD τ sig)).erase (((V d (cV L) (jV L)), SemLoc.dma cc0_scoped4.sem) : GSem nD τ sig)) fun g => semVal g 0) := by
  unfold SparseCore.Cfg.ownSems0
  rw [SparseCore.bigSep_erase' ((mem_ownCells (g := (((V d (cV L) (jV L)), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne _ (show (SemLoc.dma cc0_scratch6.sem : SemLoc sig) ≠ SemLoc.dma cc0_scratch5.sem by decide), (mem_ownCells (g := (((V d (cV L) (jV L)), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne _ (show (SemLoc.dma cc0_scratch7.sem : SemLoc sig) ≠ SemLoc.dma cc0_scratch6.sem by decide), Finset.mem_erase.mpr ⟨cell_ne _ (show (SemLoc.dma cc0_scratch7.sem : SemLoc sig) ≠ SemLoc.dma cc0_scratch5.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne _ (show (SemLoc.dma cc0_scratch8.sem : SemLoc sig) ≠ SemLoc.dma cc0_scratch7.sem by decide), Finset.mem_erase.mpr ⟨cell_ne _ (show (SemLoc.dma cc0_scratch8.sem : SemLoc sig) ≠ SemLoc.dma cc0_scratch6.sem by decide), Finset.mem_erase.mpr ⟨cell_ne _ (show (SemLoc.dma cc0_scratch8.sem : SemLoc sig) ≠ SemLoc.dma cc0_scratch5.sem by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨cell_ne _ (show (SemLoc.dma cc0_scoped0.sem : SemLoc sig) ≠ SemLoc.dma cc0_scratch8.sem by decide), Finset.mem_erase.mpr ⟨cell_ne _ (show (SemLoc.dma cc0_scoped0.sem : SemLoc sig) ≠ SemLoc.dma cc0_scratch7.sem by decide), Finset.mem_erase.mpr ⟨cell_ne _ (show (SemLoc.dma cc0_scoped0.sem : SemLoc sig) ≠ SemLoc.dma cc0_scratch6.sem by decide), Finset.mem_erase.mpr ⟨cell_ne _ (show (SemLoc.dma cc0_scoped0.sem : SemLoc sig) ≠ SemLoc.dma cc0_scratch5.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne _ (show (SemLoc.dma cc0_scoped1.sem : SemLoc sig) ≠ SemLoc.dma cc0_scoped0.sem by decide), Finset.mem_erase.mpr ⟨cell_ne _ (show (SemLoc.dma cc0_scoped1.sem : SemLoc sig) ≠ SemLoc.dma cc0_scratch8.sem by decide), Finset.mem_erase.mpr ⟨cell_ne _ (show (SemLoc.dma cc0_scoped1.sem : SemLoc sig) ≠ SemLoc.dma cc0_scratch7.sem by decide), Finset.mem_erase.mpr ⟨cell_ne _ (show (SemLoc.dma cc0_scoped1.sem : SemLoc sig) ≠ SemLoc.dma cc0_scratch6.sem by decide), Finset.mem_erase.mpr ⟨cell_ne _ (show (SemLoc.dma cc0_scoped1.sem : SemLoc sig) ≠ SemLoc.dma cc0_scratch5.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne _ (show (SemLoc.dma cc0_scoped2.sem : SemLoc sig) ≠ SemLoc.dma cc0_scoped1.sem by decide), Finset.mem_erase.mpr ⟨cell_ne _ (show (SemLoc.dma cc0_scoped2.sem : SemLoc sig) ≠ SemLoc.dma cc0_scoped0.sem by decide), Finset.mem_erase.mpr ⟨cell_ne _ (show (SemLoc.dma cc0_scoped2.sem : SemLoc sig) ≠ SemLoc.dma cc0_scratch8.sem by decide), Finset.mem_erase.mpr ⟨cell_ne _ (show (SemLoc.dma cc0_scoped2.sem : SemLoc sig) ≠ SemLoc.dma cc0_scratch7.sem by decide), Finset.mem_erase.mpr ⟨cell_ne _ (show (SemLoc.dma cc0_scoped2.sem : SemLoc sig) ≠ SemLoc.dma cc0_scratch6.sem by decide), Finset.mem_erase.mpr ⟨cell_ne _ (show (SemLoc.dma cc0_scoped2.sem : SemLoc sig) ≠ SemLoc.dma cc0_scratch5.sem by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne _ (show (SemLoc.dma cc0_scoped3.sem : SemLoc sig) ≠ SemLoc.dma cc0_scoped2.sem by decide), Finset.mem_erase.mpr ⟨cell_ne _ (show (SemLoc.dma cc0_scoped3.sem : SemLoc sig) ≠ SemLoc.dma cc0_scoped1.sem by decide), Finset.mem_erase.mpr ⟨cell_ne _ (show (SemLoc.dma cc0_scoped3.sem : SemLoc sig) ≠ SemLoc.dma cc0_scoped0.sem by decide), Finset.mem_erase.mpr ⟨cell_ne _ (show (SemLoc.dma cc0_scoped3.sem : SemLoc sig) ≠ SemLoc.dma cc0_scratch8.sem by decide), Finset.mem_erase.mpr ⟨cell_ne _ (show (SemLoc.dma cc0_scoped3.sem : SemLoc sig) ≠ SemLoc.dma cc0_scratch7.sem by decide), Finset.mem_erase.mpr ⟨cell_ne _ (show (SemLoc.dma cc0_scoped3.sem : SemLoc sig) ≠ SemLoc.dma cc0_scratch6.sem by decide), Finset.mem_erase.mpr ⟨cell_ne _ (show (SemLoc.dma cc0_scoped3.sem : SemLoc sig) ≠ SemLoc.dma cc0_scratch5.sem by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩),
    SparseCore.bigSep_erase' (Finset.mem_erase.mpr ⟨cell_ne _ (show (SemLoc.dma cc0_scoped4.sem : SemLoc sig) ≠ SemLoc.dma cc0_scoped3.sem by decide), Finset.mem_erase.mpr ⟨cell_ne _ (show (SemLoc.dma cc0_scoped4.sem : SemLoc sig) ≠ SemLoc.dma cc0_scoped2.sem by decide), Finset.mem_erase.mpr ⟨cell_ne _ (show (SemLoc.dma cc0_scoped4.sem : SemLoc sig) ≠ SemLoc.dma cc0_scoped1.sem by decide), Finset.mem_erase.mpr ⟨cell_ne _ (show (SemLoc.dma cc0_scoped4.sem : SemLoc sig) ≠ SemLoc.dma cc0_scoped0.sem by decide), Finset.mem_erase.mpr ⟨cell_ne _ (show (SemLoc.dma cc0_scoped4.sem : SemLoc sig) ≠ SemLoc.dma cc0_scratch8.sem by decide), Finset.mem_erase.mpr ⟨cell_ne _ (show (SemLoc.dma cc0_scoped4.sem : SemLoc sig) ≠ SemLoc.dma cc0_scratch7.sem by decide), Finset.mem_erase.mpr ⟨cell_ne _ (show (SemLoc.dma cc0_scoped4.sem : SemLoc sig) ≠ SemLoc.dma cc0_scratch6.sem by decide), Finset.mem_erase.mpr ⟨cell_ne _ (show (SemLoc.dma cc0_scoped4.sem : SemLoc sig) ≠ SemLoc.dma cc0_scratch5.sem by decide), (mem_ownCells (g := (((V d (cV L) (jV L)), SemLoc.dma cc0_scoped4.sem) : GSem nD τ sig))).mpr ⟨rfl, by show (SemLoc.dma cc0_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid0.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid0.Coords) : Rect S51200x128 := Rect.unit (s := S51200x128) ![3200 * (L 1).val + 1600 * (L 0).val, 0] ![1600, 128] (tile_inb L)

omit [FloatOps F] in
theorem tileRows_eq (L : grid0.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc0_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `0 + 3200 s + 1600 c + i` of the flattened ids. -/
def ScratchOK : Prop := ∀ i : Fin 1600, fsc (ix1 (n := 1600) i)
  = idsB m d (ix1 (n := 204800) ⟨0 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc0_scratch0)) (pay : S1600.Idx → Elt F .i32)
    (hpay : pay = ((iV).slice (Rect.unit (s := S204800) (k0_off1 L) S1600.size (k0_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k0_off1 L) S1600.size (k0_off1_inb L)) (fun _ => rfl)).view.read (Elt F) (idsB m d)) Finset.univ
      = ((iV).slice (Rect.unit (s := S204800) (k0_off1 L) S1600.size (k0_off1_inb L)) (fun _ => rfl)).view.read (Elt F) (idsB m d) :=
    View.write_whole_univ cc0_scratch0 _ _
  rw [hw, View.read_apply, cast_eq]
  congr 1
  funext b
  apply Fin.ext
  match b with
  | ⟨0, _⟩ =>
    show (k0_off1 L) 0 + 1 * i.val = 0 + (3200 * (L 1).val + 1600 * (L 0).val) + i.val
    rw [k0_off1_eq]
    show 3200 * (L 1).val + 1600 * (L 0).val + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 0 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨0 * 51200 + (j 0).val, _⟩)).toNat % 100000
    rw [hS ⟨80 * n + (x 0).val, by have h : (x 0).val < 80 := (x 0).isLt; omega⟩]
    exact key _ _ (Fin.ext (by show 0 + (3200 * (L 1).val + 1600 * (L 0).val) + (80 * n + (x 0).val) = 0 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 0 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 0 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc0_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc0_scoped1.sem) : GSem nD τ sig) 0
    ∗ semVal ((V d (cV L) (jV L), SemLoc.dma cc0_scoped2.sem) : GSem nD τ sig) 0
    ∗ semVal ((V d (cV L) (jV L), SemLoc.dma cc0_scoped3.sem) : GSem nD τ sig) 0
    ∗ semVal ((V d (cV L) (jV L), SemLoc.dma cc0_scoped4.sem) : GSem nD τ sig) 0
    ∗ slotAt m d L fsc r1V cc0_scratch5.sem (Transfers.shareDrop fullShare 3) (Transfers.shareTokN (tileSh (L 0).val (L 1).val) 0) (4 * k + 0)
    ∗ slotAt m d L fsc r2V cc0_scratch6.sem (Transfers.shareTokN fullShare 0) (Transfers.shareTokN (tileSh (L 0).val (L 1).val) 1) (4 * k + 1)
    ∗ slotAt m d L fsc r3V cc0_scratch7.sem (Transfers.shareTokN fullShare 1) (Transfers.shareTokN (tileSh (L 0).val (L 1).val) 2) (4 * k + 2)
    ∗ slotAt m d L fsc r4V cc0_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k0_t1_loop.trips = 5 := by decide +kernel
omit [FloatOps F] in
theorem conds_odd : ∀ k : Fin k0_t1_loop.trips, k0_cond1 k = 1#1 ∧ k0_cond3 k = 1#1 ∧ k0_cond5 k = 1#1 ∧ k0_cond7 k = 1#1 := by decide +kernel
omit [FloatOps F] in
theorem conds_even : ∀ k : Fin k0_t1_loop.trips, (k0_cond2 k = 1#1 ↔ k.val < 4) ∧ (k0_cond4 k = 1#1 ↔ k.val < 4) ∧ (k0_cond6 k = 1#1 ↔ k.val < 4) ∧ (k0_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc0_scratch0)) (R : Rect S1600) (hR : ∀ a, R.stride a = 1)
    (pay : S1600.Idx → Elt F .i32)
    (hpay : pay = ((iV).slice (Rect.unit (s := S204800) (k0_off1 L) S1600.size (k0_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k0_off1 L) S1600.size (k0_off1_inb L)) (fun _ => rfl)).view.read (Elt F) (idsB m d)) Finset.univ
      = ((iV).slice (Rect.unit (s := S204800) (k0_off1 L) S1600.size (k0_off1_inb L)) (fun _ => rfl)).view.read (Elt F) (idsB m d) :=
    View.write_whole_univ cc0_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid0.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 0 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc0_scratch5 cc0_scratch6 cc0_scratch7 cc0_scratch8 cc0_scoped0 cc0_scoped1 cc0_scoped2 cc0_scoped3 cc0_scoped4)
          fun _ => iprop(tdRes m 0 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc0_scratch0 ↦{fullShare} fs : sProp 𝕄) = ((sV).view.loc (V d (cV L) (jV L)) ↦{fullShare} fs) from rfl)) $$ Hs
  ihave Hr1' := (Entails.of_eq (show ((V d (cV L) (jV L)).loc cc0_scratch1 ↦{fullShare} f1 : sProp 𝕄) = ((r1V).view.loc (V d (cV L) (jV L)) ↦{fullShare} f1) from rfl)) $$ Hr1
  ihave Hr2' := (Entails.of_eq (show ((V d (cV L) (jV L)).loc cc0_scratch2 ↦{fullShare} f2 : sProp 𝕄) = ((r2V).view.loc (V d (cV L) (jV L)) ↦{fullShare} f2) from rfl)) $$ Hr2
  ihave Hr3' := (Entails.of_eq (show ((V d (cV L) (jV L)).loc cc0_scratch3 ↦{fullShare} f3 : sProp 𝕄) = ((r3V).view.loc (V d (cV L) (jV L)) ↦{fullShare} f3) from rfl)) $$ Hr3
  ihave Hr4' := (Entails.of_eq (show ((V d (cV L) (jV L)).loc cc0_scratch4 ↦{fullShare} f4 : sProp 𝕄) = ((r4V).view.loc (V d (cV L) (jV L)) ↦{fullShare} f4) from rfl)) $$ Hr4
  ihave Ho' := (Entails.of_eq (show (outPts (F := F) 0 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k0_off4 k = ![80 * (4 * (k.val + 1) + 0)] := (k0_off4_eq k).trans (by rw [show 320 = 320 from rfl, show 320 * k.val + 320 = 80 * (4 * (k.val + 1) + 0) by omega])
      have e1 : k0_off7 k = ![80 * (4 * (k.val + 1) + 1)] := (k0_off7_eq k).trans (by rw [show 400 = 400 from rfl, show 320 * k.val + 400 = 80 * (4 * (k.val + 1) + 1) by omega])
      have e2 : k0_off10 k = ![80 * (4 * (k.val + 1) + 2)] := (k0_off10_eq k).trans (by rw [show 480 = 480 from rfl, show 320 * k.val + 480 = 80 * (4 * (k.val + 1) + 2) by omega])
      have e3 : k0_off13 k = ![80 * (4 * (k.val + 1) + 3)] := (k0_off13_eq k).trans (by rw [show 560 = 560 from rfl, show 320 * k.val + 560 = 80 * (4 * (k.val + 1) + 3) by omega])
      irw [← lset_eq (k0_off4 k) (k0_off4_inb k h1 h2) (fun _ => rfl) (4 * (k.val + 1) + 0) (by omega) e0,
        ← lset_eq (k0_off7 k) (k0_off7_inb k h3 h4) (fun _ => rfl) (4 * (k.val + 1) + 1) (by omega) e1,
        ← lset_eq (k0_off10 k) (k0_off10_inb k h5 h6) (fun _ => rfl) (4 * (k.val + 1) + 2) (by omega) e2,
        ← lset_eq (k0_off13 k) (k0_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k0_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k0_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k0_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k0_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k0_off4 k) (k0_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k0_off7 k) (k0_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k0_off10 k) (k0_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k0_off13 k) (k0_off13_inb k h7 h8) (fun _ => rfl) (4 * (k.val + 1) + 3) (by omega) e3 _ _)
      iexists _; isplitr
      swap; · iexact HO
      ipureintro
      repeat (first | exact hW' | refine waits_insert _ ?_)
    · have h2 : ¬ k0_cond2 k = 1#1 := fun h => hlast (e2.mp h)
      have h4 : ¬ k0_cond4 k = 1#1 := fun h => hlast (e4.mp h)
      have h6 : ¬ k0_cond6 k = 1#1 := fun h => hlast (e6.mp h)
      have h8 : ¬ k0_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k0_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k0_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k0_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k0_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k0_t1_loop.lb k0_t1_loop.ub k0_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 0 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc0_scratch5 cc0_scratch6 cc0_scratch7 cc0_scratch8 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v5 ↦[coreRows c]{fullShare} f : sProp 𝕄)
      = bigSep Finset.univ fun i : Fin 16 => (SparseCore.T d).loc main_v5 ↦[tileRows c i.val]{fullShare} f := by
  rw [← pointsTo_biUnion Finset.univ (ℓ := (SparseCore.T d).loc main_v5) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 0 d (tileRows c i.val) f⌝ ∗ (SparseCore.T d).loc main_v5 ↦[tileRows c i.val]{fullShare} f))
      ⊢ (iprop(∃ f, ⌜RowsOK m 0 d (coreRows c) f⌝ ∗ (SparseCore.T d).loc main_v5 ↦[coreRows c]{fullShare} f) : sProp 𝕄) := by
  refine (bigSep_exists_pi Finset.univ (fun (i : Fin 16) (f : Buf (Elt F) ((SparseCore.T d).loc main_v5)) =>
    iprop(⌜RowsOK m 0 d (tileRows c i.val) f⌝ ∗ (SparseCore.T d).loc main_v5 ↦[tileRows c i.val]{fullShare} f))).trans ?_
  iintro ⟨%fs, H⟩
  ihave H' := (bigSep_pure_sep Finset.univ (fun i : Fin 16 => RowsOK m 0 d (tileRows c i.val) (fs i))
    (fun i : Fin 16 => (SparseCore.T d).loc main_v5 ↦[tileRows c i.val]{fullShare} fs i)) $$ H
  icases H' with ⟨%hok, H⟩
  ihave H'' := (pointsTo_biUnion_join (ℓ := (SparseCore.T d).loc main_v5) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v5 ↦[R]{fullShare} f : sProp 𝕄) ⊢ iprop(∃ f, outPts 0 d R f) := by
  iintro H; iexists f
  iapply (Entails.of_eq (show ((SparseCore.T d).loc main_v5 ↦[R]{fullShare} f : sProp 𝕄) = outPts 0 d R f from rfl))
  iexact H

theorem vecSplit : (K (F := F)).VecSplit' (P m) 0 := by
  intro d c
  have hc : c.val < 2 := c.isLt
  show stRes m 0 d c.val ⊢ |={Set.univ}=> iprop((bigSep Finset.univ fun i : Fin 16 => goRes m 0 d c.val i.val)
      ∗ ((bigSep Finset.univ fun i : Fin 16 => tdRes m 0 d c.val i.val) -∗ dnRes m 0 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 0 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v5 ↦[tileRows c.val i.val]{fullShare} f : sProp 𝕄))
        ⊢ bigSep Finset.univ fun i : Fin 16 => iprop(∃ f, outPts 0 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.KernelIdeal.Hand.Tile0

namespace Cert.KernelIdeal.Hand

open Idealize.ShloMosaic

variable {F : FTy → Type} (m : (ℓ : Loc nD τ sig) → Buf (Elt F) ℓ) [FloatOps F]

/-- Gather call 0 on one tile: from the tile's shares of the table and of the ids and its 1600 rows of the chunk, the rows
    written with what the call gathers. -/
theorem tileObl0 (hpre : IdsInRange m) : (K (F := F)).TileObl (D (F := F)) 𝒱 (P m) v₀ 0 := Tile0.tileObl m facts hpre

/-- A SparseCore's operands for gather call 0 split among its sixteen tiles and their results join. -/
theorem vecSplit0 : (K (F := F)).VecSplit' (P m) 0 := Tile0.vecSplit m

end Cert.KernelIdeal.Hand

end
-- ==== Proof.Tile1.lean ====
/-
  gather call 1 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Common

noncomputable section

namespace Cert.KernelIdeal.Hand.Tile1

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.KernelIdeal.main_arg2_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v7_scv : Memref Cert.KernelIdeal.sig Kind.scVector Space.hbm Cert.KernelIdeal.S51200x128 EltTy.f32)
local notation "sV" => (Memref.whole Cert.KernelIdeal.cc1_scratch0 : Memref Cert.KernelIdeal.sig Kind.scVector Space.vmem Cert.KernelIdeal.S1600 EltTy.i32)
local notation "r1V" => (Memref.whole Cert.KernelIdeal.cc1_scratch1 : Memref Cert.KernelIdeal.sig Kind.scVector Space.vmem Cert.KernelIdeal.S80x128 EltTy.f32)
local notation "r2V" => (Memref.whole Cert.KernelIdeal.cc1_scratch2 : Memref Cert.KernelIdeal.sig Kind.scVector Space.vmem Cert.KernelIdeal.S80x128 EltTy.f32)
local notation "r3V" => (Memref.whole Cert.KernelIdeal.cc1_scratch3 : Memref Cert.KernelIdeal.sig Kind.scVector Space.vmem Cert.KernelIdeal.S80x128 EltTy.f32)
local notation "r4V" => (Memref.whole Cert.KernelIdeal.cc1_scratch4 : Memref Cert.KernelIdeal.sig Kind.scVector Space.vmem Cert.KernelIdeal.S80x128 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc1_scratch5.sem) : GSem nD τ sig) 0 ∗ semVal (((V d (cV L) (jV L)), SemLoc.dma cc1_scratch6.sem) : GSem nD τ sig) 0 ∗ semVal (((V d (cV L) (jV L)), SemLoc.dma cc1_scratch7.sem) : GSem nD τ sig) 0 ∗ semVal (((V d (cV L) (jV L)), SemLoc.dma cc1_scratch8.sem) : GSem nD τ sig) 0 ∗ semVal (((V d (cV L) (jV L)), SemLoc.dma cc1_scoped0.sem) : GSem nD τ sig) 0 ∗ semVal (((V d (cV L) (jV L)), SemLoc.dma cc1_scoped1.sem) : GSem nD τ sig) 0 ∗ semVal (((V d (cV L) (jV L)), SemLoc.dma cc1_scoped2.sem) : GSem nD τ sig) 0 ∗ semVal (((V d (cV L) (jV L)), SemLoc.dma cc1_scoped3.sem) : GSem nD τ sig) 0 ∗ semVal (((V d (cV L) (jV L)), SemLoc.dma cc1_scoped4.sem) : GSem nD τ sig) 0
          ∗ bigSep ((((((((((ownCells (V d (cV L) (jV L))).erase (((V d (cV L) (jV L)), SemLoc.dma cc1_scratch5.sem) : GSem nD τ sig)).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scoped0.sem) : GSem nD τ sig)).erase (((V d (cV L) (jV L)), SemLoc.dma cc1_scoped1.sem) : GSem nD τ sig)).erase (((V d (cV L) (jV L)), SemLoc.dma cc1_scoped2.sem) : GSem nD τ sig)).erase (((V d (cV L) (jV L)), SemLoc.dma cc1_scoped3.sem) : GSem nD τ sig)).erase (((V d (cV L) (jV L)), SemLoc.dma cc1_scoped4.sem) : GSem nD τ sig)) fun g => semVal g 0) := by
  unfold SparseCore.Cfg.ownSems0
  rw [SparseCore.bigSep_erase' ((mem_ownCells (g := (((V d (cV L) (jV L)), SemLoc.dma cc1_scratch5.sem) : GSem nD τ sig))).mpr ⟨rfl, by show (SemLoc.dma cc1_scratch5.sem : SemLoc sig).isScoped .scVector = true; decide⟩),
    SparseCore.bigSep_erase' (Finset.mem_erase.mpr ⟨cell_ne _ (show (SemLoc.dma cc1_scratch6.sem : SemLoc sig) ≠ SemLoc.dma cc1_scratch5.sem by decide), (mem_ownCells (g := (((V d (cV L) (jV L)), SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨cell_ne _ (show (SemLoc.dma cc1_scratch7.sem : SemLoc sig) ≠ SemLoc.dma cc1_scratch6.sem by decide), Finset.mem_erase.mpr ⟨cell_ne _ (show (SemLoc.dma cc1_scratch7.sem : SemLoc sig) ≠ SemLoc.dma cc1_scratch5.sem by decide), (mem_ownCells (g := (((V d (cV L) (jV L)), SemLoc.dma cc1_scratch7.sem) : GSem nD τ sig))).mpr ⟨rfl, by show (SemLoc.dma cc1_scratch7.sem : SemLoc sig).isScoped .scVector = true; decide⟩⟩⟩),
    SparseCore.bigSep_erase' (Finset.mem_erase.mpr ⟨cell_ne _ (show (SemLoc.dma cc1_scratch8.sem : SemLoc sig) ≠ SemLoc.dma cc1_scratch7.sem by decide), Finset.mem_erase.mpr ⟨cell_ne _ (show (SemLoc.dma cc1_scratch8.sem : SemLoc sig) ≠ SemLoc.dma cc1_scratch6.sem by decide), Finset.mem_erase.mpr ⟨cell_ne _ (show (SemLoc.dma cc1_scratch8.sem : SemLoc sig) ≠ SemLoc.dma cc1_scratch5.sem by decide), (mem_ownCells (g := (((V d (cV L) (jV L)), SemLoc.dma cc1_scratch8.sem) : GSem nD τ sig))).mpr ⟨rfl, by show (SemLoc.dma cc1_scratch8.sem : SemLoc sig).isScoped .scVector = true; decide⟩⟩⟩⟩),
    SparseCore.bigSep_erase' (Finset.mem_erase.mpr ⟨cell_ne _ (show (SemLoc.dma cc1_scoped0.sem : SemLoc sig) ≠ SemLoc.dma cc1_scratch8.sem by decide), Finset.mem_erase.mpr ⟨cell_ne _ (show (SemLoc.dma cc1_scoped0.sem : SemLoc sig) ≠ SemLoc.dma cc1_scratch7.sem by decide), Finset.mem_erase.mpr ⟨cell_ne _ (show (SemLoc.dma cc1_scoped0.sem : SemLoc sig) ≠ SemLoc.dma cc1_scratch6.sem by decide), Finset.mem_erase.mpr ⟨cell_ne _ (show (SemLoc.dma cc1_scoped0.sem : SemLoc sig) ≠ SemLoc.dma cc1_scratch5.sem by decide), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨cell_ne _ (show (SemLoc.dma cc1_scoped1.sem : SemLoc sig) ≠ SemLoc.dma cc1_scoped0.sem by decide), Finset.mem_erase.mpr ⟨cell_ne _ (show (SemLoc.dma cc1_scoped1.sem : SemLoc sig) ≠ SemLoc.dma cc1_scratch8.sem by decide), Finset.mem_erase.mpr ⟨cell_ne _ (show (SemLoc.dma cc1_scoped1.sem : SemLoc sig) ≠ SemLoc.dma cc1_scratch7.sem by decide), Finset.mem_erase.mpr ⟨cell_ne _ (show (SemLoc.dma cc1_scoped1.sem : SemLoc sig) ≠ SemLoc.dma cc1_scratch6.sem by decide), Finset.mem_erase.mpr ⟨cell_ne _ (show (SemLoc.dma cc1_scoped1.sem : SemLoc sig) ≠ SemLoc.dma cc1_scratch5.sem by decide), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩),
    SparseCore.bigSep_erase' (Finset.mem_erase.mpr ⟨cell_ne _ (show (SemLoc.dma cc1_scoped2.sem : SemLoc sig) ≠ SemLoc.dma cc1_scoped1.sem by decide), Finset.mem_erase.mpr ⟨cell_ne _ (show (SemLoc.dma cc1_scoped2.sem : SemLoc sig) ≠ SemLoc.dma cc1_scoped0.sem by decide), Finset.mem_erase.mpr ⟨cell_ne _ (show (SemLoc.dma cc1_scoped2.sem : SemLoc sig) ≠ SemLoc.dma cc1_scratch8.sem by decide), Finset.mem_erase.mpr ⟨cell_ne _ (show (SemLoc.dma cc1_scoped2.sem : SemLoc sig) ≠ SemLoc.dma cc1_scratch7.sem by decide), Finset.mem_erase.mpr ⟨cell_ne _ (show (SemLoc.dma cc1_scoped2.sem : SemLoc sig) ≠ SemLoc.dma cc1_scratch6.sem by decide), Finset.mem_erase.mpr ⟨cell_ne _ (show (SemLoc.dma cc1_scoped2.sem : SemLoc sig) ≠ SemLoc.dma cc1_scratch5.sem by decide), (mem_ownCells (g := (((V d (cV L) (jV L)), SemLoc.dma cc1_scoped2.sem) : GSem nD τ sig))).mpr ⟨rfl, by show (SemLoc.dma cc1_scoped2.sem : SemLoc sig).isScoped .scVector = true; decide⟩⟩⟩⟩⟩⟩⟩),
    SparseCore.bigSep_erase' (Finset.mem_erase.mpr ⟨cell_ne _ (show (SemLoc.dma cc1_scoped3.sem : SemLoc sig) ≠ SemLoc.dma cc1_scoped2.sem by decide), Finset.mem_erase.mpr ⟨cell_ne _ (show (SemLoc.dma cc1_scoped3.sem : SemLoc sig) ≠ SemLoc.dma cc1_scoped1.sem by decide), Finset.mem_erase.mpr ⟨cell_ne _ (show (SemLoc.dma cc1_scoped3.sem : SemLoc sig) ≠ SemLoc.dma cc1_scoped0.sem by decide), Finset.mem_erase.mpr ⟨cell_ne _ (show (SemLoc.dma cc1_scoped3.sem : SemLoc sig) ≠ SemLoc.dma cc1_scratch8.sem by decide), Finset.mem_erase.mpr ⟨cell_ne _ (show (SemLoc.dma cc1_scoped3.sem : SemLoc sig) ≠ SemLoc.dma cc1_scratch7.sem by decide), Finset.mem_erase.mpr ⟨cell_ne _ (show (SemLoc.dma cc1_scoped3.sem : SemLoc sig) ≠ SemLoc.dma cc1_scratch6.sem by decide), Finset.mem_erase.mpr ⟨cell_ne _ (show (SemLoc.dma cc1_scoped3.sem : SemLoc sig) ≠ SemLoc.dma cc1_scratch5.sem by decide), (mem_ownCells (g := (((V d (cV L) (jV L)), SemLoc.dma cc1_scoped3.sem) : GSem nD τ sig))).mpr ⟨rfl, by show (SemLoc.dma cc1_scoped3.sem : SemLoc sig).isScoped .scVector = true; decide⟩⟩⟩⟩⟩⟩⟩⟩),
    SparseCore.bigSep_erase' (Finset.mem_erase.mpr ⟨cell_ne _ (show (SemLoc.dma cc1_scoped4.sem : SemLoc sig) ≠ SemLoc.dma cc1_scoped3.sem by decide), Finset.mem_erase.mpr ⟨cell_ne _ (show (SemLoc.dma cc1_scoped4.sem : SemLoc sig) ≠ SemLoc.dma cc1_scoped2.sem by decide), Finset.mem_erase.mpr ⟨cell_ne _ (show (SemLoc.dma cc1_scoped4.sem : SemLoc sig) ≠ SemLoc.dma cc1_scoped1.sem by decide), Finset.mem_erase.mpr ⟨cell_ne _ (show (SemLoc.dma cc1_scoped4.sem : SemLoc sig) ≠ SemLoc.dma cc1_scoped0.sem by decide), Finset.mem_erase.mpr ⟨cell_ne _ (show (SemLoc.dma cc1_scoped4.sem : SemLoc sig) ≠ SemLoc.dma cc1_scratch8.sem by decide), Finset.mem_erase.mpr ⟨cell_ne _ (show (SemLoc.dma cc1_scoped4.sem : SemLoc sig) ≠ SemLoc.dma cc1_scratch7.sem by decide), Finset.mem_erase.mpr ⟨cell_ne _ (show (SemLoc.dma cc1_scoped4.sem : SemLoc sig) ≠ SemLoc.dma cc1_scratch6.sem by decide), Finset.mem_erase.mpr ⟨cell_ne _ (show (SemLoc.dma cc1_scoped4.sem : SemLoc sig) ≠ SemLoc.dma cc1_scratch5.sem by decide), (mem_ownCells (g := (((V d (cV L) (jV L)), SemLoc.dma cc1_scoped4.sem) : GSem nD τ sig))).mpr ⟨rfl, by show (SemLoc.dma cc1_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid1.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid1.Coords) : Rect S51200x128 := Rect.unit (s := S51200x128) ![3200 * (L 1).val + 1600 * (L 0).val, 0] ![1600, 128] (tile_inb L)

omit [FloatOps F] in
theorem tileRows_eq (L : grid1.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc1_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `51200 + 3200 s + 1600 c + i` of the flattened ids. -/
def ScratchOK : Prop := ∀ i : Fin 1600, fsc (ix1 (n := 1600) i)
  = idsB m d (ix1 (n := 204800) ⟨51200 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc1_scratch0)) (pay : S1600.Idx → Elt F .i32)
    (hpay : pay = ((iV).slice (Rect.unit (s := S204800) (k1_off1 L) S1600.size (k1_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k1_off1 L) S1600.size (k1_off1_inb L)) (fun _ => rfl)).view.read (Elt F) (idsB m d)) Finset.univ
      = ((iV).slice (Rect.unit (s := S204800) (k1_off1 L) S1600.size (k1_off1_inb L)) (fun _ => rfl)).view.read (Elt F) (idsB m d) :=
    View.write_whole_univ cc1_scratch0 _ _
  rw [hw, View.read_apply, cast_eq]
  congr 1
  funext b
  apply Fin.ext
  match b with
  | ⟨0, _⟩ =>
    show (k1_off1 L) 0 + 1 * i.val = 51200 + (3200 * (L 1).val + 1600 * (L 0).val) + i.val
    rw [k1_off1_eq]
    show 3200 * (L 1).val + 1600 * (L 0).val + 51200 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 1 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨1 * 51200 + (j 0).val, _⟩)).toNat % 100000
    rw [hS ⟨80 * n + (x 0).val, by have h : (x 0).val < 80 := (x 0).isLt; omega⟩]
    exact key _ _ (Fin.ext (by show 51200 + (3200 * (L 1).val + 1600 * (L 0).val) + (80 * n + (x 0).val) = 1 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 1 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 1 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc1_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc1_scoped1.sem) : GSem nD τ sig) 0
    ∗ semVal ((V d (cV L) (jV L), SemLoc.dma cc1_scoped2.sem) : GSem nD τ sig) 0
    ∗ semVal ((V d (cV L) (jV L), SemLoc.dma cc1_scoped3.sem) : GSem nD τ sig) 0
    ∗ semVal ((V d (cV L) (jV L), SemLoc.dma cc1_scoped4.sem) : GSem nD τ sig) 0
    ∗ slotAt m d L fsc r1V cc1_scratch5.sem (Transfers.shareDrop fullShare 3) (Transfers.shareTokN (tileSh (L 0).val (L 1).val) 0) (4 * k + 0)
    ∗ slotAt m d L fsc r2V cc1_scratch6.sem (Transfers.shareTokN fullShare 0) (Transfers.shareTokN (tileSh (L 0).val (L 1).val) 1) (4 * k + 1)
    ∗ slotAt m d L fsc r3V cc1_scratch7.sem (Transfers.shareTokN fullShare 1) (Transfers.shareTokN (tileSh (L 0).val (L 1).val) 2) (4 * k + 2)
    ∗ slotAt m d L fsc r4V cc1_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k1_t1_loop.trips = 5 := by decide +kernel
omit [FloatOps F] in
theorem conds_odd : ∀ k : Fin k1_t1_loop.trips, k1_cond1 k = 1#1 ∧ k1_cond3 k = 1#1 ∧ k1_cond5 k = 1#1 ∧ k1_cond7 k = 1#1 := by decide +kernel
omit [FloatOps F] in
theorem conds_even : ∀ k : Fin k1_t1_loop.trips, (k1_cond2 k = 1#1 ↔ k.val < 4) ∧ (k1_cond4 k = 1#1 ↔ k.val < 4) ∧ (k1_cond6 k = 1#1 ↔ k.val < 4) ∧ (k1_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc1_scratch0)) (R : Rect S1600) (hR : ∀ a, R.stride a = 1)
    (pay : S1600.Idx → Elt F .i32)
    (hpay : pay = ((iV).slice (Rect.unit (s := S204800) (k1_off1 L) S1600.size (k1_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k1_off1 L) S1600.size (k1_off1_inb L)) (fun _ => rfl)).view.read (Elt F) (idsB m d)) Finset.univ
      = ((iV).slice (Rect.unit (s := S204800) (k1_off1 L) S1600.size (k1_off1_inb L)) (fun _ => rfl)).view.read (Elt F) (idsB m d) :=
    View.write_whole_univ cc1_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid1.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 1 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc1_scratch5 cc1_scratch6 cc1_scratch7 cc1_scratch8 cc1_scoped0 cc1_scoped1 cc1_scoped2 cc1_scoped3 cc1_scoped4)
          fun _ => iprop(tdRes m 1 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hr1' := (Entails.of_eq (show ((V d (cV L) (jV L)).loc cc1_scratch1 ↦{fullShare} f1 : sProp 𝕄) = ((r1V).view.loc (V d (cV L) (jV L)) ↦{fullShare} f1) from rfl)) $$ Hr1
  ihave Hr2' := (Entails.of_eq (show ((V d (cV L) (jV L)).loc cc1_scratch2 ↦{fullShare} f2 : sProp 𝕄) = ((r2V).view.loc (V d (cV L) (jV L)) ↦{fullShare} f2) from rfl)) $$ Hr2
  ihave Hr3' := (Entails.of_eq (show ((V d (cV L) (jV L)).loc cc1_scratch3 ↦{fullShare} f3 : sProp 𝕄) = ((r3V).view.loc (V d (cV L) (jV L)) ↦{fullShare} f3) from rfl)) $$ Hr3
  ihave Hr4' := (Entails.of_eq (show ((V d (cV L) (jV L)).loc cc1_scratch4 ↦{fullShare} f4 : sProp 𝕄) = ((r4V).view.loc (V d (cV L) (jV L)) ↦{fullShare} f4) from rfl)) $$ Hr4
  ihave Ho' := (Entails.of_eq (show (outPts (F := F) 1 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k1_off4 k = ![80 * (4 * (k.val + 1) + 0)] := (k1_off4_eq k).trans (by rw [show 320 = 320 from rfl, show 320 * k.val + 320 = 80 * (4 * (k.val + 1) + 0) by omega])
      have e1 : k1_off7 k = ![80 * (4 * (k.val + 1) + 1)] := (k1_off7_eq k).trans (by rw [show 400 = 400 from rfl, show 320 * k.val + 400 = 80 * (4 * (k.val + 1) + 1) by omega])
      have e2 : k1_off10 k = ![80 * (4 * (k.val + 1) + 2)] := (k1_off10_eq k).trans (by rw [show 480 = 480 from rfl, show 320 * k.val + 480 = 80 * (4 * (k.val + 1) + 2) by omega])
      have e3 : k1_off13 k = ![80 * (4 * (k.val + 1) + 3)] := (k1_off13_eq k).trans (by rw [show 560 = 560 from rfl, show 320 * k.val + 560 = 80 * (4 * (k.val + 1) + 3) by omega])
      irw [← lset_eq (k1_off4 k) (k1_off4_inb k h1 h2) (fun _ => rfl) (4 * (k.val + 1) + 0) (by omega) e0,
        ← lset_eq (k1_off7 k) (k1_off7_inb k h3 h4) (fun _ => rfl) (4 * (k.val + 1) + 1) (by omega) e1,
        ← lset_eq (k1_off10 k) (k1_off10_inb k h5 h6) (fun _ => rfl) (4 * (k.val + 1) + 2) (by omega) e2,
        ← lset_eq (k1_off13 k) (k1_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k1_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k1_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k1_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k1_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k1_off4 k) (k1_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k1_off7 k) (k1_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k1_off10 k) (k1_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k1_off13 k) (k1_off13_inb k h7 h8) (fun _ => rfl) (4 * (k.val + 1) + 3) (by omega) e3 _ _)
      iexists _; isplitr
      swap; · iexact HO
      ipureintro
      repeat (first | exact hW' | refine waits_insert _ ?_)
    · have h2 : ¬ k1_cond2 k = 1#1 := fun h => hlast (e2.mp h)
      have h4 : ¬ k1_cond4 k = 1#1 := fun h => hlast (e4.mp h)
      have h6 : ¬ k1_cond6 k = 1#1 := fun h => hlast (e6.mp h)
      have h8 : ¬ k1_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k1_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k1_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k1_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k1_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k1_t1_loop.lb k1_t1_loop.ub k1_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 1 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc1_scratch5 cc1_scratch6 cc1_scratch7 cc1_scratch8 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v7 ↦[coreRows c]{fullShare} f : sProp 𝕄)
      = bigSep Finset.univ fun i : Fin 16 => (SparseCore.T d).loc main_v7 ↦[tileRows c i.val]{fullShare} f := by
  rw [← pointsTo_biUnion Finset.univ (ℓ := (SparseCore.T d).loc main_v7) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 1 d (tileRows c i.val) f⌝ ∗ (SparseCore.T d).loc main_v7 ↦[tileRows c i.val]{fullShare} f))
      ⊢ (iprop(∃ f, ⌜RowsOK m 1 d (coreRows c) f⌝ ∗ (SparseCore.T d).loc main_v7 ↦[coreRows c]{fullShare} f) : sProp 𝕄) := by
  refine (bigSep_exists_pi Finset.univ (fun (i : Fin 16) (f : Buf (Elt F) ((SparseCore.T d).loc main_v7)) =>
    iprop(⌜RowsOK m 1 d (tileRows c i.val) f⌝ ∗ (SparseCore.T d).loc main_v7 ↦[tileRows c i.val]{fullShare} f))).trans ?_
  iintro ⟨%fs, H⟩
  ihave H' := (bigSep_pure_sep Finset.univ (fun i : Fin 16 => RowsOK m 1 d (tileRows c i.val) (fs i))
    (fun i : Fin 16 => (SparseCore.T d).loc main_v7 ↦[tileRows c i.val]{fullShare} fs i)) $$ H
  icases H' with ⟨%hok, H⟩
  ihave H'' := (pointsTo_biUnion_join (ℓ := (SparseCore.T d).loc main_v7) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v7 ↦[R]{fullShare} f : sProp 𝕄) ⊢ iprop(∃ f, outPts 1 d R f) := by
  iintro H; iexists f
  iapply (Entails.of_eq (show ((SparseCore.T d).loc main_v7 ↦[R]{fullShare} f : sProp 𝕄) = outPts 1 d R f from rfl))
  iexact H

theorem vecSplit : (K (F := F)).VecSplit' (P m) 1 := by
  intro d c
  have hc : c.val < 2 := c.isLt
  show stRes m 1 d c.val ⊢ |={Set.univ}=> iprop((bigSep Finset.univ fun i : Fin 16 => goRes m 1 d c.val i.val)
      ∗ ((bigSep Finset.univ fun i : Fin 16 => tdRes m 1 d c.val i.val) -∗ dnRes m 1 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 1 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v7 ↦[tileRows c.val i.val]{fullShare} f : sProp 𝕄))
        ⊢ bigSep Finset.univ fun i : Fin 16 => iprop(∃ f, outPts 1 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.KernelIdeal.Hand.Tile1

namespace Cert.KernelIdeal.Hand

open Idealize.ShloMosaic

variable {F : FTy → Type} (m : (ℓ : Loc nD τ sig) → Buf (Elt F) ℓ) [FloatOps F]

/-- gather call 1 on one tile: from the tile's shares of the table and of the ids and its 1600 rows of the chunk, the rows
    written with what the call gathers. -/
theorem tileObl1 (hpre : IdsInRange m) : (K (F := F)).TileObl (D (F := F)) 𝒱 (P m) v₀ 1 := Tile1.tileObl m facts hpre

/-- A SparseCore's operands for gather call 1 split among its sixteen tiles and their results join. -/
theorem vecSplit1 : (K (F := F)).VecSplit' (P m) 1 := Tile1.vecSplit m

end Cert.KernelIdeal.Hand

end
-- ==== Proof.Tile2.lean ====
/-
  gather call 2 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Common

noncomputable section

namespace Cert.KernelIdeal.Hand.Tile2

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.KernelIdeal.main_arg2_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v9_scv : Memref Cert.KernelIdeal.sig Kind.scVector Space.hbm Cert.KernelIdeal.S51200x128 EltTy.f32)
local notation "sV" => (Memref.whole Cert.KernelIdeal.cc2_scratch0 : Memref Cert.KernelIdeal.sig Kind.scVector Space.vmem Cert.KernelIdeal.S1600 EltTy.i32)
local notation "r1V" => (Memref.whole Cert.KernelIdeal.cc2_scratch1 : Memref Cert.KernelIdeal.sig Kind.scVector Space.vmem Cert.KernelIdeal.S80x128 EltTy.f32)
local notation "r2V" => (Memref.whole Cert.KernelIdeal.cc2_scratch2 : Memref Cert.KernelIdeal.sig Kind.scVector Space.vmem Cert.KernelIdeal.S80x128 EltTy.f32)
local notation "r3V" => (Memref.whole Cert.KernelIdeal.cc2_scratch3 : Memref Cert.KernelIdeal.sig Kind.scVector Space.vmem Cert.KernelIdeal.S80x128 EltTy.f32)
local notation "r4V" => (Memref.whole Cert.KernelIdeal.cc2_scratch4 : Memref Cert.KernelIdeal.sig Kind.scVector Space.vmem Cert.KernelIdeal.S80x128 EltTy.f32)

variable [FloatOps F]

section Tile

variable (d : Dev nD) (L : grid2.Coords)

abbrev cV (L : grid2.Coords) : Fin τ.nSC := (L 0).castLE hcore2
abbrev jV (L : grid2.Coords) : Fin τ.nSub := (L 1).castLE hsub2

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc2_scratch5.sem) : GSem nD τ sig) 0 ∗ semVal (((V d (cV L) (jV L)), SemLoc.dma cc2_scratch6.sem) : GSem nD τ sig) 0 ∗ semVal (((V d (cV L) (jV L)), SemLoc.dma cc2_scratch7.sem) : GSem nD τ sig) 0 ∗ semVal (((V d (cV L) (jV L)), SemLoc.dma cc2_scratch8.sem) : GSem nD τ sig) 0 ∗ semVal (((V d (cV L) (jV L)), SemLoc.dma cc2_scoped0.sem) : GSem nD τ sig) 0 ∗ semVal (((V d (cV L) (jV L)), SemLoc.dma cc2_scoped1.sem) : GSem nD τ sig) 0 ∗ semVal (((V d (cV L) (jV L)), SemLoc.dma cc2_scoped2.sem) : GSem nD τ sig) 0 ∗ semVal (((V d (cV L) (jV L)), SemLoc.dma cc2_scoped3.sem) : GSem nD τ sig) 0 ∗ semVal (((V d (cV L) (jV L)), SemLoc.dma cc2_scoped4.sem) : GSem nD τ sig) 0
          ∗ bigSep ((((((((((ownCells (V d (cV L) (jV L))).erase (((V d (cV L) (jV L)), SemLoc.dma cc2_scratch5.sem) : GSem nD τ sig)).erase (((V d (cV L) (jV L)), SemLoc.dma cc2_scratch6.sem) : GSem nD τ sig)).erase (((V d (cV L) (jV L)), SemLoc.dma cc2_scratch7.sem) : GSem nD τ sig)).erase (((V d (cV L) (jV L)), SemLoc.dma cc2_scratch8.sem) : GSem nD τ sig)).erase (((V d (cV L) (jV L)), SemLoc.dma cc2_scoped0.sem) : GSem nD τ sig)).erase (((V d (cV L) (jV L)), SemLoc.dma cc2_scoped1.sem) : GSem nD τ sig)).erase (((V d (cV L) (jV L)), SemLoc.dma cc2_scoped2.sem) : GSem nD τ sig)).erase (((V d (cV L) (jV L)), SemLoc.dma cc2_scoped3.sem) : GSem nD τ sig)).erase (((V d (cV L) (jV L)), SemLoc.dma cc2_scoped4.sem) : GSem nD τ sig)) fun g => semVal g 0) := by
  unfold SparseCore.Cfg.ownSems0
  rw [SparseCore.bigSep_erase' ((mem_ownCells (g := (((V d (cV L) (jV L)), SemLoc.dma cc2_scratch5.sem) : GSem nD τ sig))).mpr ⟨rfl, by show (SemLoc.dma cc2_scratch5.sem : SemLoc sig).isScoped .scVector = true; decide⟩),
    SparseCore.bigSep_erase' (Finset.mem_erase.mpr ⟨cell_ne _ (show (SemLoc.dma cc2_scratch6.sem : SemLoc sig) ≠ SemLoc.dma cc2_scratch5.sem by decide), (mem_ownCells (g := (((V d (cV L) (jV L)), SemLoc.dma cc2_scratch6.sem) : GSem nD τ sig))).mpr ⟨rfl, by show (SemLoc.dma cc2_scratch6.sem : SemLoc sig).isScoped .scVector = true; decide⟩⟩),
    SparseCore.bigSep_erase' (Finset.mem_erase.mpr ⟨cell_ne _ (show (SemLoc.dma cc2_scratch7.sem : SemLoc sig) ≠ SemLoc.dma cc2_scratch6.sem by decide), Finset.mem_erase.mpr ⟨cell_ne _ (show (SemLoc.dma cc2_scratch7.sem : SemLoc sig) ≠ SemLoc.dma cc2_scratch5.sem by decide), (mem_ownCells (g := (((V d (cV L) (jV L)), SemLoc.dma cc2_scratch7.sem) : GSem nD τ sig))).mpr ⟨rfl, by show (SemLoc.dma cc2_scratch7.sem : SemLoc sig).isScoped .scVector = true; decide⟩⟩⟩),
    SparseCore.bigSep_erase' (Finset.mem_erase.mpr ⟨cell_ne _ (show (SemLoc.dma cc2_scratch8.sem : SemLoc sig) ≠ SemLoc.dma cc2_scratch7.sem by decide), Finset.mem_erase.mpr ⟨cell_ne _ (show (SemLoc.dma cc2_scratch8.sem : SemLoc sig) ≠ SemLoc.dma cc2_scratch6.sem by decide), Finset.mem_erase.mpr ⟨cell_ne _ (show (SemLoc.dma cc2_scratch8.sem : SemLoc sig) ≠ SemLoc.dma cc2_scratch5.sem by decide), (mem_ownCells (g := (((V d (cV L) (jV L)), SemLoc.dma cc2_scratch8.sem) : GSem nD τ sig))).mpr ⟨rfl, by show (SemLoc.dma cc2_scratch8.sem : SemLoc sig).isScoped .scVector = true; decide⟩⟩⟩⟩),
    SparseCore.bigSep_erase' (Finset.mem_erase.mpr ⟨cell_ne _ (show (SemLoc.dma cc2_scoped0.sem : SemLoc sig) ≠ SemLoc.dma cc2_scratch8.sem by decide), Finset.mem_erase.mpr ⟨cell_ne _ (show (SemLoc.dma cc2_scoped0.sem : SemLoc sig) ≠ SemLoc.dma cc2_scratch7.sem by decide), Finset.mem_erase.mpr ⟨cell_ne _ (show (SemLoc.dma cc2_scoped0.sem : SemLoc sig) ≠ SemLoc.dma cc2_scratch6.sem by decide), Finset.mem_erase.mpr ⟨cell_ne _ (show (SemLoc.dma cc2_scoped0.sem : SemLoc sig) ≠ SemLoc.dma cc2_scratch5.sem by decide), (mem_ownCells (g := (((V d (cV L) (jV L)), SemLoc.dma cc2_scoped0.sem) : GSem nD τ sig))).mpr ⟨rfl, by show (SemLoc.dma cc2_scoped0.sem : SemLoc sig).isScoped .scVector = true; decide⟩⟩⟩⟩⟩),
    SparseCore.bigSep_erase' (Finset.mem_erase.mpr ⟨cell_ne _ (show (SemLoc.dma cc2_scoped1.sem : SemLoc sig) ≠ SemLoc.dma cc2_scoped0.sem by decide), Finset.mem_erase.mpr ⟨cell_ne _ (show (SemLoc.dma cc2_scoped1.sem : SemLoc sig) ≠ SemLoc.dma cc2_scratch8.sem by decide), Finset.mem_erase.mpr ⟨cell_ne _ (show (SemLoc.dma cc2_scoped1.sem : SemLoc sig) ≠ SemLoc.dma cc2_scratch7.sem by decide), Finset.mem_erase.mpr ⟨cell_ne _ (show (SemLoc.dma cc2_scoped1.sem : SemLoc sig) ≠ SemLoc.dma cc2_scratch6.sem by decide), Finset.mem_erase.mpr ⟨cell_ne _ (show (SemLoc.dma cc2_scoped1.sem : SemLoc sig) ≠ SemLoc.dma cc2_scratch5.sem by decide), (mem_ownCells (g := (((V d (cV L) (jV L)), SemLoc.dma cc2_scoped1.sem) : GSem nD τ sig))).mpr ⟨rfl, by show (SemLoc.dma cc2_scoped1.sem : SemLoc sig).isScoped .scVector = true; decide⟩⟩⟩⟩⟩⟩),
    SparseCore.bigSep_erase' (Finset.mem_erase.mpr ⟨cell_ne _ (show (SemLoc.dma cc2_scoped2.sem : SemLoc sig) ≠ SemLoc.dma cc2_scoped1.sem by decide), Finset.mem_erase.mpr ⟨cell_ne _ (show (SemLoc.dma cc2_scoped2.sem : SemLoc sig) ≠ SemLoc.dma cc2_scoped0.sem by decide), Finset.mem_erase.mpr ⟨cell_ne _ (show (SemLoc.dma cc2_scoped2.sem : SemLoc sig) ≠ SemLoc.dma cc2_scratch8.sem by decide), Finset.mem_erase.mpr ⟨cell_ne _ (show (SemLoc.dma cc2_scoped2.sem : SemLoc sig) ≠ SemLoc.dma cc2_scratch7.sem by decide), Finset.mem_erase.mpr ⟨cell_ne _ (show (SemLoc.dma cc2_scoped2.sem : SemLoc sig) ≠ SemLoc.dma cc2_scratch6.sem by decide), Finset.mem_erase.mpr ⟨cell_ne _ (show (SemLoc.dma cc2_scoped2.sem : SemLoc sig) ≠ SemLoc.dma cc2_scratch5.sem by decide), (mem_ownCells (g := (((V d (cV L) (jV L)), SemLoc.dma cc2_scoped2.sem) : GSem nD τ sig))).mpr ⟨rfl, by show (SemLoc.dma cc2_scoped2.sem : SemLoc sig).isScoped .scVector = true; decide⟩⟩⟩⟩⟩⟩⟩),
    SparseCore.bigSep_erase' (Finset.mem_erase.mpr ⟨cell_ne _ (show (SemLoc.dma cc2_scoped3.sem : SemLoc sig) ≠ SemLoc.dma cc2_scoped2.sem by decide), Finset.mem_erase.mpr ⟨cell_ne _ (show (SemLoc.dma cc2_scoped3.sem : SemLoc sig) ≠ SemLoc.dma cc2_scoped1.sem by decide), Finset.mem_erase.mpr ⟨cell_ne _ (show (SemLoc.dma cc2_scoped3.sem : SemLoc sig) ≠ SemLoc.dma cc2_scoped0.sem by decide), Finset.mem_erase.mpr ⟨cell_ne _ (show (SemLoc.dma cc2_scoped3.sem : SemLoc sig) ≠ SemLoc.dma cc2_scratch8.sem by decide), Finset.mem_erase.mpr ⟨cell_ne _ (show (SemLoc.dma cc2_scoped3.sem : SemLoc sig) ≠ SemLoc.dma cc2_scratch7.sem by decide), Finset.mem_erase.mpr ⟨cell_ne _ (show (SemLoc.dma cc2_scoped3.sem : SemLoc sig) ≠ SemLoc.dma cc2_scratch6.sem by decide), Finset.mem_erase.mpr ⟨cell_ne _ (show (SemLoc.dma cc2_scoped3.sem : SemLoc sig) ≠ SemLoc.dma cc2_scratch5.sem by decide), (mem_ownCells (g := (((V d (cV L) (jV L)), SemLoc.dma cc2_scoped3.sem) : GSem nD τ sig))).mpr ⟨rfl, by show (SemLoc.dma cc2_scoped3.sem : SemLoc sig).isScoped .scVector = true; decide⟩⟩⟩⟩⟩⟩⟩⟩),
    SparseCore.bigSep_erase' (Finset.mem_erase.mpr ⟨cell_ne _ (show (SemLoc.dma cc2_scoped4.sem : SemLoc sig) ≠ SemLoc.dma cc2_scoped3.sem by decide), Finset.mem_erase.mpr ⟨cell_ne _ (show (SemLoc.dma cc2_scoped4.sem : SemLoc sig) ≠ SemLoc.dma cc2_scoped2.sem by decide), Finset.mem_erase.mpr ⟨cell_ne _ (show (SemLoc.dma cc2_scoped4.sem : SemLoc sig) ≠ SemLoc.dma cc2_scoped1.sem by decide), Finset.mem_erase.mpr ⟨cell_ne _ (show (SemLoc.dma cc2_scoped4.sem : SemLoc sig) ≠ SemLoc.dma cc2_scoped0.sem by decide), Finset.mem_erase.mpr ⟨cell_ne _ (show (SemLoc.dma cc2_scoped4.sem : SemLoc sig) ≠ SemLoc.dma cc2_scratch8.sem by decide), Finset.mem_erase.mpr ⟨cell_ne _ (show (SemLoc.dma cc2_scoped4.sem : SemLoc sig) ≠ SemLoc.dma cc2_scratch7.sem by decide), Finset.mem_erase.mpr ⟨cell_ne _ (show (SemLoc.dma cc2_scoped4.sem : SemLoc sig) ≠ SemLoc.dma cc2_scratch6.sem by decide), Finset.mem_erase.mpr ⟨cell_ne _ (show (SemLoc.dma cc2_scoped4.sem : SemLoc sig) ≠ SemLoc.dma cc2_scratch5.sem by decide), (mem_ownCells (g := (((V d (cV L) (jV L)), SemLoc.dma cc2_scoped4.sem) : GSem nD τ sig))).mpr ⟨rfl, by show (SemLoc.dma cc2_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f)
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := ((Proc.scVector (cV L) (jV L)).devRef cc2_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid2.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid2.Coords) : Rect S51200x128 := Rect.unit (s := S51200x128) ![3200 * (L 1).val + 1600 * (L 0).val, 0] ![1600, 128] (tile_inb L)

omit [FloatOps F] in
theorem tileRows_eq (L : grid2.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc2_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `102400 + 3200 s + 1600 c + i` of the flattened ids. -/
def ScratchOK : Prop := ∀ i : Fin 1600, fsc (ix1 (n := 1600) i)
  = idsB m d (ix1 (n := 204800) ⟨102400 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc2_scratch0)) (pay : S1600.Idx → Elt F .i32)
    (hpay : pay = ((iV).slice (Rect.unit (s := S204800) (k2_off1 L) S1600.size (k2_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k2_off1 L) S1600.size (k2_off1_inb L)) (fun _ => rfl)).view.read (Elt F) (idsB m d)) Finset.univ
      = ((iV).slice (Rect.unit (s := S204800) (k2_off1 L) S1600.size (k2_off1_inb L)) (fun _ => rfl)).view.read (Elt F) (idsB m d) :=
    View.write_whole_univ cc2_scratch0 _ _
  rw [hw, View.read_apply, cast_eq]
  congr 1
  funext b
  apply Fin.ext
  match b with
  | ⟨0, _⟩ =>
    show (k2_off1 L) 0 + 1 * i.val = 102400 + (3200 * (L 1).val + 1600 * (L 0).val) + i.val
    rw [k2_off1_eq]
    show 3200 * (L 1).val + 1600 * (L 0).val + 102400 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 2 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨2 * 51200 + (j 0).val, _⟩)).toNat % 100000
    rw [hS ⟨80 * n + (x 0).val, by have h : (x 0).val < 80 := (x 0).isLt; omega⟩]
    exact key _ _ (Fin.ext (by show 102400 + (3200 * (L 1).val + 1600 * (L 0).val) + (80 * n + (x 0).val) = 2 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 2 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 2 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc2_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc2_scoped1.sem) : GSem nD τ sig) 0
    ∗ semVal ((V d (cV L) (jV L), SemLoc.dma cc2_scoped2.sem) : GSem nD τ sig) 0
    ∗ semVal ((V d (cV L) (jV L), SemLoc.dma cc2_scoped3.sem) : GSem nD τ sig) 0
    ∗ semVal ((V d (cV L) (jV L), SemLoc.dma cc2_scoped4.sem) : GSem nD τ sig) 0
    ∗ slotAt m d L fsc r1V cc2_scratch5.sem (Transfers.shareDrop fullShare 3) (Transfers.shareTokN (tileSh (L 0).val (L 1).val) 0) (4 * k + 0)
    ∗ slotAt m d L fsc r2V cc2_scratch6.sem (Transfers.shareTokN fullShare 0) (Transfers.shareTokN (tileSh (L 0).val (L 1).val) 1) (4 * k + 1)
    ∗ slotAt m d L fsc r3V cc2_scratch7.sem (Transfers.shareTokN fullShare 1) (Transfers.shareTokN (tileSh (L 0).val (L 1).val) 2) (4 * k + 2)
    ∗ slotAt m d L fsc r4V cc2_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k2_t1_loop.trips = 5 := by decide +kernel
omit [FloatOps F] in
theorem conds_odd : ∀ k : Fin k2_t1_loop.trips, k2_cond1 k = 1#1 ∧ k2_cond3 k = 1#1 ∧ k2_cond5 k = 1#1 ∧ k2_cond7 k = 1#1 := by decide +kernel
omit [FloatOps F] in
theorem conds_even : ∀ k : Fin k2_t1_loop.trips, (k2_cond2 k = 1#1 ↔ k.val < 4) ∧ (k2_cond4 k = 1#1 ↔ k.val < 4) ∧ (k2_cond6 k = 1#1 ↔ k.val < 4) ∧ (k2_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc2_scratch0)) (R : Rect S1600) (hR : ∀ a, R.stride a = 1)
    (pay : S1600.Idx → Elt F .i32)
    (hpay : pay = ((iV).slice (Rect.unit (s := S204800) (k2_off1 L) S1600.size (k2_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k2_off1 L) S1600.size (k2_off1_inb L)) (fun _ => rfl)).view.read (Elt F) (idsB m d)) Finset.univ
      = ((iV).slice (Rect.unit (s := S204800) (k2_off1 L) S1600.size (k2_off1_inb L)) (fun _ => rfl)).view.read (Elt F) (idsB m d) :=
    View.write_whole_univ cc2_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid2.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 2 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc2_scratch5 cc2_scratch6 cc2_scratch7 cc2_scratch8 cc2_scoped0 cc2_scoped1 cc2_scoped2 cc2_scoped3 cc2_scoped4)
          fun _ => iprop(tdRes m 2 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc2_scratch0 ↦{fullShare} fs : sProp 𝕄) = ((sV).view.loc (V d (cV L) (jV L)) ↦{fullShare} fs) from rfl)) $$ Hs
  ihave Hr1' := (Entails.of_eq (show ((V d (cV L) (jV L)).loc cc2_scratch1 ↦{fullShare} f1 : sProp 𝕄) = ((r1V).view.loc (V d (cV L) (jV L)) ↦{fullShare} f1) from rfl)) $$ Hr1
  ihave Hr2' := (Entails.of_eq (show ((V d (cV L) (jV L)).loc cc2_scratch2 ↦{fullShare} f2 : sProp 𝕄) = ((r2V).view.loc (V d (cV L) (jV L)) ↦{fullShare} f2) from rfl)) $$ Hr2
  ihave Hr3' := (Entails.of_eq (show ((V d (cV L) (jV L)).loc cc2_scratch3 ↦{fullShare} f3 : sProp 𝕄) = ((r3V).view.loc (V d (cV L) (jV L)) ↦{fullShare} f3) from rfl)) $$ Hr3
  ihave Hr4' := (Entails.of_eq (show ((V d (cV L) (jV L)).loc cc2_scratch4 ↦{fullShare} f4 : sProp 𝕄) = ((r4V).view.loc (V d (cV L) (jV L)) ↦{fullShare} f4) from rfl)) $$ Hr4
  ihave Ho' := (Entails.of_eq (show (outPts (F := F) 2 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k2_off4 k = ![80 * (4 * (k.val + 1) + 0)] := (k2_off4_eq k).trans (by rw [show 320 = 320 from rfl, show 320 * k.val + 320 = 80 * (4 * (k.val + 1) + 0) by omega])
      have e1 : k2_off7 k = ![80 * (4 * (k.val + 1) + 1)] := (k2_off7_eq k).trans (by rw [show 400 = 400 from rfl, show 320 * k.val + 400 = 80 * (4 * (k.val + 1) + 1) by omega])
      have e2 : k2_off10 k = ![80 * (4 * (k.val + 1) + 2)] := (k2_off10_eq k).trans (by rw [show 480 = 480 from rfl, show 320 * k.val + 480 = 80 * (4 * (k.val + 1) + 2) by omega])
      have e3 : k2_off13 k = ![80 * (4 * (k.val + 1) + 3)] := (k2_off13_eq k).trans (by rw [show 560 = 560 from rfl, show 320 * k.val + 560 = 80 * (4 * (k.val + 1) + 3) by omega])
      irw [← lset_eq (k2_off4 k) (k2_off4_inb k h1 h2) (fun _ => rfl) (4 * (k.val + 1) + 0) (by omega) e0,
        ← lset_eq (k2_off7 k) (k2_off7_inb k h3 h4) (fun _ => rfl) (4 * (k.val + 1) + 1) (by omega) e1,
        ← lset_eq (k2_off10 k) (k2_off10_inb k h5 h6) (fun _ => rfl) (4 * (k.val + 1) + 2) (by omega) e2,
        ← lset_eq (k2_off13 k) (k2_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k2_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k2_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k2_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k2_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k2_off4 k) (k2_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k2_off7 k) (k2_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k2_off10 k) (k2_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k2_off13 k) (k2_off13_inb k h7 h8) (fun _ => rfl) (4 * (k.val + 1) + 3) (by omega) e3 _ _)
      iexists _; isplitr
      swap; · iexact HO
      ipureintro
      repeat (first | exact hW' | refine waits_insert _ ?_)
    · have h2 : ¬ k2_cond2 k = 1#1 := fun h => hlast (e2.mp h)
      have h4 : ¬ k2_cond4 k = 1#1 := fun h => hlast (e4.mp h)
      have h6 : ¬ k2_cond6 k = 1#1 := fun h => hlast (e6.mp h)
      have h8 : ¬ k2_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k2_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k2_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k2_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k2_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k2_t1_loop.lb k2_t1_loop.ub k2_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 2 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc2_scratch5 cc2_scratch6 cc2_scratch7 cc2_scratch8 cc2_scoped0 cc2_scoped1 cc2_scoped2 cc2_scoped3 cc2_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v9 ↦[coreRows c]{fullShare} f : sProp 𝕄)
      = bigSep Finset.univ fun i : Fin 16 => (SparseCore.T d).loc main_v9 ↦[tileRows c i.val]{fullShare} f := by
  rw [← pointsTo_biUnion Finset.univ (ℓ := (SparseCore.T d).loc main_v9) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 2 d (tileRows c i.val) f⌝ ∗ (SparseCore.T d).loc main_v9 ↦[tileRows c i.val]{fullShare} f))
      ⊢ (iprop(∃ f, ⌜RowsOK m 2 d (coreRows c) f⌝ ∗ (SparseCore.T d).loc main_v9 ↦[coreRows c]{fullShare} f) : sProp 𝕄) := by
  refine (bigSep_exists_pi Finset.univ (fun (i : Fin 16) (f : Buf (Elt F) ((SparseCore.T d).loc main_v9)) =>
    iprop(⌜RowsOK m 2 d (tileRows c i.val) f⌝ ∗ (SparseCore.T d).loc main_v9 ↦[tileRows c i.val]{fullShare} f))).trans ?_
  iintro ⟨%fs, H⟩
  ihave H' := (bigSep_pure_sep Finset.univ (fun i : Fin 16 => RowsOK m 2 d (tileRows c i.val) (fs i))
    (fun i : Fin 16 => (SparseCore.T d).loc main_v9 ↦[tileRows c i.val]{fullShare} fs i)) $$ H
  icases H' with ⟨%hok, H⟩
  ihave H'' := (pointsTo_biUnion_join (ℓ := (SparseCore.T d).loc main_v9) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v9 ↦[R]{fullShare} f : sProp 𝕄) ⊢ iprop(∃ f, outPts 2 d R f) := by
  iintro H; iexists f
  iapply (Entails.of_eq (show ((SparseCore.T d).loc main_v9 ↦[R]{fullShare} f : sProp 𝕄) = outPts 2 d R f from rfl))
  iexact H

theorem vecSplit : (K (F := F)).VecSplit' (P m) 2 := by
  intro d c
  have hc : c.val < 2 := c.isLt
  show stRes m 2 d c.val ⊢ |={Set.univ}=> iprop((bigSep Finset.univ fun i : Fin 16 => goRes m 2 d c.val i.val)
      ∗ ((bigSep Finset.univ fun i : Fin 16 => tdRes m 2 d c.val i.val) -∗ dnRes m 2 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 2 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v9 ↦[tileRows c.val i.val]{fullShare} f : sProp 𝕄))
        ⊢ bigSep Finset.univ fun i : Fin 16 => iprop(∃ f, outPts 2 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.KernelIdeal.Hand.Tile2

namespace Cert.KernelIdeal.Hand

open Idealize.ShloMosaic

variable {F : FTy → Type} (m : (ℓ : Loc nD τ sig) → Buf (Elt F) ℓ) [FloatOps F]

/-- gather call 2 on one tile: from the tile's shares of the table and of the ids and its 1600 rows of the chunk, the rows
    written with what the call gathers. -/
theorem tileObl2 (hpre : IdsInRange m) : (K (F := F)).TileObl (D (F := F)) 𝒱 (P m) v₀ 2 := Tile2.tileObl m facts hpre

/-- A SparseCore's operands for gather call 2 split among its sixteen tiles and their results join. -/
theorem vecSplit2 : (K (F := F)).VecSplit' (P m) 2 := Tile2.vecSplit m

end Cert.KernelIdeal.Hand

end
-- ==== Proof.Tile3.lean ====
/-
  gather call 3 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Common

noncomputable section

namespace Cert.KernelIdeal.Hand.Tile3

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.KernelIdeal.main_arg2_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v11_scv : Memref Cert.KernelIdeal.sig Kind.scVector Space.hbm Cert.KernelIdeal.S51200x128 EltTy.f32)
local notation "sV" => (Memref.whole Cert.KernelIdeal.cc3_scratch0 : Memref Cert.KernelIdeal.sig Kind.scVector Space.vmem Cert.KernelIdeal.S1600 EltTy.i32)
local notation "r1V" => (Memref.whole Cert.KernelIdeal.cc3_scratch1 : Memref Cert.KernelIdeal.sig Kind.scVector Space.vmem Cert.KernelIdeal.S80x128 EltTy.f32)
local notation "r2V" => (Memref.whole Cert.KernelIdeal.cc3_scratch2 : Memref Cert.KernelIdeal.sig Kind.scVector Space.vmem Cert.KernelIdeal.S80x128 EltTy.f32)
local notation "r3V" => (Memref.whole Cert.KernelIdeal.cc3_scratch3 : Memref Cert.KernelIdeal.sig Kind.scVector Space.vmem Cert.KernelIdeal.S80x128 EltTy.f32)
local notation "r4V" => (Memref.whole Cert.KernelIdeal.cc3_scratch4 : Memref Cert.KernelIdeal.sig Kind.scVector Space.vmem Cert.KernelIdeal.S80x128 EltTy.f32)

variable [FloatOps F]

section Tile

variable (d : Dev nD) (L : grid3.Coords)

abbrev cV (L : grid3.Coords) : Fin τ.nSC := (L 0).castLE hcore3
abbrev jV (L : grid3.Coords) : Fin τ.nSub := (L 1).castLE hsub3

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc3_scratch5.sem) : GSem nD τ sig) 0 ∗ semVal (((V d (cV L) (jV L)), SemLoc.dma cc3_scratch6.sem) : GSem nD τ sig) 0 ∗ semVal (((V d (cV L) (jV L)), SemLoc.dma cc3_scratch7.sem) : GSem nD τ sig) 0 ∗ semVal (((V d (cV L) (jV L)), SemLoc.dma cc3_scratch8.sem) : GSem nD τ sig) 0 ∗ semVal (((V d (cV L) (jV L)), SemLoc.dma cc3_scoped0.sem) : GSem nD τ sig) 0 ∗ semVal (((V d (cV L) (jV L)), SemLoc.dma cc3_scoped1.sem) : GSem nD τ sig) 0 ∗ semVal (((V d (cV L) (jV L)), SemLoc.dma cc3_scoped2.sem) : GSem nD τ sig) 0 ∗ semVal (((V d (cV L) (jV L)), SemLoc.dma cc3_scoped3.sem) : GSem nD τ sig) 0 ∗ semVal (((V d (cV L) (jV L)), SemLoc.dma cc3_scoped4.sem) : GSem nD τ sig) 0
          ∗ bigSep ((((((((((ownCells (V d (cV L) (jV L))).erase (((V d (cV L) (jV L)), SemLoc.dma cc3_scratch5.sem) : GSem nD τ sig)).erase (((V d (cV L) (jV L)), SemLoc.dma cc3_scratch6.sem) : GSem nD τ sig)).erase (((V d (cV L) (jV L)), SemLoc.dma cc3_scratch7.sem) : GSem nD τ sig)).erase (((V d (cV L) (jV L)), SemLoc.dma cc3_scratch8.sem) : GSem nD τ sig)).erase (((V d (cV L) (jV L)), SemLoc.dma cc3_scoped0.sem) : GSem nD τ sig)).erase (((V d (cV L) (jV L)), SemLoc.dma cc3_scoped1.sem) : GSem nD τ sig)).erase (((V d (cV L) (jV L)), SemLoc.dma cc3_scoped2.sem) : GSem nD τ sig)).erase (((V d (cV L) (jV L)), SemLoc.dma cc3_scoped3.sem) : GSem nD τ sig)).erase (((V d (cV L) (jV L)), SemLoc.dma cc3_scoped4.sem) : GSem nD τ sig)) fun g => semVal g 0) := by
  unfold SparseCore.Cfg.ownSems0
  rw [SparseCore.bigSep_erase' ((mem_ownCells (g := (((V d (cV L) (jV L)), SemLoc.dma cc3_scratch5.sem) : GSem nD τ sig))).mpr ⟨rfl, by show (SemLoc.dma cc3_scratch5.sem : SemLoc sig).isScoped .scVector = true; decide⟩),
    SparseCore.bigSep_erase' (Finset.mem_erase.mpr ⟨cell_ne _ (show (SemLoc.dma cc3_scratch6.sem : SemLoc sig) ≠ SemLoc.dma cc3_scratch5.sem by decide), (mem_ownCells (g := (((V d (cV L) (jV L)), SemLoc.dma cc3_scratch6.sem) : GSem nD τ sig))).mpr ⟨rfl, by show (SemLoc.dma cc3_scratch6.sem : SemLoc sig).isScoped .scVector = true; decide⟩⟩),
    SparseCore.bigSep_erase' (Finset.mem_erase.mpr ⟨cell_ne _ (show (SemLoc.dma cc3_scratch7.sem : SemLoc sig) ≠ SemLoc.dma cc3_scratch6.sem by decide), Finset.mem_erase.mpr ⟨cell_ne _ (show (SemLoc.dma cc3_scratch7.sem : SemLoc sig) ≠ SemLoc.dma cc3_scratch5.sem by decide), (mem_ownCells (g := (((V d (cV L) (jV L)), SemLoc.dma cc3_scratch7.sem) : GSem nD τ sig))).mpr ⟨rfl, by show (SemLoc.dma cc3_scratch7.sem : SemLoc sig).isScoped .scVector = true; decide⟩⟩⟩),
    SparseCore.bigSep_erase' (Finset.mem_erase.mpr ⟨cell_ne _ (show (SemLoc.dma cc3_scratch8.sem : SemLoc sig) ≠ SemLoc.dma cc3_scratch7.sem by decide), Finset.mem_erase.mpr ⟨cell_ne _ (show (SemLoc.dma cc3_scratch8.sem : SemLoc sig) ≠ SemLoc.dma cc3_scratch6.sem by decide), Finset.mem_erase.mpr ⟨cell_ne _ (show (SemLoc.dma cc3_scratch8.sem : SemLoc sig) ≠ SemLoc.dma cc3_scratch5.sem by decide), (mem_ownCells (g := (((V d (cV L) (jV L)), SemLoc.dma cc3_scratch8.sem) : GSem nD τ sig))).mpr ⟨rfl, by show (SemLoc.dma cc3_scratch8.sem : SemLoc sig).isScoped .scVector = true; decide⟩⟩⟩⟩),
    SparseCore.bigSep_erase' (Finset.mem_erase.mpr ⟨cell_ne _ (show (SemLoc.dma cc3_scoped0.sem : SemLoc sig) ≠ SemLoc.dma cc3_scratch8.sem by decide), Finset.mem_erase.mpr ⟨cell_ne _ (show (SemLoc.dma cc3_scoped0.sem : SemLoc sig) ≠ SemLoc.dma cc3_scratch7.sem by decide), Finset.mem_erase.mpr ⟨cell_ne _ (show (SemLoc.dma cc3_scoped0.sem : SemLoc sig) ≠ SemLoc.dma cc3_scratch6.sem by decide), Finset.mem_erase.mpr ⟨cell_ne _ (show (SemLoc.dma cc3_scoped0.sem : SemLoc sig) ≠ SemLoc.dma cc3_scratch5.sem by decide), (mem_ownCells (g := (((V d (cV L) (jV L)), SemLoc.dma cc3_scoped0.sem) : GSem nD τ sig))).mpr ⟨rfl, by show (SemLoc.dma cc3_scoped0.sem : SemLoc sig).isScoped .scVector = true; decide⟩⟩⟩⟩⟩),
    SparseCore.bigSep_erase' (Finset.mem_erase.mpr ⟨cell_ne _ (show (SemLoc.dma cc3_scoped1.sem : SemLoc sig) ≠ SemLoc.dma cc3_scoped0.sem by decide), Finset.mem_erase.mpr ⟨cell_ne _ (show (SemLoc.dma cc3_scoped1.sem : SemLoc sig) ≠ SemLoc.dma cc3_scratch8.sem by decide), Finset.mem_erase.mpr ⟨cell_ne _ (show (SemLoc.dma cc3_scoped1.sem : SemLoc sig) ≠ SemLoc.dma cc3_scratch7.sem by decide), Finset.mem_erase.mpr ⟨cell_ne _ (show (SemLoc.dma cc3_scoped1.sem : SemLoc sig) ≠ SemLoc.dma cc3_scratch6.sem by decide), Finset.mem_erase.mpr ⟨cell_ne _ (show (SemLoc.dma cc3_scoped1.sem : SemLoc sig) ≠ SemLoc.dma cc3_scratch5.sem by decide), (mem_ownCells (g := (((V d (cV L) (jV L)), SemLoc.dma cc3_scoped1.sem) : GSem nD τ sig))).mpr ⟨rfl, by show (SemLoc.dma cc3_scoped1.sem : SemLoc sig).isScoped .scVector = true; decide⟩⟩⟩⟩⟩⟩),
    SparseCore.bigSep_erase' (Finset.mem_erase.mpr ⟨cell_ne _ (show (SemLoc.dma cc3_scoped2.sem : SemLoc sig) ≠ SemLoc.dma cc3_scoped1.sem by decide), Finset.mem_erase.mpr ⟨cell_ne _ (show (SemLoc.dma cc3_scoped2.sem : SemLoc sig) ≠ SemLoc.dma cc3_scoped0.sem by decide), Finset.mem_erase.mpr ⟨cell_ne _ (show (SemLoc.dma cc3_scoped2.sem : SemLoc sig) ≠ SemLoc.dma cc3_scratch8.sem by decide), Finset.mem_erase.mpr ⟨cell_ne _ (show (SemLoc.dma cc3_scoped2.sem : SemLoc sig) ≠ SemLoc.dma cc3_scratch7.sem by decide), Finset.mem_erase.mpr ⟨cell_ne _ (show (SemLoc.dma cc3_scoped2.sem : SemLoc sig) ≠ SemLoc.dma cc3_scratch6.sem by decide), Finset.mem_erase.mpr ⟨cell_ne _ (show (SemLoc.dma cc3_scoped2.sem : SemLoc sig) ≠ SemLoc.dma cc3_scratch5.sem by decide), (mem_ownCells (g := (((V d (cV L) (jV L)), SemLoc.dma cc3_scoped2.sem) : GSem nD τ sig))).mpr ⟨rfl, by show (SemLoc.dma cc3_scoped2.sem : SemLoc sig).isScoped .scVector = true; decide⟩⟩⟩⟩⟩⟩⟩),
    SparseCore.bigSep_erase' (Finset.mem_erase.mpr ⟨cell_ne _ (show (SemLoc.dma cc3_scoped3.sem : SemLoc sig) ≠ SemLoc.dma cc3_scoped2.sem by decide), Finset.mem_erase.mpr ⟨cell_ne _ (show (SemLoc.dma cc3_scoped3.sem : SemLoc sig) ≠ SemLoc.dma cc3_scoped1.sem by decide), Finset.mem_erase.mpr ⟨cell_ne _ (show (SemLoc.dma cc3_scoped3.sem : SemLoc sig) ≠ SemLoc.dma cc3_scoped0.sem by decide), Finset.mem_erase.mpr ⟨cell_ne _ (show (SemLoc.dma cc3_scoped3.sem : SemLoc sig) ≠ SemLoc.dma cc3_scratch8.sem by decide), Finset.mem_erase.mpr ⟨cell_ne _ (show (SemLoc.dma cc3_scoped3.sem : SemLoc sig) ≠ SemLoc.dma cc3_scratch7.sem by decide), Finset.mem_erase.mpr ⟨cell_ne _ (show (SemLoc.dma cc3_scoped3.sem : SemLoc sig) ≠ SemLoc.dma cc3_scratch6.sem by decide), Finset.mem_erase.mpr ⟨cell_ne _ (show (SemLoc.dma cc3_scoped3.sem : SemLoc sig) ≠ SemLoc.dma cc3_scratch5.sem by decide), (mem_ownCells (g := (((V d (cV L) (jV L)), SemLoc.dma cc3_scoped3.sem) : GSem nD τ sig))).mpr ⟨rfl, by show (SemLoc.dma cc3_scoped3.sem : SemLoc sig).isScoped .scVector = true; decide⟩⟩⟩⟩⟩⟩⟩⟩),
    SparseCore.bigSep_erase' (Finset.mem_erase.mpr ⟨cell_ne _ (show (SemLoc.dma cc3_scoped4.sem : SemLoc sig) ≠ SemLoc.dma cc3_scoped3.sem by decide), Finset.mem_erase.mpr ⟨cell_ne _ (show (SemLoc.dma cc3_scoped4.sem : SemLoc sig) ≠ SemLoc.dma cc3_scoped2.sem by decide), Finset.mem_erase.mpr ⟨cell_ne _ (show (SemLoc.dma cc3_scoped4.sem : SemLoc sig) ≠ SemLoc.dma cc3_scoped1.sem by decide), Finset.mem_erase.mpr ⟨cell_ne _ (show (SemLoc.dma cc3_scoped4.sem : SemLoc sig) ≠ SemLoc.dma cc3_scoped0.sem by decide), Finset.mem_erase.mpr ⟨cell_ne _ (show (SemLoc.dma cc3_scoped4.sem : SemLoc sig) ≠ SemLoc.dma cc3_scratch8.sem by decide), Finset.mem_erase.mpr ⟨cell_ne _ (show (SemLoc.dma cc3_scoped4.sem : SemLoc sig) ≠ SemLoc.dma cc3_scratch7.sem by decide), Finset.mem_erase.mpr ⟨cell_ne _ (show (SemLoc.dma cc3_scoped4.sem : SemLoc sig) ≠ SemLoc.dma cc3_scratch6.sem by decide), Finset.mem_erase.mpr ⟨cell_ne _ (show (SemLoc.dma cc3_scoped4.sem : SemLoc sig) ≠ SemLoc.dma cc3_scratch5.sem by decide), (mem_ownCells (g := (((V d (cV L) (jV L)), SemLoc.dma cc3_scoped4.sem) : GSem nD τ sig))).mpr ⟨rfl, by show (SemLoc.dma cc3_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f)
          ∗ bigSep ((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc3_scratch0)) rfl),
    SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector (cV L) (jV L)) (b := ((Proc.scVector (cV L) (jV L)).devRef cc3_scratch1)) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector (cV L) (jV L)) (b := ((Proc.scVector (cV L) (jV L)).devRef cc3_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid3.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid3.Coords) : Rect S51200x128 := Rect.unit (s := S51200x128) ![3200 * (L 1).val + 1600 * (L 0).val, 0] ![1600, 128] (tile_inb L)

omit [FloatOps F] in
theorem tileRows_eq (L : grid3.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc3_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `153600 + 3200 s + 1600 c + i` of the flattened ids. -/
def ScratchOK : Prop := ∀ i : Fin 1600, fsc (ix1 (n := 1600) i)
  = idsB m d (ix1 (n := 204800) ⟨153600 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc3_scratch0)) (pay : S1600.Idx → Elt F .i32)
    (hpay : pay = ((iV).slice (Rect.unit (s := S204800) (k3_off1 L) S1600.size (k3_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k3_off1 L) S1600.size (k3_off1_inb L)) (fun _ => rfl)).view.read (Elt F) (idsB m d)) Finset.univ
      = ((iV).slice (Rect.unit (s := S204800) (k3_off1 L) S1600.size (k3_off1_inb L)) (fun _ => rfl)).view.read (Elt F) (idsB m d) :=
    View.write_whole_univ cc3_scratch0 _ _
  rw [hw, View.read_apply, cast_eq]
  congr 1
  funext b
  apply Fin.ext
  match b with
  | ⟨0, _⟩ =>
    show (k3_off1 L) 0 + 1 * i.val = 153600 + (3200 * (L 1).val + 1600 * (L 0).val) + i.val
    rw [k3_off1_eq]
    show 3200 * (L 1).val + 1600 * (L 0).val + 153600 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 3 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨3 * 51200 + (j 0).val, _⟩)).toNat % 100000
    rw [hS ⟨80 * n + (x 0).val, by have h : (x 0).val < 80 := (x 0).isLt; omega⟩]
    exact key _ _ (Fin.ext (by show 153600 + (3200 * (L 1).val + 1600 * (L 0).val) + (80 * n + (x 0).val) = 3 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 3 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 3 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc3_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc3_scoped1.sem) : GSem nD τ sig) 0
    ∗ semVal ((V d (cV L) (jV L), SemLoc.dma cc3_scoped2.sem) : GSem nD τ sig) 0
    ∗ semVal ((V d (cV L) (jV L), SemLoc.dma cc3_scoped3.sem) : GSem nD τ sig) 0
    ∗ semVal ((V d (cV L) (jV L), SemLoc.dma cc3_scoped4.sem) : GSem nD τ sig) 0
    ∗ slotAt m d L fsc r1V cc3_scratch5.sem (Transfers.shareDrop fullShare 3) (Transfers.shareTokN (tileSh (L 0).val (L 1).val) 0) (4 * k + 0)
    ∗ slotAt m d L fsc r2V cc3_scratch6.sem (Transfers.shareTokN fullShare 0) (Transfers.shareTokN (tileSh (L 0).val (L 1).val) 1) (4 * k + 1)
    ∗ slotAt m d L fsc r3V cc3_scratch7.sem (Transfers.shareTokN fullShare 1) (Transfers.shareTokN (tileSh (L 0).val (L 1).val) 2) (4 * k + 2)
    ∗ slotAt m d L fsc r4V cc3_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k3_t1_loop.trips = 5 := by decide +kernel
omit [FloatOps F] in
theorem conds_odd : ∀ k : Fin k3_t1_loop.trips, k3_cond1 k = 1#1 ∧ k3_cond3 k = 1#1 ∧ k3_cond5 k = 1#1 ∧ k3_cond7 k = 1#1 := by decide +kernel
omit [FloatOps F] in
theorem conds_even : ∀ k : Fin k3_t1_loop.trips, (k3_cond2 k = 1#1 ↔ k.val < 4) ∧ (k3_cond4 k = 1#1 ↔ k.val < 4) ∧ (k3_cond6 k = 1#1 ↔ k.val < 4) ∧ (k3_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc3_scratch0)) (R : Rect S1600) (hR : ∀ a, R.stride a = 1)
    (pay : S1600.Idx → Elt F .i32)
    (hpay : pay = ((iV).slice (Rect.unit (s := S204800) (k3_off1 L) S1600.size (k3_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k3_off1 L) S1600.size (k3_off1_inb L)) (fun _ => rfl)).view.read (Elt F) (idsB m d)) Finset.univ
      = ((iV).slice (Rect.unit (s := S204800) (k3_off1 L) S1600.size (k3_off1_inb L)) (fun _ => rfl)).view.read (Elt F) (idsB m d) :=
    View.write_whole_univ cc3_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid3.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 3 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc3_scratch5 cc3_scratch6 cc3_scratch7 cc3_scratch8 cc3_scoped0 cc3_scoped1 cc3_scoped2 cc3_scoped3 cc3_scoped4)
          fun _ => iprop(tdRes m 3 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_gather_kernel_eq_skeleton]; unfold cc3_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc3_scratch0 ↦{fullShare} fs : sProp 𝕄) = ((sV).view.loc (V d (cV L) (jV L)) ↦{fullShare} fs) from rfl)) $$ Hs
  ihave Hr1' := (Entails.of_eq (show ((V d (cV L) (jV L)).loc cc3_scratch1 ↦{fullShare} f1 : sProp 𝕄) = ((r1V).view.loc (V d (cV L) (jV L)) ↦{fullShare} f1) from rfl)) $$ Hr1
  ihave Hr2' := (Entails.of_eq (show ((V d (cV L) (jV L)).loc cc3_scratch2 ↦{fullShare} f2 : sProp 𝕄) = ((r2V).view.loc (V d (cV L) (jV L)) ↦{fullShare} f2) from rfl)) $$ Hr2
  ihave Hr3' := (Entails.of_eq (show ((V d (cV L) (jV L)).loc cc3_scratch3 ↦{fullShare} f3 : sProp 𝕄) = ((r3V).view.loc (V d (cV L) (jV L)) ↦{fullShare} f3) from rfl)) $$ Hr3
  ihave Hr4' := (Entails.of_eq (show ((V d (cV L) (jV L)).loc cc3_scratch4 ↦{fullShare} f4 : sProp 𝕄) = ((r4V).view.loc (V d (cV L) (jV L)) ↦{fullShare} f4) from rfl)) $$ Hr4
  ihave Ho' := (Entails.of_eq (show (outPts (F := F) 3 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k3_off4 k = ![80 * (4 * (k.val + 1) + 0)] := (k3_off4_eq k).trans (by rw [show 320 = 320 from rfl, show 320 * k.val + 320 = 80 * (4 * (k.val + 1) + 0) by omega])
      have e1 : k3_off7 k = ![80 * (4 * (k.val + 1) + 1)] := (k3_off7_eq k).trans (by rw [show 400 = 400 from rfl, show 320 * k.val + 400 = 80 * (4 * (k.val + 1) + 1) by omega])
      have e2 : k3_off10 k = ![80 * (4 * (k.val + 1) + 2)] := (k3_off10_eq k).trans (by rw [show 480 = 480 from rfl, show 320 * k.val + 480 = 80 * (4 * (k.val + 1) + 2) by omega])
      have e3 : k3_off13 k = ![80 * (4 * (k.val + 1) + 3)] := (k3_off13_eq k).trans (by rw [show 560 = 560 from rfl, show 320 * k.val + 560 = 80 * (4 * (k.val + 1) + 3) by omega])
      irw [← lset_eq (k3_off4 k) (k3_off4_inb k h1 h2) (fun _ => rfl) (4 * (k.val + 1) + 0) (by omega) e0,
        ← lset_eq (k3_off7 k) (k3_off7_inb k h3 h4) (fun _ => rfl) (4 * (k.val + 1) + 1) (by omega) e1,
        ← lset_eq (k3_off10 k) (k3_off10_inb k h5 h6) (fun _ => rfl) (4 * (k.val + 1) + 2) (by omega) e2,
        ← lset_eq (k3_off13 k) (k3_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k3_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k3_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k3_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k3_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k3_off4 k) (k3_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k3_off7 k) (k3_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k3_off10 k) (k3_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k3_off13 k) (k3_off13_inb k h7 h8) (fun _ => rfl) (4 * (k.val + 1) + 3) (by omega) e3 _ _)
      iexists _; isplitr
      swap; · iexact HO
      ipureintro
      repeat (first | exact hW' | refine waits_insert _ ?_)
    · have h2 : ¬ k3_cond2 k = 1#1 := fun h => hlast (e2.mp h)
      have h4 : ¬ k3_cond4 k = 1#1 := fun h => hlast (e4.mp h)
      have h6 : ¬ k3_cond6 k = 1#1 := fun h => hlast (e6.mp h)
      have h8 : ¬ k3_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k3_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k3_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k3_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k3_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k3_t1_loop.lb k3_t1_loop.ub k3_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 3 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc3_scratch5 cc3_scratch6 cc3_scratch7 cc3_scratch8 cc3_scoped0 cc3_scoped1 cc3_scoped2 cc3_scoped3 cc3_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 3 := by
  intro d c i O W hO _ _
  simp only [show (P m).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v11 ↦[coreRows c]{fullShare} f : sProp 𝕄)
      = bigSep Finset.univ fun i : Fin 16 => (SparseCore.T d).loc main_v11 ↦[tileRows c i.val]{fullShare} f := by
  rw [← pointsTo_biUnion Finset.univ (ℓ := (SparseCore.T d).loc main_v11) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 3 d (tileRows c i.val) f⌝ ∗ (SparseCore.T d).loc main_v11 ↦[tileRows c i.val]{fullShare} f))
      ⊢ (iprop(∃ f, ⌜RowsOK m 3 d (coreRows c) f⌝ ∗ (SparseCore.T d).loc main_v11 ↦[coreRows c]{fullShare} f) : sProp 𝕄) := by
  refine (bigSep_exists_pi Finset.univ (fun (i : Fin 16) (f : Buf (Elt F) ((SparseCore.T d).loc main_v11)) =>
    iprop(⌜RowsOK m 3 d (tileRows c i.val) f⌝ ∗ (SparseCore.T d).loc main_v11 ↦[tileRows c i.val]{fullShare} f))).trans ?_
  iintro ⟨%fs, H⟩
  ihave H' := (bigSep_pure_sep Finset.univ (fun i : Fin 16 => RowsOK m 3 d (tileRows c i.val) (fs i))
    (fun i : Fin 16 => (SparseCore.T d).loc main_v11 ↦[tileRows c i.val]{fullShare} fs i)) $$ H
  icases H' with ⟨%hok, H⟩
  ihave H'' := (pointsTo_biUnion_join (ℓ := (SparseCore.T d).loc main_v11) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v11 ↦[R]{fullShare} f : sProp 𝕄) ⊢ iprop(∃ f, outPts 3 d R f) := by
  iintro H; iexists f
  iapply (Entails.of_eq (show ((SparseCore.T d).loc main_v11 ↦[R]{fullShare} f : sProp 𝕄) = outPts 3 d R f from rfl))
  iexact H

theorem vecSplit : (K (F := F)).VecSplit' (P m) 3 := by
  intro d c
  have hc : c.val < 2 := c.isLt
  show stRes m 3 d c.val ⊢ |={Set.univ}=> iprop((bigSep Finset.univ fun i : Fin 16 => goRes m 3 d c.val i.val)
      ∗ ((bigSep Finset.univ fun i : Fin 16 => tdRes m 3 d c.val i.val) -∗ dnRes m 3 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 3 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v11 ↦[tileRows c.val i.val]{fullShare} f : sProp 𝕄))
        ⊢ bigSep Finset.univ fun i : Fin 16 => iprop(∃ f, outPts 3 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.KernelIdeal.Hand.Tile3

namespace Cert.KernelIdeal.Hand

open Idealize.ShloMosaic

variable {F : FTy → Type} (m : (ℓ : Loc nD τ sig) → Buf (Elt F) ℓ) [FloatOps F]

/-- gather call 3 on one tile: from the tile's shares of the table and of the ids and its 1600 rows of the chunk, the rows
    written with what the call gathers. -/
theorem tileObl3 (hpre : IdsInRange m) : (K (F := F)).TileObl (D (F := F)) 𝒱 (P m) v₀ 3 := Tile3.tileObl m facts hpre

/-- A SparseCore's operands for gather call 3 split among its sixteen tiles and their results join. -/
theorem vecSplit3 : (K (F := F)).VecSplit' (P m) 3 := Tile3.vecSplit m

end Cert.KernelIdeal.Hand

end
-- ==== Proof.Obls.lean ====
/-
  The four gather calls' obligations and splits, by call index: the calls differ only in which 51200 ids they read and
  which chunk they write.
-/
import proofs.«203472_g22600117912246_cont_8to1_820_34_alg».proof.Proof.Tile0
import proofs.«203472_g22600117912246_cont_8to1_820_34_alg».proof.Proof.Tile1
import proofs.«203472_g22600117912246_cont_8to1_820_34_alg».proof.Proof.Tile2
import proofs.«203472_g22600117912246_cont_8to1_820_34_alg».proof.Proof.Tile3

noncomputable section

namespace Cert.KernelIdeal.Hand

open Cert.KernelIdeal Cert.KernelIdeal.Gen
open Idealize.ShloMosaic

variable {F : FTy → Type} [FloatOps F] (m : (ℓ : Loc nD τ sig) → Buf (Elt F) ℓ)

/-- One tile's task, for each of the four calls. -/
theorem tileObls (hpre : IdsInRange m) : ∀ q : Fin 4, (K (F := F)).TileObl (D (F := F)) 𝒱 (P m) v₀ q
  | 0 => tileObl0 m hpre
  | 1 => tileObl1 m hpre
  | 2 => tileObl2 m hpre
  | 3 => tileObl3 m hpre

/-- A SparseCore's operands among its sixteen tiles, for each of the four calls. -/
theorem vecSplits : ∀ q : Fin 4, (K (F := F)).VecSplit' (P m) q
  | 0 => vecSplit0 m
  | 1 => vecSplit1 m
  | 2 => vecSplit2 m
  | 3 => vecSplit3 m

end Cert.KernelIdeal.Hand

end
-- ==== Proof.Bits.Common.lean ====
/-
  The kernel's program as the SparseCore launch theorem sees it, and the ghost state its proof runs over:
  four vector-subcore gather calls (each SparseCore tile copies 1600 word-embedding rows, eighty at a time, through
  four row buffers) followed by four TensorCore regions (position and token-type rows added, each row normalised).
  The ghost state is a product: the launch handshakes' rounds, the TensorCore regions' staging cells' rounds, and the
  counters of the tiles' own local copies.
-/
import proofs.«203472_g22600117912246_cont_8to1_820_34_alg».proof.Defs
import proofs.«203472_g22600117912246_cont_8to1_820_34_alg».proof.Proof.Gen.Kernel
import proofs.«203472_g22600117912246_cont_8to1_820_34_alg».proof.Proof.Gen.Kernel.Skeleton
import proofs.«203472_g22600117912246_cont_8to1_820_34_alg».proof.Proof.Gen.Kernel.Launch
import proofs.«203472_g22600117912246_cont_8to1_820_34_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 4) (Elt F) ℕ UU ℕ

/-- The handshakes' rounds: the left factor. -/
abbrev EH : Emb UH (MT nD τ sig (HIx 4) (Elt F) ℕ UU ℕ) := embL
/-- The TensorCore regions' staging cells' rounds: the left factor of the right factor. -/
def EP : Emb UP (MT nD τ sig (HIx 4) (Elt F) ℕ UU ℕ) :=
  ((Emb.inl : Emb UP (UP × Counters)).trans (Emb.inr : Emb (UP × Counters) UU)).trans
    (uEmb (nD := nD) (sig := sig) (Ix := HIx 4) (Val := Elt F) (Name := ℕ) (U := UU) (Lvl := ℕ)).toEmb

instance EP_landsIn : (EP : Emb UP 𝕄).LandsIn (upEmb : UEmb _ 𝕄) := by unfold EP; infer_instance

/-! ## The launch memory, the arrays, and what the gather calls carry -/

variable (m : (ℓ : Loc nD τ sig) → Buf (Elt F) ℓ) (ρ : Dev nD → PrngReg)

/-- The word-embedding table, the flattened token ids, and the four gathered chunks, at the TensorCore's names. -/
abbrev tabLoc (d : Dev nD) : Loc nD τ sig := (SparseCore.T d).loc main_arg2
abbrev idsLoc (d : Dev nD) : Loc nD τ sig := (SparseCore.T d).loc main_v0

/-- Core `d`'s buffers at launch. -/
abbrev W0 (d : Dev nD) : Valuation τ sig (Elt F) := fun b => m (d, b)

variable [FloatOps F]

/-- The host operations before the first gather call: the ids flattened, the first 200 position rows cut out and
    given a leading unit axis, gamma and beta given a leading unit axis. -/
abbrev hostOps0 : List (HloOp τ sig (Elt F)) :=
  [StableHlo.reshape main_arg0 main_v0 rfl shapeCasts_S1024x200_S204800,
   StableHlo.unary main_arg3 main_v1 ((extractStridedSlice S200x128 ![0, 0] · slices_S512x128_S200x128_0_0) : (⟨S512x128, .f32⟩ : BufTy).Contents (Elt F) → (⟨S200x128, .f32⟩ : BufTy).Contents (Elt F)),
   StableHlo.reshape main_v1 main_v2 rfl shapeCasts_S200x128_S1x200x128,
   StableHlo.reshape main_arg5 main_v3 rfl shapeCasts_S128_S1x128,
   StableHlo.reshape main_arg6 main_v4 rfl shapeCasts_S128_S1x128]

/-- The buffers when the first gather call starts. -/
abbrev W1 (d : Dev nD) : Valuation τ sig (Elt F) := StableHlo.after hostOps0 (W0 m d)

/-- The flattened ids as the gather calls find them. -/
abbrev idsB (d : Dev nD) : Buf (Elt F) (idsLoc d) := W1 m d (Proc.devRef .tc main_v0)

/-- Rows of a 51200-row chunk: SparseCore `c`'s tiles copy the rows whose 1600-row band has parity `c`; tile `i` of
    SparseCore `c` copies band `2 i + c`. -/
def coreRows (c : ℕ) : Finset S51200x128.Idx := Finset.univ.filter fun j => ((j 0).val / 1600) % 2 = c
def tileRows (c i : ℕ) : Finset S51200x128.Idx := Finset.univ.filter fun j => (j 0).val / 1600 = 2 * i + c

/-- The read shares of the table and of the ids: one per SparseCore, cut again one per tile. -/
def coreSh (c : ℕ) : PosShare TreeShare := Transfers.shareTokN fullShare c
def tileSh (c i : ℕ) : PosShare TreeShare := Transfers.shareTokN (coreSh c) i

/-- What gather call `q` leaves at index `j` of its chunk: entry `j 1` of the table row that token `51200 q + j 0`
    names (the row number reduced into the table's extent, which changes nothing for an id in range). -/
def gathVal (q : Fin 4) (d : Dev nD) (j : S51200x128.Idx) : Elt F .f32 :=
  m (tabLoc d) (ValueIdx.ix2 (n0 := 100000) (n1 := 128)
    ⟨(idsB m d (ValueIdx.ix1 (n := 204800) ⟨q.val * 51200 + (j 0).val, by have h0 : (j 0).val < 51200 := (j 0).isLt; have := q.isLt; omega⟩)).toNat % 100000, Nat.mod_lt _ (by norm_num)⟩
    (j 1))

/-- Every token id names a row of the table. -/
def IdsInRange : Prop := ∀ (d : Dev nD) (j : S204800.Idx), (idsB m d j).toNat < 100000

/-- The rows `R` of `f` hold what call `q` gathers. -/
def RowsOK (q : Fin 4) (d : Dev nD) (R : Finset S51200x128.Idx) (f : S51200x128.Idx → Elt F .f32) : Prop :=
  ∀ j ∈ R, f j = gathVal m q d j

/-- Chunk `q`'s rows `R`, held outright at contents `f`. -/
def outPts (q : Fin 4) (d : Dev nD) (R : Finset S51200x128.Idx) (f : S51200x128.Idx → Elt F .f32) : sProp 𝕄 :=
  match q with
  | 0 => (SparseCore.T d).loc main_v5 ↦[R]{fullShare} f
  | 1 => (SparseCore.T d).loc main_v7 ↦[R]{fullShare} f
  | 2 => (SparseCore.T d).loc main_v9 ↦[R]{fullShare} f
  | 3 => (SparseCore.T d).loc main_v11 ↦[R]{fullShare} f

/-- What call `q` hands SparseCore `c`, and what comes back; what the sequencer hands tile `i`, and what comes back. -/
def stRes (q : Fin 4) (d : Dev nD) (c : ℕ) : sProp 𝕄 :=
  iprop((tabLoc d ↦{coreSh c} m (tabLoc d)) ∗ (idsLoc d ↦{coreSh c} idsB m d) ∗ ∃ f, outPts q d (coreRows c) f)
def dnRes (q : Fin 4) (d : Dev nD) (c : ℕ) : sProp 𝕄 :=
  iprop((tabLoc d ↦{coreSh c} m (tabLoc d)) ∗ (idsLoc d ↦{coreSh c} idsB m d) ∗ ∃ f, ⌜RowsOK m q d (coreRows c) f⌝ ∗ outPts q d (coreRows c) f)
def goRes (q : Fin 4) (d : Dev nD) (c i : ℕ) : sProp 𝕄 :=
  iprop((tabLoc d ↦{tileSh c i} m (tabLoc d)) ∗ (idsLoc d ↦{tileSh c i} idsB m d) ∗ ∃ f, outPts q d (tileRows c i) f)
def tdRes (q : Fin 4) (d : Dev nD) (c i : ℕ) : sProp 𝕄 :=
  iprop((tabLoc d ↦{tileSh c i} m (tabLoc d)) ∗ (idsLoc d ↦{tileSh c i} idsB m d) ∗ ∃ f, ⌜RowsOK m q d (tileRows c i) f⌝ ∗ outPts q d (tileRows c i) f)

instance outPts_storable (q : Fin 4) (d : Dev nD) (R : Finset S51200x128.Idx) (f : S51200x128.Idx → Elt F .f32) :
    BI.Storable (upEmb : UEmb _ 𝕄) (outPts (F := F) q d R f) := by
  unfold outPts; split <;> infer_instance

/-- The calls' payloads; no kernel's proof consumes anything of the launch's (the tiles' copies run over the counters). -/
def P : (K (F := F)).Pay (nD := nD) (Val := Elt F) (Name := ℕ) (U := UU) where
  st := fun q d c => stRes m q d c.val
  dn := fun q d c => dnRes m q d c.val
  go := fun q d c i => goRes m q d c.val i.val
  td := fun q d c i => tdRes m q d c.val i.val
  x := fun _ _ => iprop(emp)

instance P_storable : (P (F := F) m).IsStorable where
  st q d c := by unfold P stRes; infer_instance
  dn q d c := by unfold P dnRes; infer_instance
  go q d c i := by unfold P goRes; infer_instance
  td q d c i := by unfold P tdRes; infer_instance

end Cert.Kernel.Hand

end
-- ==== Proof.Bits.Tile0.lean ====
/-
  Gather call 0 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Bits.Common

noncomputable section

namespace Cert.Kernel.Hand.Tile0

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.Kernel.main_arg2_scv : Memref Cert.Kernel.sig Kind.scVector Space.hbm Cert.Kernel.S100000x128 EltTy.f32)
local notation "iV" => (Memref.whole Cert.Kernel.main_v0_scv : Memref Cert.Kernel.sig Kind.scVector Space.hbm Cert.Kernel.S204800 EltTy.i32)
local notation "oV" => (Memref.whole Cert.Kernel.main_v5_scv : Memref Cert.Kernel.sig Kind.scVector Space.hbm Cert.Kernel.S51200x128 EltTy.f32)
local notation "sV" => (Memref.whole Cert.Kernel.cc0_scratch0 : Memref Cert.Kernel.sig Kind.scVector Space.vmem Cert.Kernel.S1600 EltTy.i32)
local notation "r1V" => (Memref.whole Cert.Kernel.cc0_scratch1 : Memref Cert.Kernel.sig Kind.scVector Space.vmem Cert.Kernel.S80x128 EltTy.f32)
local notation "r2V" => (Memref.whole Cert.Kernel.cc0_scratch2 : Memref Cert.Kernel.sig Kind.scVector Space.vmem Cert.Kernel.S80x128 EltTy.f32)
local notation "r3V" => (Memref.whole Cert.Kernel.cc0_scratch3 : Memref Cert.Kernel.sig Kind.scVector Space.vmem Cert.Kernel.S80x128 EltTy.f32)
local notation "r4V" => (Memref.whole Cert.Kernel.cc0_scratch4 : Memref Cert.Kernel.sig Kind.scVector Space.vmem Cert.Kernel.S80x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc0_scratch5.sem) : GSem nD τ sig) 0 ∗ semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0 ∗ semVal (((V d (cV L) (jV L)), SemLoc.dma cc0_scoped3.sem) : GSem nD τ sig) 0 ∗ semVal (((V d (cV L) (jV L)), SemLoc.dma cc0_scoped4.sem) : GSem nD τ sig) 0
          ∗ bigSep ((((((((((ownCells (V d (cV L) (jV L))).erase (((V d (cV L) (jV L)), SemLoc.dma cc0_scratch5.sem) : GSem nD τ sig)).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)).erase (((V d (cV L) (jV L)), SemLoc.dma cc0_scoped3.sem) : GSem nD τ sig)).erase (((V d (cV L) (jV L)), SemLoc.dma cc0_scoped4.sem) : GSem nD τ sig)) fun g => semVal g 0) := by
  unfold SparseCore.Cfg.ownSems0
  rw [SparseCore.bigSep_erase' ((mem_ownCells (g := (((V d (cV L) (jV L)), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne _ (show (SemLoc.dma cc0_scratch6.sem : SemLoc sig) ≠ SemLoc.dma cc0_scratch5.sem by decide), (mem_ownCells (g := (((V d (cV L) (jV L)), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne _ (show (SemLoc.dma cc0_scratch7.sem : SemLoc sig) ≠ SemLoc.dma cc0_scratch6.sem by decide), Finset.mem_erase.mpr ⟨cell_ne _ (show (SemLoc.dma cc0_scratch7.sem : SemLoc sig) ≠ SemLoc.dma cc0_scratch5.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne _ (show (SemLoc.dma cc0_scratch8.sem : SemLoc sig) ≠ SemLoc.dma cc0_scratch7.sem by decide), Finset.mem_erase.mpr ⟨cell_ne _ (show (SemLoc.dma cc0_scratch8.sem : SemLoc sig) ≠ SemLoc.dma cc0_scratch6.sem by decide), Finset.mem_erase.mpr ⟨cell_ne _ (show (SemLoc.dma cc0_scratch8.sem : SemLoc sig) ≠ SemLoc.dma cc0_scratch5.sem by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨cell_ne _ (show (SemLoc.dma cc0_scoped0.sem : SemLoc sig) ≠ SemLoc.dma cc0_scratch8.sem by decide), Finset.mem_erase.mpr ⟨cell_ne _ (show (SemLoc.dma cc0_scoped0.sem : SemLoc sig) ≠ SemLoc.dma cc0_scratch7.sem by decide), Finset.mem_erase.mpr ⟨cell_ne _ (show (SemLoc.dma cc0_scoped0.sem : SemLoc sig) ≠ SemLoc.dma cc0_scratch6.sem by decide), Finset.mem_erase.mpr ⟨cell_ne _ (show (SemLoc.dma cc0_scoped0.sem : SemLoc sig) ≠ SemLoc.dma cc0_scratch5.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne _ (show (SemLoc.dma cc0_scoped1.sem : SemLoc sig) ≠ SemLoc.dma cc0_scoped0.sem by decide), Finset.mem_erase.mpr ⟨cell_ne _ (show (SemLoc.dma cc0_scoped1.sem : SemLoc sig) ≠ SemLoc.dma cc0_scratch8.sem by decide), Finset.mem_erase.mpr ⟨cell_ne _ (show (SemLoc.dma cc0_scoped1.sem : SemLoc sig) ≠ SemLoc.dma cc0_scratch7.sem by decide), Finset.mem_erase.mpr ⟨cell_ne _ (show (SemLoc.dma cc0_scoped1.sem : SemLoc sig) ≠ SemLoc.dma cc0_scratch6.sem by decide), Finset.mem_erase.mpr ⟨cell_ne _ (show (SemLoc.dma cc0_scoped1.sem : SemLoc sig) ≠ SemLoc.dma cc0_scratch5.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne _ (show (SemLoc.dma cc0_scoped2.sem : SemLoc sig) ≠ SemLoc.dma cc0_scoped1.sem by decide), Finset.mem_erase.mpr ⟨cell_ne _ (show (SemLoc.dma cc0_scoped2.sem : SemLoc sig) ≠ SemLoc.dma cc0_scoped0.sem by decide), Finset.mem_erase.mpr ⟨cell_ne _ (show (SemLoc.dma cc0_scoped2.sem : SemLoc sig) ≠ SemLoc.dma cc0_scratch8.sem by decide), Finset.mem_erase.mpr ⟨cell_ne _ (show (SemLoc.dma cc0_scoped2.sem : SemLoc sig) ≠ SemLoc.dma cc0_scratch7.sem by decide), Finset.mem_erase.mpr ⟨cell_ne _ (show (SemLoc.dma cc0_scoped2.sem : SemLoc sig) ≠ SemLoc.dma cc0_scratch6.sem by decide), Finset.mem_erase.mpr ⟨cell_ne _ (show (SemLoc.dma cc0_scoped2.sem : SemLoc sig) ≠ SemLoc.dma cc0_scratch5.sem by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne _ (show (SemLoc.dma cc0_scoped3.sem : SemLoc sig) ≠ SemLoc.dma cc0_scoped2.sem by decide), Finset.mem_erase.mpr ⟨cell_ne _ (show (SemLoc.dma cc0_scoped3.sem : SemLoc sig) ≠ SemLoc.dma cc0_scoped1.sem by decide), Finset.mem_erase.mpr ⟨cell_ne _ (show (SemLoc.dma cc0_scoped3.sem : SemLoc sig) ≠ SemLoc.dma cc0_scoped0.sem by decide), Finset.mem_erase.mpr ⟨cell_ne _ (show (SemLoc.dma cc0_scoped3.sem : SemLoc sig) ≠ SemLoc.dma cc0_scratch8.sem by decide), Finset.mem_erase.mpr ⟨cell_ne _ (show (SemLoc.dma cc0_scoped3.sem : SemLoc sig) ≠ SemLoc.dma cc0_scratch7.sem by decide), Finset.mem_erase.mpr ⟨cell_ne _ (show (SemLoc.dma cc0_scoped3.sem : SemLoc sig) ≠ SemLoc.dma cc0_scratch6.sem by decide), Finset.mem_erase.mpr ⟨cell_ne _ (show (SemLoc.dma cc0_scoped3.sem : SemLoc sig) ≠ SemLoc.dma cc0_scratch5.sem by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩),
    SparseCore.bigSep_erase' (Finset.mem_erase.mpr ⟨cell_ne _ (show (SemLoc.dma cc0_scoped4.sem : SemLoc sig) ≠ SemLoc.dma cc0_scoped3.sem by decide), Finset.mem_erase.mpr ⟨cell_ne _ (show (SemLoc.dma cc0_scoped4.sem : SemLoc sig) ≠ SemLoc.dma cc0_scoped2.sem by decide), Finset.mem_erase.mpr ⟨cell_ne _ (show (SemLoc.dma cc0_scoped4.sem : SemLoc sig) ≠ SemLoc.dma cc0_scoped1.sem by decide), Finset.mem_erase.mpr ⟨cell_ne _ (show (SemLoc.dma cc0_scoped4.sem : SemLoc sig) ≠ SemLoc.dma cc0_scoped0.sem by decide), Finset.mem_erase.mpr ⟨cell_ne _ (show (SemLoc.dma cc0_scoped4.sem : SemLoc sig) ≠ SemLoc.dma cc0_scratch8.sem by decide), Finset.mem_erase.mpr ⟨cell_ne _ (show (SemLoc.dma cc0_scoped4.sem : SemLoc sig) ≠ SemLoc.dma cc0_scratch7.sem by decide), Finset.mem_erase.mpr ⟨cell_ne _ (show (SemLoc.dma cc0_scoped4.sem : SemLoc sig) ≠ SemLoc.dma cc0_scratch6.sem by decide), Finset.mem_erase.mpr ⟨cell_ne _ (show (SemLoc.dma cc0_scoped4.sem : SemLoc sig) ≠ SemLoc.dma cc0_scratch5.sem by decide), (mem_ownCells (g := (((V d (cV L) (jV L)), SemLoc.dma cc0_scoped4.sem) : GSem nD τ sig))).mpr ⟨rfl, by show (SemLoc.dma cc0_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid0.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid0.Coords) : Rect S51200x128 := Rect.unit (s := S51200x128) ![3200 * (L 1).val + 1600 * (L 0).val, 0] ![1600, 128] (tile_inb L)

omit [FloatOps F] in
theorem tileRows_eq (L : grid0.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc0_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `0 + 3200 s + 1600 c + i` of the flattened ids. -/
def ScratchOK : Prop := ∀ i : Fin 1600, fsc (ix1 (n := 1600) i)
  = idsB m d (ix1 (n := 204800) ⟨0 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc0_scratch0)) (pay : S1600.Idx → Elt F .i32)
    (hpay : pay = ((iV).slice (Rect.unit (s := S204800) (k0_off1 L) S1600.size (k0_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k0_off1 L) S1600.size (k0_off1_inb L)) (fun _ => rfl)).view.read (Elt F) (idsB m d)) Finset.univ
      = ((iV).slice (Rect.unit (s := S204800) (k0_off1 L) S1600.size (k0_off1_inb L)) (fun _ => rfl)).view.read (Elt F) (idsB m d) :=
    View.write_whole_univ cc0_scratch0 _ _
  rw [hw, View.read_apply, cast_eq]
  congr 1
  funext b
  apply Fin.ext
  match b with
  | ⟨0, _⟩ =>
    show (k0_off1 L) 0 + 1 * i.val = 0 + (3200 * (L 1).val + 1600 * (L 0).val) + i.val
    rw [k0_off1_eq]
    show 3200 * (L 1).val + 1600 * (L 0).val + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 0 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨0 * 51200 + (j 0).val, _⟩)).toNat % 100000
    rw [hS ⟨80 * n + (x 0).val, by have h : (x 0).val < 80 := (x 0).isLt; omega⟩]
    exact key _ _ (Fin.ext (by show 0 + (3200 * (L 1).val + 1600 * (L 0).val) + (80 * n + (x 0).val) = 0 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 0 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 0 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc0_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc0_scoped1.sem) : GSem nD τ sig) 0
    ∗ semVal ((V d (cV L) (jV L), SemLoc.dma cc0_scoped2.sem) : GSem nD τ sig) 0
    ∗ semVal ((V d (cV L) (jV L), SemLoc.dma cc0_scoped3.sem) : GSem nD τ sig) 0
    ∗ semVal ((V d (cV L) (jV L), SemLoc.dma cc0_scoped4.sem) : GSem nD τ sig) 0
    ∗ slotAt m d L fsc r1V cc0_scratch5.sem (Transfers.shareDrop fullShare 3) (Transfers.shareTokN (tileSh (L 0).val (L 1).val) 0) (4 * k + 0)
    ∗ slotAt m d L fsc r2V cc0_scratch6.sem (Transfers.shareTokN fullShare 0) (Transfers.shareTokN (tileSh (L 0).val (L 1).val) 1) (4 * k + 1)
    ∗ slotAt m d L fsc r3V cc0_scratch7.sem (Transfers.shareTokN fullShare 1) (Transfers.shareTokN (tileSh (L 0).val (L 1).val) 2) (4 * k + 2)
    ∗ slotAt m d L fsc r4V cc0_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k0_t1_loop.trips = 5 := by decide +kernel
omit [FloatOps F] in
theorem conds_odd : ∀ k : Fin k0_t1_loop.trips, k0_cond1 k = 1#1 ∧ k0_cond3 k = 1#1 ∧ k0_cond5 k = 1#1 ∧ k0_cond7 k = 1#1 := by decide +kernel
omit [FloatOps F] in
theorem conds_even : ∀ k : Fin k0_t1_loop.trips, (k0_cond2 k = 1#1 ↔ k.val < 4) ∧ (k0_cond4 k = 1#1 ↔ k.val < 4) ∧ (k0_cond6 k = 1#1 ↔ k.val < 4) ∧ (k0_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc0_scratch0)) (R : Rect S1600) (hR : ∀ a, R.stride a = 1)
    (pay : S1600.Idx → Elt F .i32)
    (hpay : pay = ((iV).slice (Rect.unit (s := S204800) (k0_off1 L) S1600.size (k0_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k0_off1 L) S1600.size (k0_off1_inb L)) (fun _ => rfl)).view.read (Elt F) (idsB m d)) Finset.univ
      = ((iV).slice (Rect.unit (s := S204800) (k0_off1 L) S1600.size (k0_off1_inb L)) (fun _ => rfl)).view.read (Elt F) (idsB m d) :=
    View.write_whole_univ cc0_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid0.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 0 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc0_scratch5 cc0_scratch6 cc0_scratch7 cc0_scratch8 cc0_scoped0 cc0_scoped1 cc0_scoped2 cc0_scoped3 cc0_scoped4)
          fun _ => iprop(tdRes m 0 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc0_scratch0 ↦{fullShare} fs : sProp 𝕄) = ((sV).view.loc (V d (cV L) (jV L)) ↦{fullShare} fs) from rfl)) $$ Hs
  ihave Hr1' := (Entails.of_eq (show ((V d (cV L) (jV L)).loc cc0_scratch1 ↦{fullShare} f1 : sProp 𝕄) = ((r1V).view.loc (V d (cV L) (jV L)) ↦{fullShare} f1) from rfl)) $$ Hr1
  ihave Hr2' := (Entails.of_eq (show ((V d (cV L) (jV L)).loc cc0_scratch2 ↦{fullShare} f2 : sProp 𝕄) = ((r2V).view.loc (V d (cV L) (jV L)) ↦{fullShare} f2) from rfl)) $$ Hr2
  ihave Hr3' := (Entails.of_eq (show ((V d (cV L) (jV L)).loc cc0_scratch3 ↦{fullShare} f3 : sProp 𝕄) = ((r3V).view.loc (V d (cV L) (jV L)) ↦{fullShare} f3) from rfl)) $$ Hr3
  ihave Hr4' := (Entails.of_eq (show ((V d (cV L) (jV L)).loc cc0_scratch4 ↦{fullShare} f4 : sProp 𝕄) = ((r4V).view.loc (V d (cV L) (jV L)) ↦{fullShare} f4) from rfl)) $$ Hr4
  ihave Ho' := (Entails.of_eq (show (outPts (F := F) 0 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k0_off4 k = ![80 * (4 * (k.val + 1) + 0)] := (k0_off4_eq k).trans (by rw [show 320 = 320 from rfl, show 320 * k.val + 320 = 80 * (4 * (k.val + 1) + 0) by omega])
      have e1 : k0_off7 k = ![80 * (4 * (k.val + 1) + 1)] := (k0_off7_eq k).trans (by rw [show 400 = 400 from rfl, show 320 * k.val + 400 = 80 * (4 * (k.val + 1) + 1) by omega])
      have e2 : k0_off10 k = ![80 * (4 * (k.val + 1) + 2)] := (k0_off10_eq k).trans (by rw [show 480 = 480 from rfl, show 320 * k.val + 480 = 80 * (4 * (k.val + 1) + 2) by omega])
      have e3 : k0_off13 k = ![80 * (4 * (k.val + 1) + 3)] := (k0_off13_eq k).trans (by rw [show 560 = 560 from rfl, show 320 * k.val + 560 = 80 * (4 * (k.val + 1) + 3) by omega])
      irw [← lset_eq (k0_off4 k) (k0_off4_inb k h1 h2) (fun _ => rfl) (4 * (k.val + 1) + 0) (by omega) e0,
        ← lset_eq (k0_off7 k) (k0_off7_inb k h3 h4) (fun _ => rfl) (4 * (k.val + 1) + 1) (by omega) e1,
        ← lset_eq (k0_off10 k) (k0_off10_inb k h5 h6) (fun _ => rfl) (4 * (k.val + 1) + 2) (by omega) e2,
        ← lset_eq (k0_off13 k) (k0_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k0_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k0_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k0_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k0_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k0_off4 k) (k0_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k0_off7 k) (k0_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k0_off10 k) (k0_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k0_off13 k) (k0_off13_inb k h7 h8) (fun _ => rfl) (4 * (k.val + 1) + 3) (by omega) e3 _ _)
      iexists _; isplitr
      swap; · iexact HO
      ipureintro
      repeat (first | exact hW' | refine waits_insert _ ?_)
    · have h2 : ¬ k0_cond2 k = 1#1 := fun h => hlast (e2.mp h)
      have h4 : ¬ k0_cond4 k = 1#1 := fun h => hlast (e4.mp h)
      have h6 : ¬ k0_cond6 k = 1#1 := fun h => hlast (e6.mp h)
      have h8 : ¬ k0_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k0_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k0_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k0_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k0_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k0_t1_loop.lb k0_t1_loop.ub k0_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 0 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc0_scratch5 cc0_scratch6 cc0_scratch7 cc0_scratch8 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v5 ↦[coreRows c]{fullShare} f : sProp 𝕄)
      = bigSep Finset.univ fun i : Fin 16 => (SparseCore.T d).loc main_v5 ↦[tileRows c i.val]{fullShare} f := by
  rw [← pointsTo_biUnion Finset.univ (ℓ := (SparseCore.T d).loc main_v5) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 0 d (tileRows c i.val) f⌝ ∗ (SparseCore.T d).loc main_v5 ↦[tileRows c i.val]{fullShare} f))
      ⊢ (iprop(∃ f, ⌜RowsOK m 0 d (coreRows c) f⌝ ∗ (SparseCore.T d).loc main_v5 ↦[coreRows c]{fullShare} f) : sProp 𝕄) := by
  refine (bigSep_exists_pi Finset.univ (fun (i : Fin 16) (f : Buf (Elt F) ((SparseCore.T d).loc main_v5)) =>
    iprop(⌜RowsOK m 0 d (tileRows c i.val) f⌝ ∗ (SparseCore.T d).loc main_v5 ↦[tileRows c i.val]{fullShare} f))).trans ?_
  iintro ⟨%fs, H⟩
  ihave H' := (bigSep_pure_sep Finset.univ (fun i : Fin 16 => RowsOK m 0 d (tileRows c i.val) (fs i))
    (fun i : Fin 16 => (SparseCore.T d).loc main_v5 ↦[tileRows c i.val]{fullShare} fs i)) $$ H
  icases H' with ⟨%hok, H⟩
  ihave H'' := (pointsTo_biUnion_join (ℓ := (SparseCore.T d).loc main_v5) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v5 ↦[R]{fullShare} f : sProp 𝕄) ⊢ iprop(∃ f, outPts 0 d R f) := by
  iintro H; iexists f
  iapply (Entails.of_eq (show ((SparseCore.T d).loc main_v5 ↦[R]{fullShare} f : sProp 𝕄) = outPts 0 d R f from rfl))
  iexact H

theorem vecSplit : (K (F := F)).VecSplit' (P m) 0 := by
  intro d c
  have hc : c.val < 2 := c.isLt
  show stRes m 0 d c.val ⊢ |={Set.univ}=> iprop((bigSep Finset.univ fun i : Fin 16 => goRes m 0 d c.val i.val)
      ∗ ((bigSep Finset.univ fun i : Fin 16 => tdRes m 0 d c.val i.val) -∗ dnRes m 0 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 0 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v5 ↦[tileRows c.val i.val]{fullShare} f : sProp 𝕄))
        ⊢ bigSep Finset.univ fun i : Fin 16 => iprop(∃ f, outPts 0 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.Kernel.Hand.Tile0

namespace Cert.Kernel.Hand

open Idealize.ShloMosaic

variable {F : FTy → Type} (m : (ℓ : Loc nD τ sig) → Buf (Elt F) ℓ) [FloatOps F]

/-- Gather call 0 on one tile: from the tile's shares of the table and of the ids and its 1600 rows of the chunk, the rows
    written with what the call gathers. -/
theorem tileObl0 (hpre : IdsInRange m) : (K (F := F)).TileObl (D (F := F)) 𝒱 (P m) v₀ 0 := Tile0.tileObl m facts hpre

/-- A SparseCore's operands for gather call 0 split among its sixteen tiles and their results join. -/
theorem vecSplit0 : (K (F := F)).VecSplit' (P m) 0 := Tile0.vecSplit m

end Cert.Kernel.Hand

end
-- ==== Proof.Bits.Tile1.lean ====
/-
  gather call 1 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Bits.Common

noncomputable section

namespace Cert.Kernel.Hand.Tile1

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.Kernel.main_arg2_scv : Memref Cert.Kernel.sig Kind.scVector Space.hbm Cert.Kernel.S100000x128 EltTy.f32)
local notation "iV" => (Memref.whole Cert.Kernel.main_v0_scv : Memref Cert.Kernel.sig Kind.scVector Space.hbm Cert.Kernel.S204800 EltTy.i32)
local notation "oV" => (Memref.whole Cert.Kernel.main_v7_scv : Memref Cert.Kernel.sig Kind.scVector Space.hbm Cert.Kernel.S51200x128 EltTy.f32)
local notation "sV" => (Memref.whole Cert.Kernel.cc1_scratch0 : Memref Cert.Kernel.sig Kind.scVector Space.vmem Cert.Kernel.S1600 EltTy.i32)
local notation "r1V" => (Memref.whole Cert.Kernel.cc1_scratch1 : Memref Cert.Kernel.sig Kind.scVector Space.vmem Cert.Kernel.S80x128 EltTy.f32)
local notation "r2V" => (Memref.whole Cert.Kernel.cc1_scratch2 : Memref Cert.Kernel.sig Kind.scVector Space.vmem Cert.Kernel.S80x128 EltTy.f32)
local notation "r3V" => (Memref.whole Cert.Kernel.cc1_scratch3 : Memref Cert.Kernel.sig Kind.scVector Space.vmem Cert.Kernel.S80x128 EltTy.f32)
local notation "r4V" => (Memref.whole Cert.Kernel.cc1_scratch4 : Memref Cert.Kernel.sig Kind.scVector Space.vmem Cert.Kernel.S80x128 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc1_scratch5.sem) : GSem nD τ sig) 0 ∗ semVal (((V d (cV L) (jV L)), SemLoc.dma cc1_scratch6.sem) : GSem nD τ sig) 0 ∗ semVal (((V d (cV L) (jV L)), SemLoc.dma cc1_scratch7.sem) : GSem nD τ sig) 0 ∗ semVal (((V d (cV L) (jV L)), SemLoc.dma cc1_scratch8.sem) : GSem nD τ sig) 0 ∗ semVal (((V d (cV L) (jV L)), SemLoc.dma cc1_scoped0.sem) : GSem nD τ sig) 0 ∗ semVal (((V d (cV L) (jV L)), SemLoc.dma cc1_scoped1.sem) : GSem nD τ sig) 0 ∗ semVal (((V d (cV L) (jV L)), SemLoc.dma cc1_scoped2.sem) : GSem nD τ sig) 0 ∗ semVal (((V d (cV L) (jV L)), SemLoc.dma cc1_scoped3.sem) : GSem nD τ sig) 0 ∗ semVal (((V d (cV L) (jV L)), SemLoc.dma cc1_scoped4.sem) : GSem nD τ sig) 0
          ∗ bigSep ((((((((((ownCells (V d (cV L) (jV L))).erase (((V d (cV L) (jV L)), SemLoc.dma cc1_scratch5.sem) : GSem nD τ sig)).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scoped0.sem) : GSem nD τ sig)).erase (((V d (cV L) (jV L)), SemLoc.dma cc1_scoped1.sem) : GSem nD τ sig)).erase (((V d (cV L) (jV L)), SemLoc.dma cc1_scoped2.sem) : GSem nD τ sig)).erase (((V d (cV L) (jV L)), SemLoc.dma cc1_scoped3.sem) : GSem nD τ sig)).erase (((V d (cV L) (jV L)), SemLoc.dma cc1_scoped4.sem) : GSem nD τ sig)) fun g => semVal g 0) := by
  unfold SparseCore.Cfg.ownSems0
  rw [SparseCore.bigSep_erase' ((mem_ownCells (g := (((V d (cV L) (jV L)), SemLoc.dma cc1_scratch5.sem) : GSem nD τ sig))).mpr ⟨rfl, by show (SemLoc.dma cc1_scratch5.sem : SemLoc sig).isScoped .scVector = true; decide⟩),
    SparseCore.bigSep_erase' (Finset.mem_erase.mpr ⟨cell_ne _ (show (SemLoc.dma cc1_scratch6.sem : SemLoc sig) ≠ SemLoc.dma cc1_scratch5.sem by decide), (mem_ownCells (g := (((V d (cV L) (jV L)), SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨cell_ne _ (show (SemLoc.dma cc1_scratch7.sem : SemLoc sig) ≠ SemLoc.dma cc1_scratch6.sem by decide), Finset.mem_erase.mpr ⟨cell_ne _ (show (SemLoc.dma cc1_scratch7.sem : SemLoc sig) ≠ SemLoc.dma cc1_scratch5.sem by decide), (mem_ownCells (g := (((V d (cV L) (jV L)), SemLoc.dma cc1_scratch7.sem) : GSem nD τ sig))).mpr ⟨rfl, by show (SemLoc.dma cc1_scratch7.sem : SemLoc sig).isScoped .scVector = true; decide⟩⟩⟩),
    SparseCore.bigSep_erase' (Finset.mem_erase.mpr ⟨cell_ne _ (show (SemLoc.dma cc1_scratch8.sem : SemLoc sig) ≠ SemLoc.dma cc1_scratch7.sem by decide), Finset.mem_erase.mpr ⟨cell_ne _ (show (SemLoc.dma cc1_scratch8.sem : SemLoc sig) ≠ SemLoc.dma cc1_scratch6.sem by decide), Finset.mem_erase.mpr ⟨cell_ne _ (show (SemLoc.dma cc1_scratch8.sem : SemLoc sig) ≠ SemLoc.dma cc1_scratch5.sem by decide), (mem_ownCells (g := (((V d (cV L) (jV L)), SemLoc.dma cc1_scratch8.sem) : GSem nD τ sig))).mpr ⟨rfl, by show (SemLoc.dma cc1_scratch8.sem : SemLoc sig).isScoped .scVector = true; decide⟩⟩⟩⟩),
    SparseCore.bigSep_erase' (Finset.mem_erase.mpr ⟨cell_ne _ (show (SemLoc.dma cc1_scoped0.sem : SemLoc sig) ≠ SemLoc.dma cc1_scratch8.sem by decide), Finset.mem_erase.mpr ⟨cell_ne _ (show (SemLoc.dma cc1_scoped0.sem : SemLoc sig) ≠ SemLoc.dma cc1_scratch7.sem by decide), Finset.mem_erase.mpr ⟨cell_ne _ (show (SemLoc.dma cc1_scoped0.sem : SemLoc sig) ≠ SemLoc.dma cc1_scratch6.sem by decide), Finset.mem_erase.mpr ⟨cell_ne _ (show (SemLoc.dma cc1_scoped0.sem : SemLoc sig) ≠ SemLoc.dma cc1_scratch5.sem by decide), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨cell_ne _ (show (SemLoc.dma cc1_scoped1.sem : SemLoc sig) ≠ SemLoc.dma cc1_scoped0.sem by decide), Finset.mem_erase.mpr ⟨cell_ne _ (show (SemLoc.dma cc1_scoped1.sem : SemLoc sig) ≠ SemLoc.dma cc1_scratch8.sem by decide), Finset.mem_erase.mpr ⟨cell_ne _ (show (SemLoc.dma cc1_scoped1.sem : SemLoc sig) ≠ SemLoc.dma cc1_scratch7.sem by decide), Finset.mem_erase.mpr ⟨cell_ne _ (show (SemLoc.dma cc1_scoped1.sem : SemLoc sig) ≠ SemLoc.dma cc1_scratch6.sem by decide), Finset.mem_erase.mpr ⟨cell_ne _ (show (SemLoc.dma cc1_scoped1.sem : SemLoc sig) ≠ SemLoc.dma cc1_scratch5.sem by decide), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩),
    SparseCore.bigSep_erase' (Finset.mem_erase.mpr ⟨cell_ne _ (show (SemLoc.dma cc1_scoped2.sem : SemLoc sig) ≠ SemLoc.dma cc1_scoped1.sem by decide), Finset.mem_erase.mpr ⟨cell_ne _ (show (SemLoc.dma cc1_scoped2.sem : SemLoc sig) ≠ SemLoc.dma cc1_scoped0.sem by decide), Finset.mem_erase.mpr ⟨cell_ne _ (show (SemLoc.dma cc1_scoped2.sem : SemLoc sig) ≠ SemLoc.dma cc1_scratch8.sem by decide), Finset.mem_erase.mpr ⟨cell_ne _ (show (SemLoc.dma cc1_scoped2.sem : SemLoc sig) ≠ SemLoc.dma cc1_scratch7.sem by decide), Finset.mem_erase.mpr ⟨cell_ne _ (show (SemLoc.dma cc1_scoped2.sem : SemLoc sig) ≠ SemLoc.dma cc1_scratch6.sem by decide), Finset.mem_erase.mpr ⟨cell_ne _ (show (SemLoc.dma cc1_scoped2.sem : SemLoc sig) ≠ SemLoc.dma cc1_scratch5.sem by decide), (mem_ownCells (g := (((V d (cV L) (jV L)), SemLoc.dma cc1_scoped2.sem) : GSem nD τ sig))).mpr ⟨rfl, by show (SemLoc.dma cc1_scoped2.sem : SemLoc sig).isScoped .scVector = true; decide⟩⟩⟩⟩⟩⟩⟩),
    SparseCore.bigSep_erase' (Finset.mem_erase.mpr ⟨cell_ne _ (show (SemLoc.dma cc1_scoped3.sem : SemLoc sig) ≠ SemLoc.dma cc1_scoped2.sem by decide), Finset.mem_erase.mpr ⟨cell_ne _ (show (SemLoc.dma cc1_scoped3.sem : SemLoc sig) ≠ SemLoc.dma cc1_scoped1.sem by decide), Finset.mem_erase.mpr ⟨cell_ne _ (show (SemLoc.dma cc1_scoped3.sem : SemLoc sig) ≠ SemLoc.dma cc1_scoped0.sem by decide), Finset.mem_erase.mpr ⟨cell_ne _ (show (SemLoc.dma cc1_scoped3.sem : SemLoc sig) ≠ SemLoc.dma cc1_scratch8.sem by decide), Finset.mem_erase.mpr ⟨cell_ne _ (show (SemLoc.dma cc1_scoped3.sem : SemLoc sig) ≠ SemLoc.dma cc1_scratch7.sem by decide), Finset.mem_erase.mpr ⟨cell_ne _ (show (SemLoc.dma cc1_scoped3.sem : SemLoc sig) ≠ SemLoc.dma cc1_scratch6.sem by decide), Finset.mem_erase.mpr ⟨cell_ne _ (show (SemLoc.dma cc1_scoped3.sem : SemLoc sig) ≠ SemLoc.dma cc1_scratch5.sem by decide), (mem_ownCells (g := (((V d (cV L) (jV L)), SemLoc.dma cc1_scoped3.sem) : GSem nD τ sig))).mpr ⟨rfl, by show (SemLoc.dma cc1_scoped3.sem : SemLoc sig).isScoped .scVector = true; decide⟩⟩⟩⟩⟩⟩⟩⟩),
    SparseCore.bigSep_erase' (Finset.mem_erase.mpr ⟨cell_ne _ (show (SemLoc.dma cc1_scoped4.sem : SemLoc sig) ≠ SemLoc.dma cc1_scoped3.sem by decide), Finset.mem_erase.mpr ⟨cell_ne _ (show (SemLoc.dma cc1_scoped4.sem : SemLoc sig) ≠ SemLoc.dma cc1_scoped2.sem by decide), Finset.mem_erase.mpr ⟨cell_ne _ (show (SemLoc.dma cc1_scoped4.sem : SemLoc sig) ≠ SemLoc.dma cc1_scoped1.sem by decide), Finset.mem_erase.mpr ⟨cell_ne _ (show (SemLoc.dma cc1_scoped4.sem : SemLoc sig) ≠ SemLoc.dma cc1_scoped0.sem by decide), Finset.mem_erase.mpr ⟨cell_ne _ (show (SemLoc.dma cc1_scoped4.sem : SemLoc sig) ≠ SemLoc.dma cc1_scratch8.sem by decide), Finset.mem_erase.mpr ⟨cell_ne _ (show (SemLoc.dma cc1_scoped4.sem : SemLoc sig) ≠ SemLoc.dma cc1_scratch7.sem by decide), Finset.mem_erase.mpr ⟨cell_ne _ (show (SemLoc.dma cc1_scoped4.sem : SemLoc sig) ≠ SemLoc.dma cc1_scratch6.sem by decide), Finset.mem_erase.mpr ⟨cell_ne _ (show (SemLoc.dma cc1_scoped4.sem : SemLoc sig) ≠ SemLoc.dma cc1_scratch5.sem by decide), (mem_ownCells (g := (((V d (cV L) (jV L)), SemLoc.dma cc1_scoped4.sem) : GSem nD τ sig))).mpr ⟨rfl, by show (SemLoc.dma cc1_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid1.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid1.Coords) : Rect S51200x128 := Rect.unit (s := S51200x128) ![3200 * (L 1).val + 1600 * (L 0).val, 0] ![1600, 128] (tile_inb L)

omit [FloatOps F] in
theorem tileRows_eq (L : grid1.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc1_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `51200 + 3200 s + 1600 c + i` of the flattened ids. -/
def ScratchOK : Prop := ∀ i : Fin 1600, fsc (ix1 (n := 1600) i)
  = idsB m d (ix1 (n := 204800) ⟨51200 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc1_scratch0)) (pay : S1600.Idx → Elt F .i32)
    (hpay : pay = ((iV).slice (Rect.unit (s := S204800) (k1_off1 L) S1600.size (k1_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k1_off1 L) S1600.size (k1_off1_inb L)) (fun _ => rfl)).view.read (Elt F) (idsB m d)) Finset.univ
      = ((iV).slice (Rect.unit (s := S204800) (k1_off1 L) S1600.size (k1_off1_inb L)) (fun _ => rfl)).view.read (Elt F) (idsB m d) :=
    View.write_whole_univ cc1_scratch0 _ _
  rw [hw, View.read_apply, cast_eq]
  congr 1
  funext b
  apply Fin.ext
  match b with
  | ⟨0, _⟩ =>
    show (k1_off1 L) 0 + 1 * i.val = 51200 + (3200 * (L 1).val + 1600 * (L 0).val) + i.val
    rw [k1_off1_eq]
    show 3200 * (L 1).val + 1600 * (L 0).val + 51200 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 1 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨1 * 51200 + (j 0).val, _⟩)).toNat % 100000
    rw [hS ⟨80 * n + (x 0).val, by have h : (x 0).val < 80 := (x 0).isLt; omega⟩]
    exact key _ _ (Fin.ext (by show 51200 + (3200 * (L 1).val + 1600 * (L 0).val) + (80 * n + (x 0).val) = 1 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 1 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 1 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc1_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc1_scoped1.sem) : GSem nD τ sig) 0
    ∗ semVal ((V d (cV L) (jV L), SemLoc.dma cc1_scoped2.sem) : GSem nD τ sig) 0
    ∗ semVal ((V d (cV L) (jV L), SemLoc.dma cc1_scoped3.sem) : GSem nD τ sig) 0
    ∗ semVal ((V d (cV L) (jV L), SemLoc.dma cc1_scoped4.sem) : GSem nD τ sig) 0
    ∗ slotAt m d L fsc r1V cc1_scratch5.sem (Transfers.shareDrop fullShare 3) (Transfers.shareTokN (tileSh (L 0).val (L 1).val) 0) (4 * k + 0)
    ∗ slotAt m d L fsc r2V cc1_scratch6.sem (Transfers.shareTokN fullShare 0) (Transfers.shareTokN (tileSh (L 0).val (L 1).val) 1) (4 * k + 1)
    ∗ slotAt m d L fsc r3V cc1_scratch7.sem (Transfers.shareTokN fullShare 1) (Transfers.shareTokN (tileSh (L 0).val (L 1).val) 2) (4 * k + 2)
    ∗ slotAt m d L fsc r4V cc1_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k1_t1_loop.trips = 5 := by decide +kernel
omit [FloatOps F] in
theorem conds_odd : ∀ k : Fin k1_t1_loop.trips, k1_cond1 k = 1#1 ∧ k1_cond3 k = 1#1 ∧ k1_cond5 k = 1#1 ∧ k1_cond7 k = 1#1 := by decide +kernel
omit [FloatOps F] in
theorem conds_even : ∀ k : Fin k1_t1_loop.trips, (k1_cond2 k = 1#1 ↔ k.val < 4) ∧ (k1_cond4 k = 1#1 ↔ k.val < 4) ∧ (k1_cond6 k = 1#1 ↔ k.val < 4) ∧ (k1_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc1_scratch0)) (R : Rect S1600) (hR : ∀ a, R.stride a = 1)
    (pay : S1600.Idx → Elt F .i32)
    (hpay : pay = ((iV).slice (Rect.unit (s := S204800) (k1_off1 L) S1600.size (k1_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k1_off1 L) S1600.size (k1_off1_inb L)) (fun _ => rfl)).view.read (Elt F) (idsB m d)) Finset.univ
      = ((iV).slice (Rect.unit (s := S204800) (k1_off1 L) S1600.size (k1_off1_inb L)) (fun _ => rfl)).view.read (Elt F) (idsB m d) :=
    View.write_whole_univ cc1_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid1.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 1 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc1_scratch5 cc1_scratch6 cc1_scratch7 cc1_scratch8 cc1_scoped0 cc1_scoped1 cc1_scoped2 cc1_scoped3 cc1_scoped4)
          fun _ => iprop(tdRes m 1 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hr1' := (Entails.of_eq (show ((V d (cV L) (jV L)).loc cc1_scratch1 ↦{fullShare} f1 : sProp 𝕄) = ((r1V).view.loc (V d (cV L) (jV L)) ↦{fullShare} f1) from rfl)) $$ Hr1
  ihave Hr2' := (Entails.of_eq (show ((V d (cV L) (jV L)).loc cc1_scratch2 ↦{fullShare} f2 : sProp 𝕄) = ((r2V).view.loc (V d (cV L) (jV L)) ↦{fullShare} f2) from rfl)) $$ Hr2
  ihave Hr3' := (Entails.of_eq (show ((V d (cV L) (jV L)).loc cc1_scratch3 ↦{fullShare} f3 : sProp 𝕄) = ((r3V).view.loc (V d (cV L) (jV L)) ↦{fullShare} f3) from rfl)) $$ Hr3
  ihave Hr4' := (Entails.of_eq (show ((V d (cV L) (jV L)).loc cc1_scratch4 ↦{fullShare} f4 : sProp 𝕄) = ((r4V).view.loc (V d (cV L) (jV L)) ↦{fullShare} f4) from rfl)) $$ Hr4
  ihave Ho' := (Entails.of_eq (show (outPts (F := F) 1 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k1_off4 k = ![80 * (4 * (k.val + 1) + 0)] := (k1_off4_eq k).trans (by rw [show 320 = 320 from rfl, show 320 * k.val + 320 = 80 * (4 * (k.val + 1) + 0) by omega])
      have e1 : k1_off7 k = ![80 * (4 * (k.val + 1) + 1)] := (k1_off7_eq k).trans (by rw [show 400 = 400 from rfl, show 320 * k.val + 400 = 80 * (4 * (k.val + 1) + 1) by omega])
      have e2 : k1_off10 k = ![80 * (4 * (k.val + 1) + 2)] := (k1_off10_eq k).trans (by rw [show 480 = 480 from rfl, show 320 * k.val + 480 = 80 * (4 * (k.val + 1) + 2) by omega])
      have e3 : k1_off13 k = ![80 * (4 * (k.val + 1) + 3)] := (k1_off13_eq k).trans (by rw [show 560 = 560 from rfl, show 320 * k.val + 560 = 80 * (4 * (k.val + 1) + 3) by omega])
      irw [← lset_eq (k1_off4 k) (k1_off4_inb k h1 h2) (fun _ => rfl) (4 * (k.val + 1) + 0) (by omega) e0,
        ← lset_eq (k1_off7 k) (k1_off7_inb k h3 h4) (fun _ => rfl) (4 * (k.val + 1) + 1) (by omega) e1,
        ← lset_eq (k1_off10 k) (k1_off10_inb k h5 h6) (fun _ => rfl) (4 * (k.val + 1) + 2) (by omega) e2,
        ← lset_eq (k1_off13 k) (k1_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k1_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k1_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k1_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k1_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k1_off4 k) (k1_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k1_off7 k) (k1_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k1_off10 k) (k1_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k1_off13 k) (k1_off13_inb k h7 h8) (fun _ => rfl) (4 * (k.val + 1) + 3) (by omega) e3 _ _)
      iexists _; isplitr
      swap; · iexact HO
      ipureintro
      repeat (first | exact hW' | refine waits_insert _ ?_)
    · have h2 : ¬ k1_cond2 k = 1#1 := fun h => hlast (e2.mp h)
      have h4 : ¬ k1_cond4 k = 1#1 := fun h => hlast (e4.mp h)
      have h6 : ¬ k1_cond6 k = 1#1 := fun h => hlast (e6.mp h)
      have h8 : ¬ k1_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k1_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k1_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k1_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k1_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k1_t1_loop.lb k1_t1_loop.ub k1_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 1 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc1_scratch5 cc1_scratch6 cc1_scratch7 cc1_scratch8 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v7 ↦[coreRows c]{fullShare} f : sProp 𝕄)
      = bigSep Finset.univ fun i : Fin 16 => (SparseCore.T d).loc main_v7 ↦[tileRows c i.val]{fullShare} f := by
  rw [← pointsTo_biUnion Finset.univ (ℓ := (SparseCore.T d).loc main_v7) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 1 d (tileRows c i.val) f⌝ ∗ (SparseCore.T d).loc main_v7 ↦[tileRows c i.val]{fullShare} f))
      ⊢ (iprop(∃ f, ⌜RowsOK m 1 d (coreRows c) f⌝ ∗ (SparseCore.T d).loc main_v7 ↦[coreRows c]{fullShare} f) : sProp 𝕄) := by
  refine (bigSep_exists_pi Finset.univ (fun (i : Fin 16) (f : Buf (Elt F) ((SparseCore.T d).loc main_v7)) =>
    iprop(⌜RowsOK m 1 d (tileRows c i.val) f⌝ ∗ (SparseCore.T d).loc main_v7 ↦[tileRows c i.val]{fullShare} f))).trans ?_
  iintro ⟨%fs, H⟩
  ihave H' := (bigSep_pure_sep Finset.univ (fun i : Fin 16 => RowsOK m 1 d (tileRows c i.val) (fs i))
    (fun i : Fin 16 => (SparseCore.T d).loc main_v7 ↦[tileRows c i.val]{fullShare} fs i)) $$ H
  icases H' with ⟨%hok, H⟩
  ihave H'' := (pointsTo_biUnion_join (ℓ := (SparseCore.T d).loc main_v7) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v7 ↦[R]{fullShare} f : sProp 𝕄) ⊢ iprop(∃ f, outPts 1 d R f) := by
  iintro H; iexists f
  iapply (Entails.of_eq (show ((SparseCore.T d).loc main_v7 ↦[R]{fullShare} f : sProp 𝕄) = outPts 1 d R f from rfl))
  iexact H

theorem vecSplit : (K (F := F)).VecSplit' (P m) 1 := by
  intro d c
  have hc : c.val < 2 := c.isLt
  show stRes m 1 d c.val ⊢ |={Set.univ}=> iprop((bigSep Finset.univ fun i : Fin 16 => goRes m 1 d c.val i.val)
      ∗ ((bigSep Finset.univ fun i : Fin 16 => tdRes m 1 d c.val i.val) -∗ dnRes m 1 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 1 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v7 ↦[tileRows c.val i.val]{fullShare} f : sProp 𝕄))
        ⊢ bigSep Finset.univ fun i : Fin 16 => iprop(∃ f, outPts 1 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.Kernel.Hand.Tile1

namespace Cert.Kernel.Hand

open Idealize.ShloMosaic

variable {F : FTy → Type} (m : (ℓ : Loc nD τ sig) → Buf (Elt F) ℓ) [FloatOps F]

/-- gather call 1 on one tile: from the tile's shares of the table and of the ids and its 1600 rows of the chunk, the rows
    written with what the call gathers. -/
theorem tileObl1 (hpre : IdsInRange m) : (K (F := F)).TileObl (D (F := F)) 𝒱 (P m) v₀ 1 := Tile1.tileObl m facts hpre

/-- A SparseCore's operands for gather call 1 split among its sixteen tiles and their results join. -/
theorem vecSplit1 : (K (F := F)).VecSplit' (P m) 1 := Tile1.vecSplit m

end Cert.Kernel.Hand

end
-- ==== Proof.Bits.Tile2.lean ====
/-
  gather call 2 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Bits.Common

noncomputable section

namespace Cert.Kernel.Hand.Tile2

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.Kernel.main_arg2_scv : Memref Cert.Kernel.sig Kind.scVector Space.hbm Cert.Kernel.S100000x128 EltTy.f32)
local notation "iV" => (Memref.whole Cert.Kernel.main_v0_scv : Memref Cert.Kernel.sig Kind.scVector Space.hbm Cert.Kernel.S204800 EltTy.i32)
local notation "oV" => (Memref.whole Cert.Kernel.main_v9_scv : Memref Cert.Kernel.sig Kind.scVector Space.hbm Cert.Kernel.S51200x128 EltTy.f32)
local notation "sV" => (Memref.whole Cert.Kernel.cc2_scratch0 : Memref Cert.Kernel.sig Kind.scVector Space.vmem Cert.Kernel.S1600 EltTy.i32)
local notation "r1V" => (Memref.whole Cert.Kernel.cc2_scratch1 : Memref Cert.Kernel.sig Kind.scVector Space.vmem Cert.Kernel.S80x128 EltTy.f32)
local notation "r2V" => (Memref.whole Cert.Kernel.cc2_scratch2 : Memref Cert.Kernel.sig Kind.scVector Space.vmem Cert.Kernel.S80x128 EltTy.f32)
local notation "r3V" => (Memref.whole Cert.Kernel.cc2_scratch3 : Memref Cert.Kernel.sig Kind.scVector Space.vmem Cert.Kernel.S80x128 EltTy.f32)
local notation "r4V" => (Memref.whole Cert.Kernel.cc2_scratch4 : Memref Cert.Kernel.sig Kind.scVector Space.vmem Cert.Kernel.S80x128 EltTy.f32)

variable [FloatOps F]

section Tile

variable (d : Dev nD) (L : grid2.Coords)

abbrev cV (L : grid2.Coords) : Fin τ.nSC := (L 0).castLE hcore2
abbrev jV (L : grid2.Coords) : Fin τ.nSub := (L 1).castLE hsub2

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc2_scratch5.sem) : GSem nD τ sig) 0 ∗ semVal (((V d (cV L) (jV L)), SemLoc.dma cc2_scratch6.sem) : GSem nD τ sig) 0 ∗ semVal (((V d (cV L) (jV L)), SemLoc.dma cc2_scratch7.sem) : GSem nD τ sig) 0 ∗ semVal (((V d (cV L) (jV L)), SemLoc.dma cc2_scratch8.sem) : GSem nD τ sig) 0 ∗ semVal (((V d (cV L) (jV L)), SemLoc.dma cc2_scoped0.sem) : GSem nD τ sig) 0 ∗ semVal (((V d (cV L) (jV L)), SemLoc.dma cc2_scoped1.sem) : GSem nD τ sig) 0 ∗ semVal (((V d (cV L) (jV L)), SemLoc.dma cc2_scoped2.sem) : GSem nD τ sig) 0 ∗ semVal (((V d (cV L) (jV L)), SemLoc.dma cc2_scoped3.sem) : GSem nD τ sig) 0 ∗ semVal (((V d (cV L) (jV L)), SemLoc.dma cc2_scoped4.sem) : GSem nD τ sig) 0
          ∗ bigSep ((((((((((ownCells (V d (cV L) (jV L))).erase (((V d (cV L) (jV L)), SemLoc.dma cc2_scratch5.sem) : GSem nD τ sig)).erase (((V d (cV L) (jV L)), SemLoc.dma cc2_scratch6.sem) : GSem nD τ sig)).erase (((V d (cV L) (jV L)), SemLoc.dma cc2_scratch7.sem) : GSem nD τ sig)).erase (((V d (cV L) (jV L)), SemLoc.dma cc2_scratch8.sem) : GSem nD τ sig)).erase (((V d (cV L) (jV L)), SemLoc.dma cc2_scoped0.sem) : GSem nD τ sig)).erase (((V d (cV L) (jV L)), SemLoc.dma cc2_scoped1.sem) : GSem nD τ sig)).erase (((V d (cV L) (jV L)), SemLoc.dma cc2_scoped2.sem) : GSem nD τ sig)).erase (((V d (cV L) (jV L)), SemLoc.dma cc2_scoped3.sem) : GSem nD τ sig)).erase (((V d (cV L) (jV L)), SemLoc.dma cc2_scoped4.sem) : GSem nD τ sig)) fun g => semVal g 0) := by
  unfold SparseCore.Cfg.ownSems0
  rw [SparseCore.bigSep_erase' ((mem_ownCells (g := (((V d (cV L) (jV L)), SemLoc.dma cc2_scratch5.sem) : GSem nD τ sig))).mpr ⟨rfl, by show (SemLoc.dma cc2_scratch5.sem : SemLoc sig).isScoped .scVector = true; decide⟩),
    SparseCore.bigSep_erase' (Finset.mem_erase.mpr ⟨cell_ne _ (show (SemLoc.dma cc2_scratch6.sem : SemLoc sig) ≠ SemLoc.dma cc2_scratch5.sem by decide), (mem_ownCells (g := (((V d (cV L) (jV L)), SemLoc.dma cc2_scratch6.sem) : GSem nD τ sig))).mpr ⟨rfl, by show (SemLoc.dma cc2_scratch6.sem : SemLoc sig).isScoped .scVector = true; decide⟩⟩),
    SparseCore.bigSep_erase' (Finset.mem_erase.mpr ⟨cell_ne _ (show (SemLoc.dma cc2_scratch7.sem : SemLoc sig) ≠ SemLoc.dma cc2_scratch6.sem by decide), Finset.mem_erase.mpr ⟨cell_ne _ (show (SemLoc.dma cc2_scratch7.sem : SemLoc sig) ≠ SemLoc.dma cc2_scratch5.sem by decide), (mem_ownCells (g := (((V d (cV L) (jV L)), SemLoc.dma cc2_scratch7.sem) : GSem nD τ sig))).mpr ⟨rfl, by show (SemLoc.dma cc2_scratch7.sem : SemLoc sig).isScoped .scVector = true; decide⟩⟩⟩),
    SparseCore.bigSep_erase' (Finset.mem_erase.mpr ⟨cell_ne _ (show (SemLoc.dma cc2_scratch8.sem : SemLoc sig) ≠ SemLoc.dma cc2_scratch7.sem by decide), Finset.mem_erase.mpr ⟨cell_ne _ (show (SemLoc.dma cc2_scratch8.sem : SemLoc sig) ≠ SemLoc.dma cc2_scratch6.sem by decide), Finset.mem_erase.mpr ⟨cell_ne _ (show (SemLoc.dma cc2_scratch8.sem : SemLoc sig) ≠ SemLoc.dma cc2_scratch5.sem by decide), (mem_ownCells (g := (((V d (cV L) (jV L)), SemLoc.dma cc2_scratch8.sem) : GSem nD τ sig))).mpr ⟨rfl, by show (SemLoc.dma cc2_scratch8.sem : SemLoc sig).isScoped .scVector = true; decide⟩⟩⟩⟩),
    SparseCore.bigSep_erase' (Finset.mem_erase.mpr ⟨cell_ne _ (show (SemLoc.dma cc2_scoped0.sem : SemLoc sig) ≠ SemLoc.dma cc2_scratch8.sem by decide), Finset.mem_erase.mpr ⟨cell_ne _ (show (SemLoc.dma cc2_scoped0.sem : SemLoc sig) ≠ SemLoc.dma cc2_scratch7.sem by decide), Finset.mem_erase.mpr ⟨cell_ne _ (show (SemLoc.dma cc2_scoped0.sem : SemLoc sig) ≠ SemLoc.dma cc2_scratch6.sem by decide), Finset.mem_erase.mpr ⟨cell_ne _ (show (SemLoc.dma cc2_scoped0.sem : SemLoc sig) ≠ SemLoc.dma cc2_scratch5.sem by decide), (mem_ownCells (g := (((V d (cV L) (jV L)), SemLoc.dma cc2_scoped0.sem) : GSem nD τ sig))).mpr ⟨rfl, by show (SemLoc.dma cc2_scoped0.sem : SemLoc sig).isScoped .scVector = true; decide⟩⟩⟩⟩⟩),
    SparseCore.bigSep_erase' (Finset.mem_erase.mpr ⟨cell_ne _ (show (SemLoc.dma cc2_scoped1.sem : SemLoc sig) ≠ SemLoc.dma cc2_scoped0.sem by decide), Finset.mem_erase.mpr ⟨cell_ne _ (show (SemLoc.dma cc2_scoped1.sem : SemLoc sig) ≠ SemLoc.dma cc2_scratch8.sem by decide), Finset.mem_erase.mpr ⟨cell_ne _ (show (SemLoc.dma cc2_scoped1.sem : SemLoc sig) ≠ SemLoc.dma cc2_scratch7.sem by decide), Finset.mem_erase.mpr ⟨cell_ne _ (show (SemLoc.dma cc2_scoped1.sem : SemLoc sig) ≠ SemLoc.dma cc2_scratch6.sem by decide), Finset.mem_erase.mpr ⟨cell_ne _ (show (SemLoc.dma cc2_scoped1.sem : SemLoc sig) ≠ SemLoc.dma cc2_scratch5.sem by decide), (mem_ownCells (g := (((V d (cV L) (jV L)), SemLoc.dma cc2_scoped1.sem) : GSem nD τ sig))).mpr ⟨rfl, by show (SemLoc.dma cc2_scoped1.sem : SemLoc sig).isScoped .scVector = true; decide⟩⟩⟩⟩⟩⟩),
    SparseCore.bigSep_erase' (Finset.mem_erase.mpr ⟨cell_ne _ (show (SemLoc.dma cc2_scoped2.sem : SemLoc sig) ≠ SemLoc.dma cc2_scoped1.sem by decide), Finset.mem_erase.mpr ⟨cell_ne _ (show (SemLoc.dma cc2_scoped2.sem : SemLoc sig) ≠ SemLoc.dma cc2_scoped0.sem by decide), Finset.mem_erase.mpr ⟨cell_ne _ (show (SemLoc.dma cc2_scoped2.sem : SemLoc sig) ≠ SemLoc.dma cc2_scratch8.sem by decide), Finset.mem_erase.mpr ⟨cell_ne _ (show (SemLoc.dma cc2_scoped2.sem : SemLoc sig) ≠ SemLoc.dma cc2_scratch7.sem by decide), Finset.mem_erase.mpr ⟨cell_ne _ (show (SemLoc.dma cc2_scoped2.sem : SemLoc sig) ≠ SemLoc.dma cc2_scratch6.sem by decide), Finset.mem_erase.mpr ⟨cell_ne _ (show (SemLoc.dma cc2_scoped2.sem : SemLoc sig) ≠ SemLoc.dma cc2_scratch5.sem by decide), (mem_ownCells (g := (((V d (cV L) (jV L)), SemLoc.dma cc2_scoped2.sem) : GSem nD τ sig))).mpr ⟨rfl, by show (SemLoc.dma cc2_scoped2.sem : SemLoc sig).isScoped .scVector = true; decide⟩⟩⟩⟩⟩⟩⟩),
    SparseCore.bigSep_erase' (Finset.mem_erase.mpr ⟨cell_ne _ (show (SemLoc.dma cc2_scoped3.sem : SemLoc sig) ≠ SemLoc.dma cc2_scoped2.sem by decide), Finset.mem_erase.mpr ⟨cell_ne _ (show (SemLoc.dma cc2_scoped3.sem : SemLoc sig) ≠ SemLoc.dma cc2_scoped1.sem by decide), Finset.mem_erase.mpr ⟨cell_ne _ (show (SemLoc.dma cc2_scoped3.sem : SemLoc sig) ≠ SemLoc.dma cc2_scoped0.sem by decide), Finset.mem_erase.mpr ⟨cell_ne _ (show (SemLoc.dma cc2_scoped3.sem : SemLoc sig) ≠ SemLoc.dma cc2_scratch8.sem by decide), Finset.mem_erase.mpr ⟨cell_ne _ (show (SemLoc.dma cc2_scoped3.sem : SemLoc sig) ≠ SemLoc.dma cc2_scratch7.sem by decide), Finset.mem_erase.mpr ⟨cell_ne _ (show (SemLoc.dma cc2_scoped3.sem : SemLoc sig) ≠ SemLoc.dma cc2_scratch6.sem by decide), Finset.mem_erase.mpr ⟨cell_ne _ (show (SemLoc.dma cc2_scoped3.sem : SemLoc sig) ≠ SemLoc.dma cc2_scratch5.sem by decide), (mem_ownCells (g := (((V d (cV L) (jV L)), SemLoc.dma cc2_scoped3.sem) : GSem nD τ sig))).mpr ⟨rfl, by show (SemLoc.dma cc2_scoped3.sem : SemLoc sig).isScoped .scVector = true; decide⟩⟩⟩⟩⟩⟩⟩⟩),
    SparseCore.bigSep_erase' (Finset.mem_erase.mpr ⟨cell_ne _ (show (SemLoc.dma cc2_scoped4.sem : SemLoc sig) ≠ SemLoc.dma cc2_scoped3.sem by decide), Finset.mem_erase.mpr ⟨cell_ne _ (show (SemLoc.dma cc2_scoped4.sem : SemLoc sig) ≠ SemLoc.dma cc2_scoped2.sem by decide), Finset.mem_erase.mpr ⟨cell_ne _ (show (SemLoc.dma cc2_scoped4.sem : SemLoc sig) ≠ SemLoc.dma cc2_scoped1.sem by decide), Finset.mem_erase.mpr ⟨cell_ne _ (show (SemLoc.dma cc2_scoped4.sem : SemLoc sig) ≠ SemLoc.dma cc2_scoped0.sem by decide), Finset.mem_erase.mpr ⟨cell_ne _ (show (SemLoc.dma cc2_scoped4.sem : SemLoc sig) ≠ SemLoc.dma cc2_scratch8.sem by decide), Finset.mem_erase.mpr ⟨cell_ne _ (show (SemLoc.dma cc2_scoped4.sem : SemLoc sig) ≠ SemLoc.dma cc2_scratch7.sem by decide), Finset.mem_erase.mpr ⟨cell_ne _ (show (SemLoc.dma cc2_scoped4.sem : SemLoc sig) ≠ SemLoc.dma cc2_scratch6.sem by decide), Finset.mem_erase.mpr ⟨cell_ne _ (show (SemLoc.dma cc2_scoped4.sem : SemLoc sig) ≠ SemLoc.dma cc2_scratch5.sem by decide), (mem_ownCells (g := (((V d (cV L) (jV L)), SemLoc.dma cc2_scoped4.sem) : GSem nD τ sig))).mpr ⟨rfl, by show (SemLoc.dma cc2_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f)
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := ((Proc.scVector (cV L) (jV L)).devRef cc2_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid2.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid2.Coords) : Rect S51200x128 := Rect.unit (s := S51200x128) ![3200 * (L 1).val + 1600 * (L 0).val, 0] ![1600, 128] (tile_inb L)

omit [FloatOps F] in
theorem tileRows_eq (L : grid2.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc2_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `102400 + 3200 s + 1600 c + i` of the flattened ids. -/
def ScratchOK : Prop := ∀ i : Fin 1600, fsc (ix1 (n := 1600) i)
  = idsB m d (ix1 (n := 204800) ⟨102400 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc2_scratch0)) (pay : S1600.Idx → Elt F .i32)
    (hpay : pay = ((iV).slice (Rect.unit (s := S204800) (k2_off1 L) S1600.size (k2_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k2_off1 L) S1600.size (k2_off1_inb L)) (fun _ => rfl)).view.read (Elt F) (idsB m d)) Finset.univ
      = ((iV).slice (Rect.unit (s := S204800) (k2_off1 L) S1600.size (k2_off1_inb L)) (fun _ => rfl)).view.read (Elt F) (idsB m d) :=
    View.write_whole_univ cc2_scratch0 _ _
  rw [hw, View.read_apply, cast_eq]
  congr 1
  funext b
  apply Fin.ext
  match b with
  | ⟨0, _⟩ =>
    show (k2_off1 L) 0 + 1 * i.val = 102400 + (3200 * (L 1).val + 1600 * (L 0).val) + i.val
    rw [k2_off1_eq]
    show 3200 * (L 1).val + 1600 * (L 0).val + 102400 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 2 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨2 * 51200 + (j 0).val, _⟩)).toNat % 100000
    rw [hS ⟨80 * n + (x 0).val, by have h : (x 0).val < 80 := (x 0).isLt; omega⟩]
    exact key _ _ (Fin.ext (by show 102400 + (3200 * (L 1).val + 1600 * (L 0).val) + (80 * n + (x 0).val) = 2 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 2 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 2 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc2_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc2_scoped1.sem) : GSem nD τ sig) 0
    ∗ semVal ((V d (cV L) (jV L), SemLoc.dma cc2_scoped2.sem) : GSem nD τ sig) 0
    ∗ semVal ((V d (cV L) (jV L), SemLoc.dma cc2_scoped3.sem) : GSem nD τ sig) 0
    ∗ semVal ((V d (cV L) (jV L), SemLoc.dma cc2_scoped4.sem) : GSem nD τ sig) 0
    ∗ slotAt m d L fsc r1V cc2_scratch5.sem (Transfers.shareDrop fullShare 3) (Transfers.shareTokN (tileSh (L 0).val (L 1).val) 0) (4 * k + 0)
    ∗ slotAt m d L fsc r2V cc2_scratch6.sem (Transfers.shareTokN fullShare 0) (Transfers.shareTokN (tileSh (L 0).val (L 1).val) 1) (4 * k + 1)
    ∗ slotAt m d L fsc r3V cc2_scratch7.sem (Transfers.shareTokN fullShare 1) (Transfers.shareTokN (tileSh (L 0).val (L 1).val) 2) (4 * k + 2)
    ∗ slotAt m d L fsc r4V cc2_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k2_t1_loop.trips = 5 := by decide +kernel
omit [FloatOps F] in
theorem conds_odd : ∀ k : Fin k2_t1_loop.trips, k2_cond1 k = 1#1 ∧ k2_cond3 k = 1#1 ∧ k2_cond5 k = 1#1 ∧ k2_cond7 k = 1#1 := by decide +kernel
omit [FloatOps F] in
theorem conds_even : ∀ k : Fin k2_t1_loop.trips, (k2_cond2 k = 1#1 ↔ k.val < 4) ∧ (k2_cond4 k = 1#1 ↔ k.val < 4) ∧ (k2_cond6 k = 1#1 ↔ k.val < 4) ∧ (k2_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc2_scratch0)) (R : Rect S1600) (hR : ∀ a, R.stride a = 1)
    (pay : S1600.Idx → Elt F .i32)
    (hpay : pay = ((iV).slice (Rect.unit (s := S204800) (k2_off1 L) S1600.size (k2_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k2_off1 L) S1600.size (k2_off1_inb L)) (fun _ => rfl)).view.read (Elt F) (idsB m d)) Finset.univ
      = ((iV).slice (Rect.unit (s := S204800) (k2_off1 L) S1600.size (k2_off1_inb L)) (fun _ => rfl)).view.read (Elt F) (idsB m d) :=
    View.write_whole_univ cc2_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid2.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 2 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc2_scratch5 cc2_scratch6 cc2_scratch7 cc2_scratch8 cc2_scoped0 cc2_scoped1 cc2_scoped2 cc2_scoped3 cc2_scoped4)
          fun _ => iprop(tdRes m 2 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc2_scratch0 ↦{fullShare} fs : sProp 𝕄) = ((sV).view.loc (V d (cV L) (jV L)) ↦{fullShare} fs) from rfl)) $$ Hs
  ihave Hr1' := (Entails.of_eq (show ((V d (cV L) (jV L)).loc cc2_scratch1 ↦{fullShare} f1 : sProp 𝕄) = ((r1V).view.loc (V d (cV L) (jV L)) ↦{fullShare} f1) from rfl)) $$ Hr1
  ihave Hr2' := (Entails.of_eq (show ((V d (cV L) (jV L)).loc cc2_scratch2 ↦{fullShare} f2 : sProp 𝕄) = ((r2V).view.loc (V d (cV L) (jV L)) ↦{fullShare} f2) from rfl)) $$ Hr2
  ihave Hr3' := (Entails.of_eq (show ((V d (cV L) (jV L)).loc cc2_scratch3 ↦{fullShare} f3 : sProp 𝕄) = ((r3V).view.loc (V d (cV L) (jV L)) ↦{fullShare} f3) from rfl)) $$ Hr3
  ihave Hr4' := (Entails.of_eq (show ((V d (cV L) (jV L)).loc cc2_scratch4 ↦{fullShare} f4 : sProp 𝕄) = ((r4V).view.loc (V d (cV L) (jV L)) ↦{fullShare} f4) from rfl)) $$ Hr4
  ihave Ho' := (Entails.of_eq (show (outPts (F := F) 2 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k2_off4 k = ![80 * (4 * (k.val + 1) + 0)] := (k2_off4_eq k).trans (by rw [show 320 = 320 from rfl, show 320 * k.val + 320 = 80 * (4 * (k.val + 1) + 0) by omega])
      have e1 : k2_off7 k = ![80 * (4 * (k.val + 1) + 1)] := (k2_off7_eq k).trans (by rw [show 400 = 400 from rfl, show 320 * k.val + 400 = 80 * (4 * (k.val + 1) + 1) by omega])
      have e2 : k2_off10 k = ![80 * (4 * (k.val + 1) + 2)] := (k2_off10_eq k).trans (by rw [show 480 = 480 from rfl, show 320 * k.val + 480 = 80 * (4 * (k.val + 1) + 2) by omega])
      have e3 : k2_off13 k = ![80 * (4 * (k.val + 1) + 3)] := (k2_off13_eq k).trans (by rw [show 560 = 560 from rfl, show 320 * k.val + 560 = 80 * (4 * (k.val + 1) + 3) by omega])
      irw [← lset_eq (k2_off4 k) (k2_off4_inb k h1 h2) (fun _ => rfl) (4 * (k.val + 1) + 0) (by omega) e0,
        ← lset_eq (k2_off7 k) (k2_off7_inb k h3 h4) (fun _ => rfl) (4 * (k.val + 1) + 1) (by omega) e1,
        ← lset_eq (k2_off10 k) (k2_off10_inb k h5 h6) (fun _ => rfl) (4 * (k.val + 1) + 2) (by omega) e2,
        ← lset_eq (k2_off13 k) (k2_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k2_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k2_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k2_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k2_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k2_off4 k) (k2_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k2_off7 k) (k2_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k2_off10 k) (k2_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k2_off13 k) (k2_off13_inb k h7 h8) (fun _ => rfl) (4 * (k.val + 1) + 3) (by omega) e3 _ _)
      iexists _; isplitr
      swap; · iexact HO
      ipureintro
      repeat (first | exact hW' | refine waits_insert _ ?_)
    · have h2 : ¬ k2_cond2 k = 1#1 := fun h => hlast (e2.mp h)
      have h4 : ¬ k2_cond4 k = 1#1 := fun h => hlast (e4.mp h)
      have h6 : ¬ k2_cond6 k = 1#1 := fun h => hlast (e6.mp h)
      have h8 : ¬ k2_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k2_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k2_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k2_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k2_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k2_t1_loop.lb k2_t1_loop.ub k2_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 2 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc2_scratch5 cc2_scratch6 cc2_scratch7 cc2_scratch8 cc2_scoped0 cc2_scoped1 cc2_scoped2 cc2_scoped3 cc2_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v9 ↦[coreRows c]{fullShare} f : sProp 𝕄)
      = bigSep Finset.univ fun i : Fin 16 => (SparseCore.T d).loc main_v9 ↦[tileRows c i.val]{fullShare} f := by
  rw [← pointsTo_biUnion Finset.univ (ℓ := (SparseCore.T d).loc main_v9) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 2 d (tileRows c i.val) f⌝ ∗ (SparseCore.T d).loc main_v9 ↦[tileRows c i.val]{fullShare} f))
      ⊢ (iprop(∃ f, ⌜RowsOK m 2 d (coreRows c) f⌝ ∗ (SparseCore.T d).loc main_v9 ↦[coreRows c]{fullShare} f) : sProp 𝕄) := by
  refine (bigSep_exists_pi Finset.univ (fun (i : Fin 16) (f : Buf (Elt F) ((SparseCore.T d).loc main_v9)) =>
    iprop(⌜RowsOK m 2 d (tileRows c i.val) f⌝ ∗ (SparseCore.T d).loc main_v9 ↦[tileRows c i.val]{fullShare} f))).trans ?_
  iintro ⟨%fs, H⟩
  ihave H' := (bigSep_pure_sep Finset.univ (fun i : Fin 16 => RowsOK m 2 d (tileRows c i.val) (fs i))
    (fun i : Fin 16 => (SparseCore.T d).loc main_v9 ↦[tileRows c i.val]{fullShare} fs i)) $$ H
  icases H' with ⟨%hok, H⟩
  ihave H'' := (pointsTo_biUnion_join (ℓ := (SparseCore.T d).loc main_v9) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v9 ↦[R]{fullShare} f : sProp 𝕄) ⊢ iprop(∃ f, outPts 2 d R f) := by
  iintro H; iexists f
  iapply (Entails.of_eq (show ((SparseCore.T d).loc main_v9 ↦[R]{fullShare} f : sProp 𝕄) = outPts 2 d R f from rfl))
  iexact H

theorem vecSplit : (K (F := F)).VecSplit' (P m) 2 := by
  intro d c
  have hc : c.val < 2 := c.isLt
  show stRes m 2 d c.val ⊢ |={Set.univ}=> iprop((bigSep Finset.univ fun i : Fin 16 => goRes m 2 d c.val i.val)
      ∗ ((bigSep Finset.univ fun i : Fin 16 => tdRes m 2 d c.val i.val) -∗ dnRes m 2 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 2 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v9 ↦[tileRows c.val i.val]{fullShare} f : sProp 𝕄))
        ⊢ bigSep Finset.univ fun i : Fin 16 => iprop(∃ f, outPts 2 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.Kernel.Hand.Tile2

namespace Cert.Kernel.Hand

open Idealize.ShloMosaic

variable {F : FTy → Type} (m : (ℓ : Loc nD τ sig) → Buf (Elt F) ℓ) [FloatOps F]

/-- gather call 2 on one tile: from the tile's shares of the table and of the ids and its 1600 rows of the chunk, the rows
    written with what the call gathers. -/
theorem tileObl2 (hpre : IdsInRange m) : (K (F := F)).TileObl (D (F := F)) 𝒱 (P m) v₀ 2 := Tile2.tileObl m facts hpre

/-- A SparseCore's operands for gather call 2 split among its sixteen tiles and their results join. -/
theorem vecSplit2 : (K (F := F)).VecSplit' (P m) 2 := Tile2.vecSplit m

end Cert.Kernel.Hand

end
-- ==== Proof.Bits.Tile3.lean ====
/-
  gather call 3 on one vector subcore, and how a SparseCore's operands split among its sixteen tiles.

  The tile (SparseCore `c`, subcore `s`) copies its 1600 token ids — positions `51200 q + 3200 s + 1600 c + i` of the
  flattened ids, `q` the call's number — into its index scratch and moves the 1600 table rows they name to rows
  `3200 s + 1600 c + i` of the call's chunk, eighty rows at a time through four row buffers. Chunk `n = 4 t + j` is
  gathered into buffer `j` on that buffer's own semaphore while the other three buffers' gathers are outstanding; at
  trip `t` it is waited for, written out to rows `80 n …` of the tile's band (that copy waited for at once), and buffer
  `j` is refilled with chunk `n + 4` (none from chunk 20 on). Per semaphore at most one transfer is outstanding, a
  buffer is read only after its gather's wait and overwritten only after its write-out's wait: no schedule is needed.

  The loop's invariant before trip `t`: the gather of chunk `4 t + j` outstanding into buffer `j`, delivering the rows
  that chunk's eighty ids name (`gth`); the tile's band written below its row `320 t` with what the call gathers
  (`VO`). The four gathers read the table and the index scratch at the same time, each through a read share of its
  own: a token of the tile's share of the table, a quarter of the scratch. The values: a gather lands row `offs[k]` of
  the table at row `k`, the scratch holds the tile's ids, a write-out copies a buffer onto its eighty rows and leaves
  the other rows as they were.
-/
import proofs.«203472_g22600117912246_cont_8to1_820_34_alg».proof.Proof.Bits.Common

noncomputable section

namespace Cert.Kernel.Hand.Tile3

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ)

local notation "tV" => (Memref.whole Cert.Kernel.main_arg2_scv : Memref Cert.Kernel.sig Kind.scVector Space.hbm Cert.Kernel.S100000x128 EltTy.f32)
local notation "iV" => (Memref.whole Cert.Kernel.main_v0_scv : Memref Cert.Kernel.sig Kind.scVector Space.hbm Cert.Kernel.S204800 EltTy.i32)
local notation "oV" => (Memref.whole Cert.Kernel.main_v11_scv : Memref Cert.Kernel.sig Kind.scVector Space.hbm Cert.Kernel.S51200x128 EltTy.f32)
local notation "sV" => (Memref.whole Cert.Kernel.cc3_scratch0 : Memref Cert.Kernel.sig Kind.scVector Space.vmem Cert.Kernel.S1600 EltTy.i32)
local notation "r1V" => (Memref.whole Cert.Kernel.cc3_scratch1 : Memref Cert.Kernel.sig Kind.scVector Space.vmem Cert.Kernel.S80x128 EltTy.f32)
local notation "r2V" => (Memref.whole Cert.Kernel.cc3_scratch2 : Memref Cert.Kernel.sig Kind.scVector Space.vmem Cert.Kernel.S80x128 EltTy.f32)
local notation "r3V" => (Memref.whole Cert.Kernel.cc3_scratch3 : Memref Cert.Kernel.sig Kind.scVector Space.vmem Cert.Kernel.S80x128 EltTy.f32)
local notation "r4V" => (Memref.whole Cert.Kernel.cc3_scratch4 : Memref Cert.Kernel.sig Kind.scVector Space.vmem Cert.Kernel.S80x128 EltTy.f32)

variable [FloatOps F]

section Tile

variable (d : Dev nD) (L : grid3.Coords)

abbrev cV (L : grid3.Coords) : Fin τ.nSC := (L 0).castLE hcore3
abbrev jV (L : grid3.Coords) : Fin τ.nSub := (L 1).castLE hsub3

omit [FloatOps F] in
theorem cell_ne (thr : Thread nD τ) {a b : SemLoc sig} (h : a ≠ b) : ((thr, a) : GSem nD τ sig) ≠ (thr, b) := fun e => h (Prod.ext_iff.mp e).2

omit [FloatOps F] in
/-- The tile's nine semaphore cells (one per row buffer's gather, one per scoped copy) taken out of its own cells. -/
theorem ownSems0_V :
    (ownSems0 (V d (cV L) (jV L)) : sProp 𝕄)
      = iprop(semVal (((V d (cV L) (jV L)), SemLoc.dma cc3_scratch5.sem) : GSem nD τ sig) 0 ∗ semVal (((V d (cV L) (jV L)), SemLoc.dma cc3_scratch6.sem) : GSem nD τ sig) 0 ∗ semVal (((V d (cV L) (jV L)), SemLoc.dma cc3_scratch7.sem) : GSem nD τ sig) 0 ∗ semVal (((V d (cV L) (jV L)), SemLoc.dma cc3_scratch8.sem) : GSem nD τ sig) 0 ∗ semVal (((V d (cV L) (jV L)), SemLoc.dma cc3_scoped0.sem) : GSem nD τ sig) 0 ∗ semVal (((V d (cV L) (jV L)), SemLoc.dma cc3_scoped1.sem) : GSem nD τ sig) 0 ∗ semVal (((V d (cV L) (jV L)), SemLoc.dma cc3_scoped2.sem) : GSem nD τ sig) 0 ∗ semVal (((V d (cV L) (jV L)), SemLoc.dma cc3_scoped3.sem) : GSem nD τ sig) 0 ∗ semVal (((V d (cV L) (jV L)), SemLoc.dma cc3_scoped4.sem) : GSem nD τ sig) 0
          ∗ bigSep ((((((((((ownCells (V d (cV L) (jV L))).erase (((V d (cV L) (jV L)), SemLoc.dma cc3_scratch5.sem) : GSem nD τ sig)).erase (((V d (cV L) (jV L)), SemLoc.dma cc3_scratch6.sem) : GSem nD τ sig)).erase (((V d (cV L) (jV L)), SemLoc.dma cc3_scratch7.sem) : GSem nD τ sig)).erase (((V d (cV L) (jV L)), SemLoc.dma cc3_scratch8.sem) : GSem nD τ sig)).erase (((V d (cV L) (jV L)), SemLoc.dma cc3_scoped0.sem) : GSem nD τ sig)).erase (((V d (cV L) (jV L)), SemLoc.dma cc3_scoped1.sem) : GSem nD τ sig)).erase (((V d (cV L) (jV L)), SemLoc.dma cc3_scoped2.sem) : GSem nD τ sig)).erase (((V d (cV L) (jV L)), SemLoc.dma cc3_scoped3.sem) : GSem nD τ sig)).erase (((V d (cV L) (jV L)), SemLoc.dma cc3_scoped4.sem) : GSem nD τ sig)) fun g => semVal g 0) := by
  unfold SparseCore.Cfg.ownSems0
  rw [SparseCore.bigSep_erase' ((mem_ownCells (g := (((V d (cV L) (jV L)), SemLoc.dma cc3_scratch5.sem) : GSem nD τ sig))).mpr ⟨rfl, by show (SemLoc.dma cc3_scratch5.sem : SemLoc sig).isScoped .scVector = true; decide⟩),
    SparseCore.bigSep_erase' (Finset.mem_erase.mpr ⟨cell_ne _ (show (SemLoc.dma cc3_scratch6.sem : SemLoc sig) ≠ SemLoc.dma cc3_scratch5.sem by decide), (mem_ownCells (g := (((V d (cV L) (jV L)), SemLoc.dma cc3_scratch6.sem) : GSem nD τ sig))).mpr ⟨rfl, by show (SemLoc.dma cc3_scratch6.sem : SemLoc sig).isScoped .scVector = true; decide⟩⟩),
    SparseCore.bigSep_erase' (Finset.mem_erase.mpr ⟨cell_ne _ (show (SemLoc.dma cc3_scratch7.sem : SemLoc sig) ≠ SemLoc.dma cc3_scratch6.sem by decide), Finset.mem_erase.mpr ⟨cell_ne _ (show (SemLoc.dma cc3_scratch7.sem : SemLoc sig) ≠ SemLoc.dma cc3_scratch5.sem by decide), (mem_ownCells (g := (((V d (cV L) (jV L)), SemLoc.dma cc3_scratch7.sem) : GSem nD τ sig))).mpr ⟨rfl, by show (SemLoc.dma cc3_scratch7.sem : SemLoc sig).isScoped .scVector = true; decide⟩⟩⟩),
    SparseCore.bigSep_erase' (Finset.mem_erase.mpr ⟨cell_ne _ (show (SemLoc.dma cc3_scratch8.sem : SemLoc sig) ≠ SemLoc.dma cc3_scratch7.sem by decide), Finset.mem_erase.mpr ⟨cell_ne _ (show (SemLoc.dma cc3_scratch8.sem : SemLoc sig) ≠ SemLoc.dma cc3_scratch6.sem by decide), Finset.mem_erase.mpr ⟨cell_ne _ (show (SemLoc.dma cc3_scratch8.sem : SemLoc sig) ≠ SemLoc.dma cc3_scratch5.sem by decide), (mem_ownCells (g := (((V d (cV L) (jV L)), SemLoc.dma cc3_scratch8.sem) : GSem nD τ sig))).mpr ⟨rfl, by show (SemLoc.dma cc3_scratch8.sem : SemLoc sig).isScoped .scVector = true; decide⟩⟩⟩⟩),
    SparseCore.bigSep_erase' (Finset.mem_erase.mpr ⟨cell_ne _ (show (SemLoc.dma cc3_scoped0.sem : SemLoc sig) ≠ SemLoc.dma cc3_scratch8.sem by decide), Finset.mem_erase.mpr ⟨cell_ne _ (show (SemLoc.dma cc3_scoped0.sem : SemLoc sig) ≠ SemLoc.dma cc3_scratch7.sem by decide), Finset.mem_erase.mpr ⟨cell_ne _ (show (SemLoc.dma cc3_scoped0.sem : SemLoc sig) ≠ SemLoc.dma cc3_scratch6.sem by decide), Finset.mem_erase.mpr ⟨cell_ne _ (show (SemLoc.dma cc3_scoped0.sem : SemLoc sig) ≠ SemLoc.dma cc3_scratch5.sem by decide), (mem_ownCells (g := (((V d (cV L) (jV L)), SemLoc.dma cc3_scoped0.sem) : GSem nD τ sig))).mpr ⟨rfl, by show (SemLoc.dma cc3_scoped0.sem : SemLoc sig).isScoped .scVector = true; decide⟩⟩⟩⟩⟩),
    SparseCore.bigSep_erase' (Finset.mem_erase.mpr ⟨cell_ne _ (show (SemLoc.dma cc3_scoped1.sem : SemLoc sig) ≠ SemLoc.dma cc3_scoped0.sem by decide), Finset.mem_erase.mpr ⟨cell_ne _ (show (SemLoc.dma cc3_scoped1.sem : SemLoc sig) ≠ SemLoc.dma cc3_scratch8.sem by decide), Finset.mem_erase.mpr ⟨cell_ne _ (show (SemLoc.dma cc3_scoped1.sem : SemLoc sig) ≠ SemLoc.dma cc3_scratch7.sem by decide), Finset.mem_erase.mpr ⟨cell_ne _ (show (SemLoc.dma cc3_scoped1.sem : SemLoc sig) ≠ SemLoc.dma cc3_scratch6.sem by decide), Finset.mem_erase.mpr ⟨cell_ne _ (show (SemLoc.dma cc3_scoped1.sem : SemLoc sig) ≠ SemLoc.dma cc3_scratch5.sem by decide), (mem_ownCells (g := (((V d (cV L) (jV L)), SemLoc.dma cc3_scoped1.sem) : GSem nD τ sig))).mpr ⟨rfl, by show (SemLoc.dma cc3_scoped1.sem : SemLoc sig).isScoped .scVector = true; decide⟩⟩⟩⟩⟩⟩),
    SparseCore.bigSep_erase' (Finset.mem_erase.mpr ⟨cell_ne _ (show (SemLoc.dma cc3_scoped2.sem : SemLoc sig) ≠ SemLoc.dma cc3_scoped1.sem by decide), Finset.mem_erase.mpr ⟨cell_ne _ (show (SemLoc.dma cc3_scoped2.sem : SemLoc sig) ≠ SemLoc.dma cc3_scoped0.sem by decide), Finset.mem_erase.mpr ⟨cell_ne _ (show (SemLoc.dma cc3_scoped2.sem : SemLoc sig) ≠ SemLoc.dma cc3_scratch8.sem by decide), Finset.mem_erase.mpr ⟨cell_ne _ (show (SemLoc.dma cc3_scoped2.sem : SemLoc sig) ≠ SemLoc.dma cc3_scratch7.sem by decide), Finset.mem_erase.mpr ⟨cell_ne _ (show (SemLoc.dma cc3_scoped2.sem : SemLoc sig) ≠ SemLoc.dma cc3_scratch6.sem by decide), Finset.mem_erase.mpr ⟨cell_ne _ (show (SemLoc.dma cc3_scoped2.sem : SemLoc sig) ≠ SemLoc.dma cc3_scratch5.sem by decide), (mem_ownCells (g := (((V d (cV L) (jV L)), SemLoc.dma cc3_scoped2.sem) : GSem nD τ sig))).mpr ⟨rfl, by show (SemLoc.dma cc3_scoped2.sem : SemLoc sig).isScoped .scVector = true; decide⟩⟩⟩⟩⟩⟩⟩),
    SparseCore.bigSep_erase' (Finset.mem_erase.mpr ⟨cell_ne _ (show (SemLoc.dma cc3_scoped3.sem : SemLoc sig) ≠ SemLoc.dma cc3_scoped2.sem by decide), Finset.mem_erase.mpr ⟨cell_ne _ (show (SemLoc.dma cc3_scoped3.sem : SemLoc sig) ≠ SemLoc.dma cc3_scoped1.sem by decide), Finset.mem_erase.mpr ⟨cell_ne _ (show (SemLoc.dma cc3_scoped3.sem : SemLoc sig) ≠ SemLoc.dma cc3_scoped0.sem by decide), Finset.mem_erase.mpr ⟨cell_ne _ (show (SemLoc.dma cc3_scoped3.sem : SemLoc sig) ≠ SemLoc.dma cc3_scratch8.sem by decide), Finset.mem_erase.mpr ⟨cell_ne _ (show (SemLoc.dma cc3_scoped3.sem : SemLoc sig) ≠ SemLoc.dma cc3_scratch7.sem by decide), Finset.mem_erase.mpr ⟨cell_ne _ (show (SemLoc.dma cc3_scoped3.sem : SemLoc sig) ≠ SemLoc.dma cc3_scratch6.sem by decide), Finset.mem_erase.mpr ⟨cell_ne _ (show (SemLoc.dma cc3_scoped3.sem : SemLoc sig) ≠ SemLoc.dma cc3_scratch5.sem by decide), (mem_ownCells (g := (((V d (cV L) (jV L)), SemLoc.dma cc3_scoped3.sem) : GSem nD τ sig))).mpr ⟨rfl, by show (SemLoc.dma cc3_scoped3.sem : SemLoc sig).isScoped .scVector = true; decide⟩⟩⟩⟩⟩⟩⟩⟩),
    SparseCore.bigSep_erase' (Finset.mem_erase.mpr ⟨cell_ne _ (show (SemLoc.dma cc3_scoped4.sem : SemLoc sig) ≠ SemLoc.dma cc3_scoped3.sem by decide), Finset.mem_erase.mpr ⟨cell_ne _ (show (SemLoc.dma cc3_scoped4.sem : SemLoc sig) ≠ SemLoc.dma cc3_scoped2.sem by decide), Finset.mem_erase.mpr ⟨cell_ne _ (show (SemLoc.dma cc3_scoped4.sem : SemLoc sig) ≠ SemLoc.dma cc3_scoped1.sem by decide), Finset.mem_erase.mpr ⟨cell_ne _ (show (SemLoc.dma cc3_scoped4.sem : SemLoc sig) ≠ SemLoc.dma cc3_scoped0.sem by decide), Finset.mem_erase.mpr ⟨cell_ne _ (show (SemLoc.dma cc3_scoped4.sem : SemLoc sig) ≠ SemLoc.dma cc3_scratch8.sem by decide), Finset.mem_erase.mpr ⟨cell_ne _ (show (SemLoc.dma cc3_scoped4.sem : SemLoc sig) ≠ SemLoc.dma cc3_scratch7.sem by decide), Finset.mem_erase.mpr ⟨cell_ne _ (show (SemLoc.dma cc3_scoped4.sem : SemLoc sig) ≠ SemLoc.dma cc3_scratch6.sem by decide), Finset.mem_erase.mpr ⟨cell_ne _ (show (SemLoc.dma cc3_scoped4.sem : SemLoc sig) ≠ SemLoc.dma cc3_scratch5.sem by decide), (mem_ownCells (g := (((V d (cV L) (jV L)), SemLoc.dma cc3_scoped4.sem) : GSem nD τ sig))).mpr ⟨rfl, by show (SemLoc.dma cc3_scoped4.sem : SemLoc sig).isScoped .scVector = true; decide⟩⟩⟩⟩⟩⟩⟩⟩⟩)]

omit [FloatOps F] in
/-- The index scratch and the four row buffers are among the tile's own buffers. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f)
          ∗ bigSep ((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc3_scratch0)) rfl),
    SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector (cV L) (jV L)) (b := ((Proc.scVector (cV L) (jV L)).devRef cc3_scratch1)) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector (cV L) (jV L)) (b := ((Proc.scVector (cV L) (jV L)).devRef cc3_scratch4)) rfl⟩⟩⟩⟩)]

omit [FloatOps F] in
/-- A read share is its remainder after four tokens and the four tokens. -/
theorem toks4_split {ℓ : Loc nD τ sig} (I : Finset (Idx ℓ)) (f : Buf (Elt F) ℓ) (q : PosShare TreeShare) :
    (ℓ ↦[I]{q} f : sProp 𝕄) ⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) := by
  show _ ⊢ iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  ihave H := (pointsTo_share (I := I) (f := f) (PosShare.mem_left_op_right q.left.left.left)).1 $$ H
  icases H with ⟨H, H3⟩
  isplitl [H]; · iexact H
  isplitl [H0]; · iexact H0
  isplitl [H1]; · iexact H1
  isplitl [H2]; · iexact H2
  iexact H3

omit [FloatOps F] in
theorem toks4_join {ℓ : Loc nD τ sig} (I : Finset (Idx ℓ)) (f : Buf (Elt F) ℓ) (q : PosShare TreeShare) :
    iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ (ℓ ↦[I]{Transfers.shareTokN q 3} f)) ⊢ (ℓ ↦[I]{q} f : sProp 𝕄) := by
  show iprop((ℓ ↦[I]{q.left.left.left.left} f) ∗ (ℓ ↦[I]{q.right} f) ∗ (ℓ ↦[I]{q.left.right} f) ∗ (ℓ ↦[I]{q.left.left.right} f) ∗ (ℓ ↦[I]{q.left.left.left.right} f)) ⊢ _
  iintro ⟨H, H0, H1, H2, H3⟩
  ihave H := (pointsTo_share (I := I) (f := f) (PosShare.mem_left_op_right q.left.left.left)).2 $$ [H H3]
  · isplitl [H] <;> iassumption
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-! ## The loop's invariant -/

omit [FloatOps F] in
theorem toks3_split {ℓ : Loc nD τ sig} (I : Finset (Idx ℓ)) (f : Buf (Elt F) ℓ) (q : PosShare TreeShare) :
    (ℓ ↦[I]{q} f : sProp 𝕄) ⊢ iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) := by
  show _ ⊢ iprop((ℓ ↦[I]{q.left.left.left} f) ∗ (ℓ ↦[I]{q.right} f) ∗ (ℓ ↦[I]{q.left.right} f) ∗ (ℓ ↦[I]{q.left.left.right} f))
  iintro H
  ihave H := (pointsTo_share (I := I) (f := f) (PosShare.mem_left_op_right q)).1 $$ H
  icases H with ⟨H, H0⟩
  ihave H := (pointsTo_share (I := I) (f := f) (PosShare.mem_left_op_right q.left)).1 $$ H
  icases H with ⟨H, H1⟩
  ihave H := (pointsTo_share (I := I) (f := f) (PosShare.mem_left_op_right q.left.left)).1 $$ H
  icases H with ⟨H, H2⟩
  isplitl [H]; · iexact H
  isplitl [H0]; · iexact H0
  isplitl [H1]; · iexact H1
  iexact H2

omit [FloatOps F] in
theorem toks3_join {ℓ : Loc nD τ sig} (I : Finset (Idx ℓ)) (f : Buf (Elt F) ℓ) (q : PosShare TreeShare) :
    iprop((ℓ ↦[I]{Transfers.shareDrop q 3} f) ∗ (ℓ ↦[I]{Transfers.shareTokN q 0} f) ∗ (ℓ ↦[I]{Transfers.shareTokN q 1} f)
      ∗ (ℓ ↦[I]{Transfers.shareTokN q 2} f)) ⊢ (ℓ ↦[I]{q} f : sProp 𝕄) := by
  show iprop((ℓ ↦[I]{q.left.left.left} f) ∗ (ℓ ↦[I]{q.right} f) ∗ (ℓ ↦[I]{q.left.right} f) ∗ (ℓ ↦[I]{q.left.left.right} f)) ⊢ _
  iintro ⟨H, H0, H1, H2⟩
  ihave H := (pointsTo_share (I := I) (f := f) (PosShare.mem_left_op_right q.left.left)).2 $$ [H H2]
  · isplitl [H] <;> iassumption
  ihave H := (pointsTo_share (I := I) (f := f) (PosShare.mem_left_op_right q.left)).2 $$ [H H1]
  · isplitl [H] <;> iassumption
  ihave H := (pointsTo_share (I := I) (f := f) (PosShare.mem_left_op_right q)).2 $$ [H H0]
  · isplitl [H] <;> iassumption
  iexact H

/-- The table as a gather addresses it: sliced whole. -/
abbrev tM : Memref sig .scVector .hbm S100000x128 .f32 :=
  (tV).slice (Rect.unit (s := S100000x128) ![0, 0] S100000x128.size inb_S100000x128_S100000x128_0_0) (fun _ => rfl)

omit [FloatOps F] in
theorem lR_inb (n : ℕ) (hn : n < 20) : ∀ a, (![80 * n] : Fin S1600.rank → ℕ) a + S80.size a ≤ S1600.size a := by
  intro a
  have ha : a = 0 := Subsingleton.elim _ _
  subst ha
  show 80 * n + 80 ≤ 1600
  omega

/-- Chunk `n`'s eighty offsets in the index scratch. -/
abbrev lR (n : ℕ) (hn : n < 20) : Rect S1600 := Rect.unit (s := S1600) ![80 * n] S80.size (lR_inb n hn)
abbrev lM (n : ℕ) (hn : n < 20) : Memref sig .scVector .vmem S80 .i32 := (sV).slice (lR n hn) (fun _ => rfl)

omit [FloatOps F] in
theorem lset_eq (off : Fin S1600.rank → ℕ) (p : ∀ a, off a + S80.size a ≤ S1600.size a) (hr : ∀ a, (Rect.unit (s := S1600) off S80.size p).stride a = 1)
    (n : ℕ) (hn : n < 20) (h : off = ![80 * n]) :
    ((sV).slice (Rect.unit (s := S1600) off S80.size p) hr).view.set = (lM n hn).view.set := by
  subst h; rfl

omit [FloatOps F] in
theorem tile_inb (L : grid3.Coords) : ∀ a, (![3200 * (L 1).val + 1600 * (L 0).val, 0] : Fin S51200x128.rank → ℕ) a + (![1600, 128] : Fin S51200x128.rank → ℕ) a ≤ S51200x128.size a := by
  have h0 : (L 0).val < 2 := (L 0).isLt
  have h1 : (L 1).val < 16 := (L 1).isLt
  intro a
  match a with
  | 0 => show 3200 * (L 1).val + 1600 * (L 0).val + 1600 ≤ 51200; omega
  | 1 => show 0 + 128 ≤ 128; omega

/-- The tile's 1600 rows of the chunk. -/
abbrev tileRect (L : grid3.Coords) : Rect S51200x128 := Rect.unit (s := S51200x128) ![3200 * (L 1).val + 1600 * (L 0).val, 0] ![1600, 128] (tile_inb L)

omit [FloatOps F] in
theorem tileRows_eq (L : grid3.Coords) : tileRows (L 0).val (L 1).val = (oV).view.setOn (tileRect L).set := by
  have h0 : (L 0).val < 2 := (L 0).isLt
  have h1 : (L 1).val < 16 := (L 1).isLt
  ext x
  have hx0 : (x 0).val < 51200 := (x 0).isLt
  have hx1 : (x 1).val < 128 := (x 1).isLt
  rw [show (oV).view.setOn (tileRect L).set = (tileRect L).set from Finset.map_refl]
  simp only [tileRows, Finset.mem_filter, Finset.mem_univ, true_and, Rect.mem_set_unit]
  constructor
  · intro h a
    match a with
    | 0 => show 3200 * (L 1).val + 1600 * (L 0).val ≤ (x 0).val ∧ (x 0).val < 3200 * (L 1).val + 1600 * (L 0).val + 1600; omega
    | 1 => show 0 ≤ (x 1).val ∧ (x 1).val < 0 + 128; omega
  · intro h
    have := h 0
    have h' : 3200 * (L 1).val + 1600 * (L 0).val ≤ (x 0).val ∧ (x 0).val < 3200 * (L 1).val + 1600 * (L 0).val + 1600 := this
    omega

/-! ## The values: what a gather lands and what the write-outs leave -/

section Value

open Idealize.ShloMosaic.ValueIdx

variable (fsc : Buf (Elt F) ((V d (cV L) (jV L)).loc cc3_scratch0))

/-- What chunk `n`'s gather lands in its row buffer: row `x 0` is the table row that word `80 n + x 0` of the index
    scratch names (reduced into the table's extent). -/
def gth (n : ℕ) (hn : n < 20) : S80x128.Idx → Elt F .f32 := fun x =>
  m (tabLoc d) (ix2 (n0 := 100000) (n1 := 128)
    ⟨(fsc (ix1 (n := 1600) ⟨80 * n + (x 0).val, by have h : (x 0).val < 80 := (x 0).isLt; omega⟩)).toNat % 100000, Nat.mod_lt _ (by norm_num)⟩ (x 1))

/-- The index scratch holds the tile's ids: word `i` is id `153600 + 3200 s + 1600 c + i` of the flattened ids. -/
def ScratchOK : Prop := ∀ i : Fin 1600, fsc (ix1 (n := 1600) i)
  = idsB m d (ix1 (n := 204800) ⟨153600 + (3200 * (L 1).val + 1600 * (L 0).val) + i.val,
      by have h0 : (L 0).val < 2 := (L 0).isLt; have h1 : (L 1).val < 16 := (L 1).isLt; have := i.isLt; omega⟩)

omit [FloatOps F] in
/-- The gather's payload, as the stream lands it, is `gth`. -/
theorem payload_eq (off : Fin S1600.rank → ℕ) (p : ∀ a, off a + S80.size a ≤ S1600.size a) (hr : ∀ a, (Rect.unit (s := S1600) off S80.size p).stride a = 1)
    (n : ℕ) (hn : n < 20) (h : off = ![80 * n])
    (hn' : S80.numel = S80x128.size gathers_S100000x128_S80x128.axis')
    (hin : ∀ x, ((((sV).slice (Rect.unit (s := S1600) off S80.size p) hr).view.read (Elt F) fsc x)).toNat < S100000x128.size gathers_S100000x128_S80x128.axis) :
    SparseCore.gatherPayload gathers_S100000x128_S80x128 ((tM).view.read (Elt F) (m (tabLoc d)))
      (SparseCore.rows (((sV).slice (Rect.unit (s := S1600) off S80.size p) hr).view.read (Elt F) fsc) hn' hin) = gth m d L fsc n hn := by
  subst h
  funext x
  unfold SparseCore.gatherPayload gth
  rw [View.read_apply, cast_eq]
  congr 1
  funext a
  apply Fin.ext
  have hmod : ∀ w : ℕ, w < 100000 → w % 100000 = w := fun w hw => Nat.mod_eq_of_lt hw
  match a with
  | ⟨0, h0⟩ =>
    show 0 + 1 * (gathers_S100000x128_S80x128.idx _ x ⟨0, h0⟩).val = _
    rw [show (⟨0, h0⟩ : Fin S100000x128.rank) = gathers_S100000x128_S80x128.axis from rfl, Shape.Gathers.idx_axis]
    unfold SparseCore.rows
    simp only [Nat.zero_add, Nat.one_mul]
    have hy0 : ∀ k' : Fin (⟨1, ![80]⟩ : Shape).numel, (((⟨1, ![80]⟩ : Shape).rowMajor.symm k') 0).val = k'.val := fun k' => by
      rw [← Shape.rowMajor_val_one (d := ![80]) ((⟨1, ![80]⟩ : Shape).rowMajor.symm k'), Equiv.apply_symm_apply]
    have hlt := hin ((Rect.unit (s := S1600) ![80 * n] S80.size p).shape.rowMajor.symm (Fin.cast hn'.symm (x gathers_S100000x128_S80x128.axis')))
    have hE : View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))
        = fsc (ix1 (n := 1600) ⟨80 * n + (x 0).val, by have h : (x 0).val < 80 := (x 0).isLt; omega⟩) := by
      rw [View.read_apply, cast_eq]
      congr 1
      funext b
      apply Fin.ext
      match b with
      | ⟨0, _⟩ =>
        show 80 * n + 1 * (((⟨1, ![80]⟩ : Shape).rowMajor.symm (Fin.cast hn'.symm (x gathers_S100000x128_S80x128.axis'))) 0).val = 80 * n + (x 0).val
        rw [hy0]
        show 80 * n + 1 * (x 0).val = _
        omega
    rw [hE] at hlt
    show BitVec.toNat (View.read (Elt F) ((sV).slice (Rect.unit (s := S1600) ![80 * n] S80.size p) hr).view fsc
          ((Rect.unit (s := S1600) ![80 * n] S80.size p).shape.rowMajor.symm (Fin.cast hn'.symm (x gathers_S100000x128_S80x128.axis')))) = _
    rw [hE, hmod _ hlt]
  | ⟨1, h1⟩ =>
    show 0 + 1 * (gathers_S100000x128_S80x128.idx _ x ⟨1, h1⟩).val = (x 1).val
    rw [Shape.Gathers.idx_of_ne _ _ _ _ (show ((⟨1, h1⟩ : Fin S100000x128.rank)).val ≠ 0 from Nat.one_ne_zero)]
    simp only [Nat.zero_add, Nat.one_mul]
    rfl

omit [FloatOps F] in
/-- A whole buffer written whole reads the payload. -/
theorem read_writes_whole {κ : Kind} {sp : Space} {s : Shape} {e : EltTy} (v : View sig κ sp s e) (b : v.ty.Contents (Elt F)) (w : s.Idx → Elt F e) :
    v.read (Elt F) (v.writes (Elt F) b [⟨Rect.whole s, w⟩]) = w := by
  funext x
  have h := View.read_writes_cons_emb v b (Rect.whole s) w [] x
  rwa [Rect.emb_whole_apply] at h

/-- What the index copy lands is the tile's ids. -/
theorem scratch_ok (fs : Buf (Elt F) ((V d (cV L) (jV L)).loc cc3_scratch0)) (pay : S1600.Idx → Elt F .i32)
    (hpay : pay = ((iV).slice (Rect.unit (s := S204800) (k3_off1 L) S1600.size (k3_off1_inb L)) (fun _ => rfl)).view.read (Elt F) (idsB m d)) :
    ScratchOK m d L (View.write (Elt F) (sV).view fs pay Finset.univ) := by
  subst hpay
  intro i
  have hw : View.write (Elt F) (sV).view fs (((iV).slice (Rect.unit (s := S204800) (k3_off1 L) S1600.size (k3_off1_inb L)) (fun _ => rfl)).view.read (Elt F) (idsB m d)) Finset.univ
      = ((iV).slice (Rect.unit (s := S204800) (k3_off1 L) S1600.size (k3_off1_inb L)) (fun _ => rfl)).view.read (Elt F) (idsB m d) :=
    View.write_whole_univ cc3_scratch0 _ _
  rw [hw, View.read_apply, cast_eq]
  congr 1
  funext b
  apply Fin.ext
  match b with
  | ⟨0, _⟩ =>
    show (k3_off1 L) 0 + 1 * i.val = 153600 + (3200 * (L 1).val + 1600 * (L 0).val) + i.val
    rw [k3_off1_eq]
    show 3200 * (L 1).val + 1600 * (L 0).val + 153600 + 1 * i.val = _
    omega

/-- Chunk `n`'s landed rows are what the call gathers at the tile's rows `80 n …`. -/
theorem gth_gathVal (hS : ScratchOK m d L fsc) (n : ℕ) (hn : n < 20) (x : S80x128.Idx) (j : S51200x128.Idx)
    (h0 : (j 0).val = 3200 * (L 1).val + 1600 * (L 0).val + 80 * n + (x 0).val) (h1 : (j 1).val = (x 1).val) :
    gth m d L fsc n hn x = gathVal m 3 d j := by
  have key : ∀ a b : Fin 204800, a = b →
      (idsB m d (ix1 (n := 204800) a)).toNat % 100000 = (idsB m d (ix1 (n := 204800) b)).toNat % 100000 := fun a b h => h ▸ rfl
  unfold gth gathVal
  congr 1
  funext b
  apply Fin.ext
  match b with
  | ⟨0, _⟩ =>
    show (fsc (ix1 (n := 1600) ⟨80 * n + (x 0).val, _⟩)).toNat % 100000 = (idsB m d (ix1 (n := 204800) ⟨3 * 51200 + (j 0).val, _⟩)).toNat % 100000
    rw [hS ⟨80 * n + (x 0).val, by have h : (x 0).val < 80 := (x 0).isLt; omega⟩]
    exact key _ _ (Fin.ext (by show 153600 + (3200 * (L 1).val + 1600 * (L 0).val) + (80 * n + (x 0).val) = 3 * 51200 + (j 0).val; omega))
  | ⟨1, _⟩ => exact h1.symm

/-- The tile's rows below its row `r` hold what the call gathers. -/
def VO (r : ℕ) (f : Buf (Elt F) ((oV).view.loc (V d (cV L) (jV L)))) : Prop :=
  ∀ j : S51200x128.Idx, 3200 * (L 1).val + 1600 * (L 0).val ≤ (j 0).val → (j 0).val < 3200 * (L 1).val + 1600 * (L 0).val + r → f j = gathVal m 3 d j

/-- One write-out: chunk `n`'s eighty rows written with rows that hold what the call gathers there. -/
theorem out_write (f : Buf (Elt F) ((oV).view.loc (V d (cV L) (jV L)))) (off : Fin S51200x128.rank → ℕ) (p : ∀ a, off a + S80x128.size a ≤ S51200x128.size a)
    (hr : ∀ a, (Rect.unit (s := S51200x128) off S80x128.size p).stride a = 1) (n : ℕ)
    (hoff : off = ![3200 * (L 1).val + 1600 * (L 0).val + 80 * n, 0]) (w : S80x128.Idx → Elt F .f32)
    (hf : VO m d L (80 * n) f)
    (hw : ∀ (x : S80x128.Idx) (j : S51200x128.Idx), (j 0).val = 3200 * (L 1).val + 1600 * (L 0).val + 80 * n + (x 0).val → (j 1).val = (x 1).val → w x = gathVal m 3 d j) :
    VO m d L (80 * (n + 1)) (View.write (Elt F) ((oV).slice (Rect.unit (s := S51200x128) off S80x128.size p) hr).view f w Finset.univ) := by
  subst hoff
  intro j hlo hhi
  have hj1 : (j 1).val < 128 := (j 1).isLt
  by_cases hin : (j 0).val < 3200 * (L 1).val + 1600 * (L 0).val + 80 * n
  · rw [View.write_of_not_mem]
    · exact hf j hlo hin
    · intro hm
      obtain ⟨y, -, hy⟩ := Finset.mem_map.mp hm
      have := congrArg (fun t : S51200x128.Idx => (t 0).val) hy
      have h2 : 3200 * (L 1).val + 1600 * (L 0).val + 80 * n + 1 * (y 0).val = (j 0).val := this
      omega
  · let y : S80x128.Idx := ix2 (n0 := 80) (n1 := 128) ⟨(j 0).val - (3200 * (L 1).val + 1600 * (L 0).val + 80 * n), by omega⟩ ⟨(j 1).val, hj1⟩
    have hjy : ((oV).slice (Rect.unit (s := S51200x128) ![3200 * (L 1).val + 1600 * (L 0).val + 80 * n, 0] S80x128.size p) hr).view.emb y = j := by
      funext b
      apply Fin.ext
      match b with
      | ⟨0, _⟩ =>
        show 3200 * (L 1).val + 1600 * (L 0).val + 80 * n + 1 * ((j 0).val - (3200 * (L 1).val + 1600 * (L 0).val + 80 * n)) = (j 0).val
        omega
      | ⟨1, _⟩ =>
        show 0 + 1 * (j 1).val = (j 1).val
        omega
    rw [← hjy, View.write_emb_of_mem _ _ (Finset.mem_univ y), cast_eq, hjy]
    exact hw y j (by show (j 0).val = _ + ((j 0).val - _); omega) rfl

end Value

variable (fsc : Buf (Elt F) ((V d (cV L) (jV L)).loc cc3_scratch0)) (O : CellTallies nD τ sig (HIx 4)) (W : Waits sig (HIx 4))

/-- Row buffer `rM`'s gather of chunk `n` outstanding on `sem`: the transfer in flight — delivering the buffer at `gth n`, the
    chunk's eighty words of the index scratch and the table's elements, each at its read share — and what of the three
    buffers stays with the tile meanwhile. -/
def flying (rM : Memref sig .scVector .vmem S80x128 .f32) (sem : DmaSem sig) (sq tq : PosShare TreeShare) (n : ℕ) (hn : n < 20) : sProp 𝕄 :=
  iprop(∃ fb : Buf (Elt F) (rM.view.loc (V d (cV L) (jV L))), ⌜rM.view.read (Elt F) fb = gth m d L fsc n hn⌝ ∗
    Transfers.Flight countersEmb (V d (cV L) (jV L)) (SemLoc.dma sem) (default : HIx 4) 327680
        iprop(((rM.view.loc (V d (cV L) (jV L)) ↦[rM.view.set]{fullShare} fb)
          ∗ ((sV).view.loc (V d (cV L) (jV L)) ↦[(lM n hn).view.set]{sq} fsc))
          ∗ ((tV).view.loc (V d (cV L) (jV L)) ↦[(tM).view.set]{tq} m (tabLoc d)))
      ∗ ((tV).view.loc (V d (cV L) (jV L)) ↦[Finset.univ \ (tM).view.set]{tq} m (tabLoc d))
      ∗ (rM.view.loc (V d (cV L) (jV L)) ↦[Finset.univ \ rM.view.set]{fullShare} fb)
      ∗ ((sV).view.loc (V d (cV L) (jV L)) ↦[Finset.univ \ (lM n hn).view.set]{sq} fsc))

/-- Row buffer `rM` at rest: the buffer, its share of the index scratch and its token of the table. -/
def idle (rM : Memref sig .scVector .vmem S80x128 .f32) (sem : DmaSem sig) (sq tq : PosShare TreeShare) : sProp 𝕄 :=
  iprop(semVal ((V d (cV L) (jV L), SemLoc.dma sem) : GSem nD τ sig) 0
    ∗ (∃ fb : Buf (Elt F) (rM.view.loc (V d (cV L) (jV L))), rM.view.loc (V d (cV L) (jV L)) ↦{fullShare} fb)
    ∗ ((sV).view.loc (V d (cV L) (jV L)) ↦{sq} fsc) ∗ ((tV).view.loc (V d (cV L) (jV L)) ↦{tq} m (tabLoc d)))

def slotAt (rM : Memref sig .scVector .vmem S80x128 .f32) (sem : DmaSem sig) (sq tq : PosShare TreeShare) (n : ℕ) : sProp 𝕄 :=
  if hn : n < 20 then flying m d L fsc rM sem sq tq n hn else idle m d L fsc rM sem sq tq

/-- Before trip `k`: chunk `4 k + j`'s gather outstanding into row buffer `j` (none from chunk 20 on), the tile's rows of
    the output held, the write-outs' semaphores at zero. -/
def inv (k : ℕ) (_ : PUnit) : sProp 𝕄 :=
  iprop(Transfers.MayWaits (V d (cV L) (jV L)) (default : HIx 4) O
    ∗ (∃ f, ⌜VO m d L (320 * k) f⌝ ∗ (oV).view.loc (V d (cV L) (jV L)) ↦[(oV).view.setOn (tileRect L).set]{fullShare} f)
    ∗ semVal ((V d (cV L) (jV L), SemLoc.dma cc3_scoped1.sem) : GSem nD τ sig) 0
    ∗ semVal ((V d (cV L) (jV L), SemLoc.dma cc3_scoped2.sem) : GSem nD τ sig) 0
    ∗ semVal ((V d (cV L) (jV L), SemLoc.dma cc3_scoped3.sem) : GSem nD τ sig) 0
    ∗ semVal ((V d (cV L) (jV L), SemLoc.dma cc3_scoped4.sem) : GSem nD τ sig) 0
    ∗ slotAt m d L fsc r1V cc3_scratch5.sem (Transfers.shareDrop fullShare 3) (Transfers.shareTokN (tileSh (L 0).val (L 1).val) 0) (4 * k + 0)
    ∗ slotAt m d L fsc r2V cc3_scratch6.sem (Transfers.shareTokN fullShare 0) (Transfers.shareTokN (tileSh (L 0).val (L 1).val) 1) (4 * k + 1)
    ∗ slotAt m d L fsc r3V cc3_scratch7.sem (Transfers.shareTokN fullShare 1) (Transfers.shareTokN (tileSh (L 0).val (L 1).val) 2) (4 * k + 2)
    ∗ slotAt m d L fsc r4V cc3_scratch8.sem (Transfers.shareTokN fullShare 2) (Transfers.shareTokN (tileSh (L 0).val (L 1).val) 3) (4 * k + 3)
    ∗ ∃ W', ⌜∀ p ∈ W', p ∈ W ∨ p.2 = none⌝ ∗ owes (V d (cV L) (jV L)) O W')

omit [FloatOps F] in
theorem trips5 : k3_t1_loop.trips = 5 := by decide +kernel
omit [FloatOps F] in
theorem conds_odd : ∀ k : Fin k3_t1_loop.trips, k3_cond1 k = 1#1 ∧ k3_cond3 k = 1#1 ∧ k3_cond5 k = 1#1 ∧ k3_cond7 k = 1#1 := by decide +kernel
omit [FloatOps F] in
theorem conds_even : ∀ k : Fin k3_t1_loop.trips, (k3_cond2 k = 1#1 ↔ k.val < 4) ∧ (k3_cond4 k = 1#1 ↔ k.val < 4) ∧ (k3_cond6 k = 1#1 ↔ k.val < 4) ∧ (k3_cond8 k = 1#1 ↔ k.val < 4) := by decide +kernel

/-- The offsets a gather reads are in range: what the index copy landed in the scratch is this tile's 1600 ids, each a
    row of the table. -/
theorem inb_of_pre (hpre : IdsInRange m) (fs : Buf (Elt F) ((V d (cV L) (jV L)).loc cc3_scratch0)) (R : Rect S1600) (hR : ∀ a, R.stride a = 1)
    (pay : S1600.Idx → Elt F .i32)
    (hpay : pay = ((iV).slice (Rect.unit (s := S204800) (k3_off1 L) S1600.size (k3_off1_inb L)) (fun _ => rfl)).view.read (Elt F) (idsB m d)) :
    ∀ x, ((((sV).slice R hR).view.read (Elt F) (View.write (Elt F) (sV).view fs pay Finset.univ) x)).toNat < S100000x128.size gathers_S100000x128_S80x128.axis := by
  subst hpay; intro x
  have hw : View.write (Elt F) (sV).view fs (((iV).slice (Rect.unit (s := S204800) (k3_off1 L) S1600.size (k3_off1_inb L)) (fun _ => rfl)).view.read (Elt F) (idsB m d)) Finset.univ
      = ((iV).slice (Rect.unit (s := S204800) (k3_off1 L) S1600.size (k3_off1_inb L)) (fun _ => rfl)).view.read (Elt F) (idsB m d) :=
    View.write_whole_univ cc3_scratch0 _ _
  rw [hw]
  exact hpre d _

omit [FloatOps F] in
theorem waits_insert {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

abbrev thr (d : Dev nD) (L : grid3.Coords) : Thread nD τ := V d (cV L) (jV L)

set_option maxHeartbeats 4000000 in
theorem tile_body (hF : (K (F := F)).Facts) (hpre : IdsInRange m) (O : CellTallies nD τ sig (HIx 4)) (W : Waits sig (HIx 4)) (hO : ∀ g, O g none = 0) :
    iprop(levAts (K (F := F)).L (K (F := F)).lev ∗ emp
        ∗ goRes m 3 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_gather_kernel L tV (Memref.isWhole_whole _) iV (Memref.isWhole_whole _) oV (Memref.isWhole_whole _)
            sV (Memref.isWhole_whole _) r1V (Memref.isWhole_whole _) r2V (Memref.isWhole_whole _) r3V (Memref.isWhole_whole _) r4V (Memref.isWhole_whole _)
            cc3_scratch5 cc3_scratch6 cc3_scratch7 cc3_scratch8 cc3_scoped0 cc3_scoped1 cc3_scoped2 cc3_scoped3 cc3_scoped4)
          fun _ => iprop(tdRes m 3 d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_gather_kernel_eq_skeleton]; unfold cc3_gather_kernel_skel
  rw [(K (F := F)).scopedBufs_V hF d (cV L) (jV L), SparseCore.Cfg.scopedSems0_V (Val := Elt F) d (cV L) (jV L), ownSems0_V, ownBufs_V]
  unfold goRes
  iintro ⟨#Hlv, -, ⟨Ht, Hi, ⟨%fo, Ho⟩⟩, ⟨⟨%fs, Hs⟩, ⟨%f1, Hr1⟩, ⟨%f2, Hr2⟩, ⟨%f3, Hr3⟩, ⟨%f4, Hr4⟩, Hbufs⟩, ⟨Hg0, Hg1, Hg2, Hg3, Hc0, Hc1, Hc2, Hc3, Hc4, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Ht' := (toks4_split (F := F) _ _ _) $$ Ht
  icases Ht' with ⟨Htr, Ht0, Ht1, Ht2, Ht3⟩
  ihave Ht0' := (Entails.of_eq (show (tabLoc d ↦{Transfers.shareTokN (tileSh (L 0).val (L 1).val) 0} m (tabLoc d) : sProp 𝕄) = ((tV).view.loc (V d (cV L) (jV L)) ↦{Transfers.shareTokN (tileSh (L 0).val (L 1).val) 0} m (tabLoc d)) from rfl)) $$ Ht0
  ihave Ht1' := (Entails.of_eq (show (tabLoc d ↦{Transfers.shareTokN (tileSh (L 0).val (L 1).val) 1} m (tabLoc d) : sProp 𝕄) = ((tV).view.loc (V d (cV L) (jV L)) ↦{Transfers.shareTokN (tileSh (L 0).val (L 1).val) 1} m (tabLoc d)) from rfl)) $$ Ht1
  ihave Ht2' := (Entails.of_eq (show (tabLoc d ↦{Transfers.shareTokN (tileSh (L 0).val (L 1).val) 2} m (tabLoc d) : sProp 𝕄) = ((tV).view.loc (V d (cV L) (jV L)) ↦{Transfers.shareTokN (tileSh (L 0).val (L 1).val) 2} m (tabLoc d)) from rfl)) $$ Ht2
  ihave Ht3' := (Entails.of_eq (show (tabLoc d ↦{Transfers.shareTokN (tileSh (L 0).val (L 1).val) 3} m (tabLoc d) : sProp 𝕄) = ((tV).view.loc (V d (cV L) (jV L)) ↦{Transfers.shareTokN (tileSh (L 0).val (L 1).val) 3} m (tabLoc d)) from rfl)) $$ Ht3
  ihave Hi' := (Entails.of_eq (show (idsLoc d ↦{tileSh (L 0).val (L 1).val} idsB m d : sProp 𝕄) = ((iV).view.loc (V d (cV L) (jV L)) ↦{tileSh (L 0).val (L 1).val} idsB m d) from rfl)) $$ Hi
  ihave Hs' := (Entails.of_eq (show ((V d (cV L) (jV L)).loc cc3_scratch0 ↦{fullShare} fs : sProp 𝕄) = ((sV).view.loc (V d (cV L) (jV L)) ↦{fullShare} fs) from rfl)) $$ Hs
  ihave Hr1' := (Entails.of_eq (show ((V d (cV L) (jV L)).loc cc3_scratch1 ↦{fullShare} f1 : sProp 𝕄) = ((r1V).view.loc (V d (cV L) (jV L)) ↦{fullShare} f1) from rfl)) $$ Hr1
  ihave Hr2' := (Entails.of_eq (show ((V d (cV L) (jV L)).loc cc3_scratch2 ↦{fullShare} f2 : sProp 𝕄) = ((r2V).view.loc (V d (cV L) (jV L)) ↦{fullShare} f2) from rfl)) $$ Hr2
  ihave Hr3' := (Entails.of_eq (show ((V d (cV L) (jV L)).loc cc3_scratch3 ↦{fullShare} f3 : sProp 𝕄) = ((r3V).view.loc (V d (cV L) (jV L)) ↦{fullShare} f3) from rfl)) $$ Hr3
  ihave Hr4' := (Entails.of_eq (show ((V d (cV L) (jV L)).loc cc3_scratch4 ↦{fullShare} f4 : sProp 𝕄) = ((r4V).view.loc (V d (cV L) (jV L)) ↦{fullShare} f4) from rfl)) $$ Hr4
  ihave Ho' := (Entails.of_eq (show (outPts (F := F) 3 d (tileRows (L 0).val (L 1).val) fo : sProp 𝕄) = ((oV).view.loc (V d (cV L) (jV L)) ↦[tileRows (L 0).val (L 1).val]{fullShare} fo) from rfl)) $$ Ho
  sl_exec
  have hinb : ∀ (R : Rect S1600) (hR : ∀ a, R.stride a = 1) (x : R.shape.Idx),
      ((((sV).slice R hR).view.read (Elt F) (View.write (Elt F) (sV).view fs (tile_body.sl.dma0 m d L) Finset.univ) x)).toNat < S100000x128.size gathers_S100000x128_S80x128.axis :=
    fun R hR => inb_of_pre m d L hpre fs R hR _ rfl
  have hS : ScratchOK m d L (View.write (Elt F) (sV).view fs (tile_body.sl.dma0 m d L) Finset.univ) := scratch_ok m d L fs _ rfl
  ihave Hs4 := (toks3_split (F := F) _ _ _) $$ Hs'
  icases Hs4 with ⟨Hsr, Hs0, Hs1, Hs2⟩
  ihave Ho'' := (Entails.of_eq (show ((oV).view.loc (V d (cV L) (jV L)) ↦[tileRows (L 0).val (L 1).val]{fullShare} fo : sProp 𝕄)
      = ((oV).view.loc (V d (cV L) (jV L)) ↦[(oV).view.setOn (tileRect L).set]{fullShare} fo) by rw [tileRows_eq L])) $$ Ho'
  sl_exec
  sl_for (inv m d L (View.write (Elt F) (sV).view fs (tile_body.sl.dma0 m d L) Finset.univ) O W) $$ [Hmw Ho'' Hc1 Hc2 Hc3 Hc4 Hg0 Ht0' Hr1' Hsr Hg1 Ht1' Hr2' Hs0 Hg2 Ht2' Hr3' Hs1 Hg3 Ht3' Hr4' Hs2 HO]
  case region =>
    intro k _
    have hk5 : k.val < 5 := trips5 ▸ k.isLt
    obtain ⟨h1, h3, h5, h7⟩ := conds_odd k
    obtain ⟨e2, e4, e6, e8⟩ := conds_even k
    unfold inv slotAt
    rw [dif_pos (show 4 * k.val + 0 < 20 by omega), dif_pos (show 4 * k.val + 1 < 20 by omega), dif_pos (show 4 * k.val + 2 < 20 by omega), dif_pos (show 4 * k.val + 3 < 20 by omega)]
    by_cases hlast : k.val < 4
    · have h2 := e2.mpr hlast
      have h4 := e4.mpr hlast
      have h6 := e6.mpr hlast
      have h8 := e8.mpr hlast
      rw [dif_pos (show 4 * (k.val + 1) + 0 < 20 by omega), dif_pos (show 4 * (k.val + 1) + 1 < 20 by omega), dif_pos (show 4 * (k.val + 1) + 2 < 20 by omega), dif_pos (show 4 * (k.val + 1) + 3 < 20 by omega)]
      unfold flying
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      have e0 : k3_off4 k = ![80 * (4 * (k.val + 1) + 0)] := (k3_off4_eq k).trans (by rw [show 320 = 320 from rfl, show 320 * k.val + 320 = 80 * (4 * (k.val + 1) + 0) by omega])
      have e1 : k3_off7 k = ![80 * (4 * (k.val + 1) + 1)] := (k3_off7_eq k).trans (by rw [show 400 = 400 from rfl, show 320 * k.val + 400 = 80 * (4 * (k.val + 1) + 1) by omega])
      have e2 : k3_off10 k = ![80 * (4 * (k.val + 1) + 2)] := (k3_off10_eq k).trans (by rw [show 480 = 480 from rfl, show 320 * k.val + 480 = 80 * (4 * (k.val + 1) + 2) by omega])
      have e3 : k3_off13 k = ![80 * (4 * (k.val + 1) + 3)] := (k3_off13_eq k).trans (by rw [show 560 = 560 from rfl, show 320 * k.val + 560 = 80 * (4 * (k.val + 1) + 3) by omega])
      irw [← lset_eq (k3_off4 k) (k3_off4_inb k h1 h2) (fun _ => rfl) (4 * (k.val + 1) + 0) (by omega) e0,
        ← lset_eq (k3_off7 k) (k3_off7_inb k h3 h4) (fun _ => rfl) (4 * (k.val + 1) + 1) (by omega) e1,
        ← lset_eq (k3_off10 k) (k3_off10_inb k h5 h6) (fun _ => rfl) (4 * (k.val + 1) + 2) (by omega) e2,
        ← lset_eq (k3_off13 k) (k3_off13_inb k h7 h8) (fun _ => rfl) (4 * (k.val + 1) + 3) (by omega) e3]
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k3_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k3_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k3_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k3_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Ht0 Hr0 Hs0]
      · iexists _
        isplitr
        swap
        · isplitl [Hg0]; · iexact Hg0
          isplitl [Ht0]; · iexact Ht0
          isplitl [Hr0]; · iexact Hr0
          iexact Hs0
        ipureintro
        exact (read_writes_whole _ _ _).trans (payload_eq m d L _ (k3_off4 k) (k3_off4_inb k h1 h2) (fun _ => rfl) (4 * (k.val + 1) + 0) (by omega) e0 _ _)
      isplitl [Hg1 Ht1 Hr1 Hs1]
      · iexists _
        isplitr
        swap
        · isplitl [Hg1]; · iexact Hg1
          isplitl [Ht1]; · iexact Ht1
          isplitl [Hr1]; · iexact Hr1
          iexact Hs1
        ipureintro
        exact (read_writes_whole _ _ _).trans (payload_eq m d L _ (k3_off7 k) (k3_off7_inb k h3 h4) (fun _ => rfl) (4 * (k.val + 1) + 1) (by omega) e1 _ _)
      isplitl [Hg2 Ht2 Hr2 Hs2]
      · iexists _
        isplitr
        swap
        · isplitl [Hg2]; · iexact Hg2
          isplitl [Ht2]; · iexact Ht2
          isplitl [Hr2]; · iexact Hr2
          iexact Hs2
        ipureintro
        exact (read_writes_whole _ _ _).trans (payload_eq m d L _ (k3_off10 k) (k3_off10_inb k h5 h6) (fun _ => rfl) (4 * (k.val + 1) + 2) (by omega) e2 _ _)
      isplitl [Hg3 Ht3 Hr3 Hs3]
      · iexists _
        isplitr
        swap
        · isplitl [Hg3]; · iexact Hg3
          isplitl [Ht3]; · iexact Ht3
          isplitl [Hr3]; · iexact Hr3
          iexact Hs3
        ipureintro
        exact (read_writes_whole _ _ _).trans (payload_eq m d L _ (k3_off13 k) (k3_off13_inb k h7 h8) (fun _ => rfl) (4 * (k.val + 1) + 3) (by omega) e3 _ _)
      iexists _; isplitr
      swap; · iexact HO
      ipureintro
      repeat (first | exact hW' | refine waits_insert _ ?_)
    · have h2 : ¬ k3_cond2 k = 1#1 := fun h => hlast (e2.mp h)
      have h4 : ¬ k3_cond4 k = 1#1 := fun h => hlast (e4.mp h)
      have h6 : ¬ k3_cond6 k = 1#1 := fun h => hlast (e6.mp h)
      have h8 : ¬ k3_cond8 k = 1#1 := fun h => hlast (e8.mp h)
      rw [dif_neg (show ¬ 4 * (k.val + 1) + 0 < 20 by omega), dif_neg (show ¬ 4 * (k.val + 1) + 1 < 20 by omega), dif_neg (show ¬ 4 * (k.val + 1) + 2 < 20 by omega), dif_neg (show ¬ 4 * (k.val + 1) + 3 < 20 by omega)]
      unfold flying idle
      iintro ⟨Hmw, ⟨%fo', %hVO, Ho⟩, Hc1, Hc2, Hc3, Hc4, ⟨%b0, %hb0, Hg0, Ht0, Hr0, Hs0⟩, ⟨%b1, %hb1, Hg1, Ht1, Hr1, Hs1⟩, ⟨%b2, %hb2, Hg2, Ht2, Hr2, Hs2⟩, ⟨%b3, %hb3, Hg3, Ht3, Hr3, Hs3⟩, %W', %hW', HO⟩
      sl_exec
      sl_step
      isplitl [Hmw]; · iexact Hmw
      isplitl [Ho]
      · iexists _; isplitr
        swap; · iexact Ho
        ipureintro
        rw [show 320 * (k.val + 1) = 80 * (4 * k.val + 4) by omega]
        rw [show 80 * (4 * k.val + 4) = 80 * ((4 * k.val + 3) + 1) by omega]
        refine out_write m d L _ _ _ _ (4 * k.val + 3) ((k3_off12_eq L k).trans (by rw [show 3200 * (L 1).val + 1600 * (L 0).val + 320 * k.val + 240 = 3200 * (L 1).val + 1600 * (L 0).val + 80 * (4 * k.val + 3) by omega])) _ ?_
          (fun x j h0 h1 => (congrFun hb3 x).trans (gth_gathVal m d L _ hS (4 * k.val + 3) (by omega) x j h0 h1))
        rw [show 80 * (4 * k.val + 3) = 80 * ((4 * k.val + 2) + 1) by omega]
        refine out_write m d L _ _ _ _ (4 * k.val + 2) ((k3_off9_eq L k).trans (by rw [show 3200 * (L 1).val + 1600 * (L 0).val + 320 * k.val + 160 = 3200 * (L 1).val + 1600 * (L 0).val + 80 * (4 * k.val + 2) by omega])) _ ?_
          (fun x j h0 h1 => (congrFun hb2 x).trans (gth_gathVal m d L _ hS (4 * k.val + 2) (by omega) x j h0 h1))
        rw [show 80 * (4 * k.val + 2) = 80 * ((4 * k.val + 1) + 1) by omega]
        refine out_write m d L _ _ _ _ (4 * k.val + 1) ((k3_off6_eq L k).trans (by rw [show 3200 * (L 1).val + 1600 * (L 0).val + 320 * k.val + 80 = 3200 * (L 1).val + 1600 * (L 0).val + 80 * (4 * k.val + 1) by omega])) _ ?_
          (fun x j h0 h1 => (congrFun hb1 x).trans (gth_gathVal m d L _ hS (4 * k.val + 1) (by omega) x j h0 h1))
        rw [show 80 * (4 * k.val + 1) = 80 * ((4 * k.val + 0) + 1) by omega]
        refine out_write m d L _ _ _ _ (4 * k.val + 0) ((k3_off3_eq L k).trans (by rw [show 3200 * (L 1).val + 1600 * (L 0).val + 320 * k.val = 3200 * (L 1).val + 1600 * (L 0).val + 80 * (4 * k.val + 0) by omega])) _ ?_
          (fun x j h0 h1 => (congrFun hb0 x).trans (gth_gathVal m d L _ hS (4 * k.val + 0) (by omega) x j h0 h1))
        rw [show 80 * (4 * k.val + 0) = 320 * k.val by omega]
        exact hVO
      isplitl [Hc1]; · iexact Hc1
      isplitl [Hc2]; · iexact Hc2
      isplitl [Hc3]; · iexact Hc3
      isplitl [Hc4]; · iexact Hc4
      isplitl [Hg0 Hr0 Hs0 Ht0]
      · isplitl [Hg0]; · iexact Hg0
        isplitl [Hr0]; · iexists _; iexact Hr0
        isplitl [Hs0]; · iexact Hs0
        iexact Ht0
      isplitl [Hg1 Hr1 Hs1 Ht1]
      · isplitl [Hg1]; · iexact Hg1
        isplitl [Hr1]; · iexists _; iexact Hr1
        isplitl [Hs1]; · iexact Hs1
        iexact Ht1
      isplitl [Hg2 Hr2 Hs2 Ht2]
      · isplitl [Hg2]; · iexact Hg2
        isplitl [Hr2]; · iexists _; iexact Hr2
        isplitl [Hs2]; · iexact Hs2
        iexact Ht2
      isplitl [Hg3 Hr3 Hs3 Ht3]
      · isplitl [Hg3]; · iexact Hg3
        isplitl [Hr3]; · iexists _; iexact Hr3
        isplitl [Hs3]; · iexact Hs3
        iexact Ht3
      iexists _; isplitr
      swap; · iexact HO
      ipureintro
      repeat (first | exact hW' | refine waits_insert _ ?_)
  · unfold inv slotAt
    rw [dif_pos (show 4 * 0 + 0 < 20 by omega), dif_pos (show 4 * 0 + 1 < 20 by omega), dif_pos (show 4 * 0 + 2 < 20 by omega), dif_pos (show 4 * 0 + 3 < 20 by omega)]
    unfold flying
    isplitl [Hmw]; · iexact Hmw
    isplitl [Ho'']
    · iexists _; isplitr
      swap; · iexact Ho''
      ipureintro
      intro j h1 h2
      omega
    isplitl [Hc1]; · iexact Hc1
    isplitl [Hc2]; · iexact Hc2
    isplitl [Hc3]; · iexact Hc3
    isplitl [Hc4]; · iexact Hc4
    isplitl [Hg0 Ht0' Hr1' Hsr]
    · iexists _
      isplitr
      swap
      · isplitl [Hg0]; · iexact Hg0
        isplitl [Ht0']; · iexact Ht0'
        isplitl [Hr1']; · iexact Hr1'
        iexact Hsr
      ipureintro
      exact (read_writes_whole _ _ _).trans (payload_eq m d L _ ![0] inb_S1600_S80_0 (fun _ => rfl) (4 * 0 + 0) (by omega) rfl _ _)
    isplitl [Hg1 Ht1' Hr2' Hs0]
    · iexists _
      isplitr
      swap
      · isplitl [Hg1]; · iexact Hg1
        isplitl [Ht1']; · iexact Ht1'
        isplitl [Hr2']; · iexact Hr2'
        iexact Hs0
      ipureintro
      exact (read_writes_whole _ _ _).trans (payload_eq m d L _ ![80] inb_S1600_S80_80 (fun _ => rfl) (4 * 0 + 1) (by omega) rfl _ _)
    isplitl [Hg2 Ht2' Hr3' Hs1]
    · iexists _
      isplitr
      swap
      · isplitl [Hg2]; · iexact Hg2
        isplitl [Ht2']; · iexact Ht2'
        isplitl [Hr3']; · iexact Hr3'
        iexact Hs1
      ipureintro
      exact (read_writes_whole _ _ _).trans (payload_eq m d L _ ![160] inb_S1600_S80_160 (fun _ => rfl) (4 * 0 + 2) (by omega) rfl _ _)
    isplitl [Hg3 Ht3' Hr4' Hs2]
    · iexists _
      isplitr
      swap
      · isplitl [Hg3]; · iexact Hg3
        isplitl [Ht3']; · iexact Ht3'
        isplitl [Hr4']; · iexact Hr4'
        iexact Hs2
      ipureintro
      exact (read_writes_whole _ _ _).trans (payload_eq m d L _ ![240] inb_S1600_S80_240 (fun _ => rfl) (4 * 0 + 3) (by omega) rfl _ _)
    iexists _; isplitr
    swap; · iexact HO
    ipureintro
    repeat (first | exact (fun p hp => Or.inl hp) | refine waits_insert _ ?_)
  iintro %_ HI
  have ht : Scf.trips k3_t1_loop.lb k3_t1_loop.ub k3_t1_loop.st = 5 := trips5
  unfold inv slotAt
  rw [ht, dif_neg (show ¬ 4 * 5 + 0 < 20 by omega), dif_neg (show ¬ 4 * 5 + 1 < 20 by omega), dif_neg (show ¬ 4 * 5 + 2 < 20 by omega), dif_neg (show ¬ 4 * 5 + 3 < 20 by omega)]
  unfold idle
  icases HI with ⟨-, ⟨%ff, %hVO, Ho⟩, Hc1, Hc2, Hc3, Hc4, ⟨Hg0, ⟨%b0, Hr0⟩, Hs0, Ht0⟩, ⟨Hg1, ⟨%b1, Hr1⟩, Hs1, Ht1⟩, ⟨Hg2, ⟨%b2, Hr2⟩, Hs2, Ht2⟩, ⟨Hg3, ⟨%b3, Hr3⟩, Hs3, Ht3⟩, %W', %hW', HO⟩
  sl_exec
  sl_step
  unfold tdRes
  isplitl [Htr Ht0 Ht1 Ht2 Ht3 Hi' Ho]
  · isplitl [Htr Ht0 Ht1 Ht2 Ht3]
    · iapply (toks4_join (F := F) _ _ _)
      isplitl [Htr]; · iexact Htr
      isplitl [Ht0]; · iexact Ht0
      isplitl [Ht1]; · iexact Ht1
      isplitl [Ht2]; · iexact Ht2
      iexact Ht3
    isplitl [Hi']; · iexact Hi'
    iexists ff
    isplitr
    · ipureintro
      intro j hj
      have h0 : (L 0).val < 2 := (L 0).isLt
      have h1 : (L 1).val < 16 := (L 1).isLt
      have hj' : (j 0).val / 1600 = 2 * (L 1).val + (L 0).val := by
        have hj2 := hj
        unfold tileRows at hj2
        exact (Finset.mem_filter.mp hj2).2
      exact hVO j (by omega) (by omega)
    · iapply (Entails.of_eq (show ((oV).view.loc (V d (cV L) (jV L)) ↦[(oV).view.setOn (tileRect L).set]{fullShare} ff : sProp 𝕄)
        = outPts 3 d (tileRows (L 0).val (L 1).val) ff by rw [tileRows_eq L]; rfl))
      iexact Ho
  isplitl [Hs0 Hs1 Hs2 Hs3 Hr0 Hr1 Hr2 Hr3 Hbufs]
  · isplitl [Hs0 Hs1 Hs2 Hs3]
    · iexists _
      iapply (toks3_join (F := F) _ _ _)
      isplitl [Hs0]; · iexact Hs0
      isplitl [Hs1]; · iexact Hs1
      isplitl [Hs2]; · iexact Hs2
      iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hg0 Hg1 Hg2 Hg3 Hc0 Hc1 Hc2 Hc3 Hc4 Hsems]
  · isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro
  repeat (first | exact hW' | refine waits_insert _ ?_)

end Tile

/-! ## The obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_gather_kernel (coordsV c s)
          tV (Memref.isWhole_whole _) iV (Memref.isWhole_whole _) oV (Memref.isWhole_whole _)
          sV (Memref.isWhole_whole _) r1V (Memref.isWhole_whole _) r2V (Memref.isWhole_whole _) r3V (Memref.isWhole_whole _) r4V (Memref.isWhole_whole _)
          cc3_scratch5 cc3_scratch6 cc3_scratch7 cc3_scratch8 cc3_scoped0 cc3_scoped1 cc3_scoped2 cc3_scoped3 cc3_scoped4) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsInRange m) : (K (F := F)).TileObl (D (F := F)) 𝒱 (P m) v₀ 3 := by
  intro d c i O W hO _ _
  simp only [show (P m).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The operands split among the sixteen tiles -/

section Split

omit [FloatOps F] in
/-- Two tiles of one SparseCore copy different 1600-row bands. -/
theorem tileRows_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, Finset.mem_filter, Finset.mem_univ, true_and] at hx hy
  exact hij (Fin.ext (by omega))

omit [FloatOps F] in
/-- The bands of parity `c` are the bands `2 i + c`, `i < 16`. -/
theorem tileRows_cover (c : ℕ) (hc : c < 2) : (Finset.univ : Finset (Fin 16)).biUnion (fun i => tileRows c i.val) = coreRows c := by
  ext x
  have hx : (x 0).val < 51200 := (x 0).isLt
  simp only [Finset.mem_biUnion, Finset.mem_univ, true_and, tileRows, coreRows, Finset.mem_filter]
  constructor
  · rintro ⟨i, hi⟩; rw [hi]; omega
  · intro h
    exact ⟨⟨(x 0).val / 1600 / 2, by omega⟩, by show (x 0).val / 1600 = 2 * ((x 0).val / 1600 / 2) + c; omega⟩

omit [FloatOps F] in
theorem out_rows (d : Dev nD) (c : ℕ) (hc : c < 2) (f : S51200x128.Idx → Elt F .f32) :
    ((SparseCore.T d).loc main_v11 ↦[coreRows c]{fullShare} f : sProp 𝕄)
      = bigSep Finset.univ fun i : Fin 16 => (SparseCore.T d).loc main_v11 ↦[tileRows c i.val]{fullShare} f := by
  rw [← pointsTo_biUnion Finset.univ (ℓ := (SparseCore.T d).loc main_v11) (fun i : Fin 16 => tileRows c i.val) (tileRows_disjoint c), tileRows_cover c hc]

/-- The tiles' written bands join into the SparseCore's rows, each still holding what the call gathers. -/
theorem out_join (d : Dev nD) (c : ℕ) (hc : c < 2) (f₀ : S51200x128.Idx → Elt F .f32) :
    (bigSep Finset.univ fun i : Fin 16 => iprop(∃ f, ⌜RowsOK m 3 d (tileRows c i.val) f⌝ ∗ (SparseCore.T d).loc main_v11 ↦[tileRows c i.val]{fullShare} f))
      ⊢ (iprop(∃ f, ⌜RowsOK m 3 d (coreRows c) f⌝ ∗ (SparseCore.T d).loc main_v11 ↦[coreRows c]{fullShare} f) : sProp 𝕄) := by
  refine (bigSep_exists_pi Finset.univ (fun (i : Fin 16) (f : Buf (Elt F) ((SparseCore.T d).loc main_v11)) =>
    iprop(⌜RowsOK m 3 d (tileRows c i.val) f⌝ ∗ (SparseCore.T d).loc main_v11 ↦[tileRows c i.val]{fullShare} f))).trans ?_
  iintro ⟨%fs, H⟩
  ihave H' := (bigSep_pure_sep Finset.univ (fun i : Fin 16 => RowsOK m 3 d (tileRows c i.val) (fs i))
    (fun i : Fin 16 => (SparseCore.T d).loc main_v11 ↦[tileRows c i.val]{fullShare} fs i)) $$ H
  icases H' with ⟨%hok, H⟩
  ihave H'' := (pointsTo_biUnion_join (ℓ := (SparseCore.T d).loc main_v11) (q := fullShare) (Val := Elt F) Finset.univ (fun i : Fin 16 => tileRows c i.val) fs (fs 0)
    (tileRows_disjoint c)) $$ H
  icases H'' with ⟨%g, %hg, Hg⟩
  rw [tileRows_cover c hc]
  iexists g
  isplitr
  · ipureintro
    intro j hj
    rw [← tileRows_cover c hc] at hj
    obtain ⟨i, -, hi⟩ := Finset.mem_biUnion.mp hj
    rw [hg i (Finset.mem_univ i) j hi]
    exact hok i (Finset.mem_univ i) j hi
  · iexact Hg

omit [FloatOps F] in
theorem out_ex (d : Dev nD) (R : Finset S51200x128.Idx) (f : S51200x128.Idx → Elt F .f32) :
    ((SparseCore.T d).loc main_v11 ↦[R]{fullShare} f : sProp 𝕄) ⊢ iprop(∃ f, outPts 3 d R f) := by
  iintro H; iexists f
  iapply (Entails.of_eq (show ((SparseCore.T d).loc main_v11 ↦[R]{fullShare} f : sProp 𝕄) = outPts 3 d R f from rfl))
  iexact H

theorem vecSplit : (K (F := F)).VecSplit' (P m) 3 := by
  intro d c
  have hc : c.val < 2 := c.isLt
  show stRes m 3 d c.val ⊢ |={Set.univ}=> iprop((bigSep Finset.univ fun i : Fin 16 => goRes m 3 d c.val i.val)
      ∗ ((bigSep Finset.univ fun i : Fin 16 => tdRes m 3 d c.val i.val) -∗ dnRes m 3 d c.val))
  unfold stRes goRes tdRes dnRes
  rw [bigSep_sep', bigSep_sep', bigSep_sep', bigSep_sep']
  iintro ⟨Ht, Hi, %f, Ho⟩
  imodintro
  ihave Ht' := (Transfers.pointsTo_toks_split (coreSh c.val) 16) $$ Ht
  icases Ht' with ⟨Htr, Htt⟩
  ihave Hi' := (Transfers.pointsTo_toks_split (coreSh c.val) 16) $$ Hi
  icases Hi' with ⟨Hir, Hit⟩
  ihave Ho' := (Entails.of_eq ((show (outPts (F := F) 3 d (coreRows c.val) f : sProp 𝕄) = _ from rfl).trans (out_rows (F := F) d c.val hc f))) $$ Ho
  isplitl [Htt Hit Ho']
  · isplitl [Htt]; · iexact Htt
    isplitl [Hit]; · iexact Hit
    iapply (show (bigSep Finset.univ fun i : Fin 16 => ((SparseCore.T d).loc main_v11 ↦[tileRows c.val i.val]{fullShare} f : sProp 𝕄))
        ⊢ bigSep Finset.univ fun i : Fin 16 => iprop(∃ f, outPts 3 d (tileRows c.val i.val) f) from
      bigSep_mono (fun (i : Fin 16) _ => out_ex (F := F) d (tileRows c.val i.val) f)) $$ Ho'
  iintro ⟨Htt, Hit, Hot⟩
  isplitl [Htr Htt]
  · iapply (Transfers.pointsTo_toks_join (coreSh c.val) 16)
    isplitl [Htr]; · iexact Htr
    iexact Htt
  isplitl [Hir Hit]
  · iapply (Transfers.pointsTo_toks_join (coreSh c.val) 16)
    isplitl [Hir]; · iexact Hir
    iexact Hit
  iapply (out_join m d c.val hc f); iexact Hot

end Split

end Cert.Kernel.Hand.Tile3

namespace Cert.Kernel.Hand

open Idealize.ShloMosaic

variable {F : FTy → Type} (m : (ℓ : Loc nD τ sig) → Buf (Elt F) ℓ) [FloatOps F]

/-- gather call 3 on one tile: from the tile's shares of the table and of the ids and its 1600 rows of the chunk, the rows
    written with what the call gathers. -/
theorem tileObl3 (hpre : IdsInRange m) : (K (F := F)).TileObl (D (F := F)) 𝒱 (P m) v₀ 3 := Tile3.tileObl m facts hpre

/-- A SparseCore's operands for gather call 3 split among its sixteen tiles and their results join. -/
theorem vecSplit3 : (K (F := F)).VecSplit' (P m) 3 := Tile3.vecSplit m

end Cert.Kernel.Hand

end
-- ==== Proof.Bits.Obls.lean ====
/-
  The four gather calls' obligations and splits, by call index: the calls differ only in which 51200 ids they read and
  which chunk they write.
-/
import proofs.«203472_g22600117912246_cont_8to1_820_34_alg».proof.Proof.Bits.Tile0
import proofs.«203472_g22600117912246_cont_8to1_820_34_alg».proof.Proof.Bits.Tile1
import proofs.«203472_g22600117912246_cont_8to1_820_34_alg».proof.Proof.Bits.Tile2
import proofs.«203472_g22600117912246_cont_8to1_820_34_alg».proof.Proof.Bits.Tile3

noncomputable section

namespace Cert.Kernel.Hand

open Cert.Kernel Cert.Kernel.Gen
open Idealize.ShloMosaic

variable {F : FTy → Type} [FloatOps F] (m : (ℓ : Loc nD τ sig) → Buf (Elt F) ℓ)

/-- One tile's task, for each of the four calls. -/
theorem tileObls (hpre : IdsInRange m) : ∀ q : Fin 4, (K (F := F)).TileObl (D (F := F)) 𝒱 (P m) v₀ q
  | 0 => tileObl0 m hpre
  | 1 => tileObl1 m hpre
  | 2 => tileObl2 m hpre
  | 3 => tileObl3 m hpre

/-- A SparseCore's operands among its sixteen tiles, for each of the four calls. -/
theorem vecSplits : ∀ q : Fin 4, (K (F := F)).VecSplit' (P m) q
  | 0 => vecSplit0 m
  | 1 => vecSplit1 m
  | 2 => vecSplit2 m
  | 3 => vecSplit3 m

end Cert.Kernel.Hand

end
-- ==== Proof.Calls.lean ====
/-
  The TensorCore's side of a gather call: the word table and the token ids are read by every tile of both SparseCores,
  so each SparseCore is lent a read share of them; chunk q's 51200 rows are divided between the SparseCores by the
  parity of their 1600-row band. What the call returns is rejoined: the table and ids whole again, the chunk whole at
  contents that agree, row by row, with the table rows its ids name.
-/
import proofs.«203472_g22600117912246_cont_8to1_820_34_alg».proof.Proof.Common
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

abbrev tab' : DevRef τ sig := Proc.devRef .tc (main_arg2 : Ref sig .tc)
abbrev ids' : DevRef τ sig := Proc.devRef .tc (main_v0 : Ref sig .tc)

omit [FloatOps F] in
/-- An unscoped TensorCore reference is among those the TensorCore holds between regions. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

theorem coreRows_sdiff : (Finset.univ : Finset S51200x128.Idx) \ coreRows 0 = coreRows 1 := by
  ext j; simp only [coreRows, Finset.mem_sdiff, Finset.mem_univ, Finset.mem_filter, true_and]; omega
theorem coreRows_disj : Disjoint (coreRows 0) (coreRows 1) := by
  rw [Finset.disjoint_left]; intro j h0 h1; simp only [coreRows, Finset.mem_filter, Finset.mem_univ, true_and] at h0 h1; omega
theorem coreRows_union : coreRows 0 ∪ coreRows 1 = (Finset.univ : Finset S51200x128.Idx) := by
  ext j; simp only [coreRows, Finset.mem_union, Finset.mem_filter, Finset.mem_univ, true_and, iff_true]; omega

abbrev out0' : DevRef τ sig := Proc.devRef .tc (main_v5 : Ref sig .tc)

theorem sub3_0 : ({tab', ids', out0'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v5 (by decide)

omit [FloatOps F] in
theorem held3_0 (d : Dev nD) (W : Valuation τ sig (Elt F)) :
    (held (T d) ({tab', ids', out0'} : Finset (DevRef τ sig)) W : sProp 𝕄)
      = iprop((tabLoc d ↦{fullShare} W tab') ∗ (idsLoc d ↦{fullShare} W ids') ∗ (SparseCore.T d).loc main_v5 ↦{fullShare} W out0') := by
  unfold held
  rw [SparseCore.bigSep_insert' (by decide), SparseCore.bigSep_insert' (by decide), bigSep_singleton]

omit [FloatOps F] in
theorem outPts0_eq (d : Dev nD) (R : Finset S51200x128.Idx) (f : S51200x128.Idx → Elt F .f32) :
    (outPts (F := F) 0 d R f : sProp 𝕄) = ((SparseCore.T d).loc main_v5 ↦[R]{fullShare} f) := rfl

theorem st0_eq (d : Dev nD) : (bigSep Finset.univ fun c : Fin ((K (F := F)).nCore 0) => (P m).st 0 d c) = iprop(stRes m 0 d 0 ∗ stRes m 0 d 1) := by
  show (bigSep (Finset.univ : Finset (Fin 2)) fun c => stRes m 0 d c.val) = _
  rw [bigSep_fin2]; rfl
theorem dn0_eq (d : Dev nD) : (bigSep Finset.univ fun c : Fin ((K (F := F)).nCore 0) => (P m).dn 0 d c) = iprop(dnRes m 0 d 0 ∗ dnRes m 0 d 1) := by
  show (bigSep (Finset.univ : Finset (Fin 2)) fun c => dnRes m 0 d c.val) = _
  rw [bigSep_fin2]; rfl

/-- Gather call 0 from the TensorCore: the table and the ids go out as one read share per SparseCore, the chunk's rows
    by parity of their 1600-row band; what comes back is rejoined, the chunk at contents that are what the call gathers. -/
theorem call0 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 0 d Finset.univ f →
      iprop(R ∗ (K (F := F)).tcSt EH d (0 + 1) ∗ held (T d) (Pipeline.ucRefs τ sig) (Function.update W out0' f)) ⊢ Φ ⟨⟩) :
    iprop((K (F := F)).ctx EH (P m) κ ∗ (K (F := F)).tcSt EH d 0 ∗ held (T d) (Pipeline.ucRefs τ sig) W ∗ R)
    ⊢ wp frame (wpE ((K (F := F)).defs (D (F := F))) 𝒱 (SparseCore.T d) none) Set.univ ((K (F := F)).run d 0) Φ := by
  rw [StableHlo.held_sub_split (T d) sub3_0 W, held3_0, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 0) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st0_eq]; unfold stRes; simp only [outPts0_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn0_eq m d)) $$ Hdn
  unfold dnRes; simp only [outPts0_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v5) (I := coreRows 0) (J := coreRows 1) coreRows_disj) $$ [Ho0 Ho1]
  · isplitl [Ho0]; · iexact Ho0
    iexact Ho1
  rw [coreRows_union]
  have hg : RowsOK m 0 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_0 (Function.update W out0' _), held3_0]
  have hne : ∀ b ∈ Pipeline.ucRefs τ sig \ ({tab', ids', out0'} : Finset (DevRef τ sig)), b ≠ out0' :=
    fun b hb e => (Finset.mem_sdiff.mp hb).2 (by rw [e]; simp)
  rw [Function.update_of_ne (show tab' ≠ out0' by decide), Function.update_of_ne (show ids' ≠ out0' by decide), Function.update_self, hWt, hWi,
    StableHlo.held_congr (T d) (V := Function.update W out0' _) (V' := W) (fun b hb => Function.update_of_ne (hne b hb) _ _)]
  isplitl [Ht Hi Ho]
  · isplitl [Ht]; · iexact Ht
    isplitl [Hi]; · iexact Hi
    iexact Ho
  iexact Hrest

abbrev out1' : DevRef τ sig := Proc.devRef .tc (main_v7 : Ref sig .tc)

theorem sub3_1 : ({tab', ids', out1'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v7 (by decide)

omit [FloatOps F] in
theorem held3_1 (d : Dev nD) (W : Valuation τ sig (Elt F)) :
    (held (T d) ({tab', ids', out1'} : Finset (DevRef τ sig)) W : sProp 𝕄)
      = iprop((tabLoc d ↦{fullShare} W tab') ∗ (idsLoc d ↦{fullShare} W ids') ∗ (SparseCore.T d).loc main_v7 ↦{fullShare} W out1') := by
  unfold held
  rw [SparseCore.bigSep_insert' (by decide), SparseCore.bigSep_insert' (by decide), bigSep_singleton]

omit [FloatOps F] in
theorem outPts1_eq (d : Dev nD) (R : Finset S51200x128.Idx) (f : S51200x128.Idx → Elt F .f32) :
    (outPts (F := F) 1 d R f : sProp 𝕄) = ((SparseCore.T d).loc main_v7 ↦[R]{fullShare} f) := rfl

theorem st1_eq (d : Dev nD) : (bigSep Finset.univ fun c : Fin ((K (F := F)).nCore 1) => (P m).st 1 d c) = iprop(stRes m 1 d 0 ∗ stRes m 1 d 1) := by
  show (bigSep (Finset.univ : Finset (Fin 2)) fun c => stRes m 1 d c.val) = _
  rw [bigSep_fin2]; rfl
theorem dn1_eq (d : Dev nD) : (bigSep Finset.univ fun c : Fin ((K (F := F)).nCore 1) => (P m).dn 1 d c) = iprop(dnRes m 1 d 0 ∗ dnRes m 1 d 1) := by
  show (bigSep (Finset.univ : Finset (Fin 2)) fun c => dnRes m 1 d c.val) = _
  rw [bigSep_fin2]; rfl

/-- Gather call 1 from the TensorCore: the table and the ids go out as one read share per SparseCore, the chunk's rows
    by parity of their 1600-row band; what comes back is rejoined, the chunk at contents that are what the call gathers. -/
theorem call1 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 1 d Finset.univ f →
      iprop(R ∗ (K (F := F)).tcSt EH d (1 + 1) ∗ held (T d) (Pipeline.ucRefs τ sig) (Function.update W out1' f)) ⊢ Φ ⟨⟩) :
    iprop((K (F := F)).ctx EH (P m) κ ∗ (K (F := F)).tcSt EH d 1 ∗ held (T d) (Pipeline.ucRefs τ sig) W ∗ R)
    ⊢ wp frame (wpE ((K (F := F)).defs (D (F := F))) 𝒱 (SparseCore.T d) none) Set.univ ((K (F := F)).run d 1) Φ := by
  rw [StableHlo.held_sub_split (T d) sub3_1 W, held3_1, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 1) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st1_eq]; unfold stRes; simp only [outPts1_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn1_eq m d)) $$ Hdn
  unfold dnRes; simp only [outPts1_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v7) (I := coreRows 0) (J := coreRows 1) coreRows_disj) $$ [Ho0 Ho1]
  · isplitl [Ho0]; · iexact Ho0
    iexact Ho1
  rw [coreRows_union]
  have hg : RowsOK m 1 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_1 (Function.update W out1' _), held3_1]
  have hne : ∀ b ∈ Pipeline.ucRefs τ sig \ ({tab', ids', out1'} : Finset (DevRef τ sig)), b ≠ out1' :=
    fun b hb e => (Finset.mem_sdiff.mp hb).2 (by rw [e]; simp)
  rw [Function.update_of_ne (show tab' ≠ out1' by decide), Function.update_of_ne (show ids' ≠ out1' by decide), Function.update_self, hWt, hWi,
    StableHlo.held_congr (T d) (V := Function.update W out1' _) (V' := W) (fun b hb => Function.update_of_ne (hne b hb) _ _)]
  isplitl [Ht Hi Ho]
  · isplitl [Ht]; · iexact Ht
    isplitl [Hi]; · iexact Hi
    iexact Ho
  iexact Hrest

abbrev out2' : DevRef τ sig := Proc.devRef .tc (main_v9 : Ref sig .tc)

theorem sub3_2 : ({tab', ids', out2'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v9 (by decide)

omit [FloatOps F] in
theorem held3_2 (d : Dev nD) (W : Valuation τ sig (Elt F)) :
    (held (T d) ({tab', ids', out2'} : Finset (DevRef τ sig)) W : sProp 𝕄)
      = iprop((tabLoc d ↦{fullShare} W tab') ∗ (idsLoc d ↦{fullShare} W ids') ∗ (SparseCore.T d).loc main_v9 ↦{fullShare} W out2') := by
  unfold held
  rw [SparseCore.bigSep_insert' (by decide), SparseCore.bigSep_insert' (by decide), bigSep_singleton]

omit [FloatOps F] in
theorem outPts2_eq (d : Dev nD) (R : Finset S51200x128.Idx) (f : S51200x128.Idx → Elt F .f32) :
    (outPts (F := F) 2 d R f : sProp 𝕄) = ((SparseCore.T d).loc main_v9 ↦[R]{fullShare} f) := rfl

theorem st2_eq (d : Dev nD) : (bigSep Finset.univ fun c : Fin ((K (F := F)).nCore 2) => (P m).st 2 d c) = iprop(stRes m 2 d 0 ∗ stRes m 2 d 1) := by
  show (bigSep (Finset.univ : Finset (Fin 2)) fun c => stRes m 2 d c.val) = _
  rw [bigSep_fin2]; rfl
theorem dn2_eq (d : Dev nD) : (bigSep Finset.univ fun c : Fin ((K (F := F)).nCore 2) => (P m).dn 2 d c) = iprop(dnRes m 2 d 0 ∗ dnRes m 2 d 1) := by
  show (bigSep (Finset.univ : Finset (Fin 2)) fun c => dnRes m 2 d c.val) = _
  rw [bigSep_fin2]; rfl

/-- Gather call 2 from the TensorCore: the table and the ids go out as one read share per SparseCore, the chunk's rows
    by parity of their 1600-row band; what comes back is rejoined, the chunk at contents that are what the call gathers. -/
theorem call2 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 2 d Finset.univ f →
      iprop(R ∗ (K (F := F)).tcSt EH d (2 + 1) ∗ held (T d) (Pipeline.ucRefs τ sig) (Function.update W out2' f)) ⊢ Φ ⟨⟩) :
    iprop((K (F := F)).ctx EH (P m) κ ∗ (K (F := F)).tcSt EH d 2 ∗ held (T d) (Pipeline.ucRefs τ sig) W ∗ R)
    ⊢ wp frame (wpE ((K (F := F)).defs (D (F := F))) 𝒱 (SparseCore.T d) none) Set.univ ((K (F := F)).run d 2) Φ := by
  rw [StableHlo.held_sub_split (T d) sub3_2 W, held3_2, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 2) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st2_eq]; unfold stRes; simp only [outPts2_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn2_eq m d)) $$ Hdn
  unfold dnRes; simp only [outPts2_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v9) (I := coreRows 0) (J := coreRows 1) coreRows_disj) $$ [Ho0 Ho1]
  · isplitl [Ho0]; · iexact Ho0
    iexact Ho1
  rw [coreRows_union]
  have hg : RowsOK m 2 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_2 (Function.update W out2' _), held3_2]
  have hne : ∀ b ∈ Pipeline.ucRefs τ sig \ ({tab', ids', out2'} : Finset (DevRef τ sig)), b ≠ out2' :=
    fun b hb e => (Finset.mem_sdiff.mp hb).2 (by rw [e]; simp)
  rw [Function.update_of_ne (show tab' ≠ out2' by decide), Function.update_of_ne (show ids' ≠ out2' by decide), Function.update_self, hWt, hWi,
    StableHlo.held_congr (T d) (V := Function.update W out2' _) (V' := W) (fun b hb => Function.update_of_ne (hne b hb) _ _)]
  isplitl [Ht Hi Ho]
  · isplitl [Ht]; · iexact Ht
    isplitl [Hi]; · iexact Hi
    iexact Ho
  iexact Hrest

abbrev out3' : DevRef τ sig := Proc.devRef .tc (main_v11 : Ref sig .tc)

theorem sub3_3 : ({tab', ids', out3'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v11 (by decide)

omit [FloatOps F] in
theorem held3_3 (d : Dev nD) (W : Valuation τ sig (Elt F)) :
    (held (T d) ({tab', ids', out3'} : Finset (DevRef τ sig)) W : sProp 𝕄)
      = iprop((tabLoc d ↦{fullShare} W tab') ∗ (idsLoc d ↦{fullShare} W ids') ∗ (SparseCore.T d).loc main_v11 ↦{fullShare} W out3') := by
  unfold held
  rw [SparseCore.bigSep_insert' (by decide), SparseCore.bigSep_insert' (by decide), bigSep_singleton]

omit [FloatOps F] in
theorem outPts3_eq (d : Dev nD) (R : Finset S51200x128.Idx) (f : S51200x128.Idx → Elt F .f32) :
    (outPts (F := F) 3 d R f : sProp 𝕄) = ((SparseCore.T d).loc main_v11 ↦[R]{fullShare} f) := rfl

theorem st3_eq (d : Dev nD) : (bigSep Finset.univ fun c : Fin ((K (F := F)).nCore 3) => (P m).st 3 d c) = iprop(stRes m 3 d 0 ∗ stRes m 3 d 1) := by
  show (bigSep (Finset.univ : Finset (Fin 2)) fun c => stRes m 3 d c.val) = _
  rw [bigSep_fin2]; rfl
theorem dn3_eq (d : Dev nD) : (bigSep Finset.univ fun c : Fin ((K (F := F)).nCore 3) => (P m).dn 3 d c) = iprop(dnRes m 3 d 0 ∗ dnRes m 3 d 1) := by
  show (bigSep (Finset.univ : Finset (Fin 2)) fun c => dnRes m 3 d c.val) = _
  rw [bigSep_fin2]; rfl

/-- Gather call 3 from the TensorCore: the table and the ids go out as one read share per SparseCore, the chunk's rows
    by parity of their 1600-row band; what comes back is rejoined, the chunk at contents that are what the call gathers. -/
theorem call3 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 3 d Finset.univ f →
      iprop(R ∗ (K (F := F)).tcSt EH d (3 + 1) ∗ held (T d) (Pipeline.ucRefs τ sig) (Function.update W out3' f)) ⊢ Φ ⟨⟩) :
    iprop((K (F := F)).ctx EH (P m) κ ∗ (K (F := F)).tcSt EH d 3 ∗ held (T d) (Pipeline.ucRefs τ sig) W ∗ R)
    ⊢ wp frame (wpE ((K (F := F)).defs (D (F := F))) 𝒱 (SparseCore.T d) none) Set.univ ((K (F := F)).run d 3) Φ := by
  rw [StableHlo.held_sub_split (T d) sub3_3 W, held3_3, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 3) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st3_eq]; unfold stRes; simp only [outPts3_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn3_eq m d)) $$ Hdn
  unfold dnRes; simp only [outPts3_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v11) (I := coreRows 0) (J := coreRows 1) coreRows_disj) $$ [Ho0 Ho1]
  · isplitl [Ho0]; · iexact Ho0
    iexact Ho1
  rw [coreRows_union]
  have hg : RowsOK m 3 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_3 (Function.update W out3' _), held3_3]
  have hne : ∀ b ∈ Pipeline.ucRefs τ sig \ ({tab', ids', out3'} : Finset (DevRef τ sig)), b ≠ out3' :=
    fun b hb e => (Finset.mem_sdiff.mp hb).2 (by rw [e]; simp)
  rw [Function.update_of_ne (show tab' ≠ out3' by decide), Function.update_of_ne (show ids' ≠ out3' by decide), Function.update_self, hWt, hWi,
    StableHlo.held_congr (T d) (V := Function.update W out3' _) (V' := W) (fun b hb => Function.update_of_ne (hne b hb) _ _)]
  isplitl [Ht Hi Ho]
  · isplitl [Ht]; · iexact Ht
    isplitl [Hi]; · iexact Hi
    iexact Ho
  iexact Hrest

end Cert.KernelIdeal.Hand

end
-- ==== Proof.Head.lean ====
/-
  @main's head on the TensorCore. The TensorCore's state between two steps is: the launch context, its handshake state
  before gather call n, the region boundary, every unscoped buffer whole at a valuation W, and what rides along (the
  generator register, the regions' staging cells' ghost state). A host stretch moves W to StableHlo.after ops W; gather
  call q moves the handshake state from q to q + 1 and W to W with chunk q replaced by contents f that agree with the
  table rows its ids name. Chained from the launch memory they reach the buffers V8 the TensorCore tail starts from.
-/
import proofs.«203472_g22600117912246_cont_8to1_820_34_alg».proof.Proof.Calls
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The tail of @main after the fourth gather call, over the pipelines' own signature. -/
def tailProg : Prog (TpuEff nD τ sig (Elt F) (ΛP (F := F)) .tc) PUnit :=
  StableHlo.seq [StableHlo.reshape main_v11 main_v12 rfl shapeCasts_S51200x128_S256x200x128] >>= fun _ =>
  Prog.op (.customCall (Pipeline.entry 0) ()) fun _ =>
  StableHlo.seq [StableHlo.unary main_v13 main_v14 id] >>= fun _ =>
  Prog.op (.customCall (Pipeline.entry 1) ()) fun _ =>
  StableHlo.seq [StableHlo.unary main_v14 main_v15 id] >>= fun _ =>
  Prog.op (.customCall (Pipeline.entry 2) ()) fun _ =>
  StableHlo.seq [StableHlo.unary main_v15 main_v16 id] >>= fun _ =>
  Prog.op (.customCall (Pipeline.entry 3) ()) fun _ => pure ⟨⟩

theorem main_eq (d : Dev nD) : main (F := F) d =
    (StableHlo.seq (hostOps0 (F := F)) >>= fun _ =>
     (K (F := F)).run d 0 >>= fun _ =>
     StableHlo.seq [StableHlo.reshape main_v5 main_v6 rfl shapeCasts_S51200x128_S256x200x128] >>= fun _ =>
     (K (F := F)).run d 1 >>= fun _ =>
     StableHlo.seq [StableHlo.reshape main_v7 main_v8 rfl shapeCasts_S51200x128_S256x200x128] >>= fun _ =>
     (K (F := F)).run d 2 >>= fun _ =>
     StableHlo.seq [StableHlo.reshape main_v9 main_v10 rfl shapeCasts_S51200x128_S256x200x128] >>= fun _ =>
     (K (F := F)).run d 3 >>= fun _ =>
     SparseCore.liftProg (tailProg (F := F))) := by
  rfl

variable (κ : GSem nD τ sig → ℕ) (d : Dev nD)

/-- What rides along unchanged through @main's head: the generator register and the regions' staging cells' ghost state. -/
abbrev Xres : sProp 𝕄 := iprop(prngReg d (ρ d) ∗ Pipeline.ghostOn (pcfgs (F := F)) (fun p => (cfgs p).toPCfg_adm) EP Finset.univ d)

/-- The TensorCore between two steps of @main's head: before gather call `n`, its unscoped buffers at `W`. -/
abbrev St (n : ℕ) (W : Valuation τ sig (Elt F)) : sProp 𝕄 :=
  iprop((K (F := F)).ctx EH (P m) κ ∗ (K (F := F)).tcSt EH d n ∗ boundary (SparseCore.T d) ∗ held (T d) (Pipeline.ucRefs τ sig) W ∗ Xres ρ d)

/-- A stretch of host operations. -/
theorem host_step (n : ℕ) (ops : List (HloOp τ sig (Elt F))) (hS : ∀ op ∈ ops, op.bufs ⊆ Pipeline.ucRefs τ sig) (hf : ∀ op ∈ ops, op.fresh = ∅)
    (W : Valuation τ sig (Elt F)) {β : Type} (k : PUnit → Prog (TpuEff nD τ sig (Elt F) (SparseCore.Sig (ΛP (F := F)) 4) .tc) β) (Φ : β → sProp 𝕄)
    (hk : St m ρ κ d n (StableHlo.after ops W) ⊢ wp frame (wpE ((K (F := F)).defs (D (F := F))) 𝒱 (SparseCore.T d) none) Set.univ (k ⟨⟩) Φ) :
    St m ρ κ d n W ⊢ wp frame (wpE ((K (F := F)).defs (D (F := F))) 𝒱 (SparseCore.T d) none) Set.univ (StableHlo.seq ops >>= k) Φ := by
  iintro ⟨#Hctx, Hst, Hb, Hh, HX⟩
  iapply (StableHlo.wp_seq (defs := (K (F := F)).defs (D (F := F))) 𝒱 none Set.univ d (Pipeline.ucRefs τ sig) k ops hS hf W) $$ [Hb Hh]
  · isplitl [Hb] <;> iassumption
  iintro ⟨Hb, Hh⟩
  iapply hk
  isplitr; · iexact Hctx
  isplitl [Hst]; · iexact Hst
  isplitl [Hb]; · iexact Hb
  isplitl [Hh]; · iexact Hh
  iexact HX

theorem call_step0 (W : Valuation τ sig (Elt F)) (hWt : W tab' = m (tabLoc d)) (hWi : W ids' = idsB m d) (Φ : PUnit → sProp 𝕄)
    (hk : ∀ f : S51200x128.Idx → Elt F .f32, RowsOK m 0 d Finset.univ f → St m ρ κ d (0 + 1) (Function.update W out0' f) ⊢ Φ ⟨⟩) :
    St m ρ κ d 0 W ⊢ wp frame (wpE ((K (F := F)).defs (D (F := F))) 𝒱 (SparseCore.T d) none) Set.univ ((K (F := F)).run d 0) Φ := by
  refine BIBase.Entails.trans ?_ (call0 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step1 (W : Valuation τ sig (Elt F)) (hWt : W tab' = m (tabLoc d)) (hWi : W ids' = idsB m d) (Φ : PUnit → sProp 𝕄)
    (hk : ∀ f : S51200x128.Idx → Elt F .f32, RowsOK m 1 d Finset.univ f → St m ρ κ d (1 + 1) (Function.update W out1' f) ⊢ Φ ⟨⟩) :
    St m ρ κ d 1 W ⊢ wp frame (wpE ((K (F := F)).defs (D (F := F))) 𝒱 (SparseCore.T d) none) Set.univ ((K (F := F)).run d 1) Φ := by
  refine BIBase.Entails.trans ?_ (call1 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step2 (W : Valuation τ sig (Elt F)) (hWt : W tab' = m (tabLoc d)) (hWi : W ids' = idsB m d) (Φ : PUnit → sProp 𝕄)
    (hk : ∀ f : S51200x128.Idx → Elt F .f32, RowsOK m 2 d Finset.univ f → St m ρ κ d (2 + 1) (Function.update W out2' f) ⊢ Φ ⟨⟩) :
    St m ρ κ d 2 W ⊢ wp frame (wpE ((K (F := F)).defs (D (F := F))) 𝒱 (SparseCore.T d) none) Set.univ ((K (F := F)).run d 2) Φ := by
  refine BIBase.Entails.trans ?_ (call2 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step3 (W : Valuation τ sig (Elt F)) (hWt : W tab' = m (tabLoc d)) (hWi : W ids' = idsB m d) (Φ : PUnit → sProp 𝕄)
    (hk : ∀ f : S51200x128.Idx → Elt F .f32, RowsOK m 3 d Finset.univ f → St m ρ κ d (3 + 1) (Function.update W out3' f) ⊢ Φ ⟨⟩) :
    St m ρ κ d 3 W ⊢ wp frame (wpE ((K (F := F)).defs (D (F := F))) 𝒱 (SparseCore.T d) none) Set.univ ((K (F := F)).run d 3) Φ := by
  refine BIBase.Entails.trans ?_ (call3 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

/-! ## The buffers along @main's head -/

abbrev op56 : HloOp τ sig (Elt F) := StableHlo.reshape main_v5 main_v6 rfl shapeCasts_S51200x128_S256x200x128
abbrev op78 : HloOp τ sig (Elt F) := StableHlo.reshape main_v7 main_v8 rfl shapeCasts_S51200x128_S256x200x128
abbrev op910 : HloOp τ sig (Elt F) := StableHlo.reshape main_v9 main_v10 rfl shapeCasts_S51200x128_S256x200x128

variable (f0 f1 f2 f3 : S51200x128.Idx → Elt F .f32)

/-- After gather call 0 (chunk 0 at `f0`), its reshape, call 1, … : the buffers when the TensorCore tail starts. -/
def V2 : Valuation τ sig (Elt F) := Function.update (W1 m d) out0' f0
def V3 : Valuation τ sig (Elt F) := StableHlo.after [op56] (V2 m d f0)
def V4 : Valuation τ sig (Elt F) := Function.update (V3 m d f0) out1' f1
def V5 : Valuation τ sig (Elt F) := StableHlo.after [op78] (V4 m d f0 f1)
def V6 : Valuation τ sig (Elt F) := Function.update (V5 m d f0 f1) out2' f2
def V7 : Valuation τ sig (Elt F) := StableHlo.after [op910] (V6 m d f0 f1 f2)
def V8 : Valuation τ sig (Elt F) := Function.update (V7 m d f0 f1 f2) out3' f3

theorem hostOps0_sub : (hostOps0 (F := F)).Forall fun op => op.bufs ⊆ StableHlo.tcRefs τ sig := by
  simp only [List.Forall]
  exact ⟨StableHlo.reshape_bufs_sub .., StableHlo.unary_bufs_sub .., StableHlo.reshape_bufs_sub .., StableHlo.reshape_bufs_sub .., StableHlo.reshape_bufs_sub ..⟩
theorem hostOps0_fresh : (hostOps0 (F := F)).Forall fun op => op.fresh = ∅ := by
  simp only [List.Forall]; repeat' constructor

/-- A reference no operation of the first host stretch writes keeps its launch contents. -/
theorem W1_keep (b : Ref sig .tc) (h0 : b ≠ main_v0) (h1 : b ≠ main_v1) (h2 : b ≠ main_v2) (h3 : b ≠ main_v3) (h4 : b ≠ main_v4) :
    W1 m d (Proc.devRef .tc b) = m (d, Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The reshape writes its result only. -/
theorem keep56 (W : Valuation τ sig (Elt F)) (b : Ref sig .tc) (hb : b ≠ main_v6) :
    StableHlo.after [op56 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

/-- The reshape writes its result only. -/
theorem keep78 (W : Valuation τ sig (Elt F)) (b : Ref sig .tc) (hb : b ≠ main_v8) :
    StableHlo.after [op78 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

/-- The reshape writes its result only. -/
theorem keep910 (W : Valuation τ sig (Elt F)) (b : Ref sig .tc) (hb : b ≠ main_v10) :
    StableHlo.after [op910 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

theorem headS0 : ∀ op ∈ hostOps0 (F := F), op.bufs ⊆ Pipeline.ucRefs τ sig :=
  fun op h => Pipeline.sub_ucRefs op ((List.forall_iff_forall_mem.mp hostOps0_sub) op h)
theorem headF0 : ∀ op ∈ hostOps0 (F := F), op.fresh = ∅ := fun op h => (List.forall_iff_forall_mem.mp hostOps0_fresh) op h
theorem headS1 {x y : Ref sig .tc} {he hn hx hy} : ∀ op ∈ [StableHlo.reshape (τ := τ) (Val := Elt F) x y he hn hx hy], op.bufs ⊆ Pipeline.ucRefs τ sig :=
  fun op h => by rw [List.mem_singleton.mp h]; exact Pipeline.sub_ucRefs _ (StableHlo.reshape_bufs_sub ..)
theorem headF1 {x y : Ref sig .tc} {he hn hx hy} : ∀ op ∈ [StableHlo.reshape (τ := τ) (Val := Elt F) x y he hn hx hy], op.fresh = ∅ :=
  fun op h => by rw [List.mem_singleton.mp h]; rfl

theorem W1_tab : W1 m d tab' = m (tabLoc d) := W1_keep m d main_arg2 (by decide) (by decide) (by decide) (by decide) (by decide)
theorem V3_tab : V3 m d f0 tab' = m (tabLoc d) := by
  unfold V3 V2; rw [keep56 _ main_arg2 (by decide), Function.update_of_ne (show tab' ≠ out0' by decide)]; exact W1_tab m d
theorem V3_ids : V3 m d f0 ids' = idsB m d := by
  unfold V3 V2; rw [keep56 _ main_v0 (by decide), Function.update_of_ne (show ids' ≠ out0' by decide)]
theorem V5_tab : V5 m d f0 f1 tab' = m (tabLoc d) := by
  unfold V5 V4; rw [keep78 _ main_arg2 (by decide), Function.update_of_ne (show tab' ≠ out1' by decide)]; exact V3_tab m d f0
theorem V5_ids : V5 m d f0 f1 ids' = idsB m d := by
  unfold V5 V4; rw [keep78 _ main_v0 (by decide), Function.update_of_ne (show ids' ≠ out1' by decide)]; exact V3_ids m d f0
theorem V7_tab : V7 m d f0 f1 f2 tab' = m (tabLoc d) := by
  unfold V7 V6; rw [keep910 _ main_arg2 (by decide), Function.update_of_ne (show tab' ≠ out2' by decide)]; exact V5_tab m d f0 f1
theorem V7_ids : V7 m d f0 f1 f2 ids' = idsB m d := by
  unfold V7 V6; rw [keep910 _ main_v0 (by decide), Function.update_of_ne (show ids' ≠ out2' by decide)]; exact V5_ids m d f0 f1

/-- @main's head on the TensorCore: the first host stretch, then four times a gather call and the reshape of its chunk
    (the fourth reshape belongs to the tail), handing the tail the buffers `V8`. -/
theorem hmain_head (Φ : PUnit → sProp 𝕄)
    (htail : ∀ f0 f1 f2 f3 : S51200x128.Idx → Elt F .f32, RowsOK m 0 d Finset.univ f0 → RowsOK m 1 d Finset.univ f1 →
      RowsOK m 2 d Finset.univ f2 → RowsOK m 3 d Finset.univ f3 →
      St m ρ κ d 4 (V8 m d f0 f1 f2 f3) ⊢ wp frame (wpE ((K (F := F)).defs (D (F := F))) 𝒱 (SparseCore.T d) none) Set.univ (SparseCore.liftProg (tailProg (F := F))) Φ) :
    iprop((K (F := F)).ctx EH (P m) κ ∗ (K (F := F)).tcSt EH d 0 ∗ (K (F := F)).tcRes m ρ d
        ∗ Pipeline.ghostOn (pcfgs (F := F)) (fun p => (cfgs p).toPCfg_adm) EP Finset.univ d)
      ⊢ wp frame (wpE ((K (F := F)).defs (D (F := F))) 𝒱 (SparseCore.T d) none) Set.univ (main d) Φ := by
  rw [main_eq]
  refine BIBase.Entails.trans ?_ (host_step m ρ κ d 0 hostOps0 headS0 headF0 (W0 m d) _ Φ ?_)
  · unfold SparseCore.Cfg.tcRes
    rw [show unscopedBufs d (fun b => m ((SparseCore.T d).loc b)) = StableHlo.held (SparseCore.T d) (Pipeline.ucRefs τ sig) (W0 m d)
      from Pipeline.unscopedBufs_held d (W0 m d)]
    iintro ⟨#Hctx, Hst, ⟨Hb, Hheld, -, Hp⟩, HG⟩
    isplitr; · iexact Hctx
    isplitl [Hst]; · iexact Hst
    isplitl [Hb]; · iexact Hb
    isplitl [Hheld]; · iexact Hheld
    isplitl [Hp]; · iexact Hp
    iexact HG
  beta_reduce; rw [wp_bind]
  refine call_step0 m ρ κ d (W1 m d) (W1_tab m d) rfl _ (fun f0 hf0 => ?_)
  refine host_step m ρ κ d 1 [op56] headS1 headF1 (V2 m d f0) _ Φ ?_
  beta_reduce; rw [wp_bind]
  refine call_step1 m ρ κ d (V3 m d f0) (V3_tab m d f0) (V3_ids m d f0) _ (fun f1 hf1 => ?_)
  refine host_step m ρ κ d 2 [op78] headS1 headF1 (V4 m d f0 f1) _ Φ ?_
  beta_reduce; rw [wp_bind]
  refine call_step2 m ρ κ d (V5 m d f0 f1) (V5_tab m d f0 f1) (V5_ids m d f0 f1) _ (fun f2 hf2 => ?_)
  refine host_step m ρ κ d 3 [op910] headS1 headF1 (V6 m d f0 f1 f2) _ Φ ?_
  beta_reduce; rw [wp_bind]
  refine call_step3 m ρ κ d (V7 m d f0 f1 f2) (V7_tab m d f0 f1 f2) (V7_ids m d f0 f1 f2) _ (fun f3 hf3 => ?_)
  exact htail f0 f1 f2 f3 hf0 hf1 hf2 hf3

end Cert.KernelIdeal.Hand

end
-- ==== Proof.TailBase.lean ====
/-
  What the four TensorCore regions of the tail share: the region invariant of a body that only loads, computes and
  stores through its staging buffers (the core's scoped buffers that are no staging buffer, at some contents, and its
  generator register at some state), stated at this launch's index type; and what rides beside the buffers through
  every segment of the tail (the generator register, and the core owing nothing with its recorded waits at levels at
  most 32).
-/
import proofs.«203472_g22600117912246_cont_8to1_820_34_alg».proof.Proof.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-- The region invariant on core `c`: the scoped buffers no window stages, at some contents each, and the generator
    register at some state. -/
def ΦH {gr : Nat} {W : Nat} (win : Fin W → Pipeline.WinSpec sig gr) (c : Dev nD) : sProp 𝕄 :=
  iprop(Pipeline.scopedRest (Ix := HIx 4) (Name := ℕ) (U := UU) (Lvl := ℕ) (Val := Elt F) win c ∗ ∃ r, prngReg c r)

/-- What rides beside the buffers through every segment: the generator register at some state, and the core owing
    nothing, every wait it has recorded at a level at most 32. -/
def Rst (c : Dev nD) : sProp 𝕄 :=
  iprop((∃ r, prngReg c r) ∗ ∃ W, ⌜(K (F := F)).WBelow (SparseCore.T c) W 32⌝ ∗ owes (SparseCore.T c) (0 : CellTallies nD τ sig (HIx 4)) W)

end Cert.KernelIdeal.Hand

end
-- ==== Proof.Tail4.lean ====
/-
  The first TensorCore region of the program's tail, at a parameter: the buffer contents when the region is entered.
  One grid of four points; at point t the body reads a block of 64 sequences of gathered word rows, the token types
  of those sequences, the 200 position rows, the two token-type rows, gamma and beta, and stores the block of
  normalised rows. Stated here: each window's block, what the body leaves in the output's buffer as a pure function
  of the input blocks, the body's triple, the pipeline's proof data and the body obligation at every point.
-/
import proofs.«203472_g22600117912246_cont_8to1_820_34_alg».proof.Proof.TailBase

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 0: the pipelined call 4, at the entry contents `V` -/

section Region4
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 4) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) (HIx 4) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) (HIx 4) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) (HIx 4) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) (HIx 4) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) (HIx 4) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_a : Rect S64x200x128 := Rect.unit (s := S64x200x128) ![0, 0, 0] S64x200x128.size inb_S64x200x128_S64x200x128_0_0_0
abbrev r4_b : Rect S64x200 := Rect.unit (s := S64x200) ![0, 0] S64x200.size inb_S64x200_S64x200_0_0
abbrev r4_c : Rect S1x200x128 := Rect.unit (s := S1x200x128) ![0, 0, 0] S1x200x128.size inb_S1x200x128_S1x200x128_0_0_0
abbrev r4_d0 : Rect S2x128 := Rect.unit (s := S2x128) ![0, 0] S1x128.size inb_S2x128_S1x128_0_0
abbrev r4_d1 : Rect S2x128 := Rect.unit (s := S2x128) ![1, 0] S1x128.size inb_S2x128_S1x128_1_0
abbrev r4_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out4_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r4_a, k4_pay1 (k4_pay2 (View.ld x0 r4_a) (View.ld x2 r4_c) (View.ld x1 r4_b) (View.ld x3 r4_d0) (View.ld x3 r4_d1)) (k4_pay3 (View.ld x4 r4_e)) (View.ld x5 r4_e)⟩]

/-- The one store covers the buffer. -/
theorem cover4_6 (p0 : Vec F S64x200x128 .f32) (y : S64x200x128.Idx) :
    ∃ pc ∈ ([⟨r4_a, p0⟩] : List (View.Piece (Elt F) S64x200x128 .f32)), y ∈ pc.1.set :=
  View.cover_of_tiled [⟨r4_a, p0⟩] S64x200x128.size (by rfl) y

/-! ## The body's triple -/

set_option maxHeartbeats 1000000 in
/-- The body on whole staging memrefs, the inputs' at read contents and the output's at anything, runs to the
    continuation holding the inputs' as they were and the output's at `out4_6` of the inputs'. -/
theorem sound_kernel4 (c : Dev nD) (E : Set ℕ) (i : grid4.Coords) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ Kont ⟨⟩))
      ⊢ wp frame (wpE (defs₀ (F := F)) Variants.none c none) E (cc4_body i a0 ha0 a1 ha1 a2 ha2 a3 ha3 a4 ha4 a5 ha5 a6 ha6) Kont := by
  simp only [cc4_body_eq_skeleton]; unfold cc4_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4_6 _)

/-! ## The pipeline's proof data -/

/-- The proof data of this pipeline on core `c`: the arrays as the region finds them; after the body at point `t`
    each input's buffer at its block and the output's at `out4_6` of the input blocks; the invariant the scoped
    rest and the generator register, untouched; nothing owed; full shares; the recorded waits at levels at most 32. -/
def dat4 (c : Dev nD) : Dat τ (Elt F) (HIx 4) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := ΦH spec4 c
  q _ := fullShare
  owed _ := 0
  recorded := fun _ => {p | (K (F := F)).lev (SparseCore.T c, p.1) p.2 ≤ 32}

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, -/
def bodyPre4 (c : Dev nD) (t : Fin cfg4.N) : sProp 𝕄 :=
  iprop((dat4 V c).Φ t.castSucc ∗ (dat4 V c).owesAt (none : HIx 4) t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt (none : HIx 4) t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt (none : HIx 4) t.succ = (dat4 V c).owesAt (none : HIx 4) t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none (none : HIx 4) Set.univ := fun t => by
  rw [bigSep_W4, bigSep_W4]
  exact sound_body4 V c t

end Region4

end Cert.KernelIdeal.Hand

end
-- ==== Proof.Tail5.lean ====
/-
  The second TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.TailBase

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 1: the pipelined call 5, at the entry contents `V` -/

section Region5
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) (HIx 4) ℕ UU ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) (HIx 4) ℕ UU ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) (HIx 4) ℕ UU ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) (HIx 4) ℕ UU ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) (HIx 4) ℕ UU ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) (HIx 4) ℕ UU ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_a : Rect S64x200x128 := Rect.unit (s := S64x200x128) ![0, 0, 0] S64x200x128.size inb_S64x200x128_S64x200x128_0_0_0
abbrev r5_b : Rect S64x200 := Rect.unit (s := S64x200) ![0, 0] S64x200.size inb_S64x200_S64x200_0_0
abbrev r5_c : Rect S1x200x128 := Rect.unit (s := S1x200x128) ![0, 0, 0] S1x200x128.size inb_S1x200x128_S1x200x128_0_0_0
abbrev r5_d0 : Rect S2x128 := Rect.unit (s := S2x128) ![0, 0] S1x128.size inb_S2x128_S1x128_0_0
abbrev r5_d1 : Rect S2x128 := Rect.unit (s := S2x128) ![1, 0] S1x128.size inb_S2x128_S1x128_1_0
abbrev r5_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out5_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r5_a, k5_pay1 (k5_pay2 (View.ld x0 r5_a) (View.ld x2 r5_c) (View.ld x1 r5_b) (View.ld x3 r5_d0) (View.ld x3 r5_d1)) (k5_pay3 (View.ld x4 r5_e)) (View.ld x5 r5_e)⟩]

/-- The one store covers the buffer. -/
theorem cover5_6 (p0 : Vec F S64x200x128 .f32) (y : S64x200x128.Idx) :
    ∃ pc ∈ ([⟨r5_a, p0⟩] : List (View.Piece (Elt F) S64x200x128 .f32)), y ∈ pc.1.set :=
  View.cover_of_tiled [⟨r5_a, p0⟩] S64x200x128.size (by rfl) y

/-! ## The body's triple -/

set_option maxHeartbeats 1000000 in
/-- The body on whole staging memrefs, the inputs' at read contents and the output's at anything, runs to the
    continuation holding the inputs' as they were and the output's at `out5_6` of the inputs'. -/
theorem sound_kernel5 (c : Dev nD) (E : Set ℕ) (i : grid5.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ Kont ⟨⟩))
      ⊢ wp frame (wpE (defs₀ (F := F)) Variants.none c none) E (cc5_body i ah hah a0 ha0 a1 ha1 a2 ha2 a3 ha3 a4 ha4 a5 ha5 a6 ha6) Kont := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover5_6 _)

/-! ## The pipeline's proof data -/

/-- The proof data of this pipeline on core `c`: the arrays as the region finds them; after the body at point `t`
    each input's buffer at its block and the output's at `out5_6` of the input blocks; the invariant the scoped
    rest and the generator register, untouched; nothing owed; full shares; the recorded waits at levels at most 32. -/
def dat5 (c : Dev nD) : Dat τ (Elt F) (HIx 4) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := ΦH spec5 c
  q _ := fullShare
  owed _ := 0
  recorded := fun _ => {p | (K (F := F)).lev (SparseCore.T c, p.1) p.2 ≤ 32}

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, -/
def bodyPre5 (c : Dev nD) (t : Fin cfg5.N) : sProp 𝕄 :=
  iprop((dat5 V c).Φ t.castSucc ∗ (dat5 V c).owesAt (none : HIx 4) t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt (none : HIx 4) t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt (none : HIx 4) t.succ = (dat5 V c).owesAt (none : HIx 4) t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none (none : HIx 4) Set.univ := fun t => by
  rw [bigSep_W5, bigSep_W5]
  exact sound_body5 V c t

end Region5

end Cert.KernelIdeal.Hand

end
-- ==== Proof.Tail6.lean ====
/-
  The third TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.TailBase

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 2: the pipelined call 6, at the entry contents `V` -/

section Region6
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) (HIx 4) ℕ UU ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) (HIx 4) ℕ UU ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) (HIx 4) ℕ UU ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) (HIx 4) ℕ UU ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) (HIx 4) ℕ UU ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) (HIx 4) ℕ UU ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_a : Rect S64x200x128 := Rect.unit (s := S64x200x128) ![0, 0, 0] S64x200x128.size inb_S64x200x128_S64x200x128_0_0_0
abbrev r6_b : Rect S64x200 := Rect.unit (s := S64x200) ![0, 0] S64x200.size inb_S64x200_S64x200_0_0
abbrev r6_c : Rect S1x200x128 := Rect.unit (s := S1x200x128) ![0, 0, 0] S1x200x128.size inb_S1x200x128_S1x200x128_0_0_0
abbrev r6_d0 : Rect S2x128 := Rect.unit (s := S2x128) ![0, 0] S1x128.size inb_S2x128_S1x128_0_0
abbrev r6_d1 : Rect S2x128 := Rect.unit (s := S2x128) ![1, 0] S1x128.size inb_S2x128_S1x128_1_0
abbrev r6_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out6_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r6_a, k6_pay1 (k6_pay2 (View.ld x0 r6_a) (View.ld x2 r6_c) (View.ld x1 r6_b) (View.ld x3 r6_d0) (View.ld x3 r6_d1)) (k6_pay3 (View.ld x4 r6_e)) (View.ld x5 r6_e)⟩]

/-- The one store covers the buffer. -/
theorem cover6_6 (p0 : Vec F S64x200x128 .f32) (y : S64x200x128.Idx) :
    ∃ pc ∈ ([⟨r6_a, p0⟩] : List (View.Piece (Elt F) S64x200x128 .f32)), y ∈ pc.1.set :=
  View.cover_of_tiled [⟨r6_a, p0⟩] S64x200x128.size (by rfl) y

/-! ## The body's triple -/

set_option maxHeartbeats 1000000 in
/-- The body on whole staging memrefs, the inputs' at read contents and the output's at anything, runs to the
    continuation holding the inputs' as they were and the output's at `out6_6` of the inputs'. -/
theorem sound_kernel6 (c : Dev nD) (E : Set ℕ) (i : grid6.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ Kont ⟨⟩))
      ⊢ wp frame (wpE (defs₀ (F := F)) Variants.none c none) E (cc6_body i ah hah a0 ha0 a1 ha1 a2 ha2 a3 ha3 a4 ha4 a5 ha5 a6 ha6) Kont := by
  simp only [cc6_body_eq_skeleton]; unfold cc6_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6_6 _)

/-! ## The pipeline's proof data -/

/-- The proof data of this pipeline on core `c`: the arrays as the region finds them; after the body at point `t`
    each input's buffer at its block and the output's at `out6_6` of the input blocks; the invariant the scoped
    rest and the generator register, untouched; nothing owed; full shares; the recorded waits at levels at most 32. -/
def dat6 (c : Dev nD) : Dat τ (Elt F) (HIx 4) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := ΦH spec6 c
  q _ := fullShare
  owed _ := 0
  recorded := fun _ => {p | (K (F := F)).lev (SparseCore.T c, p.1) p.2 ≤ 32}

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, -/
def bodyPre6 (c : Dev nD) (t : Fin cfg6.N) : sProp 𝕄 :=
  iprop((dat6 V c).Φ t.castSucc ∗ (dat6 V c).owesAt (none : HIx 4) t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt (none : HIx 4) t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt (none : HIx 4) t.succ = (dat6 V c).owesAt (none : HIx 4) t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none (none : HIx 4) Set.univ := fun t => by
  rw [bigSep_W6, bigSep_W6]
  exact sound_body6 V c t

end Region6

end Cert.KernelIdeal.Hand

end
-- ==== Proof.Tail7.lean ====
/-
  The fourth TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.TailBase

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 3: the pipelined call 7, at the entry contents `V` -/

section Region7
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) (HIx 4) ℕ UU ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) (HIx 4) ℕ UU ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) (HIx 4) ℕ UU ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) (HIx 4) ℕ UU ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) (HIx 4) ℕ UU ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) (HIx 4) ℕ UU ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_a : Rect S64x200x128 := Rect.unit (s := S64x200x128) ![0, 0, 0] S64x200x128.size inb_S64x200x128_S64x200x128_0_0_0
abbrev r7_b : Rect S64x200 := Rect.unit (s := S64x200) ![0, 0] S64x200.size inb_S64x200_S64x200_0_0
abbrev r7_c : Rect S1x200x128 := Rect.unit (s := S1x200x128) ![0, 0, 0] S1x200x128.size inb_S1x200x128_S1x200x128_0_0_0
abbrev r7_d0 : Rect S2x128 := Rect.unit (s := S2x128) ![0, 0] S1x128.size inb_S2x128_S1x128_0_0
abbrev r7_d1 : Rect S2x128 := Rect.unit (s := S2x128) ![1, 0] S1x128.size inb_S2x128_S1x128_1_0
abbrev r7_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out7_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r7_a, k7_pay1 (k7_pay2 (View.ld x0 r7_a) (View.ld x2 r7_c) (View.ld x1 r7_b) (View.ld x3 r7_d0) (View.ld x3 r7_d1)) (k7_pay3 (View.ld x4 r7_e)) (View.ld x5 r7_e)⟩]

/-- The one store covers the buffer. -/
theorem cover7_6 (p0 : Vec F S64x200x128 .f32) (y : S64x200x128.Idx) :
    ∃ pc ∈ ([⟨r7_a, p0⟩] : List (View.Piece (Elt F) S64x200x128 .f32)), y ∈ pc.1.set :=
  View.cover_of_tiled [⟨r7_a, p0⟩] S64x200x128.size (by rfl) y

/-! ## The body's triple -/

set_option maxHeartbeats 1000000 in
/-- The body on whole staging memrefs, the inputs' at read contents and the output's at anything, runs to the
    continuation holding the inputs' as they were and the output's at `out7_6` of the inputs'. -/
theorem sound_kernel7 (c : Dev nD) (E : Set ℕ) (i : grid7.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out7_6 x0 x1 x2 x3 x4 x5)) -∗ Kont ⟨⟩))
      ⊢ wp frame (wpE (defs₀ (F := F)) Variants.none c none) E (cc7_body i ah hah a0 ha0 a1 ha1 a2 ha2 a3 ha3 a4 ha4 a5 ha5 a6 ha6) Kont := by
  simp only [cc7_body_eq_skeleton]; unfold cc7_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover7_6 _)

/-! ## The pipeline's proof data -/

/-- The proof data of this pipeline on core `c`: the arrays as the region finds them; after the body at point `t`
    each input's buffer at its block and the output's at `out7_6` of the input blocks; the invariant the scoped
    rest and the generator register, untouched; nothing owed; full shares; the recorded waits at levels at most 32. -/
def dat7 (c : Dev nD) : Dat τ (Elt F) (HIx 4) ℕ UU ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := ΦH spec7 c
  q _ := fullShare
  owed _ := 0
  recorded := fun _ => {p | (K (F := F)).lev (SparseCore.T c, p.1) p.2 ≤ 32}

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, -/
def bodyPre7 (c : Dev nD) (t : Fin cfg7.N) : sProp 𝕄 :=
  iprop((dat7 V c).Φ t.castSucc ∗ (dat7 V c).owesAt (none : HIx 4) t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt (none : HIx 4) t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt (none : HIx 4) t.succ = (dat7 V c).owesAt (none : HIx 4) t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none (none : HIx 4) Set.univ := fun t => by
  rw [bigSep_W7, bigSep_W7]
  exact sound_body7 V c t

end Region7

end Cert.KernelIdeal.Hand

end
-- ==== Proof.Tail.lean ====
/-
  The tail of the program after the four gather calls, as a list of segments: four pipelined TensorCore regions,
  each preceded by one host operation (a reshape of the last gathered chunk; then, three times, the copy of the
  previous region's result into the next region's result buffer). The buffer contents at every boundary are a fold
  from the contents the tail starts at; every argument array reads back through the fold to those contents; every
  pipeline's proof data sit at their region's entry contents; the thread state is every unscoped buffer at the
  boundary's contents beside the generator register and the core owing nothing, its recorded waits at levels at most 32.
-/
import proofs.«203472_g22600117912246_cont_8to1_820_34_alg».proof.Proof.Tail4
import proofs.«203472_g22600117912246_cont_8to1_820_34_alg».proof.Proof.Tail5
import proofs.«203472_g22600117912246_cont_8to1_820_34_alg».proof.Proof.Tail6
import proofs.«203472_g22600117912246_cont_8to1_820_34_alg».proof.Proof.Tail7

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

variable (Wt : Dev nD → Valuation τ sig (Elt F))

/-! ## The host operations between the regions -/

/-- Before region 0: the fourth gathered chunk, 51200 rows, read as 256 sequences of 200 rows. -/
abbrev hostT0 : List (HloOp τ sig (Elt F)) := [StableHlo.reshape main_v11 main_v12 rfl shapeCasts_S51200x128_S256x200x128]
theorem hostT0_sub : (hostT0 : List (HloOp τ sig (Elt F))).Forall fun op => op.bufs ⊆ StableHlo.tcRefs τ sig :=
  StableHlo.reshape_bufs_sub ..
theorem hostT0_fresh : (hostT0 : List (HloOp τ sig (Elt F))).Forall fun op => op.fresh = ∅ := by
  simp only [List.Forall]; repeat' constructor

/-- Before region 1: the first region's result copied into the second's result buffer. -/
abbrev hostT1 : List (HloOp τ sig (Elt F)) := [StableHlo.unary main_v13 main_v14 id]
theorem hostT1_sub : (hostT1 : List (HloOp τ sig (Elt F))).Forall fun op => op.bufs ⊆ StableHlo.tcRefs τ sig :=
  StableHlo.unary_bufs_sub ..
theorem hostT1_fresh : (hostT1 : List (HloOp τ sig (Elt F))).Forall fun op => op.fresh = ∅ := by
  simp only [List.Forall]; repeat' constructor

/-- Before region 2: the second region's result copied into the third's result buffer. -/
abbrev hostT2 : List (HloOp τ sig (Elt F)) := [StableHlo.unary main_v14 main_v15 id]
theorem hostT2_sub : (hostT2 : List (HloOp τ sig (Elt F))).Forall fun op => op.bufs ⊆ StableHlo.tcRefs τ sig :=
  StableHlo.unary_bufs_sub ..
theorem hostT2_fresh : (hostT2 : List (HloOp τ sig (Elt F))).Forall fun op => op.fresh = ∅ := by
  simp only [List.Forall]; repeat' constructor

/-- Before region 3: the third region's result copied into the fourth's result buffer. -/
abbrev hostT3 : List (HloOp τ sig (Elt F)) := [StableHlo.unary main_v15 main_v16 id]
theorem hostT3_sub : (hostT3 : List (HloOp τ sig (Elt F))).Forall fun op => op.bufs ⊆ StableHlo.tcRefs τ sig :=
  StableHlo.unary_bufs_sub ..
theorem hostT3_fresh : (hostT3 : List (HloOp τ sig (Elt F))).Forall fun op => op.fresh = ∅ := by
  simp only [List.Forall]; repeat' constructor

/-! ## The buffer contents at each segment boundary: a fold from the contents the tail starts at -/

/-- Region 0's entry: after its host operations. -/
abbrev B1 : Dev nD → Valuation τ sig (Elt F) := fun c => StableHlo.after hostT0 (Wt c)
/-- The same read at the TensorCore's references. -/
abbrev VB1 : (c : Dev nD) → (b : Ref sig .tc) → Buf (Elt F) ((c : Thread nD τ).loc b) := fun c b => B1 Wt c b
/-- Region 0's exit: its arrays at what the pipeline leaves (the inputs as entered, the output's write-backs
    folded), every other buffer as entered. -/
def B2 (c : Dev nD) : Valuation τ sig (Elt F) :=
  Pipeline.withArrays spec4 c (B1 Wt c) fun w => (dat4 (VB1 Wt) c).arrAt w cfg4.N
theorem B2_arr (c : Dev nD) (w : Fin cfg4.W) :
    B2 Wt c (Proc.devRef .tc (Pipeline.arrRef spec4 w)) = (dat4 (VB1 Wt) c).arrAt w cfg4.N := by
  unfold B2; exact Pipeline.withArrays_arr spec4 launch4.win.arr_inj c _ _ w
theorem B2_of_ne (c : Dev nD) (b : Ref sig .tc) (hb : ∀ w, Pipeline.arrRef spec4 w ≠ b) :
    B2 Wt c (Proc.devRef .tc b) = B1 Wt c (Proc.devRef .tc b) := by
  unfold B2; exact Pipeline.withArrays_of_ne spec4 c _ _ b hb
abbrev VB2 : (c : Dev nD) → (b : Ref sig .tc) → Buf (Elt F) ((c : Thread nD τ).loc b) := fun c b => B2 Wt c b
theorem hF0 (c : Dev nD) (w : Fin cfg4.W) : (dat4 (VB1 Wt) c).arrAt w cfg4.N = VB2 Wt c (Pipeline.arrRef spec4 w) :=
  (B2_arr Wt c w).symm
theorem hrest0 (c : Dev nD) : ∀ b, b ∉ Finset.univ.image (Pipeline.arrRef spec4) → VB2 Wt c b = VB1 Wt c b :=
  fun b hb => B2_of_ne Wt c b fun w e => hb (Finset.mem_image.mpr ⟨w, Finset.mem_univ _, e⟩)

/-- Region 1's entry: after its host operations. -/
abbrev B3 : Dev nD → Valuation τ sig (Elt F) := fun c => StableHlo.after hostT1 (B2 Wt c)
/-- The same read at the TensorCore's references. -/
abbrev VB3 : (c : Dev nD) → (b : Ref sig .tc) → Buf (Elt F) ((c : Thread nD τ).loc b) := fun c b => B3 Wt c b
/-- Region 1's exit: its arrays at what the pipeline leaves (the inputs as entered, the output's write-backs
    folded), every other buffer as entered. -/
def B4 (c : Dev nD) : Valuation τ sig (Elt F) :=
  Pipeline.withArrays spec5 c (B3 Wt c) fun w => (dat5 (VB3 Wt) c).arrAt w cfg5.N
theorem B4_arr (c : Dev nD) (w : Fin cfg5.W) :
    B4 Wt c (Proc.devRef .tc (Pipeline.arrRef spec5 w)) = (dat5 (VB3 Wt) c).arrAt w cfg5.N := by
  unfold B4; exact Pipeline.withArrays_arr spec5 launch5.win.arr_inj c _ _ w
theorem B4_of_ne (c : Dev nD) (b : Ref sig .tc) (hb : ∀ w, Pipeline.arrRef spec5 w ≠ b) :
    B4 Wt c (Proc.devRef .tc b) = B3 Wt c (Proc.devRef .tc b) := by
  unfold B4; exact Pipeline.withArrays_of_ne spec5 c _ _ b hb
abbrev VB4 : (c : Dev nD) → (b : Ref sig .tc) → Buf (Elt F) ((c : Thread nD τ).loc b) := fun c b => B4 Wt c b
theorem hF1 (c : Dev nD) (w : Fin cfg5.W) : (dat5 (VB3 Wt) c).arrAt w cfg5.N = VB4 Wt c (Pipeline.arrRef spec5 w) :=
  (B4_arr Wt c w).symm
theorem hrest1 (c : Dev nD) : ∀ b, b ∉ Finset.univ.image (Pipeline.arrRef spec5) → VB4 Wt c b = VB3 Wt c b :=
  fun b hb => B4_of_ne Wt c b fun w e => hb (Finset.mem_image.mpr ⟨w, Finset.mem_univ _, e⟩)

/-- Region 2's entry: after its host operations. -/
abbrev B5 : Dev nD → Valuation τ sig (Elt F) := fun c => StableHlo.after hostT2 (B4 Wt c)
/-- The same read at the TensorCore's references. -/
abbrev VB5 : (c : Dev nD) → (b : Ref sig .tc) → Buf (Elt F) ((c : Thread nD τ).loc b) := fun c b => B5 Wt c b
/-- Region 2's exit: its arrays at what the pipeline leaves (the inputs as entered, the output's write-backs
    folded), every other buffer as entered. -/
def B6 (c : Dev nD) : Valuation τ sig (Elt F) :=
  Pipeline.withArrays spec6 c (B5 Wt c) fun w => (dat6 (VB5 Wt) c).arrAt w cfg6.N
theorem B6_arr (c : Dev nD) (w : Fin cfg6.W) :
    B6 Wt c (Proc.devRef .tc (Pipeline.arrRef spec6 w)) = (dat6 (VB5 Wt) c).arrAt w cfg6.N := by
  unfold B6; exact Pipeline.withArrays_arr spec6 launch6.win.arr_inj c _ _ w
theorem B6_of_ne (c : Dev nD) (b : Ref sig .tc) (hb : ∀ w, Pipeline.arrRef spec6 w ≠ b) :
    B6 Wt c (Proc.devRef .tc b) = B5 Wt c (Proc.devRef .tc b) := by
  unfold B6; exact Pipeline.withArrays_of_ne spec6 c _ _ b hb
abbrev VB6 : (c : Dev nD) → (b : Ref sig .tc) → Buf (Elt F) ((c : Thread nD τ).loc b) := fun c b => B6 Wt c b
theorem hF2 (c : Dev nD) (w : Fin cfg6.W) : (dat6 (VB5 Wt) c).arrAt w cfg6.N = VB6 Wt c (Pipeline.arrRef spec6 w) :=
  (B6_arr Wt c w).symm
theorem hrest2 (c : Dev nD) : ∀ b, b ∉ Finset.univ.image (Pipeline.arrRef spec6) → VB6 Wt c b = VB5 Wt c b :=
  fun b hb => B6_of_ne Wt c b fun w e => hb (Finset.mem_image.mpr ⟨w, Finset.mem_univ _, e⟩)

/-- Region 3's entry: after its host operations. -/
abbrev B7 : Dev nD → Valuation τ sig (Elt F) := fun c => StableHlo.after hostT3 (B6 Wt c)
/-- The same read at the TensorCore's references. -/
abbrev VB7 : (c : Dev nD) → (b : Ref sig .tc) → Buf (Elt F) ((c : Thread nD τ).loc b) := fun c b => B7 Wt c b
/-- Region 3's exit: its arrays at what the pipeline leaves (the inputs as entered, the output's write-backs
    folded), every other buffer as entered. -/
def B8 (c : Dev nD) : Valuation τ sig (Elt F) :=
  Pipeline.withArrays spec7 c (B7 Wt c) fun w => (dat7 (VB7 Wt) c).arrAt w cfg7.N
theorem B8_arr (c : Dev nD) (w : Fin cfg7.W) :
    B8 Wt c (Proc.devRef .tc (Pipeline.arrRef spec7 w)) = (dat7 (VB7 Wt) c).arrAt w cfg7.N := by
  unfold B8; exact Pipeline.withArrays_arr spec7 launch7.win.arr_inj c _ _ w
theorem B8_of_ne (c : Dev nD) (b : Ref sig .tc) (hb : ∀ w, Pipeline.arrRef spec7 w ≠ b) :
    B8 Wt c (Proc.devRef .tc b) = B7 Wt c (Proc.devRef .tc b) := by
  unfold B8; exact Pipeline.withArrays_of_ne spec7 c _ _ b hb
abbrev VB8 : (c : Dev nD) → (b : Ref sig .tc) → Buf (Elt F) ((c : Thread nD τ).loc b) := fun c b => B8 Wt c b
theorem hF3 (c : Dev nD) (w : Fin cfg7.W) : (dat7 (VB7 Wt) c).arrAt w cfg7.N = VB8 Wt c (Pipeline.arrRef spec7 w) :=
  (B8_arr Wt c w).symm
theorem hrest3 (c : Dev nD) : ∀ b, b ∉ Finset.univ.image (Pipeline.arrRef spec7) → VB8 Wt c b = VB7 Wt c b :=
  fun b hb => B8_of_ne Wt c b fun w e => hb (Finset.mem_image.mpr ⟨w, Finset.mem_univ _, e⟩)

/-- The buffers when the tail ends. -/
abbrev Wend (c : Dev nD) : Valuation τ sig (Elt F) := B8 Wt c

/-! ### The arguments end as the tail found them: no host operation of the tail and no region writes one (a region
    reads the token types and the token-type rows through input windows and bypasses the rest) -/

theorem Wend_main_arg0 (c : Dev nD) : Wend Wt c (Proc.devRef .tc main_arg0) = Wt c (Proc.devRef .tc main_arg0) :=
  calc Wend Wt c (Proc.devRef .tc main_arg0)
    _ = B7 Wt c (Proc.devRef .tc main_arg0) := B8_of_ne Wt c main_arg0 (by decide)
    _ = B6 Wt c (Proc.devRef .tc main_arg0) := StableHlo.after_of_forall_not_mem (b := Proc.devRef .tc main_arg0) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg0) := B6_of_ne Wt c main_arg0 (by decide)
    _ = B4 Wt c (Proc.devRef .tc main_arg0) := StableHlo.after_of_forall_not_mem (b := Proc.devRef .tc main_arg0) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg0) := B4_of_ne Wt c main_arg0 (by decide)
    _ = B2 Wt c (Proc.devRef .tc main_arg0) := StableHlo.after_of_forall_not_mem (b := Proc.devRef .tc main_arg0) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg0) := B2_of_ne Wt c main_arg0 (by decide)
    _ = Wt c (Proc.devRef .tc main_arg0) := StableHlo.after_of_forall_not_mem (b := Proc.devRef .tc main_arg0) _ _ (List.forall_iff_forall_mem.mp (by
          simp only [hostT0, List.Forall, StableHlo.unary_writes, StableHlo.reshape_writes, Finset.mem_singleton]
          exact StableHlo.devRef_ne_of_ne (by decide)))

theorem Wend_main_arg1 (c : Dev nD) : Wend Wt c (Proc.devRef .tc main_arg1) = Wt c (Proc.devRef .tc main_arg1) :=
  calc Wend Wt c (Proc.devRef .tc main_arg1)
    _ = B7 Wt c (Proc.devRef .tc main_arg1) := (B8_arr Wt c 1).trans (((dat7 (VB7 Wt) c).arrAt_in 1 rfl _).trans (A_eq7 (VB7 Wt) c 1))
    _ = B6 Wt c (Proc.devRef .tc main_arg1) := StableHlo.after_of_forall_not_mem (b := Proc.devRef .tc main_arg1) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg1) := (B6_arr Wt c 1).trans (((dat6 (VB5 Wt) c).arrAt_in 1 rfl _).trans (A_eq6 (VB5 Wt) c 1))
    _ = B4 Wt c (Proc.devRef .tc main_arg1) := StableHlo.after_of_forall_not_mem (b := Proc.devRef .tc main_arg1) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg1) := (B4_arr Wt c 1).trans (((dat5 (VB3 Wt) c).arrAt_in 1 rfl _).trans (A_eq5 (VB3 Wt) c 1))
    _ = B2 Wt c (Proc.devRef .tc main_arg1) := StableHlo.after_of_forall_not_mem (b := Proc.devRef .tc main_arg1) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg1) := (B2_arr Wt c 1).trans (((dat4 (VB1 Wt) c).arrAt_in 1 rfl _).trans (A_eq4 (VB1 Wt) c 1))
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Wend_main_arg2 (c : Dev nD) : Wend Wt c (Proc.devRef .tc main_arg2) = Wt c (Proc.devRef .tc main_arg2) :=
  calc Wend Wt c (Proc.devRef .tc main_arg2)
    _ = B7 Wt c (Proc.devRef .tc main_arg2) := B8_of_ne Wt c main_arg2 (by decide)
    _ = B6 Wt c (Proc.devRef .tc main_arg2) := StableHlo.after_of_forall_not_mem (b := Proc.devRef .tc main_arg2) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg2) := B6_of_ne Wt c main_arg2 (by decide)
    _ = B4 Wt c (Proc.devRef .tc main_arg2) := StableHlo.after_of_forall_not_mem (b := Proc.devRef .tc main_arg2) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg2) := B4_of_ne Wt c main_arg2 (by decide)
    _ = B2 Wt c (Proc.devRef .tc main_arg2) := StableHlo.after_of_forall_not_mem (b := Proc.devRef .tc main_arg2) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg2) := B2_of_ne Wt c main_arg2 (by decide)
    _ = Wt c (Proc.devRef .tc main_arg2) := StableHlo.after_of_forall_not_mem (b := Proc.devRef .tc main_arg2) _ _ (List.forall_iff_forall_mem.mp (by
          simp only [hostT0, List.Forall, StableHlo.unary_writes, StableHlo.reshape_writes, Finset.mem_singleton]
          exact StableHlo.devRef_ne_of_ne (by decide)))

theorem Wend_main_arg3 (c : Dev nD) : Wend Wt c (Proc.devRef .tc main_arg3) = Wt c (Proc.devRef .tc main_arg3) :=
  calc Wend Wt c (Proc.devRef .tc main_arg3)
    _ = B7 Wt c (Proc.devRef .tc main_arg3) := B8_of_ne Wt c main_arg3 (by decide)
    _ = B6 Wt c (Proc.devRef .tc main_arg3) := StableHlo.after_of_forall_not_mem (b := Proc.devRef .tc main_arg3) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg3) := B6_of_ne Wt c main_arg3 (by decide)
    _ = B4 Wt c (Proc.devRef .tc main_arg3) := StableHlo.after_of_forall_not_mem (b := Proc.devRef .tc main_arg3) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg3) := B4_of_ne Wt c main_arg3 (by decide)
    _ = B2 Wt c (Proc.devRef .tc main_arg3) := StableHlo.after_of_forall_not_mem (b := Proc.devRef .tc main_arg3) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg3) := B2_of_ne Wt c main_arg3 (by decide)
    _ = Wt c (Proc.devRef .tc main_arg3) := StableHlo.after_of_forall_not_mem (b := Proc.devRef .tc main_arg3) _ _ (List.forall_iff_forall_mem.mp (by
          simp only [hostT0, List.Forall, StableHlo.unary_writes, StableHlo.reshape_writes, Finset.mem_singleton]
          exact StableHlo.devRef_ne_of_ne (by decide)))

theorem Wend_main_arg4 (c : Dev nD) : Wend Wt c (Proc.devRef .tc main_arg4) = Wt c (Proc.devRef .tc main_arg4) :=
  calc Wend Wt c (Proc.devRef .tc main_arg4)
    _ = B7 Wt c (Proc.devRef .tc main_arg4) := (B8_arr Wt c 3).trans (((dat7 (VB7 Wt) c).arrAt_in 3 rfl _).trans (A_eq7 (VB7 Wt) c 3))
    _ = B6 Wt c (Proc.devRef .tc main_arg4) := StableHlo.after_of_forall_not_mem (b := Proc.devRef .tc main_arg4) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg4) := (B6_arr Wt c 3).trans (((dat6 (VB5 Wt) c).arrAt_in 3 rfl _).trans (A_eq6 (VB5 Wt) c 3))
    _ = B4 Wt c (Proc.devRef .tc main_arg4) := StableHlo.after_of_forall_not_mem (b := Proc.devRef .tc main_arg4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg4) := (B4_arr Wt c 3).trans (((dat5 (VB3 Wt) c).arrAt_in 3 rfl _).trans (A_eq5 (VB3 Wt) c 3))
    _ = B2 Wt c (Proc.devRef .tc main_arg4) := StableHlo.after_of_forall_not_mem (b := Proc.devRef .tc main_arg4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg4) := (B2_arr Wt c 3).trans (((dat4 (VB1 Wt) c).arrAt_in 3 rfl _).trans (A_eq4 (VB1 Wt) c 3))
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Wend_main_arg5 (c : Dev nD) : Wend Wt c (Proc.devRef .tc main_arg5) = Wt c (Proc.devRef .tc main_arg5) :=
  calc Wend Wt c (Proc.devRef .tc main_arg5)
    _ = B7 Wt c (Proc.devRef .tc main_arg5) := B8_of_ne Wt c main_arg5 (by decide)
    _ = B6 Wt c (Proc.devRef .tc main_arg5) := StableHlo.after_of_forall_not_mem (b := Proc.devRef .tc main_arg5) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg5) := B6_of_ne Wt c main_arg5 (by decide)
    _ = B4 Wt c (Proc.devRef .tc main_arg5) := StableHlo.after_of_forall_not_mem (b := Proc.devRef .tc main_arg5) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg5) := B4_of_ne Wt c main_arg5 (by decide)
    _ = B2 Wt c (Proc.devRef .tc main_arg5) := StableHlo.after_of_forall_not_mem (b := Proc.devRef .tc main_arg5) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg5) := B2_of_ne Wt c main_arg5 (by decide)
    _ = Wt c (Proc.devRef .tc main_arg5) := StableHlo.after_of_forall_not_mem (b := Proc.devRef .tc main_arg5) _ _ (List.forall_iff_forall_mem.mp (by
          simp only [hostT0, List.Forall, StableHlo.unary_writes, StableHlo.reshape_writes, Finset.mem_singleton]
          exact StableHlo.devRef_ne_of_ne (by decide)))

theorem Wend_main_arg6 (c : Dev nD) : Wend Wt c (Proc.devRef .tc main_arg6) = Wt c (Proc.devRef .tc main_arg6) :=
  calc Wend Wt c (Proc.devRef .tc main_arg6)
    _ = B7 Wt c (Proc.devRef .tc main_arg6) := B8_of_ne Wt c main_arg6 (by decide)
    _ = B6 Wt c (Proc.devRef .tc main_arg6) := StableHlo.after_of_forall_not_mem (b := Proc.devRef .tc main_arg6) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg6) := B6_of_ne Wt c main_arg6 (by decide)
    _ = B4 Wt c (Proc.devRef .tc main_arg6) := StableHlo.after_of_forall_not_mem (b := Proc.devRef .tc main_arg6) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg6) := B4_of_ne Wt c main_arg6 (by decide)
    _ = B2 Wt c (Proc.devRef .tc main_arg6) := StableHlo.after_of_forall_not_mem (b := Proc.devRef .tc main_arg6) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg6) := B2_of_ne Wt c main_arg6 (by decide)
    _ = Wt c (Proc.devRef .tc main_arg6) := StableHlo.after_of_forall_not_mem (b := Proc.devRef .tc main_arg6) _ _ (List.forall_iff_forall_mem.mp (by
          simp only [hostT0, List.Forall, StableHlo.unary_writes, StableHlo.reshape_writes, Finset.mem_singleton]
          exact StableHlo.devRef_ne_of_ne (by decide)))

/-! ## The proof data family and the thread state -/

/-- No pipeline has a prefetched table. -/
abbrev adm : (p : Fin 4) → (pcfgs (F := F) p).Adm := fun p => (cfgs p).toPCfg_adm
/-- Every pipeline's proof data, each at its region's entry contents: a literal match on the pipeline. -/
def pdats : (p : Fin 4) → (c : Dev nD) → Pipeline.Dat τ (Elt F) (HIx 4) ℕ UU ℕ (Pipeline.pin (pcfgs (F := F)) adm p) c
  | ⟨0, _⟩ => fun c => dat4 (VB1 Wt) c
  | ⟨1, _⟩ => fun c => dat5 (VB3 Wt) c
  | ⟨2, _⟩ => fun c => dat6 (VB5 Wt) c
  | ⟨3, _⟩ => fun c => dat7 (VB7 Wt) c

/-- The state the tail is entered from: every unscoped buffer at `Wt`, the generator register, nothing owed. -/
def Tst (c : Dev nD) : sProp 𝕄 := iprop(StableHlo.held (SparseCore.T c) (Pipeline.ucRefs τ sig) (Wt c) ∗ Rst c)
/-- The state it ends in: the same at `Wend`. -/
def Tend (c : Dev nD) : sProp 𝕄 := iprop(StableHlo.held (SparseCore.T c) (Pipeline.ucRefs τ sig) (Wend Wt c) ∗ Rst c)

/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- Region 0 over the thread state: entered from every unscoped buffer at `B1`, left at `B2`. Its arrays split
    out of the unscoped buffers and put back at the exit contents; the generator register into the invariant and out;
    nothing owed, the recorded waits kept at levels at most 32 (a wait of the pipeline's own is at level 0); no
    semaphore of the kernel's own. -/
def reg0 : Pipeline.RegionSeg (pcfgs (F := F)) adm (pdats Wt) (none : HIx 4) defs₀ 𝒱₀ (K (F := F)).L (K (F := F)).lev 0 where
  win := launch4.win.to₀
  block_pos := launch4.block_pos
  stage_whole := launch4.stage_whole
  K := PEmpty
  osem k := k.elim
  ho := Pipeline.OwnSemFacts.none _
  hbody c := (body_obligation4 (VB1 Wt) c).loose
  hwaits := Pipeline.hwaits_of_owed_zero _ _ _ _ (K (F := F)).L (K (F := F)).lev 0 fun _ _ => rfl
  pre c := iprop(StableHlo.held (c : Thread nD τ) (Pipeline.ucRefs τ sig) (B1 Wt c) ∗ Rst c)
  post c := iprop(StableHlo.held (c : Thread nD τ) (Pipeline.ucRefs τ sig) (B2 Wt c) ∗ Rst c)
  X c := iprop(∃ r, prngReg c r)
  Y c := iprop(∃ r, prngReg c r)
  Z c := Pipeline.unscopedRest (Ix := HIx 4) (Name := ℕ) (U := UU) (Lvl := ℕ) spec4 c (VB1 Wt c)
  hentry c := by
    rw [Pipeline.ownSems0_none]
    have hsplit := Pipeline.arrays_of_unscopedBufs (p := 0) (pcfgs (F := F)) adm (pdats Wt) launch4.win launch4.arr_whole c
      ((pdats Wt 0 c).share_full fun _ => rfl) (VB1 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 0 c).Φ 0 = ΦH spec4 c from rfl]; unfold ΦH
    iintro ⟨Hp, -, Hr⟩
    isplitl [Hr]; · iexact Hr
    iexact Hp
  hout c := by
    rw [Pipeline.ownSems0_none, show (pdats Wt 0 c).Φ (Fin.last _) = ΦH spec4 c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) adm (Ix := HIx 4) (Name := ℕ) (U := UU) (Lvl := ℕ)
      launch4.win launch4.arr_whole c (pdats Wt) ((pdats Wt 0 c).share_full fun _ => rfl)
      (VB1 Wt c) (VB2 Wt c) ((pdats Wt 0 c).arrAt · cfg4.N) (hF0 Wt c) (hrest0 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 1 over the thread state: entered from every unscoped buffer at `B3`, left at `B4`. Its arrays split
    out of the unscoped buffers and put back at the exit contents; the generator register into the invariant and out;
    nothing owed, the recorded waits kept at levels at most 32 (a wait of the pipeline's own is at level 0); no
    semaphore of the kernel's own. -/
def reg1 : Pipeline.RegionSeg (pcfgs (F := F)) adm (pdats Wt) (none : HIx 4) defs₀ 𝒱₀ (K (F := F)).L (K (F := F)).lev 1 where
  win := launch5.win.to₀
  block_pos := launch5.block_pos
  stage_whole := launch5.stage_whole
  K := PEmpty
  osem k := k.elim
  ho := Pipeline.OwnSemFacts.none _
  hbody c := (body_obligation5 (VB3 Wt) c).loose
  hwaits := Pipeline.hwaits_of_owed_zero _ _ _ _ (K (F := F)).L (K (F := F)).lev 1 fun _ _ => rfl
  pre c := iprop(StableHlo.held (c : Thread nD τ) (Pipeline.ucRefs τ sig) (B3 Wt c) ∗ Rst c)
  post c := iprop(StableHlo.held (c : Thread nD τ) (Pipeline.ucRefs τ sig) (B4 Wt c) ∗ Rst c)
  X c := iprop(∃ r, prngReg c r)
  Y c := iprop(∃ r, prngReg c r)
  Z c := Pipeline.unscopedRest (Ix := HIx 4) (Name := ℕ) (U := UU) (Lvl := ℕ) spec5 c (VB3 Wt c)
  hentry c := by
    rw [Pipeline.ownSems0_none]
    have hsplit := Pipeline.arrays_of_unscopedBufs (p := 1) (pcfgs (F := F)) adm (pdats Wt) launch5.win launch5.arr_whole c
      ((pdats Wt 1 c).share_full fun _ => rfl) (VB3 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 1 c).Φ 0 = ΦH spec5 c from rfl]; unfold ΦH
    iintro ⟨Hp, -, Hr⟩
    isplitl [Hr]; · iexact Hr
    iexact Hp
  hout c := by
    rw [Pipeline.ownSems0_none, show (pdats Wt 1 c).Φ (Fin.last _) = ΦH spec5 c from rfl]; unfold ΦH
    iintro ⟨Hr, Hp⟩
    isplitl [Hp]; · iexact Hp
    isplitr; · iempintro
    iexact Hr
  hexit c := by
    have hjoin := Pipeline.unscopedBufs_of_arrays (p := 1) (pcfgs (F := F)) adm (Ix := HIx 4) (Name := ℕ) (U := UU) (Lvl := ℕ)
      launch5.win launch5.arr_whole c (pdats Wt) ((pdats Wt 1 c).share_full fun _ => rfl)
      (VB3 Wt c) (VB4 Wt c) ((pdats Wt 1 c).arrAt · cfg5.N) (hF1 Wt c) (hrest1 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 2 over the thread state: entered from every unscoped buffer at `B5`, left at `B6`. Its arrays split
    out of the unscoped buffers and put back at the exit contents; the generator register into the invariant and out;
    nothing owed, the recorded waits kept at levels at most 32 (a wait of the pipeline's own is at level 0); no
    semaphore of the kernel's own. -/
def reg2 : Pipeline.RegionSeg (pcfgs (F := F)) adm (pdats Wt) (none : HIx 4) defs₀ 𝒱₀ (K (F := F)).L (K (F := F)).lev 2 where
  win := launch6.win.to₀
  block_pos := launch6.block_pos
  stage_whole := launch6.stage_whole
  K := PEmpty
  osem k := k.elim
  ho := Pipeline.OwnSemFacts.none _
  hbody c := (body_obligation6 (VB5 Wt) c).loose
  hwaits := Pipeline.hwaits_of_owed_zero _ _ _ _ (K (F := F)).L (K (F := F)).lev 2 fun _ _ => rfl
  pre c := iprop(StableHlo.held (c : Thread nD τ) (Pipeline.ucRefs τ sig) (B5 Wt c) ∗ Rst c)
  post c := iprop(StableHlo.held (c : Thread nD τ) (Pipeline.ucRefs τ sig) (B6 Wt c) ∗ Rst c)
  X c := iprop(∃ r, prngReg c r)
  Y c := iprop(∃ r, prngReg c r)
  Z c := Pipeline.unscopedRest (Ix := HIx 4) (Name := ℕ) (U := UU) (Lvl := ℕ) spec6 c (VB5 Wt c)
  hentry c := by
    rw [Pipeline.ownSems0_none]
    have hsplit := Pipeline.arrays_of_unscopedBufs (p := 2) (pcfgs (F := F)) adm (pdats Wt) launch6.win launch6.arr_whole c
      ((pdats Wt 2 c).share_full fun _ => rfl) (VB5 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 2 c).Φ 0 = ΦH spec6 c from rfl]; unfold ΦH
    iintro ⟨Hp, -, Hr⟩
    isplitl [Hr]; · iexact Hr
    iexact Hp
  hout c := by
    rw [Pipeline.ownSems0_none, show (pdats Wt 2 c).Φ (Fin.last _) = ΦH spec6 c from rfl]; unfold ΦH
    iintro ⟨Hr, Hp⟩
    isplitl [Hp]; · iexact Hp
    isplitr; · iempintro
    iexact Hr
  hexit c := by
    have hjoin := Pipeline.unscopedBufs_of_arrays (p := 2) (pcfgs (F := F)) adm (Ix := HIx 4) (Name := ℕ) (U := UU) (Lvl := ℕ)
      launch6.win launch6.arr_whole c (pdats Wt) ((pdats Wt 2 c).share_full fun _ => rfl)
      (VB5 Wt c) (VB6 Wt c) ((pdats Wt 2 c).arrAt · cfg6.N) (hF2 Wt c) (hrest2 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 3 over the thread state: entered from every unscoped buffer at `B7`, left at `B8`. Its arrays split
    out of the unscoped buffers and put back at the exit contents; the generator register into the invariant and out;
    nothing owed, the recorded waits kept at levels at most 32 (a wait of the pipeline's own is at level 0); no
    semaphore of the kernel's own. -/
def reg3 : Pipeline.RegionSeg (pcfgs (F := F)) adm (pdats Wt) (none : HIx 4) defs₀ 𝒱₀ (K (F := F)).L (K (F := F)).lev 3 where
  win := launch7.win.to₀
  block_pos := launch7.block_pos
  stage_whole := launch7.stage_whole
  K := PEmpty
  osem k := k.elim
  ho := Pipeline.OwnSemFacts.none _
  hbody c := (body_obligation7 (VB7 Wt) c).loose
  hwaits := Pipeline.hwaits_of_owed_zero _ _ _ _ (K (F := F)).L (K (F := F)).lev 3 fun _ _ => rfl
  pre c := iprop(StableHlo.held (c : Thread nD τ) (Pipeline.ucRefs τ sig) (B7 Wt c) ∗ Rst c)
  post c := iprop(StableHlo.held (c : Thread nD τ) (Pipeline.ucRefs τ sig) (B8 Wt c) ∗ Rst c)
  X c := iprop(∃ r, prngReg c r)
  Y c := iprop(∃ r, prngReg c r)
  Z c := Pipeline.unscopedRest (Ix := HIx 4) (Name := ℕ) (U := UU) (Lvl := ℕ) spec7 c (VB7 Wt c)
  hentry c := by
    rw [Pipeline.ownSems0_none]
    have hsplit := Pipeline.arrays_of_unscopedBufs (p := 3) (pcfgs (F := F)) adm (pdats Wt) launch7.win launch7.arr_whole c
      ((pdats Wt 3 c).share_full fun _ => rfl) (VB7 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 3 c).Φ 0 = ΦH spec7 c from rfl]; unfold ΦH
    iintro ⟨Hp, -, Hr⟩
    isplitl [Hr]; · iexact Hr
    iexact Hp
  hout c := by
    rw [Pipeline.ownSems0_none, show (pdats Wt 3 c).Φ (Fin.last _) = ΦH spec7 c from rfl]; unfold ΦH
    iintro ⟨Hr, Hp⟩
    isplitl [Hp]; · iexact Hp
    isplitr; · iempintro
    iexact Hr
  hexit c := by
    have hjoin := Pipeline.unscopedBufs_of_arrays (p := 3) (pcfgs (F := F)) adm (Ix := HIx 4) (Name := ℕ) (U := UU) (Lvl := ℕ)
      launch7.win launch7.arr_whole c (pdats Wt) ((pdats Wt 3 c).share_full fun _ => rfl)
      (VB7 Wt c) (VB8 Wt c) ((pdats Wt 3 c).arrAt · cfg7.N) (hF3 Wt c) (hrest3 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-! ## The tail as segments -/

/-- The tail's eight segments in order: a host segment per stretch from its boundary's contents, a region per call. -/
abbrev tailSegs : List (Pipeline.Seg (pcfgs (F := F)) adm (pdats Wt) (none : HIx 4) defs₀ 𝒱₀ (K (F := F)).L (K (F := F)).lev) :=
  [ .host (hseg hostT0 hostT0_sub hostT0_fresh Wt),
    .region (reg0 Wt),
    .host (hseg hostT1 hostT1_sub hostT1_fresh (B2 Wt)),
    .region (reg1 Wt),
    .host (hseg hostT2 hostT2_sub hostT2_fresh (B4 Wt)),
    .region (reg2 Wt),
    .host (hseg hostT3 hostT3_sub hostT3_fresh (B6 Wt)),
    .region (reg3 Wt) ]

/-- Each pipeline is entered once. -/
theorem tail_pipes : (Pipeline.Seg.pipes (tailSegs Wt)).Nodup := by
  simp only [tailSegs, Pipeline.Seg.pipes_host, Pipeline.Seg.pipes_region, Pipeline.Seg.pipes_nil]; decide

/-- Each segment is entered from the state the one before it leaves: the boundary contents are the fold's, by name. -/
theorem tail_chains : Pipeline.Seg.Chains (Tst Wt) (tailSegs Wt) (Tend Wt) :=
  ⟨fun _ => .rfl, fun _ => .rfl, fun _ => .rfl, fun _ => .rfl, fun _ => .rfl, fun _ => .rfl, fun _ => .rfl, fun _ => .rfl, fun _ => .rfl⟩

end Cert.KernelIdeal.Hand

end
-- ==== Proof.PreRange.lean ====
import proofs.«203472_g22600117912246_cont_8to1_820_34_alg».proof.Pre_input_domain
import proofs.«203472_g22600117912246_cont_8to1_820_34_alg».proof.Proof.Gen.Pre_input_domain
import Idealize.ShloMosaic.Lib.ReduceAll

/-!
# The input domain's two integer ranges

The input domain is a conjunction of seven reductions by and; the last two say that every token id lies in
[0, 99999] and every type id in [0, 1], compared signed. They do not depend on the float values: for any float
instance the domain gives the two ranges, here as bounds on the words' unsigned values.
-/

noncomputable section

namespace Cert.Hand.Ref

open Idealize.ShloMosaic Cert.Pre_input_domain

variable {F : FTy → Type} [FloatOps F]

/-- A word whose signed value lies in [0, n] with n below 2^31 has unsigned value at most n. -/
private theorem toNat_le_of_toInt {v : BitVec 32} {n : Int} (h0 : 0 ≤ v.toInt) (h1 : v.toInt ≤ n) : (v.toNat : Int) ≤ n := by
  have e := BitVec.toInt_eq_toNat_cond v
  by_cases c : 2 * v.toNat < 2 ^ 32
  · rw [if_pos c] at e; omega
  · rw [if_neg c] at e; have := v.isLt; omega

/-- What the input domain says of the two index arrays, at any float values: every token id is below 100000 and
    every type id at most 1, as unsigned values. -/
theorem ids_range_of_fn (a0 a1 : IVec S1024x200 32) (a2 : FVec F S100000x128 .f32) (a3 : FVec F S512x128 .f32)
    (a4 : FVec F S2x128 .f32) (a5 a6 : FVec F S128 .f32)
    (h : Cert.Pre_input_domain.fn (F := F) a0 a1 a2 a3 a4 a5 a6 = fun _ => 1#1) :
    (∀ j, (a0 j).toNat < 100000) ∧ (∀ j, (a1 j).toNat ≤ 1) := by
  haveI : Subsingleton S_.Idx := ⟨fun _ _ => funext fun d => d.elim0⟩
  have h := congrFun h (fun d => d.elim0)
  dsimp only [Cert.Pre_input_domain.fn, Cert.Pre_input_domain.fn_part1, Cert.Pre_input_domain.fn_part2] at h
  obtain ⟨h30, h36⟩ := IntOp.andi_eq_one.1 h
  obtain ⟨-, h29⟩ := IntOp.andi_eq_one.1 h30
  refine ⟨fun j => ?_, fun j => ?_⟩
  · obtain ⟨e1, e2⟩ := IntOp.andi_eq_one.1 (Host.reduce_andi_all _ _ _ _ _ h29 j)
    have e1' : (0#32 : BitVec 32).toInt ≤ (a0 j).toInt := IntOp.cmpi_sge.1 e1
    have e2' : (a0 j).toInt ≤ (99999#32 : BitVec 32).toInt := IntOp.cmpi_sle.1 e2
    rw [show (0#32 : BitVec 32).toInt = 0 from by decide] at e1'
    rw [show (99999#32 : BitVec 32).toInt = 99999 from by decide] at e2'
    have := toNat_le_of_toInt e1' e2'
    omega
  · obtain ⟨e1, e2⟩ := IntOp.andi_eq_one.1 (Host.reduce_andi_all _ _ _ _ _ h36 j)
    have e1' : (0#32 : BitVec 32).toInt ≤ (a1 j).toInt := IntOp.cmpi_sge.1 e1
    have e2' : (a1 j).toInt ≤ (1#32 : BitVec 32).toInt := IntOp.cmpi_sle.1 e2
    rw [show (0#32 : BitVec 32).toInt = 0 from by decide] at e1'
    rw [show (1#32 : BitVec 32).toInt = 1 from by decide] at e2'
    have := toNat_le_of_toInt e1' e2'
    omega

end Cert.Hand.Ref

end
-- ==== Proof.Launch.lean ====
/-
  The kernel's run. The launch element is the handshakes' rounds, the four regions' staging cells' rounds (funded at
  the launch, one region's share consumed at its entry) and the unit of the tiles' copy counters. @main on the TensorCore
  is its head (host stretches and the four gather calls) followed by its tail (the four regions), and what it leaves
  is every unscoped buffer at the tail's final contents, read against the final memory.
-/
import proofs.«203472_g22600117912246_cont_8to1_820_34_alg».proof.Proof.Head
import proofs.«203472_g22600117912246_cont_8to1_820_34_alg».proof.Proof.Tail
import proofs.«203472_g22600117912246_cont_8to1_820_34_alg».proof.Proof.PreRange
import Idealize.ShloMosaic.Lib.Pipeline.Value
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

variable (κ : GSem nD τ sig → ℕ) (d : Dev nD)

/-- The tail of @main is the run of its segments: four host stretches and four regions in order. -/
theorem tailProg_eq (Wt : Dev nD → Valuation τ sig (Elt F)) : tailProg (F := F) = Pipeline.Seg.run (tailSegs Wt) := rfl

/-- The TensorCore tail from the buffers `Wt d`: after the last gather call the TensorCore owes nothing, so its `owes`
    rides through the four regions beside the unscoped buffers (the recorded waits staying at levels the handshake
    state allows), and comes back with the buffers at `Wend Wt d`. -/
theorem tail_step (Wt : Dev nD → Valuation τ sig (Elt F)) (Φ : PUnit → sProp 𝕄)
    (hk : iprop((K (F := F)).tcSt EH d 4 ∗ held (T d) (Pipeline.ucRefs τ sig) (Wend Wt d)) ⊢ Φ ⟨⟩) :
    St m ρ κ d 4 (Wt d) ⊢ wp frame (wpE ((K (F := F)).defs (D (F := F))) 𝒱 (SparseCore.T d) none) Set.univ (SparseCore.liftProg (tailProg (F := F))) Φ := by
  refine BIBase.Entails.trans ?_ ((K (F := F)).wp_liftProg (D (F := F)) 𝒱 (SparseCore.T d) Set.univ none (tailProg (F := F)) Φ)
  rw [tailProg_eq Wt]
  unfold St SparseCore.Cfg.tcSt
  rw [(K (F := F)).Otc_end d (le_refl 4)]
  iintro ⟨#Hctx, ⟨⟨%W, %hW, HO⟩, Hrest⟩, Hb, Hh, ⟨Hp, HG⟩⟩
  ihave Hlev := (SparseCore.Cfg.ctx_levAts κ) $$ Hctx
  iapply (Pipeline.wp_segs (pcfgs (F := F)) adm (pdats Wt) (none : HIx 4) Gen.cellOf_inj EP defs₀ 𝒱₀ (K (F := F)).L (K (F := F)).lev d
    (tailSegs Wt) Finset.univ (Tst Wt) (Tend Wt) (tail_pipes Wt) (fun p _ => Finset.mem_univ p) (tail_chains Wt)) $$ [Hrest Hb Hh Hp HO Hlev HG]
  isplitl [Hrest]
  · iintro ⟨Hb, HT⟩
    unfold Tend Rst
    icases HT with ⟨Hh, ⟨-, %W', %hW', HO⟩⟩
    iapply hk
    isplitl [Hrest HO]
    · unfold SparseCore.Cfg.tcSt
      rw [(K (F := F)).Otc_end d (le_refl 4)]
      isplitl [HO]
      · iexists W'; isplitr; · ipureintro; exact hW'
        iexact HO
      iexact Hrest
    iexact Hh
  isplitl [Hb]; · iexact Hb
  isplitl [Hh Hp HO]
  · unfold Tst Rst
    isplitl [Hh]; · iexact Hh
    isplitl [Hp]; · iexists _; iexact Hp
    iexists W; isplitr; · ipureintro; exact hW
    iexact HO
  isplitl [Hlev]; · iexact Hlev
  iexact HG

/-- What @main leaves the claim: every unscoped TensorCore buffer at the tail's final contents, for gathered chunks
    that agree with the table rows their ids name. -/
def FIN : sProp 𝕄 :=
  iprop(∃ f0 f1 f2 f3 : S51200x128.Idx → Elt F .f32,
    ⌜RowsOK m 0 d Finset.univ f0 ∧ RowsOK m 1 d Finset.univ f1 ∧ RowsOK m 2 d Finset.univ f2 ∧ RowsOK m 3 d Finset.univ f3⌝
      ∗ held (T d) (Pipeline.ucRefs τ sig) (Wend (fun d' => V8 m d' f0 f1 f2 f3) d))

/-- @main on device `d`'s TensorCore. -/
theorem hmain :
    iprop((K (F := F)).ctx EH (P m) κ ∗ (K (F := F)).tcSt EH d 0 ∗ (K (F := F)).tcRes m ρ d
        ∗ Pipeline.ghostOn (pcfgs (F := F)) (fun p => (cfgs p).toPCfg_adm) EP Finset.univ d)
      ⊢ wp frame (wpE ((K (F := F)).defs (D (F := F))) 𝒱 (SparseCore.T d) none) Set.univ (main d)
          fun _ => iprop((K (F := F)).tcSt EH d 4 ∗ FIN m d) :=
  hmain_head m ρ κ d _ fun f0 f1 f2 f3 h0 h1 h2 h3 =>
    tail_step m ρ κ d (fun d' => V8 m d' f0 f1 f2 f3) _ (by
      iintro ⟨Hst, Hh⟩
      isplitl [Hst]; · iexact Hst
      unfold FIN
      iexists f0, f1, f2, f3
      isplitr; · ipureintro; exact ⟨h0, h1, h2, h3⟩
      iexact Hh)

/-! ## The launch element -/

def u₀ : UU := (initOf (K (F := F)).hsCells (K (F := F)).hsToks, (initOf (Pipeline.cells cfgs Gen.cellOf_inj) (Pipeline.launchToks cfgs Gen.cellOf_inj), 1))

/-- The four regions' staging cells' ghost state on device `d`. -/
abbrev Gd (d : Dev nD) : sProp 𝕄 := Pipeline.ghostOn (pcfgs (F := F)) (fun p => (cfgs p).toPCfg_adm) EP Finset.univ d

omit [FloatOps F] in
theorem bigSep_emp' {I : Type} (s : Finset I) : (bigSep s fun _ => iprop(emp)) = (iprop(emp) : sProp 𝕄) := bigSep_emp_const s

omit [FloatOps F] in
/-- The staging cells' embedding is the product's right injection after the pair's left one. -/
theorem EP_eq (x : UP) : ((Emb.inl : Emb UP (UP × Counters)).trans (embR (nD := nD) (τ := τ) (sig := sig) (Ix := HIx 4) (Val := Elt F) (Name := ℕ) (A := UH) (B := UP × Counters) (Lvl := ℕ))) x = (EP (F := F)) x := rfl

omit [FloatOps F] in
theorem bigSep_sep2 {M : Type} [URA M] {I J : Type} (s : Finset I) (t : Finset J) (A B : I → J → sProp M) :
    (bigSep s fun i => bigSep t fun j => iprop(A i j ∗ B i j)) = iprop((bigSep s fun i => bigSep t (A i)) ∗ bigSep s fun i => bigSep t (B i)) :=
  (bigSep_congr fun i _ => bigSep_sep t (A i) (B i)).trans (bigSep_sep s (fun i => bigSep t (A i)) (fun i => bigSep t (B i)))

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb embR _ _) $$ HR
  icases H2 with ⟨HP, -⟩
  rw [EP_eq]
  imod (Pipeline.fund_ghost cfgs EP Gen.cellOf_inj) $$ HP with ⟨Hc, Ht⟩
  imodintro
  isplitl [HH]; · iexact HH
  isplitl [Hc Ht]
  · unfold Gd Pipeline.ghostOn Pipeline.PerCore.ghostOn
    iapply (Entails.of_eq (bigSep_sep2 (Finset.univ : Finset (Dev nD)) (Finset.univ : Finset (Fin 4))
      (fun d p' => Pipeline.PerCore.cellsGhost (Pipeline.pinD (pcfgs (F := F)) fun _ p => (cfgs p).toPCfg_adm) EP p' d)
      (fun d p' => Pipeline.PerCore.toksInit (Pipeline.pinD (pcfgs (F := F)) fun _ p => (cfgs p).toPCfg_adm) EP p' d)).symm)
    isplitl [Hc]; · iexact Hc
    iexact Ht
  · unfold P; dsimp only
    rw [show (bigSep Finset.univ fun _ : Thread nD τ => bigSep Finset.univ fun _ : Fin 4 => (iprop(emp) : sProp 𝕄)) = iprop(emp) from by
      rw [bigSep_congr fun _ _ => bigSep_emp' _, bigSep_emp']]
    iempintro

/-! ## Reading the final memory -/

/-- What a final memory satisfies on device `d`: its unscoped TensorCore buffers are the tail's final contents, for
    gathered chunks that agree with the table rows their ids name. -/
def fqm (d : Dev nD) (s : MemSt nD τ sig (Elt F)) : Prop :=
  ∃ f0 f1 f2 f3 : S51200x128.Idx → Elt F .f32,
    RowsOK m 0 d Finset.univ f0 ∧ RowsOK m 1 d Finset.univ f1 ∧ RowsOK m 2 d Finset.univ f2 ∧ RowsOK m 3 d Finset.univ f3 ∧
      ∀ b ∈ Pipeline.ucRefs τ sig, s.mem (d, b) = Wend (fun d' => V8 m d' f0 f1 f2 f3) d b

theorem hfin (d : Dev nD) (s' : Phys nD τ sig (Elt F)) : iprop(FIN m d ∗ SI s') ⊢ (⌜fqm m d s'.mem⌝ : sProp 𝕄) := by
  unfold FIN
  iintro ⟨⟨%f0, %f1, %f2, %f3, %hf, Hh⟩, HSI⟩
  unfold StableHlo.held
  ihave H := (pointsTo_read_all (Pipeline.ucRefs τ sig) (fun b => ((SparseCore.T d).1, b)) (Wend (fun d' => V8 m d' f0 f1 f2 f3) d) s') $$ [Hh HSI]
  · isplitl [Hh] <;> iassumption
  icases H with ⟨%h, -⟩
  ipureintro
  exact ⟨f0, f1, f2, f3, hf.1, hf.2.1, hf.2.2.1, hf.2.2.2, h⟩

/-! ## The run -/

def QC : PUnit × MemSt nD τ sig (Elt F) → Prop := fun r => ∀ c : Dev nD, fqm m c r.2

theorem run_main [∀ e, Nonempty (Elt F e)]
    (htile : ∀ q : Fin 4, (K (F := F)).TileObl (D (F := F)) 𝒱 (P m) v₀ q) (hvec : ∀ q : Fin 4, (K (F := F)).VecSplit' (P m) q) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => htile q)
    (fun q _ => SparseCore.Cfg.VecSplit.of_plain (hvec q))
    m ρ main (fun d => Gd (F := F) d) (FIN m) (u₀ (F := F)) (sep_elim_left.trans (hu₀ m)) (fun κ d => hmain m ρ κ d)
    (fun d s' => fqm m d s'.mem) (hfin m) (QC m) (fun _ h => h)

/-! ## The arguments end as launched -/

/-- A reference that no host operation of the head and no gather call writes keeps its launch contents up to the tail. -/
theorem V8_keep (d : Dev nD) (f0 f1 f2 f3 : S51200x128.Idx → Elt F .f32) (b : Ref sig .tc)
    (h0 : b ≠ main_v0) (h1 : b ≠ main_v1) (h2 : b ≠ main_v2) (h3 : b ≠ main_v3) (h4 : b ≠ main_v4) (h5 : b ≠ main_v5) (h6 : b ≠ main_v6)
    (h7 : b ≠ main_v7) (h8 : b ≠ main_v8) (h9 : b ≠ main_v9) (h10 : b ≠ main_v10) (h11 : b ≠ main_v11) :
    V8 m d f0 f1 f2 f3 (Proc.devRef .tc b) = m (d, Proc.devRef .tc b) := by
  unfold V8 V7 V6 V5 V4 V3 V2
  rw [Function.update_of_ne (StableHlo.devRef_ne_of_ne h11), keep910 _ b h10, Function.update_of_ne (StableHlo.devRef_ne_of_ne h9), keep78 _ b h8,
    Function.update_of_ne (StableHlo.devRef_ne_of_ne h7), keep56 _ b h6, Function.update_of_ne (StableHlo.devRef_ne_of_ne h5)]
  exact W1_keep m d b h0 h1 h2 h3 h4

end Cert.KernelIdeal.Hand

end
-- ==== Proof.Frame.lean ====
/-
  The kernel's frame from its run: under the input domain every token id names a table row (the flattened ids are the
  ids reshaped), so every tile's indexed copies stay in range; the run's final memory holds the tail's final buffers, and
  no step of @main writes an argument, so each argument reads back through the chain of buffers to its launch contents.
-/
import proofs.«203472_g22600117912246_cont_8to1_820_34_alg».proof.Proof.Launch
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The precondition gives the ids' range; the frame -/

/-- The flattened ids are the ids reshaped. -/
theorem idsB_eq (d : Dev nD) : idsB m d = fun i => shapeCast S204800 (m (d, Proc.devRef .tc main_arg0)) shapeCasts_S1024x200_S204800 i := by
  show StableHlo.after (hostOps0 (F := F)) (W0 m d) (Proc.devRef .tc main_v0) = _
  rw [show hostOps0 (F := F) = StableHlo.reshape main_arg0 main_v0 rfl shapeCasts_S1024x200_S204800 :: _ from rfl, StableHlo.after_cons,
    StableHlo.after_of_forall_not_mem (b := Proc.devRef .tc main_v0) _ _ (List.forall_iff_forall_mem.mp (by
      simp only [List.Forall, StableHlo.unary_writes, StableHlo.reshape_writes, Finset.mem_singleton]
      exact ⟨StableHlo.devRef_ne_of_ne (by decide), StableHlo.devRef_ne_of_ne (by decide), StableHlo.devRef_ne_of_ne (by decide), StableHlo.devRef_ne_of_ne (by decide)⟩)),
    StableHlo.reshape_result]
  rfl

end Cert.KernelIdeal.Hand

namespace Cert.KernelIdeal.Hand

open Cert.KernelIdeal Cert.KernelIdeal.Gen Idealize.ShloMosaic

/-- Under the input domain every token id names a table row. -/
theorem ok_of_pre (m : (ℓ : Loc nD τ sig) → Buf (Elt Ideal) ℓ) (h : Cert.Pre_KernelIdeal (hPre_input_domain := Cert.Pre_input_domain.Gen.facts) m) :
    IdsInRange (F := Ideal) m := by
  intro d j
  rw [idsB_eq]
  show (shapeCast S204800 (m (d, Proc.devRef .tc main_arg0)) shapeCasts_S1024x200_S204800 j).toNat < 100000
  unfold shapeCast
  exact (Cert.Hand.Ref.ids_range_of_fn _ _ _ _ _ _ _ (h d)).1 _

/-- The frame, given each gather call's obligation for one tile and its split among the tiles. -/
theorem frame_of
    (htile : ∀ (m : (ℓ : Loc nD τ sig) → Buf (Elt Ideal) ℓ), IdsInRange (F := Ideal) m → ∀ q : Fin 4, (K (F := Ideal)).TileObl (D (F := Ideal)) 𝒱 (P m) v₀ q)
    (hvec : ∀ (m : (ℓ : Loc nD τ sig) → Buf (Elt Ideal) ℓ) (q : Fin 4), (K (F := Ideal)).VecSplit' (P m) q) :
    Cert.frame_KernelIdeal (hKernelIdeal := Cert.KernelIdeal.Gen.facts) (hPre_input_domain := Cert.Pre_input_domain.Gen.facts) := fun m ρ hpre =>
  (θ_run Cert.KernelIdeal.defs _ _).mono (fun r h c => by
      obtain ⟨f0, f1, f2, f3, -, -, -, -, hb⟩ := h c
      exact ⟨(hb _ (mem_uc main_arg0 (by decide))).trans ((Wend_main_arg0 _ c).trans (V8_keep m c f0 f1 f2 f3 main_arg0 (by decide) (by decide) (by decide) (by decide) (by decide) (by decide) (by decide) (by decide) (by decide) (by decide) (by decide) (by decide))),
        (hb _ (mem_uc main_arg1 (by decide))).trans ((Wend_main_arg1 _ c).trans (V8_keep m c f0 f1 f2 f3 main_arg1 (by decide) (by decide) (by decide) (by decide) (by decide) (by decide) (by decide) (by decide) (by decide) (by decide) (by decide) (by decide))),
        (hb _ (mem_uc main_arg2 (by decide))).trans ((Wend_main_arg2 _ c).trans (V8_keep m c f0 f1 f2 f3 main_arg2 (by decide) (by decide) (by decide) (by decide) (by decide) (by decide) (by decide) (by decide) (by decide) (by decide) (by decide) (by decide))),
        (hb _ (mem_uc main_arg3 (by decide))).trans ((Wend_main_arg3 _ c).trans (V8_keep m c f0 f1 f2 f3 main_arg3 (by decide) (by decide) (by decide) (by decide) (by decide) (by decide) (by decide) (by decide) (by decide) (by decide) (by decide) (by decide))),
        (hb _ (mem_uc main_arg4 (by decide))).trans ((Wend_main_arg4 _ c).trans (V8_keep m c f0 f1 f2 f3 main_arg4 (by decide) (by decide) (by decide) (by decide) (by decide) (by decide) (by decide) (by decide) (by decide) (by decide) (by decide) (by decide))),
        (hb _ (mem_uc main_arg5 (by decide))).trans ((Wend_main_arg5 _ c).trans (V8_keep m c f0 f1 f2 f3 main_arg5 (by decide) (by decide) (by decide) (by decide) (by decide) (by decide) (by decide) (by decide) (by decide) (by decide) (by decide) (by decide))),
        (hb _ (mem_uc main_arg6 (by decide))).trans ((Wend_main_arg6 _ c).trans (V8_keep m c f0 f1 f2 f3 main_arg6 (by decide) (by decide) (by decide) (by decide) (by decide) (by decide) (by decide) (by decide) (by decide) (by decide) (by decide) (by decide)))⟩)
    (run_main (F := Ideal) m ρ (htile m (ok_of_pre m hpre)) (hvec m))

end Cert.KernelIdeal.Hand

end
-- ==== Proof.Bits.Calls.lean ====
/-
  The TensorCore's side of a gather call: the word table and the token ids are read by every tile of both SparseCores,
  so each SparseCore is lent a read share of them; chunk q's 51200 rows are divided between the SparseCores by the
  parity of their 1600-row band. What the call returns is rejoined: the table and ids whole again, the chunk whole at
  contents that agree, row by row, with the table rows its ids name.
-/
import proofs.«203472_g22600117912246_cont_8to1_820_34_alg».proof.Proof.Bits.Common
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

abbrev tab' : DevRef τ sig := Proc.devRef .tc (main_arg2 : Ref sig .tc)
abbrev ids' : DevRef τ sig := Proc.devRef .tc (main_v0 : Ref sig .tc)

omit [FloatOps F] in
/-- An unscoped TensorCore reference is among those the TensorCore holds between regions. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

theorem coreRows_sdiff : (Finset.univ : Finset S51200x128.Idx) \ coreRows 0 = coreRows 1 := by
  ext j; simp only [coreRows, Finset.mem_sdiff, Finset.mem_univ, Finset.mem_filter, true_and]; omega
theorem coreRows_disj : Disjoint (coreRows 0) (coreRows 1) := by
  rw [Finset.disjoint_left]; intro j h0 h1; simp only [coreRows, Finset.mem_filter, Finset.mem_univ, true_and] at h0 h1; omega
theorem coreRows_union : coreRows 0 ∪ coreRows 1 = (Finset.univ : Finset S51200x128.Idx) := by
  ext j; simp only [coreRows, Finset.mem_union, Finset.mem_filter, Finset.mem_univ, true_and, iff_true]; omega

abbrev out0' : DevRef τ sig := Proc.devRef .tc (main_v5 : Ref sig .tc)

theorem sub3_0 : ({tab', ids', out0'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v5 (by decide)

omit [FloatOps F] in
theorem held3_0 (d : Dev nD) (W : Valuation τ sig (Elt F)) :
    (held (T d) ({tab', ids', out0'} : Finset (DevRef τ sig)) W : sProp 𝕄)
      = iprop((tabLoc d ↦{fullShare} W tab') ∗ (idsLoc d ↦{fullShare} W ids') ∗ (SparseCore.T d).loc main_v5 ↦{fullShare} W out0') := by
  unfold held
  rw [SparseCore.bigSep_insert' (by decide), SparseCore.bigSep_insert' (by decide), bigSep_singleton]

omit [FloatOps F] in
theorem outPts0_eq (d : Dev nD) (R : Finset S51200x128.Idx) (f : S51200x128.Idx → Elt F .f32) :
    (outPts (F := F) 0 d R f : sProp 𝕄) = ((SparseCore.T d).loc main_v5 ↦[R]{fullShare} f) := rfl

theorem st0_eq (d : Dev nD) : (bigSep Finset.univ fun c : Fin ((K (F := F)).nCore 0) => (P m).st 0 d c) = iprop(stRes m 0 d 0 ∗ stRes m 0 d 1) := by
  show (bigSep (Finset.univ : Finset (Fin 2)) fun c => stRes m 0 d c.val) = _
  rw [bigSep_fin2]; rfl
theorem dn0_eq (d : Dev nD) : (bigSep Finset.univ fun c : Fin ((K (F := F)).nCore 0) => (P m).dn 0 d c) = iprop(dnRes m 0 d 0 ∗ dnRes m 0 d 1) := by
  show (bigSep (Finset.univ : Finset (Fin 2)) fun c => dnRes m 0 d c.val) = _
  rw [bigSep_fin2]; rfl

/-- Gather call 0 from the TensorCore: the table and the ids go out as one read share per SparseCore, the chunk's rows
    by parity of their 1600-row band; what comes back is rejoined, the chunk at contents that are what the call gathers. -/
theorem call0 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 0 d Finset.univ f →
      iprop(R ∗ (K (F := F)).tcSt EH d (0 + 1) ∗ held (T d) (Pipeline.ucRefs τ sig) (Function.update W out0' f)) ⊢ Φ ⟨⟩) :
    iprop((K (F := F)).ctx EH (P m) κ ∗ (K (F := F)).tcSt EH d 0 ∗ held (T d) (Pipeline.ucRefs τ sig) W ∗ R)
    ⊢ wp frame (wpE ((K (F := F)).defs (D (F := F))) 𝒱 (SparseCore.T d) none) Set.univ ((K (F := F)).run d 0) Φ := by
  rw [StableHlo.held_sub_split (T d) sub3_0 W, held3_0, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 0) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st0_eq]; unfold stRes; simp only [outPts0_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn0_eq m d)) $$ Hdn
  unfold dnRes; simp only [outPts0_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v5) (I := coreRows 0) (J := coreRows 1) coreRows_disj) $$ [Ho0 Ho1]
  · isplitl [Ho0]; · iexact Ho0
    iexact Ho1
  rw [coreRows_union]
  have hg : RowsOK m 0 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_0 (Function.update W out0' _), held3_0]
  have hne : ∀ b ∈ Pipeline.ucRefs τ sig \ ({tab', ids', out0'} : Finset (DevRef τ sig)), b ≠ out0' :=
    fun b hb e => (Finset.mem_sdiff.mp hb).2 (by rw [e]; simp)
  rw [Function.update_of_ne (show tab' ≠ out0' by decide), Function.update_of_ne (show ids' ≠ out0' by decide), Function.update_self, hWt, hWi,
    StableHlo.held_congr (T d) (V := Function.update W out0' _) (V' := W) (fun b hb => Function.update_of_ne (hne b hb) _ _)]
  isplitl [Ht Hi Ho]
  · isplitl [Ht]; · iexact Ht
    isplitl [Hi]; · iexact Hi
    iexact Ho
  iexact Hrest

abbrev out1' : DevRef τ sig := Proc.devRef .tc (main_v7 : Ref sig .tc)

theorem sub3_1 : ({tab', ids', out1'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v7 (by decide)

omit [FloatOps F] in
theorem held3_1 (d : Dev nD) (W : Valuation τ sig (Elt F)) :
    (held (T d) ({tab', ids', out1'} : Finset (DevRef τ sig)) W : sProp 𝕄)
      = iprop((tabLoc d ↦{fullShare} W tab') ∗ (idsLoc d ↦{fullShare} W ids') ∗ (SparseCore.T d).loc main_v7 ↦{fullShare} W out1') := by
  unfold held
  rw [SparseCore.bigSep_insert' (by decide), SparseCore.bigSep_insert' (by decide), bigSep_singleton]

omit [FloatOps F] in
theorem outPts1_eq (d : Dev nD) (R : Finset S51200x128.Idx) (f : S51200x128.Idx → Elt F .f32) :
    (outPts (F := F) 1 d R f : sProp 𝕄) = ((SparseCore.T d).loc main_v7 ↦[R]{fullShare} f) := rfl

theorem st1_eq (d : Dev nD) : (bigSep Finset.univ fun c : Fin ((K (F := F)).nCore 1) => (P m).st 1 d c) = iprop(stRes m 1 d 0 ∗ stRes m 1 d 1) := by
  show (bigSep (Finset.univ : Finset (Fin 2)) fun c => stRes m 1 d c.val) = _
  rw [bigSep_fin2]; rfl
theorem dn1_eq (d : Dev nD) : (bigSep Finset.univ fun c : Fin ((K (F := F)).nCore 1) => (P m).dn 1 d c) = iprop(dnRes m 1 d 0 ∗ dnRes m 1 d 1) := by
  show (bigSep (Finset.univ : Finset (Fin 2)) fun c => dnRes m 1 d c.val) = _
  rw [bigSep_fin2]; rfl

/-- Gather call 1 from the TensorCore: the table and the ids go out as one read share per SparseCore, the chunk's rows
    by parity of their 1600-row band; what comes back is rejoined, the chunk at contents that are what the call gathers. -/
theorem call1 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 1 d Finset.univ f →
      iprop(R ∗ (K (F := F)).tcSt EH d (1 + 1) ∗ held (T d) (Pipeline.ucRefs τ sig) (Function.update W out1' f)) ⊢ Φ ⟨⟩) :
    iprop((K (F := F)).ctx EH (P m) κ ∗ (K (F := F)).tcSt EH d 1 ∗ held (T d) (Pipeline.ucRefs τ sig) W ∗ R)
    ⊢ wp frame (wpE ((K (F := F)).defs (D (F := F))) 𝒱 (SparseCore.T d) none) Set.univ ((K (F := F)).run d 1) Φ := by
  rw [StableHlo.held_sub_split (T d) sub3_1 W, held3_1, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 1) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st1_eq]; unfold stRes; simp only [outPts1_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn1_eq m d)) $$ Hdn
  unfold dnRes; simp only [outPts1_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v7) (I := coreRows 0) (J := coreRows 1) coreRows_disj) $$ [Ho0 Ho1]
  · isplitl [Ho0]; · iexact Ho0
    iexact Ho1
  rw [coreRows_union]
  have hg : RowsOK m 1 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_1 (Function.update W out1' _), held3_1]
  have hne : ∀ b ∈ Pipeline.ucRefs τ sig \ ({tab', ids', out1'} : Finset (DevRef τ sig)), b ≠ out1' :=
    fun b hb e => (Finset.mem_sdiff.mp hb).2 (by rw [e]; simp)
  rw [Function.update_of_ne (show tab' ≠ out1' by decide), Function.update_of_ne (show ids' ≠ out1' by decide), Function.update_self, hWt, hWi,
    StableHlo.held_congr (T d) (V := Function.update W out1' _) (V' := W) (fun b hb => Function.update_of_ne (hne b hb) _ _)]
  isplitl [Ht Hi Ho]
  · isplitl [Ht]; · iexact Ht
    isplitl [Hi]; · iexact Hi
    iexact Ho
  iexact Hrest

abbrev out2' : DevRef τ sig := Proc.devRef .tc (main_v9 : Ref sig .tc)

theorem sub3_2 : ({tab', ids', out2'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v9 (by decide)

omit [FloatOps F] in
theorem held3_2 (d : Dev nD) (W : Valuation τ sig (Elt F)) :
    (held (T d) ({tab', ids', out2'} : Finset (DevRef τ sig)) W : sProp 𝕄)
      = iprop((tabLoc d ↦{fullShare} W tab') ∗ (idsLoc d ↦{fullShare} W ids') ∗ (SparseCore.T d).loc main_v9 ↦{fullShare} W out2') := by
  unfold held
  rw [SparseCore.bigSep_insert' (by decide), SparseCore.bigSep_insert' (by decide), bigSep_singleton]

omit [FloatOps F] in
theorem outPts2_eq (d : Dev nD) (R : Finset S51200x128.Idx) (f : S51200x128.Idx → Elt F .f32) :
    (outPts (F := F) 2 d R f : sProp 𝕄) = ((SparseCore.T d).loc main_v9 ↦[R]{fullShare} f) := rfl

theorem st2_eq (d : Dev nD) : (bigSep Finset.univ fun c : Fin ((K (F := F)).nCore 2) => (P m).st 2 d c) = iprop(stRes m 2 d 0 ∗ stRes m 2 d 1) := by
  show (bigSep (Finset.univ : Finset (Fin 2)) fun c => stRes m 2 d c.val) = _
  rw [bigSep_fin2]; rfl
theorem dn2_eq (d : Dev nD) : (bigSep Finset.univ fun c : Fin ((K (F := F)).nCore 2) => (P m).dn 2 d c) = iprop(dnRes m 2 d 0 ∗ dnRes m 2 d 1) := by
  show (bigSep (Finset.univ : Finset (Fin 2)) fun c => dnRes m 2 d c.val) = _
  rw [bigSep_fin2]; rfl

/-- Gather call 2 from the TensorCore: the table and the ids go out as one read share per SparseCore, the chunk's rows
    by parity of their 1600-row band; what comes back is rejoined, the chunk at contents that are what the call gathers. -/
theorem call2 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 2 d Finset.univ f →
      iprop(R ∗ (K (F := F)).tcSt EH d (2 + 1) ∗ held (T d) (Pipeline.ucRefs τ sig) (Function.update W out2' f)) ⊢ Φ ⟨⟩) :
    iprop((K (F := F)).ctx EH (P m) κ ∗ (K (F := F)).tcSt EH d 2 ∗ held (T d) (Pipeline.ucRefs τ sig) W ∗ R)
    ⊢ wp frame (wpE ((K (F := F)).defs (D (F := F))) 𝒱 (SparseCore.T d) none) Set.univ ((K (F := F)).run d 2) Φ := by
  rw [StableHlo.held_sub_split (T d) sub3_2 W, held3_2, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 2) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st2_eq]; unfold stRes; simp only [outPts2_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn2_eq m d)) $$ Hdn
  unfold dnRes; simp only [outPts2_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v9) (I := coreRows 0) (J := coreRows 1) coreRows_disj) $$ [Ho0 Ho1]
  · isplitl [Ho0]; · iexact Ho0
    iexact Ho1
  rw [coreRows_union]
  have hg : RowsOK m 2 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_2 (Function.update W out2' _), held3_2]
  have hne : ∀ b ∈ Pipeline.ucRefs τ sig \ ({tab', ids', out2'} : Finset (DevRef τ sig)), b ≠ out2' :=
    fun b hb e => (Finset.mem_sdiff.mp hb).2 (by rw [e]; simp)
  rw [Function.update_of_ne (show tab' ≠ out2' by decide), Function.update_of_ne (show ids' ≠ out2' by decide), Function.update_self, hWt, hWi,
    StableHlo.held_congr (T d) (V := Function.update W out2' _) (V' := W) (fun b hb => Function.update_of_ne (hne b hb) _ _)]
  isplitl [Ht Hi Ho]
  · isplitl [Ht]; · iexact Ht
    isplitl [Hi]; · iexact Hi
    iexact Ho
  iexact Hrest

abbrev out3' : DevRef τ sig := Proc.devRef .tc (main_v11 : Ref sig .tc)

theorem sub3_3 : ({tab', ids', out3'} : Finset (DevRef τ sig)) ⊆ Pipeline.ucRefs τ sig := by
  intro b hb
  simp only [Finset.mem_insert, Finset.mem_singleton] at hb
  rcases hb with rfl | rfl | rfl
  · exact mem_uc main_arg2 (by decide)
  · exact mem_uc main_v0 (by decide)
  · exact mem_uc main_v11 (by decide)

omit [FloatOps F] in
theorem held3_3 (d : Dev nD) (W : Valuation τ sig (Elt F)) :
    (held (T d) ({tab', ids', out3'} : Finset (DevRef τ sig)) W : sProp 𝕄)
      = iprop((tabLoc d ↦{fullShare} W tab') ∗ (idsLoc d ↦{fullShare} W ids') ∗ (SparseCore.T d).loc main_v11 ↦{fullShare} W out3') := by
  unfold held
  rw [SparseCore.bigSep_insert' (by decide), SparseCore.bigSep_insert' (by decide), bigSep_singleton]

omit [FloatOps F] in
theorem outPts3_eq (d : Dev nD) (R : Finset S51200x128.Idx) (f : S51200x128.Idx → Elt F .f32) :
    (outPts (F := F) 3 d R f : sProp 𝕄) = ((SparseCore.T d).loc main_v11 ↦[R]{fullShare} f) := rfl

theorem st3_eq (d : Dev nD) : (bigSep Finset.univ fun c : Fin ((K (F := F)).nCore 3) => (P m).st 3 d c) = iprop(stRes m 3 d 0 ∗ stRes m 3 d 1) := by
  show (bigSep (Finset.univ : Finset (Fin 2)) fun c => stRes m 3 d c.val) = _
  rw [bigSep_fin2]; rfl
theorem dn3_eq (d : Dev nD) : (bigSep Finset.univ fun c : Fin ((K (F := F)).nCore 3) => (P m).dn 3 d c) = iprop(dnRes m 3 d 0 ∗ dnRes m 3 d 1) := by
  show (bigSep (Finset.univ : Finset (Fin 2)) fun c => dnRes m 3 d c.val) = _
  rw [bigSep_fin2]; rfl

/-- Gather call 3 from the TensorCore: the table and the ids go out as one read share per SparseCore, the chunk's rows
    by parity of their 1600-row band; what comes back is rejoined, the chunk at contents that are what the call gathers. -/
theorem call3 (κ : GSem nD τ sig → ℕ) (d : Dev nD) (W : Valuation τ sig (Elt F)) (hWt : W tab' = m (tabLoc d)) (hWi : W ids' = idsB m d)
    (Φ : PUnit → sProp 𝕄) (R : sProp 𝕄)
    (hk : ∀ f : S51200x128.Idx → Elt F .f32, RowsOK m 3 d Finset.univ f →
      iprop(R ∗ (K (F := F)).tcSt EH d (3 + 1) ∗ held (T d) (Pipeline.ucRefs τ sig) (Function.update W out3' f)) ⊢ Φ ⟨⟩) :
    iprop((K (F := F)).ctx EH (P m) κ ∗ (K (F := F)).tcSt EH d 3 ∗ held (T d) (Pipeline.ucRefs τ sig) W ∗ R)
    ⊢ wp frame (wpE ((K (F := F)).defs (D (F := F))) 𝒱 (SparseCore.T d) none) Set.univ ((K (F := F)).run d 3) Φ := by
  rw [StableHlo.held_sub_split (T d) sub3_3 W, held3_3, hWt, hWi]
  iintro ⟨#Hctx, Hst, ⟨⟨Ht, Hi, Ho⟩, Hrest⟩, HR⟩
  ihave Ht2 := (Transfers.pointsTo_toks_split fullShare 2) $$ Ht
  icases Ht2 with ⟨Htd, Hts⟩
  ihave Hts' := (Entails.of_eq (bigSep_fin2 _)) $$ Hts
  icases Hts' with ⟨Ht0, Ht1⟩
  ihave Hi2 := (Transfers.pointsTo_toks_split fullShare 2) $$ Hi
  icases Hi2 with ⟨Hid, His⟩
  ihave His' := (Entails.of_eq (bigSep_fin2 _)) $$ His
  icases His' with ⟨Hi0, Hi1⟩
  ihave Ho2 := (pointsTo_split_subset (Finset.subset_univ (coreRows 0))).1 $$ Ho
  rw [coreRows_sdiff]
  icases Ho2 with ⟨Ho0, Ho1⟩
  iapply ((K (F := F)).wp_run (D (F := F)) 𝒱 (EH := EH) (P := P m) κ d 3) $$ [Hst Ht0 Ht1 Hi0 Hi1 Ho0 Ho1 Htd Hid Hrest HR]
  isplitr; · iexact Hctx
  isplitl [Hst]; · iexact Hst
  isplitl [Ht0 Ht1 Hi0 Hi1 Ho0 Ho1]
  · rw [st3_eq]; unfold stRes; simp only [outPts3_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn' := (Entails.of_eq (dn3_eq m d)) $$ Hdn
  unfold dnRes; simp only [outPts3_eq]
  icases Hdn' with ⟨⟨Ht0, Hi0, %f0, %hf0, Ho0⟩, ⟨Ht1, Hi1, %f1, %hf1, Ho1⟩⟩
  ihave Ht := (Transfers.pointsTo_toks_join fullShare 2) $$ [Htd Ht0 Ht1]
  · isplitl [Htd]; · iexact Htd
    rw [bigSep_fin2]; isplitl [Ht0]; · iexact Ht0
    iexact Ht1
  ihave Hi := (Transfers.pointsTo_toks_join fullShare 2) $$ [Hid Hi0 Hi1]
  · isplitl [Hid]; · iexact Hid
    rw [bigSep_fin2]; isplitl [Hi0]; · iexact Hi0
    iexact Hi1
  ihave Ho := (pointsTo_join (ℓ := (SparseCore.T d).loc main_v11) (I := coreRows 0) (J := coreRows 1) coreRows_disj) $$ [Ho0 Ho1]
  · isplitl [Ho0]; · iexact Ho0
    iexact Ho1
  rw [coreRows_union]
  have hg : RowsOK m 3 d Finset.univ ((coreRows 1).piecewise f1 f0) := by
    intro j _
    by_cases hj : j ∈ coreRows 1
    · rw [Finset.piecewise_eq_of_mem _ _ _ hj]; exact hf1 j hj
    · rw [Finset.piecewise_eq_of_notMem _ _ _ hj]
      exact hf0 j (by have := Finset.mem_univ j; rw [← coreRows_union, Finset.mem_union] at this; exact this.resolve_right hj)
  iapply (hk _ hg)
  isplitl [HR]; · iexact HR
  isplitl [Hst]; · iexact Hst
  rw [StableHlo.held_sub_split (T d) sub3_3 (Function.update W out3' _), held3_3]
  have hne : ∀ b ∈ Pipeline.ucRefs τ sig \ ({tab', ids', out3'} : Finset (DevRef τ sig)), b ≠ out3' :=
    fun b hb e => (Finset.mem_sdiff.mp hb).2 (by rw [e]; simp)
  rw [Function.update_of_ne (show tab' ≠ out3' by decide), Function.update_of_ne (show ids' ≠ out3' by decide), Function.update_self, hWt, hWi,
    StableHlo.held_congr (T d) (V := Function.update W out3' _) (V' := W) (fun b hb => Function.update_of_ne (hne b hb) _ _)]
  isplitl [Ht Hi Ho]
  · isplitl [Ht]; · iexact Ht
    isplitl [Hi]; · iexact Hi
    iexact Ho
  iexact Hrest

end Cert.Kernel.Hand

end
-- ==== Proof.Bits.Head.lean ====
/-
  @main's head on the TensorCore. The TensorCore's state between two steps is: the launch context, its handshake state
  before gather call n, the region boundary, every unscoped buffer whole at a valuation W, and what rides along (the
  generator register, the regions' staging cells' ghost state). A host stretch moves W to StableHlo.after ops W; gather
  call q moves the handshake state from q to q + 1 and W to W with chunk q replaced by contents f that agree with the
  table rows its ids name. Chained from the launch memory they reach the buffers V8 the TensorCore tail starts from.
-/
import proofs.«203472_g22600117912246_cont_8to1_820_34_alg».proof.Proof.Bits.Calls
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The tail of @main after the fourth gather call, over the pipelines' own signature. -/
def tailProg : Prog (TpuEff nD τ sig (Elt F) (ΛP (F := F)) .tc) PUnit :=
  StableHlo.seq [StableHlo.reshape main_v11 main_v12 rfl shapeCasts_S51200x128_S256x200x128] >>= fun _ =>
  Prog.op (.customCall (Pipeline.entry 0) ()) fun _ =>
  StableHlo.seq [StableHlo.unary main_v13 main_v14 id] >>= fun _ =>
  Prog.op (.customCall (Pipeline.entry 1) ()) fun _ =>
  StableHlo.seq [StableHlo.unary main_v14 main_v15 id] >>= fun _ =>
  Prog.op (.customCall (Pipeline.entry 2) ()) fun _ =>
  StableHlo.seq [StableHlo.unary main_v15 main_v16 id] >>= fun _ =>
  Prog.op (.customCall (Pipeline.entry 3) ()) fun _ => pure ⟨⟩

theorem main_eq (d : Dev nD) : main (F := F) d =
    (StableHlo.seq (hostOps0 (F := F)) >>= fun _ =>
     (K (F := F)).run d 0 >>= fun _ =>
     StableHlo.seq [StableHlo.reshape main_v5 main_v6 rfl shapeCasts_S51200x128_S256x200x128] >>= fun _ =>
     (K (F := F)).run d 1 >>= fun _ =>
     StableHlo.seq [StableHlo.reshape main_v7 main_v8 rfl shapeCasts_S51200x128_S256x200x128] >>= fun _ =>
     (K (F := F)).run d 2 >>= fun _ =>
     StableHlo.seq [StableHlo.reshape main_v9 main_v10 rfl shapeCasts_S51200x128_S256x200x128] >>= fun _ =>
     (K (F := F)).run d 3 >>= fun _ =>
     SparseCore.liftProg (tailProg (F := F))) := by
  rfl

variable (κ : GSem nD τ sig → ℕ) (d : Dev nD)

/-- What rides along unchanged through @main's head: the generator register and the regions' staging cells' ghost state. -/
abbrev Xres : sProp 𝕄 := iprop(prngReg d (ρ d) ∗ Pipeline.ghostOn (pcfgs (F := F)) (fun p => (cfgs p).toPCfg_adm) EP Finset.univ d)

/-- The TensorCore between two steps of @main's head: before gather call `n`, its unscoped buffers at `W`. -/
abbrev St (n : ℕ) (W : Valuation τ sig (Elt F)) : sProp 𝕄 :=
  iprop((K (F := F)).ctx EH (P m) κ ∗ (K (F := F)).tcSt EH d n ∗ boundary (SparseCore.T d) ∗ held (T d) (Pipeline.ucRefs τ sig) W ∗ Xres ρ d)

/-- A stretch of host operations. -/
theorem host_step (n : ℕ) (ops : List (HloOp τ sig (Elt F))) (hS : ∀ op ∈ ops, op.bufs ⊆ Pipeline.ucRefs τ sig) (hf : ∀ op ∈ ops, op.fresh = ∅)
    (W : Valuation τ sig (Elt F)) {β : Type} (k : PUnit → Prog (TpuEff nD τ sig (Elt F) (SparseCore.Sig (ΛP (F := F)) 4) .tc) β) (Φ : β → sProp 𝕄)
    (hk : St m ρ κ d n (StableHlo.after ops W) ⊢ wp frame (wpE ((K (F := F)).defs (D (F := F))) 𝒱 (SparseCore.T d) none) Set.univ (k ⟨⟩) Φ) :
    St m ρ κ d n W ⊢ wp frame (wpE ((K (F := F)).defs (D (F := F))) 𝒱 (SparseCore.T d) none) Set.univ (StableHlo.seq ops >>= k) Φ := by
  iintro ⟨#Hctx, Hst, Hb, Hh, HX⟩
  iapply (StableHlo.wp_seq (defs := (K (F := F)).defs (D (F := F))) 𝒱 none Set.univ d (Pipeline.ucRefs τ sig) k ops hS hf W) $$ [Hb Hh]
  · isplitl [Hb] <;> iassumption
  iintro ⟨Hb, Hh⟩
  iapply hk
  isplitr; · iexact Hctx
  isplitl [Hst]; · iexact Hst
  isplitl [Hb]; · iexact Hb
  isplitl [Hh]; · iexact Hh
  iexact HX

theorem call_step0 (W : Valuation τ sig (Elt F)) (hWt : W tab' = m (tabLoc d)) (hWi : W ids' = idsB m d) (Φ : PUnit → sProp 𝕄)
    (hk : ∀ f : S51200x128.Idx → Elt F .f32, RowsOK m 0 d Finset.univ f → St m ρ κ d (0 + 1) (Function.update W out0' f) ⊢ Φ ⟨⟩) :
    St m ρ κ d 0 W ⊢ wp frame (wpE ((K (F := F)).defs (D (F := F))) 𝒱 (SparseCore.T d) none) Set.univ ((K (F := F)).run d 0) Φ := by
  refine BIBase.Entails.trans ?_ (call0 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step1 (W : Valuation τ sig (Elt F)) (hWt : W tab' = m (tabLoc d)) (hWi : W ids' = idsB m d) (Φ : PUnit → sProp 𝕄)
    (hk : ∀ f : S51200x128.Idx → Elt F .f32, RowsOK m 1 d Finset.univ f → St m ρ κ d (1 + 1) (Function.update W out1' f) ⊢ Φ ⟨⟩) :
    St m ρ κ d 1 W ⊢ wp frame (wpE ((K (F := F)).defs (D (F := F))) 𝒱 (SparseCore.T d) none) Set.univ ((K (F := F)).run d 1) Φ := by
  refine BIBase.Entails.trans ?_ (call1 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step2 (W : Valuation τ sig (Elt F)) (hWt : W tab' = m (tabLoc d)) (hWi : W ids' = idsB m d) (Φ : PUnit → sProp 𝕄)
    (hk : ∀ f : S51200x128.Idx → Elt F .f32, RowsOK m 2 d Finset.univ f → St m ρ κ d (2 + 1) (Function.update W out2' f) ⊢ Φ ⟨⟩) :
    St m ρ κ d 2 W ⊢ wp frame (wpE ((K (F := F)).defs (D (F := F))) 𝒱 (SparseCore.T d) none) Set.univ ((K (F := F)).run d 2) Φ := by
  refine BIBase.Entails.trans ?_ (call2 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

theorem call_step3 (W : Valuation τ sig (Elt F)) (hWt : W tab' = m (tabLoc d)) (hWi : W ids' = idsB m d) (Φ : PUnit → sProp 𝕄)
    (hk : ∀ f : S51200x128.Idx → Elt F .f32, RowsOK m 3 d Finset.univ f → St m ρ κ d (3 + 1) (Function.update W out3' f) ⊢ Φ ⟨⟩) :
    St m ρ κ d 3 W ⊢ wp frame (wpE ((K (F := F)).defs (D (F := F))) 𝒱 (SparseCore.T d) none) Set.univ ((K (F := F)).run d 3) Φ := by
  refine BIBase.Entails.trans ?_ (call3 m κ d W hWt hWi Φ iprop((K (F := F)).ctx EH (P m) κ ∗ boundary (SparseCore.T d) ∗ Xres ρ d)
    (fun f hf => BIBase.Entails.trans ?_ (hk f hf)))
  · iintro ⟨#Hctx, Hst, Hb, Hh, HX⟩
    isplitr; · iexact Hctx
    isplitl [Hst]; · iexact Hst
    isplitl [Hh]; · iexact Hh
    isplitr; · iexact Hctx
    isplitl [Hb]; · iexact Hb
    iexact HX
  · iintro ⟨⟨#Hctx, Hb, HX⟩, Hst, Hh⟩
    isplitr; · iexact Hctx
    isplitl [Hst]; · iexact Hst
    isplitl [Hb]; · iexact Hb
    isplitl [Hh]; · iexact Hh
    iexact HX

/-! ## The buffers along @main's head -/

abbrev op56 : HloOp τ sig (Elt F) := StableHlo.reshape main_v5 main_v6 rfl shapeCasts_S51200x128_S256x200x128
abbrev op78 : HloOp τ sig (Elt F) := StableHlo.reshape main_v7 main_v8 rfl shapeCasts_S51200x128_S256x200x128
abbrev op910 : HloOp τ sig (Elt F) := StableHlo.reshape main_v9 main_v10 rfl shapeCasts_S51200x128_S256x200x128

variable (f0 f1 f2 f3 : S51200x128.Idx → Elt F .f32)

/-- After gather call 0 (chunk 0 at `f0`), its reshape, call 1, … : the buffers when the TensorCore tail starts. -/
def V2 : Valuation τ sig (Elt F) := Function.update (W1 m d) out0' f0
def V3 : Valuation τ sig (Elt F) := StableHlo.after [op56] (V2 m d f0)
def V4 : Valuation τ sig (Elt F) := Function.update (V3 m d f0) out1' f1
def V5 : Valuation τ sig (Elt F) := StableHlo.after [op78] (V4 m d f0 f1)
def V6 : Valuation τ sig (Elt F) := Function.update (V5 m d f0 f1) out2' f2
def V7 : Valuation τ sig (Elt F) := StableHlo.after [op910] (V6 m d f0 f1 f2)
def V8 : Valuation τ sig (Elt F) := Function.update (V7 m d f0 f1 f2) out3' f3

theorem hostOps0_sub : (hostOps0 (F := F)).Forall fun op => op.bufs ⊆ StableHlo.tcRefs τ sig := by
  simp only [List.Forall]
  exact ⟨StableHlo.reshape_bufs_sub .., StableHlo.unary_bufs_sub .., StableHlo.reshape_bufs_sub .., StableHlo.reshape_bufs_sub .., StableHlo.reshape_bufs_sub ..⟩
theorem hostOps0_fresh : (hostOps0 (F := F)).Forall fun op => op.fresh = ∅ := by
  simp only [List.Forall]; repeat' constructor

/-- A reference no operation of the first host stretch writes keeps its launch contents. -/
theorem W1_keep (b : Ref sig .tc) (h0 : b ≠ main_v0) (h1 : b ≠ main_v1) (h2 : b ≠ main_v2) (h3 : b ≠ main_v3) (h4 : b ≠ main_v4) :
    W1 m d (Proc.devRef .tc b) = m (d, Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The reshape writes its result only. -/
theorem keep56 (W : Valuation τ sig (Elt F)) (b : Ref sig .tc) (hb : b ≠ main_v6) :
    StableHlo.after [op56 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

/-- The reshape writes its result only. -/
theorem keep78 (W : Valuation τ sig (Elt F)) (b : Ref sig .tc) (hb : b ≠ main_v8) :
    StableHlo.after [op78 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

/-- The reshape writes its result only. -/
theorem keep910 (W : Valuation τ sig (Elt F)) (b : Ref sig .tc) (hb : b ≠ main_v10) :
    StableHlo.after [op910 (F := F)] W (Proc.devRef .tc b) = W (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne hb))

theorem headS0 : ∀ op ∈ hostOps0 (F := F), op.bufs ⊆ Pipeline.ucRefs τ sig :=
  fun op h => Pipeline.sub_ucRefs op ((List.forall_iff_forall_mem.mp hostOps0_sub) op h)
theorem headF0 : ∀ op ∈ hostOps0 (F := F), op.fresh = ∅ := fun op h => (List.forall_iff_forall_mem.mp hostOps0_fresh) op h
theorem headS1 {x y : Ref sig .tc} {he hn hx hy} : ∀ op ∈ [StableHlo.reshape (τ := τ) (Val := Elt F) x y he hn hx hy], op.bufs ⊆ Pipeline.ucRefs τ sig :=
  fun op h => by rw [List.mem_singleton.mp h]; exact Pipeline.sub_ucRefs _ (StableHlo.reshape_bufs_sub ..)
theorem headF1 {x y : Ref sig .tc} {he hn hx hy} : ∀ op ∈ [StableHlo.reshape (τ := τ) (Val := Elt F) x y he hn hx hy], op.fresh = ∅ :=
  fun op h => by rw [List.mem_singleton.mp h]; rfl

theorem W1_tab : W1 m d tab' = m (tabLoc d) := W1_keep m d main_arg2 (by decide) (by decide) (by decide) (by decide) (by decide)
theorem V3_tab : V3 m d f0 tab' = m (tabLoc d) := by
  unfold V3 V2; rw [keep56 _ main_arg2 (by decide), Function.update_of_ne (show tab' ≠ out0' by decide)]; exact W1_tab m d
theorem V3_ids : V3 m d f0 ids' = idsB m d := by
  unfold V3 V2; rw [keep56 _ main_v0 (by decide), Function.update_of_ne (show ids' ≠ out0' by decide)]
theorem V5_tab : V5 m d f0 f1 tab' = m (tabLoc d) := by
  unfold V5 V4; rw [keep78 _ main_arg2 (by decide), Function.update_of_ne (show tab' ≠ out1' by decide)]; exact V3_tab m d f0
theorem V5_ids : V5 m d f0 f1 ids' = idsB m d := by
  unfold V5 V4; rw [keep78 _ main_v0 (by decide), Function.update_of_ne (show ids' ≠ out1' by decide)]; exact V3_ids m d f0
theorem V7_tab : V7 m d f0 f1 f2 tab' = m (tabLoc d) := by
  unfold V7 V6; rw [keep910 _ main_arg2 (by decide), Function.update_of_ne (show tab' ≠ out2' by decide)]; exact V5_tab m d f0 f1
theorem V7_ids : V7 m d f0 f1 f2 ids' = idsB m d := by
  unfold V7 V6; rw [keep910 _ main_v0 (by decide), Function.update_of_ne (show ids' ≠ out2' by decide)]; exact V5_ids m d f0 f1

/-- @main's head on the TensorCore: the first host stretch, then four times a gather call and the reshape of its chunk
    (the fourth reshape belongs to the tail), handing the tail the buffers `V8`. -/
theorem hmain_head (Φ : PUnit → sProp 𝕄)
    (htail : ∀ f0 f1 f2 f3 : S51200x128.Idx → Elt F .f32, RowsOK m 0 d Finset.univ f0 → RowsOK m 1 d Finset.univ f1 →
      RowsOK m 2 d Finset.univ f2 → RowsOK m 3 d Finset.univ f3 →
      St m ρ κ d 4 (V8 m d f0 f1 f2 f3) ⊢ wp frame (wpE ((K (F := F)).defs (D (F := F))) 𝒱 (SparseCore.T d) none) Set.univ (SparseCore.liftProg (tailProg (F := F))) Φ) :
    iprop((K (F := F)).ctx EH (P m) κ ∗ (K (F := F)).tcSt EH d 0 ∗ (K (F := F)).tcRes m ρ d
        ∗ Pipeline.ghostOn (pcfgs (F := F)) (fun p => (cfgs p).toPCfg_adm) EP Finset.univ d)
      ⊢ wp frame (wpE ((K (F := F)).defs (D (F := F))) 𝒱 (SparseCore.T d) none) Set.univ (main d) Φ := by
  rw [main_eq]
  refine BIBase.Entails.trans ?_ (host_step m ρ κ d 0 hostOps0 headS0 headF0 (W0 m d) _ Φ ?_)
  · unfold SparseCore.Cfg.tcRes
    rw [show unscopedBufs d (fun b => m ((SparseCore.T d).loc b)) = StableHlo.held (SparseCore.T d) (Pipeline.ucRefs τ sig) (W0 m d)
      from Pipeline.unscopedBufs_held d (W0 m d)]
    iintro ⟨#Hctx, Hst, ⟨Hb, Hheld, -, Hp⟩, HG⟩
    isplitr; · iexact Hctx
    isplitl [Hst]; · iexact Hst
    isplitl [Hb]; · iexact Hb
    isplitl [Hheld]; · iexact Hheld
    isplitl [Hp]; · iexact Hp
    iexact HG
  beta_reduce; rw [wp_bind]
  refine call_step0 m ρ κ d (W1 m d) (W1_tab m d) rfl _ (fun f0 hf0 => ?_)
  refine host_step m ρ κ d 1 [op56] headS1 headF1 (V2 m d f0) _ Φ ?_
  beta_reduce; rw [wp_bind]
  refine call_step1 m ρ κ d (V3 m d f0) (V3_tab m d f0) (V3_ids m d f0) _ (fun f1 hf1 => ?_)
  refine host_step m ρ κ d 2 [op78] headS1 headF1 (V4 m d f0 f1) _ Φ ?_
  beta_reduce; rw [wp_bind]
  refine call_step2 m ρ κ d (V5 m d f0 f1) (V5_tab m d f0 f1) (V5_ids m d f0 f1) _ (fun f2 hf2 => ?_)
  refine host_step m ρ κ d 3 [op910] headS1 headF1 (V6 m d f0 f1 f2) _ Φ ?_
  beta_reduce; rw [wp_bind]
  refine call_step3 m ρ κ d (V7 m d f0 f1 f2) (V7_tab m d f0 f1 f2) (V7_ids m d f0 f1 f2) _ (fun f3 hf3 => ?_)
  exact htail f0 f1 f2 f3 hf0 hf1 hf2 hf3

end Cert.Kernel.Hand

end
-- ==== Proof.Bits.TailBase.lean ====
/-
  What the four TensorCore regions of the tail share: the region invariant of a body that only loads, computes and
  stores through its staging buffers (the core's scoped buffers that are no staging buffer, at some contents, and its
  generator register at some state), stated at this launch's index type; and what rides beside the buffers through
  every segment of the tail (the generator register, and the core owing nothing with its recorded waits at levels at
  most 32).
-/
import proofs.«203472_g22600117912246_cont_8to1_820_34_alg».proof.Proof.Bits.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-- The region invariant on core `c`: the scoped buffers no window stages, at some contents each, and the generator
    register at some state. -/
def ΦH {gr : Nat} {W : Nat} (win : Fin W → Pipeline.WinSpec sig gr) (c : Dev nD) : sProp 𝕄 :=
  iprop(Pipeline.scopedRest (Ix := HIx 4) (Name := ℕ) (U := UU) (Lvl := ℕ) (Val := Elt F) win c ∗ ∃ r, prngReg c r)

/-- What rides beside the buffers through every segment: the generator register at some state, and the core owing
    nothing, every wait it has recorded at a level at most 32. -/
def Rst (c : Dev nD) : sProp 𝕄 :=
  iprop((∃ r, prngReg c r) ∗ ∃ W, ⌜(K (F := F)).WBelow (SparseCore.T c) W 32⌝ ∗ owes (SparseCore.T c) (0 : CellTallies nD τ sig (HIx 4)) W)

end Cert.Kernel.Hand

end
-- ==== Proof.Bits.Tail4.lean ====
/-
  The first TensorCore region of the program's tail, at a parameter: the buffer contents when the region is entered.
  One grid of four points; at point t the body reads a block of 64 sequences of gathered word rows, the token types
  of those sequences, the 200 position rows, the two token-type rows, gamma and beta, and stores the block of
  normalised rows. Stated here: each window's block, what the body leaves in the output's buffer as a pure function
  of the input blocks, the body's triple, the pipeline's proof data and the body obligation at every point.
-/
import proofs.«203472_g22600117912246_cont_8to1_820_34_alg».proof.Proof.Bits.TailBase

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 0: the pipelined call 4, at the entry contents `V` -/

section Region4
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 4) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) (HIx 4) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) (HIx 4) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) (HIx 4) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) (HIx 4) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) (HIx 4) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_a : Rect S64x200x128 := Rect.unit (s := S64x200x128) ![0, 0, 0] S64x200x128.size inb_S64x200x128_S64x200x128_0_0_0
abbrev r4_b : Rect S64x200 := Rect.unit (s := S64x200) ![0, 0] S64x200.size inb_S64x200_S64x200_0_0
abbrev r4_c : Rect S1x200x128 := Rect.unit (s := S1x200x128) ![0, 0, 0] S1x200x128.size inb_S1x200x128_S1x200x128_0_0_0
abbrev r4_d0 : Rect S2x128 := Rect.unit (s := S2x128) ![0, 0] S1x128.size inb_S2x128_S1x128_0_0
abbrev r4_d1 : Rect S2x128 := Rect.unit (s := S2x128) ![1, 0] S1x128.size inb_S2x128_S1x128_1_0
abbrev r4_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out4_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r4_a, k4_pay1 (k4_pay2 (View.ld x0 r4_a) (View.ld x2 r4_c) (View.ld x1 r4_b) (View.ld x3 r4_d0) (View.ld x3 r4_d1)) (k4_pay3 (View.ld x4 r4_e)) (View.ld x5 r4_e)⟩]

/-- The one store covers the buffer. -/
theorem cover4_6 (p0 : Vec F S64x200x128 .f32) (y : S64x200x128.Idx) :
    ∃ pc ∈ ([⟨r4_a, p0⟩] : List (View.Piece (Elt F) S64x200x128 .f32)), y ∈ pc.1.set :=
  View.cover_of_tiled [⟨r4_a, p0⟩] S64x200x128.size (by rfl) y

/-! ## The body's triple -/

set_option maxHeartbeats 1000000 in
/-- The body on whole staging memrefs, the inputs' at read contents and the output's at anything, runs to the
    continuation holding the inputs' as they were and the output's at `out4_6` of the inputs'. -/
theorem sound_kernel4 (c : Dev nD) (E : Set ℕ) (i : grid4.Coords) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ Kont ⟨⟩))
      ⊢ wp frame (wpE (defs₀ (F := F)) Variants.none c none) E (cc4_body i a0 ha0 a1 ha1 a2 ha2 a3 ha3 a4 ha4 a5 ha5 a6 ha6) Kont := by
  simp only [cc4_body_eq_skeleton]; unfold cc4_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4_6 _)

/-! ## The pipeline's proof data -/

/-- The proof data of this pipeline on core `c`: the arrays as the region finds them; after the body at point `t`
    each input's buffer at its block and the output's at `out4_6` of the input blocks; the invariant the scoped
    rest and the generator register, untouched; nothing owed; full shares; the recorded waits at levels at most 32. -/
def dat4 (c : Dev nD) : Dat τ (Elt F) (HIx 4) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := ΦH spec4 c
  q _ := fullShare
  owed _ := 0
  recorded := fun _ => {p | (K (F := F)).lev (SparseCore.T c, p.1) p.2 ≤ 32}

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, -/
def bodyPre4 (c : Dev nD) (t : Fin cfg4.N) : sProp 𝕄 :=
  iprop((dat4 V c).Φ t.castSucc ∗ (dat4 V c).owesAt (none : HIx 4) t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt (none : HIx 4) t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt (none : HIx 4) t.succ = (dat4 V c).owesAt (none : HIx 4) t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none (none : HIx 4) Set.univ := fun t => by
  rw [bigSep_W4, bigSep_W4]
  exact sound_body4 V c t

end Region4

end Cert.Kernel.Hand

end
-- ==== Proof.Bits.Tail5.lean ====
/-
  The second TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.Bits.TailBase

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 1: the pipelined call 5, at the entry contents `V` -/

section Region5
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) (HIx 4) ℕ UU ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) (HIx 4) ℕ UU ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) (HIx 4) ℕ UU ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) (HIx 4) ℕ UU ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) (HIx 4) ℕ UU ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) (HIx 4) ℕ UU ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_a : Rect S64x200x128 := Rect.unit (s := S64x200x128) ![0, 0, 0] S64x200x128.size inb_S64x200x128_S64x200x128_0_0_0
abbrev r5_b : Rect S64x200 := Rect.unit (s := S64x200) ![0, 0] S64x200.size inb_S64x200_S64x200_0_0
abbrev r5_c : Rect S1x200x128 := Rect.unit (s := S1x200x128) ![0, 0, 0] S1x200x128.size inb_S1x200x128_S1x200x128_0_0_0
abbrev r5_d0 : Rect S2x128 := Rect.unit (s := S2x128) ![0, 0] S1x128.size inb_S2x128_S1x128_0_0
abbrev r5_d1 : Rect S2x128 := Rect.unit (s := S2x128) ![1, 0] S1x128.size inb_S2x128_S1x128_1_0
abbrev r5_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out5_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r5_a, k5_pay1 (k5_pay2 (View.ld x0 r5_a) (View.ld x2 r5_c) (View.ld x1 r5_b) (View.ld x3 r5_d0) (View.ld x3 r5_d1)) (k5_pay3 (View.ld x4 r5_e)) (View.ld x5 r5_e)⟩]

/-- The one store covers the buffer. -/
theorem cover5_6 (p0 : Vec F S64x200x128 .f32) (y : S64x200x128.Idx) :
    ∃ pc ∈ ([⟨r5_a, p0⟩] : List (View.Piece (Elt F) S64x200x128 .f32)), y ∈ pc.1.set :=
  View.cover_of_tiled [⟨r5_a, p0⟩] S64x200x128.size (by rfl) y

/-! ## The body's triple -/

set_option maxHeartbeats 1000000 in
/-- The body on whole staging memrefs, the inputs' at read contents and the output's at anything, runs to the
    continuation holding the inputs' as they were and the output's at `out5_6` of the inputs'. -/
theorem sound_kernel5 (c : Dev nD) (E : Set ℕ) (i : grid5.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ Kont ⟨⟩))
      ⊢ wp frame (wpE (defs₀ (F := F)) Variants.none c none) E (cc5_body i ah hah a0 ha0 a1 ha1 a2 ha2 a3 ha3 a4 ha4 a5 ha5 a6 ha6) Kont := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover5_6 _)

/-! ## The pipeline's proof data -/

/-- The proof data of this pipeline on core `c`: the arrays as the region finds them; after the body at point `t`
    each input's buffer at its block and the output's at `out5_6` of the input blocks; the invariant the scoped
    rest and the generator register, untouched; nothing owed; full shares; the recorded waits at levels at most 32. -/
def dat5 (c : Dev nD) : Dat τ (Elt F) (HIx 4) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := ΦH spec5 c
  q _ := fullShare
  owed _ := 0
  recorded := fun _ => {p | (K (F := F)).lev (SparseCore.T c, p.1) p.2 ≤ 32}

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, -/
def bodyPre5 (c : Dev nD) (t : Fin cfg5.N) : sProp 𝕄 :=
  iprop((dat5 V c).Φ t.castSucc ∗ (dat5 V c).owesAt (none : HIx 4) t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt (none : HIx 4) t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt (none : HIx 4) t.succ = (dat5 V c).owesAt (none : HIx 4) t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none (none : HIx 4) Set.univ := fun t => by
  rw [bigSep_W5, bigSep_W5]
  exact sound_body5 V c t

end Region5

end Cert.Kernel.Hand

end
-- ==== Proof.Bits.Tail6.lean ====
/-
  The third TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.Bits.TailBase

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 2: the pipelined call 6, at the entry contents `V` -/

section Region6
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) (HIx 4) ℕ UU ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) (HIx 4) ℕ UU ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) (HIx 4) ℕ UU ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) (HIx 4) ℕ UU ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) (HIx 4) ℕ UU ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) (HIx 4) ℕ UU ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_a : Rect S64x200x128 := Rect.unit (s := S64x200x128) ![0, 0, 0] S64x200x128.size inb_S64x200x128_S64x200x128_0_0_0
abbrev r6_b : Rect S64x200 := Rect.unit (s := S64x200) ![0, 0] S64x200.size inb_S64x200_S64x200_0_0
abbrev r6_c : Rect S1x200x128 := Rect.unit (s := S1x200x128) ![0, 0, 0] S1x200x128.size inb_S1x200x128_S1x200x128_0_0_0
abbrev r6_d0 : Rect S2x128 := Rect.unit (s := S2x128) ![0, 0] S1x128.size inb_S2x128_S1x128_0_0
abbrev r6_d1 : Rect S2x128 := Rect.unit (s := S2x128) ![1, 0] S1x128.size inb_S2x128_S1x128_1_0
abbrev r6_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out6_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r6_a, k6_pay1 (k6_pay2 (View.ld x0 r6_a) (View.ld x2 r6_c) (View.ld x1 r6_b) (View.ld x3 r6_d0) (View.ld x3 r6_d1)) (k6_pay3 (View.ld x4 r6_e)) (View.ld x5 r6_e)⟩]

/-- The one store covers the buffer. -/
theorem cover6_6 (p0 : Vec F S64x200x128 .f32) (y : S64x200x128.Idx) :
    ∃ pc ∈ ([⟨r6_a, p0⟩] : List (View.Piece (Elt F) S64x200x128 .f32)), y ∈ pc.1.set :=
  View.cover_of_tiled [⟨r6_a, p0⟩] S64x200x128.size (by rfl) y

/-! ## The body's triple -/

set_option maxHeartbeats 1000000 in
/-- The body on whole staging memrefs, the inputs' at read contents and the output's at anything, runs to the
    continuation holding the inputs' as they were and the output's at `out6_6` of the inputs'. -/
theorem sound_kernel6 (c : Dev nD) (E : Set ℕ) (i : grid6.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ Kont ⟨⟩))
      ⊢ wp frame (wpE (defs₀ (F := F)) Variants.none c none) E (cc6_body i ah hah a0 ha0 a1 ha1 a2 ha2 a3 ha3 a4 ha4 a5 ha5 a6 ha6) Kont := by
  simp only [cc6_body_eq_skeleton]; unfold cc6_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6_6 _)

/-! ## The pipeline's proof data -/

/-- The proof data of this pipeline on core `c`: the arrays as the region finds them; after the body at point `t`
    each input's buffer at its block and the output's at `out6_6` of the input blocks; the invariant the scoped
    rest and the generator register, untouched; nothing owed; full shares; the recorded waits at levels at most 32. -/
def dat6 (c : Dev nD) : Dat τ (Elt F) (HIx 4) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := ΦH spec6 c
  q _ := fullShare
  owed _ := 0
  recorded := fun _ => {p | (K (F := F)).lev (SparseCore.T c, p.1) p.2 ≤ 32}

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, -/
def bodyPre6 (c : Dev nD) (t : Fin cfg6.N) : sProp 𝕄 :=
  iprop((dat6 V c).Φ t.castSucc ∗ (dat6 V c).owesAt (none : HIx 4) t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt (none : HIx 4) t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt (none : HIx 4) t.succ = (dat6 V c).owesAt (none : HIx 4) t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none (none : HIx 4) Set.univ := fun t => by
  rw [bigSep_W6, bigSep_W6]
  exact sound_body6 V c t

end Region6

end Cert.Kernel.Hand

end
-- ==== Proof.Bits.Tail7.lean ====
/-
  The fourth TensorCore region of the program's tail, at a parameter: the buffer contents when the region is entered.
  One grid of four points; at point t the body reads a block of 64 sequences of gathered word rows, the token types
  of those sequences, the 200 position rows, the two token-type rows, gamma and beta, and stores the block of
  normalised rows into the result's block; the result's other rows, which the body never touches, stay in its
  array as the region finds them. Stated here: each window's block, what the body leaves in the output's buffer as a
  pure function of the input blocks, the body's triple, the pipeline's proof data and the body obligation at every point.
-/
import proofs.«203472_g22600117912246_cont_8to1_820_34_alg».proof.Proof.Bits.TailBase

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

/-! # Region 3: the pipelined call 7, at the entry contents `V` -/

section Region7
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) (HIx 4) ℕ UU ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) (HIx 4) ℕ UU ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) (HIx 4) ℕ UU ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) (HIx 4) ℕ UU ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) (HIx 4) ℕ UU ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) (HIx 4) ℕ UU ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_a : Rect S64x200x128 := Rect.unit (s := S64x200x128) ![0, 0, 0] S64x200x128.size inb_S64x200x128_S64x200x128_0_0_0
abbrev r7_b : Rect S64x200 := Rect.unit (s := S64x200) ![0, 0] S64x200.size inb_S64x200_S64x200_0_0
abbrev r7_c : Rect S1x200x128 := Rect.unit (s := S1x200x128) ![0, 0, 0] S1x200x128.size inb_S1x200x128_S1x200x128_0_0_0
abbrev r7_d0 : Rect S2x128 := Rect.unit (s := S2x128) ![0, 0] S1x128.size inb_S2x128_S1x128_0_0
abbrev r7_d1 : Rect S2x128 := Rect.unit (s := S2x128) ![1, 0] S1x128.size inb_S2x128_S1x128_1_0
abbrev r7_e : Rect S1x128 := Rect.unit (s := S1x128) ![0, 0] S1x128.size inb_S1x128_S1x128_0_0

/-! ## What the body leaves in the output window's buffer -/

/-- The output's staging buffer after the body, from the input windows' blocks: the one whole-block store of the
    normalised rows (the word rows plus position rows plus the token-type row, centred and scaled by the inverse
    root of the variance, times gamma plus beta). -/
def out7_6 (x0 : Vec F S64x200x128 .f32) (x1 : Vec F S64x200 .i32) (x2 : Vec F S1x200x128 .f32) (x3 : Vec F S2x128 .f32) (x4 : Vec F S1x128 .f32) (x5 : Vec F S1x128 .f32) : Vec F S64x200x128 .f32 :=
  View.canon [⟨r7_a, k7_pay1 (k7_pay2 (View.ld x0 r7_a) (View.ld x2 r7_c) (View.ld x1 r7_b) (View.ld x3 r7_d0) (View.ld x3 r7_d1)) (k7_pay3 (View.ld x4 r7_e)) (View.ld x5 r7_e)⟩]

/-- The one store covers the buffer. -/
theorem cover7_6 (p0 : Vec F S64x200x128 .f32) (y : S64x200x128.Idx) :
    ∃ pc ∈ ([⟨r7_a, p0⟩] : List (View.Piece (Elt F) S64x200x128 .f32)), y ∈ pc.1.set :=
  View.cover_of_tiled [⟨r7_a, p0⟩] S64x200x128.size (by rfl) y

/-! ## The body's triple -/

set_option maxHeartbeats 1000000 in
/-- The body on whole staging memrefs, the inputs' at read contents and the output's at anything, runs to the
    continuation holding the inputs' as they were and the output's at `out7_6` of the inputs'. -/
theorem sound_kernel7 (c : Dev nD) (E : Set ℕ) (i : grid7.Coords) (ah : Memref sig .tc .hbm S1024x200x128 .f32) (hah : ah.IsWhole) (a0 : Memref sig .tc .vmem S64x200x128 .f32) (ha0 : a0.IsWhole) (a1 : Memref sig .tc .vmem S64x200 .i32) (ha1 : a1.IsWhole) (a2 : Memref sig .tc .vmem S1x200x128 .f32) (ha2 : a2.IsWhole) (a3 : Memref sig .tc .vmem S2x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S1x200x128 .f32) (x3 : Vec F S2x128 .f32) (x4 : Vec F S1x128 .f32) (x5 : Vec F S1x128 .f32) (Kont : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out7_6 x0 x1 x2 x3 x4 x5)) -∗ Kont ⟨⟩))
      ⊢ wp frame (wpE (defs₀ (F := F)) Variants.none c none) E (cc7_body i ah hah a0 ha0 a1 ha1 a2 ha2 a3 ha3 a4 ha4 a5 ha5 a6 ha6) Kont := by
  simp only [cc7_body_eq_skeleton]; unfold cc7_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover7_6 _)

/-! ## The pipeline's proof data -/

/-- The proof data of this pipeline on core `c`: the arrays as the region finds them; after the body at point `t`
    each input's buffer at its block and the output's at `out7_6` of the input blocks; the invariant the scoped
    rest and the generator register, untouched; nothing owed; full shares; the recorded waits at levels at most 32. -/
def dat7 (c : Dev nD) : Dat τ (Elt F) (HIx 4) ℕ UU ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := ΦH spec7 c
  q _ := fullShare
  owed _ := 0
  recorded := fun _ => {p | (K (F := F)).lev (SparseCore.T c, p.1) p.2 ≤ 32}

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, -/
def bodyPre7 (c : Dev nD) (t : Fin cfg7.N) : sProp 𝕄 :=
  iprop((dat7 V c).Φ t.castSucc ∗ (dat7 V c).owesAt (none : HIx 4) t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt (none : HIx 4) t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt (none : HIx 4) t.succ = (dat7 V c).owesAt (none : HIx 4) t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none (none : HIx 4) Set.univ := fun t => by
  rw [bigSep_W7, bigSep_W7]
  exact sound_body7 V c t

end Region7

end Cert.Kernel.Hand

end
-- ==== Proof.Bits.Tail.lean ====
/-
  The tail of the program after the four gather calls, as a list of segments: four pipelined TensorCore regions,
  each preceded by one host operation (a reshape of the last gathered chunk; then, three times, the copy of the
  previous region's result into the next region's result buffer). The buffer contents at every boundary are a fold
  from the contents the tail starts at; every argument array reads back through the fold to those contents; every
  pipeline's proof data sit at their region's entry contents; the thread state is every unscoped buffer at the
  boundary's contents beside the generator register and the core owing nothing, its recorded waits at levels at most 32.
-/
import proofs.«203472_g22600117912246_cont_8to1_820_34_alg».proof.Proof.Bits.Tail4
import proofs.«203472_g22600117912246_cont_8to1_820_34_alg».proof.Proof.Bits.Tail5
import proofs.«203472_g22600117912246_cont_8to1_820_34_alg».proof.Proof.Bits.Tail6
import proofs.«203472_g22600117912246_cont_8to1_820_34_alg».proof.Proof.Bits.Tail7

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 4) (Elt F) ℕ UU ℕ

variable (Wt : Dev nD → Valuation τ sig (Elt F))

/-! ## The host operations between the regions -/

/-- Before region 0: the fourth gathered chunk, 51200 rows, read as 256 sequences of 200 rows. -/
abbrev hostT0 : List (HloOp τ sig (Elt F)) := [StableHlo.reshape main_v11 main_v12 rfl shapeCasts_S51200x128_S256x200x128]
theorem hostT0_sub : (hostT0 : List (HloOp τ sig (Elt F))).Forall fun op => op.bufs ⊆ StableHlo.tcRefs τ sig :=
  StableHlo.reshape_bufs_sub ..
theorem hostT0_fresh : (hostT0 : List (HloOp τ sig (Elt F))).Forall fun op => op.fresh = ∅ := by
  simp only [List.Forall]; repeat' constructor

/-- Before region 1: the first region's result copied into the second's result buffer. -/
abbrev hostT1 : List (HloOp τ sig (Elt F)) := [StableHlo.unary main_v13 main_v14 id]
theorem hostT1_sub : (hostT1 : List (HloOp τ sig (Elt F))).Forall fun op => op.bufs ⊆ StableHlo.tcRefs τ sig :=
  StableHlo.unary_bufs_sub ..
theorem hostT1_fresh : (hostT1 : List (HloOp τ sig (Elt F))).Forall fun op => op.fresh = ∅ := by
  simp only [List.Forall]; repeat' constructor

/-- Before region 2: the second region's result copied into the third's result buffer. -/
abbrev hostT2 : List (HloOp τ sig (Elt F)) := [StableHlo.unary main_v14 main_v15 id]
theorem hostT2_sub : (hostT2 : List (HloOp τ sig (Elt F))).Forall fun op => op.bufs ⊆ StableHlo.tcRefs τ sig :=
  StableHlo.unary_bufs_sub ..
theorem hostT2_fresh : (hostT2 : List (HloOp τ sig (Elt F))).Forall fun op => op.fresh = ∅ := by
  simp only [List.Forall]; repeat' constructor

/-- Before region 3: the third region's result copied into the fourth's result buffer. -/
abbrev hostT3 : List (HloOp τ sig (Elt F)) := [StableHlo.unary main_v15 main_v16 id]
theorem hostT3_sub : (hostT3 : List (HloOp τ sig (Elt F))).Forall fun op => op.bufs ⊆ StableHlo.tcRefs τ sig :=
  StableHlo.unary_bufs_sub ..
theorem hostT3_fresh : (hostT3 : List (HloOp τ sig (Elt F))).Forall fun op => op.fresh = ∅ := by
  simp only [List.Forall]; repeat' constructor

/-! ## The buffer contents at each segment boundary: a fold from the contents the tail starts at -/

/-- Region 0's entry: after its host operations. -/
abbrev B1 : Dev nD → Valuation τ sig (Elt F) := fun c => StableHlo.after hostT0 (Wt c)
/-- The same read at the TensorCore's references. -/
abbrev VB1 : (c : Dev nD) → (b : Ref sig .tc) → Buf (Elt F) ((c : Thread nD τ).loc b) := fun c b => B1 Wt c b
/-- Region 0's exit: its arrays at what the pipeline leaves (the inputs as entered, the output's write-backs
    folded), every other buffer as entered. -/
def B2 (c : Dev nD) : Valuation τ sig (Elt F) :=
  Pipeline.withArrays spec4 c (B1 Wt c) fun w => (dat4 (VB1 Wt) c).arrAt w cfg4.N
theorem B2_arr (c : Dev nD) (w : Fin cfg4.W) :
    B2 Wt c (Proc.devRef .tc (Pipeline.arrRef spec4 w)) = (dat4 (VB1 Wt) c).arrAt w cfg4.N := by
  unfold B2; exact Pipeline.withArrays_arr spec4 launch4.win.arr_inj c _ _ w
theorem B2_of_ne (c : Dev nD) (b : Ref sig .tc) (hb : ∀ w, Pipeline.arrRef spec4 w ≠ b) :
    B2 Wt c (Proc.devRef .tc b) = B1 Wt c (Proc.devRef .tc b) := by
  unfold B2; exact Pipeline.withArrays_of_ne spec4 c _ _ b hb
abbrev VB2 : (c : Dev nD) → (b : Ref sig .tc) → Buf (Elt F) ((c : Thread nD τ).loc b) := fun c b => B2 Wt c b
theorem hF0 (c : Dev nD) (w : Fin cfg4.W) : (dat4 (VB1 Wt) c).arrAt w cfg4.N = VB2 Wt c (Pipeline.arrRef spec4 w) :=
  (B2_arr Wt c w).symm
theorem hrest0 (c : Dev nD) : ∀ b, b ∉ Finset.univ.image (Pipeline.arrRef spec4) → VB2 Wt c b = VB1 Wt c b :=
  fun b hb => B2_of_ne Wt c b fun w e => hb (Finset.mem_image.mpr ⟨w, Finset.mem_univ _, e⟩)

/-- Region 1's entry: after its host operations. -/
abbrev B3 : Dev nD → Valuation τ sig (Elt F) := fun c => StableHlo.after hostT1 (B2 Wt c)
/-- The same read at the TensorCore's references. -/
abbrev VB3 : (c : Dev nD) → (b : Ref sig .tc) → Buf (Elt F) ((c : Thread nD τ).loc b) := fun c b => B3 Wt c b
/-- Region 1's exit: its arrays at what the pipeline leaves (the inputs as entered, the output's write-backs
    folded), every other buffer as entered. -/
def B4 (c : Dev nD) : Valuation τ sig (Elt F) :=
  Pipeline.withArrays spec5 c (B3 Wt c) fun w => (dat5 (VB3 Wt) c).arrAt w cfg5.N
theorem B4_arr (c : Dev nD) (w : Fin cfg5.W) :
    B4 Wt c (Proc.devRef .tc (Pipeline.arrRef spec5 w)) = (dat5 (VB3 Wt) c).arrAt w cfg5.N := by
  unfold B4; exact Pipeline.withArrays_arr spec5 launch5.win.arr_inj c _ _ w
theorem B4_of_ne (c : Dev nD) (b : Ref sig .tc) (hb : ∀ w, Pipeline.arrRef spec5 w ≠ b) :
    B4 Wt c (Proc.devRef .tc b) = B3 Wt c (Proc.devRef .tc b) := by
  unfold B4; exact Pipeline.withArrays_of_ne spec5 c _ _ b hb
abbrev VB4 : (c : Dev nD) → (b : Ref sig .tc) → Buf (Elt F) ((c : Thread nD τ).loc b) := fun c b => B4 Wt c b
theorem hF1 (c : Dev nD) (w : Fin cfg5.W) : (dat5 (VB3 Wt) c).arrAt w cfg5.N = VB4 Wt c (Pipeline.arrRef spec5 w) :=
  (B4_arr Wt c w).symm
theorem hrest1 (c : Dev nD) : ∀ b, b ∉ Finset.univ.image (Pipeline.arrRef spec5) → VB4 Wt c b = VB3 Wt c b :=
  fun b hb => B4_of_ne Wt c b fun w e => hb (Finset.mem_image.mpr ⟨w, Finset.mem_univ _, e⟩)

/-- Region 2's entry: after its host operations. -/
abbrev B5 : Dev nD → Valuation τ sig (Elt F) := fun c => StableHlo.after hostT2 (B4 Wt c)
/-- The same read at the TensorCore's references. -/
abbrev VB5 : (c : Dev nD) → (b : Ref sig .tc) → Buf (Elt F) ((c : Thread nD τ).loc b) := fun c b => B5 Wt c b
/-- Region 2's exit: its arrays at what the pipeline leaves (the inputs as entered, the output's write-backs
    folded), every other buffer as entered. -/
def B6 (c : Dev nD) : Valuation τ sig (Elt F) :=
  Pipeline.withArrays spec6 c (B5 Wt c) fun w => (dat6 (VB5 Wt) c).arrAt w cfg6.N
theorem B6_arr (c : Dev nD) (w : Fin cfg6.W) :
    B6 Wt c (Proc.devRef .tc (Pipeline.arrRef spec6 w)) = (dat6 (VB5 Wt) c).arrAt w cfg6.N := by
  unfold B6; exact Pipeline.withArrays_arr spec6 launch6.win.arr_inj c _ _ w
theorem B6_of_ne (c : Dev nD) (b : Ref sig .tc) (hb : ∀ w, Pipeline.arrRef spec6 w ≠ b) :
    B6 Wt c (Proc.devRef .tc b) = B5 Wt c (Proc.devRef .tc b) := by
  unfold B6; exact Pipeline.withArrays_of_ne spec6 c _ _ b hb
abbrev VB6 : (c : Dev nD) → (b : Ref sig .tc) → Buf (Elt F) ((c : Thread nD τ).loc b) := fun c b => B6 Wt c b
theorem hF2 (c : Dev nD) (w : Fin cfg6.W) : (dat6 (VB5 Wt) c).arrAt w cfg6.N = VB6 Wt c (Pipeline.arrRef spec6 w) :=
  (B6_arr Wt c w).symm
theorem hrest2 (c : Dev nD) : ∀ b, b ∉ Finset.univ.image (Pipeline.arrRef spec6) → VB6 Wt c b = VB5 Wt c b :=
  fun b hb => B6_of_ne Wt c b fun w e => hb (Finset.mem_image.mpr ⟨w, Finset.mem_univ _, e⟩)

/-- Region 3's entry: after its host operations. -/
abbrev B7 : Dev nD → Valuation τ sig (Elt F) := fun c => StableHlo.after hostT3 (B6 Wt c)
/-- The same read at the TensorCore's references. -/
abbrev VB7 : (c : Dev nD) → (b : Ref sig .tc) → Buf (Elt F) ((c : Thread nD τ).loc b) := fun c b => B7 Wt c b
/-- Region 3's exit: its arrays at what the pipeline leaves (the inputs as entered, the output's write-backs
    folded), every other buffer as entered. -/
def B8 (c : Dev nD) : Valuation τ sig (Elt F) :=
  Pipeline.withArrays spec7 c (B7 Wt c) fun w => (dat7 (VB7 Wt) c).arrAt w cfg7.N
theorem B8_arr (c : Dev nD) (w : Fin cfg7.W) :
    B8 Wt c (Proc.devRef .tc (Pipeline.arrRef spec7 w)) = (dat7 (VB7 Wt) c).arrAt w cfg7.N := by
  unfold B8; exact Pipeline.withArrays_arr spec7 launch7.win.arr_inj c _ _ w
theorem B8_of_ne (c : Dev nD) (b : Ref sig .tc) (hb : ∀ w, Pipeline.arrRef spec7 w ≠ b) :
    B8 Wt c (Proc.devRef .tc b) = B7 Wt c (Proc.devRef .tc b) := by
  unfold B8; exact Pipeline.withArrays_of_ne spec7 c _ _ b hb
abbrev VB8 : (c : Dev nD) → (b : Ref sig .tc) → Buf (Elt F) ((c : Thread nD τ).loc b) := fun c b => B8 Wt c b
theorem hF3 (c : Dev nD) (w : Fin cfg7.W) : (dat7 (VB7 Wt) c).arrAt w cfg7.N = VB8 Wt c (Pipeline.arrRef spec7 w) :=
  (B8_arr Wt c w).symm
theorem hrest3 (c : Dev nD) : ∀ b, b ∉ Finset.univ.image (Pipeline.arrRef spec7) → VB8 Wt c b = VB7 Wt c b :=
  fun b hb => B8_of_ne Wt c b fun w e => hb (Finset.mem_image.mpr ⟨w, Finset.mem_univ _, e⟩)

/-- The buffers when the tail ends. -/
abbrev Wend (c : Dev nD) : Valuation τ sig (Elt F) := B8 Wt c

/-! ### The arguments end as the tail found them: no host operation of the tail and no region writes one (a region
    reads the token types and the token-type rows through input windows and bypasses the rest) -/

theorem Wend_main_arg0 (c : Dev nD) : Wend Wt c (Proc.devRef .tc main_arg0) = Wt c (Proc.devRef .tc main_arg0) :=
  calc Wend Wt c (Proc.devRef .tc main_arg0)
    _ = B7 Wt c (Proc.devRef .tc main_arg0) := B8_of_ne Wt c main_arg0 (by decide)
    _ = B6 Wt c (Proc.devRef .tc main_arg0) := StableHlo.after_of_forall_not_mem (b := Proc.devRef .tc main_arg0) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg0) := B6_of_ne Wt c main_arg0 (by decide)
    _ = B4 Wt c (Proc.devRef .tc main_arg0) := StableHlo.after_of_forall_not_mem (b := Proc.devRef .tc main_arg0) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg0) := B4_of_ne Wt c main_arg0 (by decide)
    _ = B2 Wt c (Proc.devRef .tc main_arg0) := StableHlo.after_of_forall_not_mem (b := Proc.devRef .tc main_arg0) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg0) := B2_of_ne Wt c main_arg0 (by decide)
    _ = Wt c (Proc.devRef .tc main_arg0) := StableHlo.after_of_forall_not_mem (b := Proc.devRef .tc main_arg0) _ _ (List.forall_iff_forall_mem.mp (by
          simp only [hostT0, List.Forall, StableHlo.unary_writes, StableHlo.reshape_writes, Finset.mem_singleton]
          exact StableHlo.devRef_ne_of_ne (by decide)))

theorem Wend_main_arg1 (c : Dev nD) : Wend Wt c (Proc.devRef .tc main_arg1) = Wt c (Proc.devRef .tc main_arg1) :=
  calc Wend Wt c (Proc.devRef .tc main_arg1)
    _ = B7 Wt c (Proc.devRef .tc main_arg1) := (B8_arr Wt c 1).trans (((dat7 (VB7 Wt) c).arrAt_in 1 rfl _).trans (A_eq7 (VB7 Wt) c 1))
    _ = B6 Wt c (Proc.devRef .tc main_arg1) := StableHlo.after_of_forall_not_mem (b := Proc.devRef .tc main_arg1) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg1) := (B6_arr Wt c 1).trans (((dat6 (VB5 Wt) c).arrAt_in 1 rfl _).trans (A_eq6 (VB5 Wt) c 1))
    _ = B4 Wt c (Proc.devRef .tc main_arg1) := StableHlo.after_of_forall_not_mem (b := Proc.devRef .tc main_arg1) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg1) := (B4_arr Wt c 1).trans (((dat5 (VB3 Wt) c).arrAt_in 1 rfl _).trans (A_eq5 (VB3 Wt) c 1))
    _ = B2 Wt c (Proc.devRef .tc main_arg1) := StableHlo.after_of_forall_not_mem (b := Proc.devRef .tc main_arg1) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg1) := (B2_arr Wt c 1).trans (((dat4 (VB1 Wt) c).arrAt_in 1 rfl _).trans (A_eq4 (VB1 Wt) c 1))
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Wend_main_arg2 (c : Dev nD) : Wend Wt c (Proc.devRef .tc main_arg2) = Wt c (Proc.devRef .tc main_arg2) :=
  calc Wend Wt c (Proc.devRef .tc main_arg2)
    _ = B7 Wt c (Proc.devRef .tc main_arg2) := B8_of_ne Wt c main_arg2 (by decide)
    _ = B6 Wt c (Proc.devRef .tc main_arg2) := StableHlo.after_of_forall_not_mem (b := Proc.devRef .tc main_arg2) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg2) := B6_of_ne Wt c main_arg2 (by decide)
    _ = B4 Wt c (Proc.devRef .tc main_arg2) := StableHlo.after_of_forall_not_mem (b := Proc.devRef .tc main_arg2) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg2) := B4_of_ne Wt c main_arg2 (by decide)
    _ = B2 Wt c (Proc.devRef .tc main_arg2) := StableHlo.after_of_forall_not_mem (b := Proc.devRef .tc main_arg2) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg2) := B2_of_ne Wt c main_arg2 (by decide)
    _ = Wt c (Proc.devRef .tc main_arg2) := StableHlo.after_of_forall_not_mem (b := Proc.devRef .tc main_arg2) _ _ (List.forall_iff_forall_mem.mp (by
          simp only [hostT0, List.Forall, StableHlo.unary_writes, StableHlo.reshape_writes, Finset.mem_singleton]
          exact StableHlo.devRef_ne_of_ne (by decide)))

theorem Wend_main_arg3 (c : Dev nD) : Wend Wt c (Proc.devRef .tc main_arg3) = Wt c (Proc.devRef .tc main_arg3) :=
  calc Wend Wt c (Proc.devRef .tc main_arg3)
    _ = B7 Wt c (Proc.devRef .tc main_arg3) := B8_of_ne Wt c main_arg3 (by decide)
    _ = B6 Wt c (Proc.devRef .tc main_arg3) := StableHlo.after_of_forall_not_mem (b := Proc.devRef .tc main_arg3) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg3) := B6_of_ne Wt c main_arg3 (by decide)
    _ = B4 Wt c (Proc.devRef .tc main_arg3) := StableHlo.after_of_forall_not_mem (b := Proc.devRef .tc main_arg3) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg3) := B4_of_ne Wt c main_arg3 (by decide)
    _ = B2 Wt c (Proc.devRef .tc main_arg3) := StableHlo.after_of_forall_not_mem (b := Proc.devRef .tc main_arg3) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg3) := B2_of_ne Wt c main_arg3 (by decide)
    _ = Wt c (Proc.devRef .tc main_arg3) := StableHlo.after_of_forall_not_mem (b := Proc.devRef .tc main_arg3) _ _ (List.forall_iff_forall_mem.mp (by
          simp only [hostT0, List.Forall, StableHlo.unary_writes, StableHlo.reshape_writes, Finset.mem_singleton]
          exact StableHlo.devRef_ne_of_ne (by decide)))

theorem Wend_main_arg4 (c : Dev nD) : Wend Wt c (Proc.devRef .tc main_arg4) = Wt c (Proc.devRef .tc main_arg4) :=
  calc Wend Wt c (Proc.devRef .tc main_arg4)
    _ = B7 Wt c (Proc.devRef .tc main_arg4) := (B8_arr Wt c 3).trans (((dat7 (VB7 Wt) c).arrAt_in 3 rfl _).trans (A_eq7 (VB7 Wt) c 3))
    _ = B6 Wt c (Proc.devRef .tc main_arg4) := StableHlo.after_of_forall_not_mem (b := Proc.devRef .tc main_arg4) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg4) := (B6_arr Wt c 3).trans (((dat6 (VB5 Wt) c).arrAt_in 3 rfl _).trans (A_eq6 (VB5 Wt) c 3))
    _ = B4 Wt c (Proc.devRef .tc main_arg4) := StableHlo.after_of_forall_not_mem (b := Proc.devRef .tc main_arg4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg4) := (B4_arr Wt c 3).trans (((dat5 (VB3 Wt) c).arrAt_in 3 rfl _).trans (A_eq5 (VB3 Wt) c 3))
    _ = B2 Wt c (Proc.devRef .tc main_arg4) := StableHlo.after_of_forall_not_mem (b := Proc.devRef .tc main_arg4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg4) := (B2_arr Wt c 3).trans (((dat4 (VB1 Wt) c).arrAt_in 3 rfl _).trans (A_eq4 (VB1 Wt) c 3))
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Wend_main_arg5 (c : Dev nD) : Wend Wt c (Proc.devRef .tc main_arg5) = Wt c (Proc.devRef .tc main_arg5) :=
  calc Wend Wt c (Proc.devRef .tc main_arg5)
    _ = B7 Wt c (Proc.devRef .tc main_arg5) := B8_of_ne Wt c main_arg5 (by decide)
    _ = B6 Wt c (Proc.devRef .tc main_arg5) := StableHlo.after_of_forall_not_mem (b := Proc.devRef .tc main_arg5) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg5) := B6_of_ne Wt c main_arg5 (by decide)
    _ = B4 Wt c (Proc.devRef .tc main_arg5) := StableHlo.after_of_forall_not_mem (b := Proc.devRef .tc main_arg5) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg5) := B4_of_ne Wt c main_arg5 (by decide)
    _ = B2 Wt c (Proc.devRef .tc main_arg5) := StableHlo.after_of_forall_not_mem (b := Proc.devRef .tc main_arg5) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg5) := B2_of_ne Wt c main_arg5 (by decide)
    _ = Wt c (Proc.devRef .tc main_arg5) := StableHlo.after_of_forall_not_mem (b := Proc.devRef .tc main_arg5) _ _ (List.forall_iff_forall_mem.mp (by
          simp only [hostT0, List.Forall, StableHlo.unary_writes, StableHlo.reshape_writes, Finset.mem_singleton]
          exact StableHlo.devRef_ne_of_ne (by decide)))

theorem Wend_main_arg6 (c : Dev nD) : Wend Wt c (Proc.devRef .tc main_arg6) = Wt c (Proc.devRef .tc main_arg6) :=
  calc Wend Wt c (Proc.devRef .tc main_arg6)
    _ = B7 Wt c (Proc.devRef .tc main_arg6) := B8_of_ne Wt c main_arg6 (by decide)
    _ = B6 Wt c (Proc.devRef .tc main_arg6) := StableHlo.after_of_forall_not_mem (b := Proc.devRef .tc main_arg6) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg6) := B6_of_ne Wt c main_arg6 (by decide)
    _ = B4 Wt c (Proc.devRef .tc main_arg6) := StableHlo.after_of_forall_not_mem (b := Proc.devRef .tc main_arg6) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg6) := B4_of_ne Wt c main_arg6 (by decide)
    _ = B2 Wt c (Proc.devRef .tc main_arg6) := StableHlo.after_of_forall_not_mem (b := Proc.devRef .tc main_arg6) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg6) := B2_of_ne Wt c main_arg6 (by decide)
    _ = Wt c (Proc.devRef .tc main_arg6) := StableHlo.after_of_forall_not_mem (b := Proc.devRef .tc main_arg6) _ _ (List.forall_iff_forall_mem.mp (by
          simp only [hostT0, List.Forall, StableHlo.unary_writes, StableHlo.reshape_writes, Finset.mem_singleton]
          exact StableHlo.devRef_ne_of_ne (by decide)))

/-! ## The proof data family and the thread state -/

/-- No pipeline has a prefetched table. -/
abbrev adm : (p : Fin 4) → (pcfgs (F := F) p).Adm := fun p => (cfgs p).toPCfg_adm
/-- Every pipeline's proof data, each at its region's entry contents: a literal match on the pipeline. -/
def pdats : (p : Fin 4) → (c : Dev nD) → Pipeline.Dat τ (Elt F) (HIx 4) ℕ UU ℕ (Pipeline.pin (pcfgs (F := F)) adm p) c
  | ⟨0, _⟩ => fun c => dat4 (VB1 Wt) c
  | ⟨1, _⟩ => fun c => dat5 (VB3 Wt) c
  | ⟨2, _⟩ => fun c => dat6 (VB5 Wt) c
  | ⟨3, _⟩ => fun c => dat7 (VB7 Wt) c

/-- The state the tail is entered from: every unscoped buffer at `Wt`, the generator register, nothing owed. -/
def Tst (c : Dev nD) : sProp 𝕄 := iprop(StableHlo.held (SparseCore.T c) (Pipeline.ucRefs τ sig) (Wt c) ∗ Rst c)
/-- The state it ends in: the same at `Wend`. -/
def Tend (c : Dev nD) : sProp 𝕄 := iprop(StableHlo.held (SparseCore.T c) (Pipeline.ucRefs τ sig) (Wend Wt c) ∗ Rst c)

/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- Region 0 over the thread state: entered from every unscoped buffer at `B1`, left at `B2`. Its arrays split
    out of the unscoped buffers and put back at the exit contents; the generator register into the invariant and out;
    nothing owed, the recorded waits kept at levels at most 32 (a wait of the pipeline's own is at level 0); no
    semaphore of the kernel's own. -/
def reg0 : Pipeline.RegionSeg (pcfgs (F := F)) adm (pdats Wt) (none : HIx 4) defs₀ 𝒱₀ (K (F := F)).L (K (F := F)).lev 0 where
  win := launch4.win.to₀
  block_pos := launch4.block_pos
  stage_whole := launch4.stage_whole
  K := PEmpty
  osem k := k.elim
  ho := Pipeline.OwnSemFacts.none _
  hbody c := (body_obligation4 (VB1 Wt) c).loose
  hwaits := Pipeline.hwaits_of_owed_zero _ _ _ _ (K (F := F)).L (K (F := F)).lev 0 fun _ _ => rfl
  pre c := iprop(StableHlo.held (c : Thread nD τ) (Pipeline.ucRefs τ sig) (B1 Wt c) ∗ Rst c)
  post c := iprop(StableHlo.held (c : Thread nD τ) (Pipeline.ucRefs τ sig) (B2 Wt c) ∗ Rst c)
  X c := iprop(∃ r, prngReg c r)
  Y c := iprop(∃ r, prngReg c r)
  Z c := Pipeline.unscopedRest (Ix := HIx 4) (Name := ℕ) (U := UU) (Lvl := ℕ) spec4 c (VB1 Wt c)
  hentry c := by
    rw [Pipeline.ownSems0_none]
    have hsplit := Pipeline.arrays_of_unscopedBufs (p := 0) (pcfgs (F := F)) adm (pdats Wt) launch4.win launch4.arr_whole c
      ((pdats Wt 0 c).share_full fun _ => rfl) (VB1 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 0 c).Φ 0 = ΦH spec4 c from rfl]; unfold ΦH
    iintro ⟨Hp, -, Hr⟩
    isplitl [Hr]; · iexact Hr
    iexact Hp
  hout c := by
    rw [Pipeline.ownSems0_none, show (pdats Wt 0 c).Φ (Fin.last _) = ΦH spec4 c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) adm (Ix := HIx 4) (Name := ℕ) (U := UU) (Lvl := ℕ)
      launch4.win launch4.arr_whole c (pdats Wt) ((pdats Wt 0 c).share_full fun _ => rfl)
      (VB1 Wt c) (VB2 Wt c) ((pdats Wt 0 c).arrAt · cfg4.N) (hF0 Wt c) (hrest0 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 1 over the thread state: entered from every unscoped buffer at `B3`, left at `B4`. Its arrays split
    out of the unscoped buffers and put back at the exit contents; the generator register into the invariant and out;
    nothing owed, the recorded waits kept at levels at most 32 (a wait of the pipeline's own is at level 0); no
    semaphore of the kernel's own. -/
def reg1 : Pipeline.RegionSeg (pcfgs (F := F)) adm (pdats Wt) (none : HIx 4) defs₀ 𝒱₀ (K (F := F)).L (K (F := F)).lev 1 where
  win := launch5.win.to₀
  block_pos := launch5.block_pos
  stage_whole := launch5.stage_whole
  K := PEmpty
  osem k := k.elim
  ho := Pipeline.OwnSemFacts.none _
  hbody c := (body_obligation5 (VB3 Wt) c).loose
  hwaits := Pipeline.hwaits_of_owed_zero _ _ _ _ (K (F := F)).L (K (F := F)).lev 1 fun _ _ => rfl
  pre c := iprop(StableHlo.held (c : Thread nD τ) (Pipeline.ucRefs τ sig) (B3 Wt c) ∗ Rst c)
  post c := iprop(StableHlo.held (c : Thread nD τ) (Pipeline.ucRefs τ sig) (B4 Wt c) ∗ Rst c)
  X c := iprop(∃ r, prngReg c r)
  Y c := iprop(∃ r, prngReg c r)
  Z c := Pipeline.unscopedRest (Ix := HIx 4) (Name := ℕ) (U := UU) (Lvl := ℕ) spec5 c (VB3 Wt c)
  hentry c := by
    rw [Pipeline.ownSems0_none]
    have hsplit := Pipeline.arrays_of_unscopedBufs (p := 1) (pcfgs (F := F)) adm (pdats Wt) launch5.win launch5.arr_whole c
      ((pdats Wt 1 c).share_full fun _ => rfl) (VB3 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 1 c).Φ 0 = ΦH spec5 c from rfl]; unfold ΦH
    iintro ⟨Hp, -, Hr⟩
    isplitl [Hr]; · iexact Hr
    iexact Hp
  hout c := by
    rw [Pipeline.ownSems0_none, show (pdats Wt 1 c).Φ (Fin.last _) = ΦH spec5 c from rfl]; unfold ΦH
    iintro ⟨Hr, Hp⟩
    isplitl [Hp]; · iexact Hp
    isplitr; · iempintro
    iexact Hr
  hexit c := by
    have hjoin := Pipeline.unscopedBufs_of_arrays (p := 1) (pcfgs (F := F)) adm (Ix := HIx 4) (Name := ℕ) (U := UU) (Lvl := ℕ)
      launch5.win launch5.arr_whole c (pdats Wt) ((pdats Wt 1 c).share_full fun _ => rfl)
      (VB3 Wt c) (VB4 Wt c) ((pdats Wt 1 c).arrAt · cfg5.N) (hF1 Wt c) (hrest1 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 2 over the thread state: entered from every unscoped buffer at `B5`, left at `B6`. Its arrays split
    out of the unscoped buffers and put back at the exit contents; the generator register into the invariant and out;
    nothing owed, the recorded waits kept at levels at most 32 (a wait of the pipeline's own is at level 0); no
    semaphore of the kernel's own. -/
def reg2 : Pipeline.RegionSeg (pcfgs (F := F)) adm (pdats Wt) (none : HIx 4) defs₀ 𝒱₀ (K (F := F)).L (K (F := F)).lev 2 where
  win := launch6.win.to₀
  block_pos := launch6.block_pos
  stage_whole := launch6.stage_whole
  K := PEmpty
  osem k := k.elim
  ho := Pipeline.OwnSemFacts.none _
  hbody c := (body_obligation6 (VB5 Wt) c).loose
  hwaits := Pipeline.hwaits_of_owed_zero _ _ _ _ (K (F := F)).L (K (F := F)).lev 2 fun _ _ => rfl
  pre c := iprop(StableHlo.held (c : Thread nD τ) (Pipeline.ucRefs τ sig) (B5 Wt c) ∗ Rst c)
  post c := iprop(StableHlo.held (c : Thread nD τ) (Pipeline.ucRefs τ sig) (B6 Wt c) ∗ Rst c)
  X c := iprop(∃ r, prngReg c r)
  Y c := iprop(∃ r, prngReg c r)
  Z c := Pipeline.unscopedRest (Ix := HIx 4) (Name := ℕ) (U := UU) (Lvl := ℕ) spec6 c (VB5 Wt c)
  hentry c := by
    rw [Pipeline.ownSems0_none]
    have hsplit := Pipeline.arrays_of_unscopedBufs (p := 2) (pcfgs (F := F)) adm (pdats Wt) launch6.win launch6.arr_whole c
      ((pdats Wt 2 c).share_full fun _ => rfl) (VB5 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 2 c).Φ 0 = ΦH spec6 c from rfl]; unfold ΦH
    iintro ⟨Hp, -, Hr⟩
    isplitl [Hr]; · iexact Hr
    iexact Hp
  hout c := by
    rw [Pipeline.ownSems0_none, show (pdats Wt 2 c).Φ (Fin.last _) = ΦH spec6 c from rfl]; unfold ΦH
    iintro ⟨Hr, Hp⟩
    isplitl [Hp]; · iexact Hp
    isplitr; · iempintro
    iexact Hr
  hexit c := by
    have hjoin := Pipeline.unscopedBufs_of_arrays (p := 2) (pcfgs (F := F)) adm (Ix := HIx 4) (Name := ℕ) (U := UU) (Lvl := ℕ)
      launch6.win launch6.arr_whole c (pdats Wt) ((pdats Wt 2 c).share_full fun _ => rfl)
      (VB5 Wt c) (VB6 Wt c) ((pdats Wt 2 c).arrAt · cfg6.N) (hF2 Wt c) (hrest2 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 3 over the thread state: entered from every unscoped buffer at `B7`, left at `B8`. Its arrays split
    out of the unscoped buffers and put back at the exit contents; the generator register into the invariant and out;
    nothing owed, the recorded waits kept at levels at most 32 (a wait of the pipeline's own is at level 0); no
    semaphore of the kernel's own. -/
def reg3 : Pipeline.RegionSeg (pcfgs (F := F)) adm (pdats Wt) (none : HIx 4) defs₀ 𝒱₀ (K (F := F)).L (K (F := F)).lev 3 where
  win := launch7.win.to₀
  block_pos := launch7.block_pos
  stage_whole := launch7.stage_whole
  K := PEmpty
  osem k := k.elim
  ho := Pipeline.OwnSemFacts.none _
  hbody c := (body_obligation7 (VB7 Wt) c).loose
  hwaits := Pipeline.hwaits_of_owed_zero _ _ _ _ (K (F := F)).L (K (F := F)).lev 3 fun _ _ => rfl
  pre c := iprop(StableHlo.held (c : Thread nD τ) (Pipeline.ucRefs τ sig) (B7 Wt c) ∗ Rst c)
  post c := iprop(StableHlo.held (c : Thread nD τ) (Pipeline.ucRefs τ sig) (B8 Wt c) ∗ Rst c)
  X c := iprop(∃ r, prngReg c r)
  Y c := iprop(∃ r, prngReg c r)
  Z c := Pipeline.unscopedRest (Ix := HIx 4) (Name := ℕ) (U := UU) (Lvl := ℕ) spec7 c (VB7 Wt c)
  hentry c := by
    rw [Pipeline.ownSems0_none]
    have hsplit := Pipeline.arrays_of_unscopedBufs (p := 3) (pcfgs (F := F)) adm (pdats Wt) launch7.win launch7.arr_whole c
      ((pdats Wt 3 c).share_full fun _ => rfl) (VB7 Wt c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wt 3 c).Φ 0 = ΦH spec7 c from rfl]; unfold ΦH
    iintro ⟨Hp, -, Hr⟩
    isplitl [Hr]; · iexact Hr
    iexact Hp
  hout c := by
    rw [Pipeline.ownSems0_none, show (pdats Wt 3 c).Φ (Fin.last _) = ΦH spec7 c from rfl]; unfold ΦH
    iintro ⟨Hr, Hp⟩
    isplitl [Hp]; · iexact Hp
    isplitr; · iempintro
    iexact Hr
  hexit c := by
    have hjoin := Pipeline.unscopedBufs_of_arrays (p := 3) (pcfgs (F := F)) adm (Ix := HIx 4) (Name := ℕ) (U := UU) (Lvl := ℕ)
      launch7.win launch7.arr_whole c (pdats Wt) ((pdats Wt 3 c).share_full fun _ => rfl)
      (VB7 Wt c) (VB8 Wt c) ((pdats Wt 3 c).arrAt · cfg7.N) (hF3 Wt c) (hrest3 Wt c)
    rw [Pipeline.unscopedBufs_held] at hjoin
    iintro ⟨Ha, HO, HY, Hrest⟩
    imodintro
    isplitl [Ha Hrest]
    · iapply hjoin; isplitl [Ha] <;> iassumption
    unfold Rst
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-! ## The tail as segments -/

/-- The tail's eight segments in order: a host segment per stretch from its boundary's contents, a region per call. -/
abbrev tailSegs : List (Pipeline.Seg (pcfgs (F := F)) adm (pdats Wt) (none : HIx 4) defs₀ 𝒱₀ (K (F := F)).L (K (F := F)).lev) :=
  [ .host (hseg hostT0 hostT0_sub hostT0_fresh Wt),
    .region (reg0 Wt),
    .host (hseg hostT1 hostT1_sub hostT1_fresh (B2 Wt)),
    .region (reg1 Wt),
    .host (hseg hostT2 hostT2_sub hostT2_fresh (B4 Wt)),
    .region (reg2 Wt),
    .host (hseg hostT3 hostT3_sub hostT3_fresh (B6 Wt)),
    .region (reg3 Wt) ]

/-- Each pipeline is entered once. -/
theorem tail_pipes : (Pipeline.Seg.pipes (tailSegs Wt)).Nodup := by
  simp only [tailSegs, Pipeline.Seg.pipes_host, Pipeline.Seg.pipes_region, Pipeline.Seg.pipes_nil]; decide

/-- Each segment is entered from the state the one before it leaves: the boundary contents are the fold's, by name. -/
theorem tail_chains : Pipeline.Seg.Chains (Tst Wt) (tailSegs Wt) (Tend Wt) :=
  ⟨fun _ => .rfl, fun _ => .rfl, fun _ => .rfl, fun _ => .rfl, fun _ => .rfl, fun _ => .rfl, fun _ => .rfl, fun _ => .rfl, fun _ => .rfl⟩

end Cert.Kernel.Hand

end
-- ==== Proof.Bits.Launch.lean ====
/-
  The kernel's run. The launch element is the handshakes' rounds, the four regions' staging cells' rounds (funded at
  the launch, one region's share consumed at its entry) and the unit of the tiles' copy counters. @main on the TensorCore
  is its head (host stretches and the four gather calls) followed by its tail (the four regions), and what it leaves
  is every unscoped buffer at the tail's final contents, read against the final memory.
-/
import proofs.«203472_g22600117912246_cont_8to1_820_34_alg».proof.Proof.Bits.Head
import proofs.«203472_g22600117912246_cont_8to1_820_34_alg».proof.Proof.Bits.Tail
import proofs.«203472_g22600117912246_cont_8to1_820_34_alg».proof.Proof.PreRange
import Idealize.ShloMosaic.Lib.Pipeline.Value
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

variable (κ : GSem nD τ sig → ℕ) (d : Dev nD)

/-- The tail of @main is the run of its segments: four host stretches and four regions in order. -/
theorem tailProg_eq (Wt : Dev nD → Valuation τ sig (Elt F)) : tailProg (F := F) = Pipeline.Seg.run (tailSegs Wt) := rfl

/-- The TensorCore tail from the buffers `Wt d`: after the last gather call the TensorCore owes nothing, so its `owes`
    rides through the four regions beside the unscoped buffers (the recorded waits staying at levels the handshake
    state allows), and comes back with the buffers at `Wend Wt d`. -/
theorem tail_step (Wt : Dev nD → Valuation τ sig (Elt F)) (Φ : PUnit → sProp 𝕄)
    (hk : iprop((K (F := F)).tcSt EH d 4 ∗ held (T d) (Pipeline.ucRefs τ sig) (Wend Wt d)) ⊢ Φ ⟨⟩) :
    St m ρ κ d 4 (Wt d) ⊢ wp frame (wpE ((K (F := F)).defs (D (F := F))) 𝒱 (SparseCore.T d) none) Set.univ (SparseCore.liftProg (tailProg (F := F))) Φ := by
  refine BIBase.Entails.trans ?_ ((K (F := F)).wp_liftProg (D (F := F)) 𝒱 (SparseCore.T d) Set.univ none (tailProg (F := F)) Φ)
  rw [tailProg_eq Wt]
  unfold St SparseCore.Cfg.tcSt
  rw [(K (F := F)).Otc_end d (le_refl 4)]
  iintro ⟨#Hctx, ⟨⟨%W, %hW, HO⟩, Hrest⟩, Hb, Hh, ⟨Hp, HG⟩⟩
  ihave Hlev := (SparseCore.Cfg.ctx_levAts κ) $$ Hctx
  iapply (Pipeline.wp_segs (pcfgs (F := F)) adm (pdats Wt) (none : HIx 4) Gen.cellOf_inj EP defs₀ 𝒱₀ (K (F := F)).L (K (F := F)).lev d
    (tailSegs Wt) Finset.univ (Tst Wt) (Tend Wt) (tail_pipes Wt) (fun p _ => Finset.mem_univ p) (tail_chains Wt)) $$ [Hrest Hb Hh Hp HO Hlev HG]
  isplitl [Hrest]
  · iintro ⟨Hb, HT⟩
    unfold Tend Rst
    icases HT with ⟨Hh, ⟨-, %W', %hW', HO⟩⟩
    iapply hk
    isplitl [Hrest HO]
    · unfold SparseCore.Cfg.tcSt
      rw [(K (F := F)).Otc_end d (le_refl 4)]
      isplitl [HO]
      · iexists W'; isplitr; · ipureintro; exact hW'
        iexact HO
      iexact Hrest
    iexact Hh
  isplitl [Hb]; · iexact Hb
  isplitl [Hh Hp HO]
  · unfold Tst Rst
    isplitl [Hh]; · iexact Hh
    isplitl [Hp]; · iexists _; iexact Hp
    iexists W; isplitr; · ipureintro; exact hW
    iexact HO
  isplitl [Hlev]; · iexact Hlev
  iexact HG

/-- What @main leaves the claim: every unscoped TensorCore buffer at the tail's final contents, for gathered chunks
    that agree with the table rows their ids name. -/
def FIN : sProp 𝕄 :=
  iprop(∃ f0 f1 f2 f3 : S51200x128.Idx → Elt F .f32,
    ⌜RowsOK m 0 d Finset.univ f0 ∧ RowsOK m 1 d Finset.univ f1 ∧ RowsOK m 2 d Finset.univ f2 ∧ RowsOK m 3 d Finset.univ f3⌝
      ∗ held (T d) (Pipeline.ucRefs τ sig) (Wend (fun d' => V8 m d' f0 f1 f2 f3) d))

/-- @main on device `d`'s TensorCore. -/
theorem hmain :
    iprop((K (F := F)).ctx EH (P m) κ ∗ (K (F := F)).tcSt EH d 0 ∗ (K (F := F)).tcRes m ρ d
        ∗ Pipeline.ghostOn (pcfgs (F := F)) (fun p => (cfgs p).toPCfg_adm) EP Finset.univ d)
      ⊢ wp frame (wpE ((K (F := F)).defs (D (F := F))) 𝒱 (SparseCore.T d) none) Set.univ (main d)
          fun _ => iprop((K (F := F)).tcSt EH d 4 ∗ FIN m d) :=
  hmain_head m ρ κ d _ fun f0 f1 f2 f3 h0 h1 h2 h3 =>
    tail_step m ρ κ d (fun d' => V8 m d' f0 f1 f2 f3) _ (by
      iintro ⟨Hst, Hh⟩
      isplitl [Hst]; · iexact Hst
      unfold FIN
      iexists f0, f1, f2, f3
      isplitr; · ipureintro; exact ⟨h0, h1, h2, h3⟩
      iexact Hh)

/-! ## The launch element -/

def u₀ : UU := (initOf (K (F := F)).hsCells (K (F := F)).hsToks, (initOf (Pipeline.cells cfgs Gen.cellOf_inj) (Pipeline.launchToks cfgs Gen.cellOf_inj), 1))

/-- The four regions' staging cells' ghost state on device `d`. -/
abbrev Gd (d : Dev nD) : sProp 𝕄 := Pipeline.ghostOn (pcfgs (F := F)) (fun p => (cfgs p).toPCfg_adm) EP Finset.univ d

omit [FloatOps F] in
theorem bigSep_emp' {I : Type} (s : Finset I) : (bigSep s fun _ => iprop(emp)) = (iprop(emp) : sProp 𝕄) := bigSep_emp_const s

omit [FloatOps F] in
/-- The staging cells' embedding is the product's right injection after the pair's left one. -/
theorem EP_eq (x : UP) : ((Emb.inl : Emb UP (UP × Counters)).trans (embR (nD := nD) (τ := τ) (sig := sig) (Ix := HIx 4) (Val := Elt F) (Name := ℕ) (A := UH) (B := UP × Counters) (Lvl := ℕ))) x = (EP (F := F)) x := rfl

omit [FloatOps F] in
theorem bigSep_sep2 {M : Type} [URA M] {I J : Type} (s : Finset I) (t : Finset J) (A B : I → J → sProp M) :
    (bigSep s fun i => bigSep t fun j => iprop(A i j ∗ B i j)) = iprop((bigSep s fun i => bigSep t (A i)) ∗ bigSep s fun i => bigSep t (B i)) :=
  (bigSep_congr fun i _ => bigSep_sep t (A i) (B i)).trans (bigSep_sep s (fun i => bigSep t (A i)) (fun i => bigSep t (B i)))

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb embR _ _) $$ HR
  icases H2 with ⟨HP, -⟩
  rw [EP_eq]
  imod (Pipeline.fund_ghost cfgs EP Gen.cellOf_inj) $$ HP with ⟨Hc, Ht⟩
  imodintro
  isplitl [HH]; · iexact HH
  isplitl [Hc Ht]
  · unfold Gd Pipeline.ghostOn Pipeline.PerCore.ghostOn
    iapply (Entails.of_eq (bigSep_sep2 (Finset.univ : Finset (Dev nD)) (Finset.univ : Finset (Fin 4))
      (fun d p' => Pipeline.PerCore.cellsGhost (Pipeline.pinD (pcfgs (F := F)) fun _ p => (cfgs p).toPCfg_adm) EP p' d)
      (fun d p' => Pipeline.PerCore.toksInit (Pipeline.pinD (pcfgs (F := F)) fun _ p => (cfgs p).toPCfg_adm) EP p' d)).symm)
    isplitl [Hc]; · iexact Hc
    iexact Ht
  · unfold P; dsimp only
    rw [show (bigSep Finset.univ fun _ : Thread nD τ => bigSep Finset.univ fun _ : Fin 4 => (iprop(emp) : sProp 𝕄)) = iprop(emp) from by
      rw [bigSep_congr fun _ _ => bigSep_emp' _, bigSep_emp']]
    iempintro

/-! ## Reading the final memory -/

/-- What a final memory satisfies on device `d`: its unscoped TensorCore buffers are the tail's final contents, for
    gathered chunks that agree with the table rows their ids name. -/
def fqm (d : Dev nD) (s : MemSt nD τ sig (Elt F)) : Prop :=
  ∃ f0 f1 f2 f3 : S51200x128.Idx → Elt F .f32,
    RowsOK m 0 d Finset.univ f0 ∧ RowsOK m 1 d Finset.univ f1 ∧ RowsOK m 2 d Finset.univ f2 ∧ RowsOK m 3 d Finset.univ f3 ∧
      ∀ b ∈ Pipeline.ucRefs τ sig, s.mem (d, b) = Wend (fun d' => V8 m d' f0 f1 f2 f3) d b

theorem hfin (d : Dev nD) (s' : Phys nD τ sig (Elt F)) : iprop(FIN m d ∗ SI s') ⊢ (⌜fqm m d s'.mem⌝ : sProp 𝕄) := by
  unfold FIN
  iintro ⟨⟨%f0, %f1, %f2, %f3, %hf, Hh⟩, HSI⟩
  unfold StableHlo.held
  ihave H := (pointsTo_read_all (Pipeline.ucRefs τ sig) (fun b => ((SparseCore.T d).1, b)) (Wend (fun d' => V8 m d' f0 f1 f2 f3) d) s') $$ [Hh HSI]
  · isplitl [Hh] <;> iassumption
  icases H with ⟨%h, -⟩
  ipureintro
  exact ⟨f0, f1, f2, f3, hf.1, hf.2.1, hf.2.2.1, hf.2.2.2, h⟩

/-! ## The run -/

def QC : PUnit × MemSt nD τ sig (Elt F) → Prop := fun r => ∀ c : Dev nD, fqm m c r.2

theorem run_main [∀ e, Nonempty (Elt F e)]
    (htile : ∀ q : Fin 4, (K (F := F)).TileObl (D (F := F)) 𝒱 (P m) v₀ q) (hvec : ∀ q : Fin 4, (K (F := F)).VecSplit' (P m) q) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => htile q)
    (fun q _ => SparseCore.Cfg.VecSplit.of_plain (hvec q))
    m ρ main (fun d => Gd (F := F) d) (FIN m) (u₀ (F := F)) (sep_elim_left.trans (hu₀ m)) (fun κ d => hmain m ρ κ d)
    (fun d s' => fqm m d s'.mem) (hfin m) (QC m) (fun _ h => h)

/-! ## The arguments end as launched -/

/-- A reference that no host operation of the head and no gather call writes keeps its launch contents up to the tail. -/
theorem V8_keep (d : Dev nD) (f0 f1 f2 f3 : S51200x128.Idx → Elt F .f32) (b : Ref sig .tc)
    (h0 : b ≠ main_v0) (h1 : b ≠ main_v1) (h2 : b ≠ main_v2) (h3 : b ≠ main_v3) (h4 : b ≠ main_v4) (h5 : b ≠ main_v5) (h6 : b ≠ main_v6)
    (h7 : b ≠ main_v7) (h8 : b ≠ main_v8) (h9 : b ≠ main_v9) (h10 : b ≠ main_v10) (h11 : b ≠ main_v11) :
    V8 m d f0 f1 f2 f3 (Proc.devRef .tc b) = m (d, Proc.devRef .tc b) := by
  unfold V8 V7 V6 V5 V4 V3 V2
  rw [Function.update_of_ne (StableHlo.devRef_ne_of_ne h11), keep910 _ b h10, Function.update_of_ne (StableHlo.devRef_ne_of_ne h9), keep78 _ b h8,
    Function.update_of_ne (StableHlo.devRef_ne_of_ne h7), keep56 _ b h6, Function.update_of_ne (StableHlo.devRef_ne_of_ne h5)]
  exact W1_keep m d b h0 h1 h2 h3 h4

end Cert.Kernel.Hand

end
-- ==== Proof.Bits.Frame.lean ====
/-
  The kernel's frame from its run: under the input domain every token id names a table row (the flattened ids are the
  ids reshaped), so every tile's indexed copies stay in range; the run's final memory holds the tail's final buffers, and
  no step of @main writes an argument, so each argument reads back through the chain of buffers to its launch contents.
-/
import proofs.«203472_g22600117912246_cont_8to1_820_34_alg».proof.Proof.Bits.Launch
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The precondition gives the ids' range; the frame -/

/-- The flattened ids are the ids reshaped. -/
theorem idsB_eq (d : Dev nD) : idsB m d = fun i => shapeCast S204800 (m (d, Proc.devRef .tc main_arg0)) shapeCasts_S1024x200_S204800 i := by
  show StableHlo.after (hostOps0 (F := F)) (W0 m d) (Proc.devRef .tc main_v0) = _
  rw [show hostOps0 (F := F) = StableHlo.reshape main_arg0 main_v0 rfl shapeCasts_S1024x200_S204800 :: _ from rfl, StableHlo.after_cons,
    StableHlo.after_of_forall_not_mem (b := Proc.devRef .tc main_v0) _ _ (List.forall_iff_forall_mem.mp (by
      simp only [List.Forall, StableHlo.unary_writes, StableHlo.reshape_writes, Finset.mem_singleton]
      exact ⟨StableHlo.devRef_ne_of_ne (by decide), StableHlo.devRef_ne_of_ne (by decide), StableHlo.devRef_ne_of_ne (by decide), StableHlo.devRef_ne_of_ne (by decide)⟩)),
    StableHlo.reshape_result]
  rfl

end Cert.Kernel.Hand

namespace Cert.Kernel.Hand

open Cert.Kernel Cert.Kernel.Gen Idealize.ShloMosaic

/-- Under the input domain every token id names a table row. -/
theorem ok_of_pre (m : (ℓ : Loc nD τ sig) → Buf (Elt Bits) ℓ) (h : Cert.Pre_Kernel (hPre_input_domain := Cert.Pre_input_domain.Gen.facts) m) :
    IdsInRange (F := Bits) m := by
  intro d j
  rw [idsB_eq]
  show (shapeCast S204800 (m (d, Proc.devRef .tc main_arg0)) shapeCasts_S1024x200_S204800 j).toNat < 100000
  unfold shapeCast
  exact (Cert.Hand.Ref.ids_range_of_fn _ _ _ _ _ _ _ (h d)).1 _

/-- The frame, given each gather call's obligation for one tile and its split among the tiles. -/
theorem frame_of
    (htile : ∀ (m : (ℓ : Loc nD τ sig) → Buf (Elt Bits) ℓ), IdsInRange (F := Bits) m → ∀ q : Fin 4, (K (F := Bits)).TileObl (D (F := Bits)) 𝒱 (P m) v₀ q)
    (hvec : ∀ (m : (ℓ : Loc nD τ sig) → Buf (Elt Bits) ℓ) (q : Fin 4), (K (F := Bits)).VecSplit' (P m) q) :
    Cert.frame_Kernel (hKernel := Cert.Kernel.Gen.facts) (hPre_input_domain := Cert.Pre_input_domain.Gen.facts) := fun m ρ hpre =>
  (θ_run Cert.Kernel.defs _ _).mono (fun r h c => by
      obtain ⟨f0, f1, f2, f3, -, -, -, -, hb⟩ := h c
      exact ⟨(hb _ (mem_uc main_arg0 (by decide))).trans ((Wend_main_arg0 _ c).trans (V8_keep m c f0 f1 f2 f3 main_arg0 (by decide) (by decide) (by decide) (by decide) (by decide) (by decide) (by decide) (by decide) (by decide) (by decide) (by decide) (by decide))),
        (hb _ (mem_uc main_arg1 (by decide))).trans ((Wend_main_arg1 _ c).trans (V8_keep m c f0 f1 f2 f3 main_arg1 (by decide) (by decide) (by decide) (by decide) (by decide) (by decide) (by decide) (by decide) (by decide) (by decide) (by decide) (by decide))),
        (hb _ (mem_uc main_arg2 (by decide))).trans ((Wend_main_arg2 _ c).trans (V8_keep m c f0 f1 f2 f3 main_arg2 (by decide) (by decide) (by decide) (by decide) (by decide) (by decide) (by decide) (by decide) (by decide) (by decide) (by decide) (by decide))),
        (hb _ (mem_uc main_arg3 (by decide))).trans ((Wend_main_arg3 _ c).trans (V8_keep m c f0 f1 f2 f3 main_arg3 (by decide) (by decide) (by decide) (by decide) (by decide) (by decide) (by decide) (by decide) (by decide) (by decide) (by decide) (by decide))),
        (hb _ (mem_uc main_arg4 (by decide))).trans ((Wend_main_arg4 _ c).trans (V8_keep m c f0 f1 f2 f3 main_arg4 (by decide) (by decide) (by decide) (by decide) (by decide) (by decide) (by decide) (by decide) (by decide) (by decide) (by decide) (by decide))),
        (hb _ (mem_uc main_arg5 (by decide))).trans ((Wend_main_arg5 _ c).trans (V8_keep m c f0 f1 f2 f3 main_arg5 (by decide) (by decide) (by decide) (by decide) (by decide) (by decide) (by decide) (by decide) (by decide) (by decide) (by decide) (by decide))),
        (hb _ (mem_uc main_arg6 (by decide))).trans ((Wend_main_arg6 _ c).trans (V8_keep m c f0 f1 f2 f3 main_arg6 (by decide) (by decide) (by decide) (by decide) (by decide) (by decide) (by decide) (by decide) (by decide) (by decide) (by decide) (by decide)))⟩)
    (run_main (F := Bits) m ρ (htile m (ok_of_pre m hpre)) (hvec m))

end Cert.Kernel.Hand

end
-- ==== Proof.Spec.lean ====
import Idealize.ShloMosaic.PureOps.Ideal
import Idealize.ShloMosaic.Lib.ValueIdx

/-!
# The specification: embeddings summed, then normalized over the last axis

At the exact values (a float is an extended real, every operation the textbook one) the result at batch entry b,
position l and feature k is

    (x b l k - mean (x b l)) / sqrt (var (x b l) + ε) * gamma k + beta k

where x b l k is the word table's row at the token id, plus the position table's row l, plus the type table's row at
the type id, all at feature k; mean is the sum over the 128 features divided by 128, var the mean of the squared
deviations from the mean, and ε the single-precision constant nearest 1e-12. The two constants are kept as the words
they are printed with. A row index read off an integer array is the word's unsigned value, clamped to the table's last
row (under the input domain the clamp does nothing).
-/

noncomputable section

open scoped BigOperators

namespace Cert.Hand.Spec

open Idealize.ShloMosaic Idealize.ShloMosaic.ValueIdx

/-- Row number n of a table of N rows, clamped to the last row. -/
abbrev rowIx (N : Nat) (hN : 0 < N) (n : Nat) : Fin N := ⟨min n (N - 1), by omega⟩

/-- The divisor 128.0, as the single-precision word the reference prints. -/
def c128 : EReal := Ideal.ofBits .f32 0x43000000#32

/-- ε: the single-precision word nearest 1e-12. -/
def eps : EReal := Ideal.ofBits .f32 0x2B8CBCCC#32

/-- The summed embeddings at (b, l, k): word row at the token id, position row l, type row at the type id. -/
def x (ids tt : IVec ⟨2, ![1024, 200]⟩ 32) (w : FVec Ideal ⟨2, ![100000, 128]⟩ .f32)
    (p : FVec Ideal ⟨2, ![512, 128]⟩ .f32) (t : FVec Ideal ⟨2, ![2, 128]⟩ .f32)
    (b : Fin 1024) (l : Fin 200) (k : Fin 128) : EReal :=
  w (ix2 (rowIx 100000 (by decide) (ids (ix2 b l)).toNat) k)
    + p (ix2 (Fin.castLE (by decide : 200 ≤ 512) l) k)
    + t (ix2 (rowIx 2 (by decide) (tt (ix2 b l)).toNat) k)

/-- The mean of a row of 128 features: their sum divided by 128.0. -/
def mean (X : Fin 128 → EReal) : EReal := Ideal.div (∑ k, X k) c128

/-- The variance of a row: the mean of the squared deviations from the mean. -/
def var (X : Fin 128 → EReal) : EReal := mean fun k => (X k - mean X) * (X k - mean X)

/-- The result at (b, l, k). -/
def G (ids tt : IVec ⟨2, ![1024, 200]⟩ 32) (w : FVec Ideal ⟨2, ![100000, 128]⟩ .f32)
    (p : FVec Ideal ⟨2, ![512, 128]⟩ .f32) (t : FVec Ideal ⟨2, ![2, 128]⟩ .f32)
    (gamma beta : FVec Ideal ⟨1, ![128]⟩ .f32) (b : Fin 1024) (l : Fin 200) (k : Fin 128) : EReal :=
  Ideal.div (x ids tt w p t b l k - mean (x ids tt w p t b l)) (Ideal.sqrt (var (x ids tt w p t b l) + eps))
      * gamma (ix1 k)
    + beta (ix1 k)

end Cert.Hand.Spec

end
-- ==== Proof.HeadValue.lean ====
import proofs.«203472_g22600117912246_cont_8to1_820_34_alg».proof.Proof.Launch
import proofs.«203472_g22600117912246_cont_8to1_820_34_alg».proof.Proof.Spec
import Idealize.ShloMosaic.Lib.Pipeline.Value

/-!
# The buffers the TensorCore tail starts from, read at an index

When the tail starts, the first three gathered chunks sit reshaped as 256 sequences of 200 rows, the fourth still
flat; the first 200 position rows sit cut out under a leading unit axis, gamma and beta under a leading unit axis;
the type ids and the type table are as launched. Each is read here at an index as the launch memory's (or the gathered
chunk's) entry. A gathered chunk's row is the word table's row at the token id the flattened ids hold there; flat
position 51200 q + 200 b' + l of the ids is entry (256 q + b', l) of the id array.
-/

noncomputable section

namespace Cert.KernelIdeal.Hand

open Cert.KernelIdeal Cert.KernelIdeal.Gen

open Idealize.ShloMosaic Idealize.ShloMosaic.ValueIdx
open Idealize.ShloMosaic.StableHlo (after_cons after_nil reshape_result unary_result)

variable {F : FTy → Type} [FloatOps F]

variable (m : (ℓ : Loc nD τ sig) → Buf (Elt F) ℓ) (d : Dev nD)
variable (f0 f1 f2 f3 : S51200x128.Idx → Elt F .f32)

/-! ## Reshapes at an index -/

/-- A 51200-row chunk read as 256 sequences of 200 rows: entry (b', l, j) is row 200 b' + l, feature j. -/
theorem chunk_apply {α : Type} (f : S51200x128.Idx → α) (b' : Fin 256) (l : Fin 200) (j : Fin 128) :
    shapeCast S256x200x128 f shapeCasts_S51200x128_S256x200x128 (ix3 b' l j)
      = f (ix2 ⟨b'.val * 200 + l.val, by have := b'.isLt; have := l.isLt; omega⟩ j) :=
  shapeCast_apply f _ (ix3 b' l j) (ix2 ⟨b'.val * 200 + l.val, by have := b'.isLt; have := l.isLt; omega⟩ j)
    (by rw [Shape.rowMajor_val_two, Shape.rowMajor_val_three]; rfl)

/-! ## From the tail's entry back along the head -/

/-- A reference that no gather call and no chunk reshape writes is, when the tail starts, as the first host stretch
    left it. -/
theorem V8_eq_W1 (b : Ref sig .tc) (h5 : b ≠ main_v5) (h6 : b ≠ main_v6) (h7 : b ≠ main_v7) (h8 : b ≠ main_v8)
    (h9 : b ≠ main_v9) (h10 : b ≠ main_v10) (h11 : b ≠ main_v11) :
    V8 m d f0 f1 f2 f3 (Proc.devRef .tc b) = W1 m d (Proc.devRef .tc b) := by
  unfold V8 V7 V6 V5 V4 V3 V2
  rw [Function.update_of_ne (StableHlo.devRef_ne_of_ne h11), keep910 _ b h10, Function.update_of_ne (StableHlo.devRef_ne_of_ne h9), keep78 _ b h8,
    Function.update_of_ne (StableHlo.devRef_ne_of_ne h7), keep56 _ b h6, Function.update_of_ne (StableHlo.devRef_ne_of_ne h5)]

/-- The first chunk, reshaped. -/
theorem V8_v6 : V8 m d f0 f1 f2 f3 (Proc.devRef .tc main_v6)
    = fun i => shapeCast S256x200x128 f0 shapeCasts_S51200x128_S256x200x128 i := by
  unfold V8 V7 V6 V5 V4 V3 V2
  rw [Function.update_of_ne (StableHlo.devRef_ne_of_ne (show main_v6 ≠ main_v11 by decide)), keep910 _ main_v6 (by decide),
    Function.update_of_ne (StableHlo.devRef_ne_of_ne (show main_v6 ≠ main_v9 by decide)), keep78 _ main_v6 (by decide),
    Function.update_of_ne (StableHlo.devRef_ne_of_ne (show main_v6 ≠ main_v7 by decide))]
  simp only [after_cons, after_nil]
  rw [reshape_result, Function.update_self]
  rfl

/-- The second chunk, reshaped. -/
theorem V8_v8 : V8 m d f0 f1 f2 f3 (Proc.devRef .tc main_v8)
    = fun i => shapeCast S256x200x128 f1 shapeCasts_S51200x128_S256x200x128 i := by
  unfold V8 V7 V6 V5 V4
  rw [Function.update_of_ne (StableHlo.devRef_ne_of_ne (show main_v8 ≠ main_v11 by decide)), keep910 _ main_v8 (by decide),
    Function.update_of_ne (StableHlo.devRef_ne_of_ne (show main_v8 ≠ main_v9 by decide))]
  simp only [after_cons, after_nil]
  rw [reshape_result, Function.update_self]
  rfl

/-- The third chunk, reshaped. -/
theorem V8_v10 : V8 m d f0 f1 f2 f3 (Proc.devRef .tc main_v10)
    = fun i => shapeCast S256x200x128 f2 shapeCasts_S51200x128_S256x200x128 i := by
  unfold V8 V7 V6
  rw [Function.update_of_ne (StableHlo.devRef_ne_of_ne (show main_v10 ≠ main_v11 by decide))]
  simp only [after_cons, after_nil]
  rw [reshape_result, Function.update_self]
  rfl

/-- The fourth chunk, still flat. -/
theorem V8_v11 : V8 m d f0 f1 f2 f3 (Proc.devRef .tc main_v11) = f3 := by
  unfold V8
  rw [Function.update_self]

theorem V8_v6_apply (b' : Fin 256) (l : Fin 200) (j : Fin 128) :
    V8 m d f0 f1 f2 f3 (Proc.devRef .tc main_v6) (ix3 b' l j : S256x200x128.Idx)
      = f0 (ix2 ⟨b'.val * 200 + l.val, by have := b'.isLt; have := l.isLt; omega⟩ j) := by
  rw [V8_v6]; exact chunk_apply f0 b' l j

theorem V8_v8_apply (b' : Fin 256) (l : Fin 200) (j : Fin 128) :
    V8 m d f0 f1 f2 f3 (Proc.devRef .tc main_v8) (ix3 b' l j : S256x200x128.Idx)
      = f1 (ix2 ⟨b'.val * 200 + l.val, by have := b'.isLt; have := l.isLt; omega⟩ j) := by
  rw [V8_v8]; exact chunk_apply f1 b' l j

theorem V8_v10_apply (b' : Fin 256) (l : Fin 200) (j : Fin 128) :
    V8 m d f0 f1 f2 f3 (Proc.devRef .tc main_v10) (ix3 b' l j : S256x200x128.Idx)
      = f2 (ix2 ⟨b'.val * 200 + l.val, by have := b'.isLt; have := l.isLt; omega⟩ j) := by
  rw [V8_v10]; exact chunk_apply f2 b' l j

/-- The fourth chunk's reshape (the tail's first operation) at (b', l, j). -/
theorem V8_v11_cast_apply (b' : Fin 256) (l : Fin 200) (j : Fin 128) :
    shapeCast S256x200x128 (V8 m d f0 f1 f2 f3 (Proc.devRef .tc main_v11)) shapeCasts_S51200x128_S256x200x128 (ix3 b' l j)
      = f3 (ix2 ⟨b'.val * 200 + l.val, by have := b'.isLt; have := l.isLt; omega⟩ j) := by
  rw [V8_v11]; exact chunk_apply f3 b' l j

/-! ## What the first host stretch left -/

/-- The position rows: the first 200 rows of the position table under a leading unit axis. -/
theorem W1_v2 : W1 m d (Proc.devRef .tc main_v2)
    = fun i => shapeCast S1x200x128 (extractStridedSlice S200x128 ![0, 0] (m (d, Proc.devRef .tc main_arg3))
        slices_S512x128_S200x128_0_0) shapeCasts_S200x128_S1x200x128 i := by
  show StableHlo.after hostOps0 (W0 m d) (Proc.devRef .tc main_v2) = _
  after_results
  rfl

/-- gamma under a leading unit axis. -/
theorem W1_v3 : W1 m d (Proc.devRef .tc main_v3)
    = fun i => shapeCast S1x128 (m (d, Proc.devRef .tc main_arg5)) shapeCasts_S128_S1x128 i := by
  show StableHlo.after hostOps0 (W0 m d) (Proc.devRef .tc main_v3) = _
  after_results
  rfl

/-- beta under a leading unit axis. -/
theorem W1_v4 : W1 m d (Proc.devRef .tc main_v4)
    = fun i => shapeCast S1x128 (m (d, Proc.devRef .tc main_arg6)) shapeCasts_S128_S1x128 i := by
  show StableHlo.after hostOps0 (W0 m d) (Proc.devRef .tc main_v4) = _
  after_results
  rfl

/-- The flattened ids. -/
theorem idsB_eq : idsB m d
    = fun i => shapeCast S204800 (m (d, Proc.devRef .tc main_arg0)) shapeCasts_S1024x200_S204800 i := by
  show StableHlo.after hostOps0 (W0 m d) (Proc.devRef .tc main_v0) = _
  after_results
  rfl

theorem V8_v2_apply (l : Fin 200) (j : Fin 128) :
    V8 m d f0 f1 f2 f3 (Proc.devRef .tc main_v2) (ix3 (0 : Fin 1) l j : S1x200x128.Idx)
      = m (d, Proc.devRef .tc main_arg3) (ix2 (n0 := 512) (n1 := 128) (Fin.castLE (by decide : 200 ≤ 512) l) j) := by
  rw [V8_eq_W1 m d f0 f1 f2 f3 main_v2 (by decide) (by decide) (by decide) (by decide) (by decide) (by decide) (by decide), W1_v2]
  refine (shapeCast_apply _ _ (ix3 (0 : Fin 1) l j) (ix2 l j)
    (by rw [Shape.rowMajor_val_two, Shape.rowMajor_val_three]; show l.val * 128 + j.val = (0 * 200 + l.val) * 128 + j.val; omega)).trans ?_
  exact extractStridedSlice_apply _ _ _ (ix2 l j) (ix2 (n0 := 512) (n1 := 128) (Fin.castLE (by decide : 200 ≤ 512) l) j)
    (fun a => match a with
      | ⟨0, _⟩ => by show l.val = 0 + l.val; omega
      | ⟨1, _⟩ => by show j.val = 0 + j.val; omega)

theorem V8_v3_apply (k : Fin 128) :
    V8 m d f0 f1 f2 f3 (Proc.devRef .tc main_v3) (ix2 (0 : Fin 1) k : S1x128.Idx)
      = m (d, Proc.devRef .tc main_arg5) (ix1 (n := 128) k) := by
  rw [V8_eq_W1 m d f0 f1 f2 f3 main_v3 (by decide) (by decide) (by decide) (by decide) (by decide) (by decide) (by decide), W1_v3]
  exact shapeCast_apply _ _ (ix2 (0 : Fin 1) k) (ix1 k)
    (by rw [Shape.rowMajor_val_one, Shape.rowMajor_val_two]; show k.val = 0 * 128 + k.val; omega)

theorem V8_v4_apply (k : Fin 128) :
    V8 m d f0 f1 f2 f3 (Proc.devRef .tc main_v4) (ix2 (0 : Fin 1) k : S1x128.Idx)
      = m (d, Proc.devRef .tc main_arg6) (ix1 (n := 128) k) := by
  rw [V8_eq_W1 m d f0 f1 f2 f3 main_v4 (by decide) (by decide) (by decide) (by decide) (by decide) (by decide) (by decide), W1_v4]
  exact shapeCast_apply _ _ (ix2 (0 : Fin 1) k) (ix1 k)
    (by rw [Shape.rowMajor_val_one, Shape.rowMajor_val_two]; show k.val = 0 * 128 + k.val; omega)

/-- The type ids and the type table are as launched. -/
theorem V8_arg1 : V8 m d f0 f1 f2 f3 (Proc.devRef .tc main_arg1) = m (d, Proc.devRef .tc main_arg1) :=
  V8_keep m d f0 f1 f2 f3 main_arg1 (by decide) (by decide) (by decide) (by decide) (by decide) (by decide) (by decide)
    (by decide) (by decide) (by decide) (by decide) (by decide)
theorem V8_arg4 : V8 m d f0 f1 f2 f3 (Proc.devRef .tc main_arg4) = m (d, Proc.devRef .tc main_arg4) :=
  V8_keep m d f0 f1 f2 f3 main_arg4 (by decide) (by decide) (by decide) (by decide) (by decide) (by decide) (by decide)
    (by decide) (by decide) (by decide) (by decide) (by decide)

/-! ## What a gather call leaves, at an index -/

/-- The flattened ids at position 51200 q + 200 b' + l: the id array's entry (256 q + b', l). -/
theorem idsB_apply (q : Fin 4) (b' : Fin 256) (l : Fin 200) (h : q.val * 51200 + (b'.val * 200 + l.val) < 204800)
    (h' : 256 * q.val + b'.val < 1024) :
    idsB m d (ix1 (n := 204800) ⟨q.val * 51200 + (b'.val * 200 + l.val), h⟩)
      = m (d, Proc.devRef .tc main_arg0) (ix2 (n0 := 1024) (n1 := 200) ⟨256 * q.val + b'.val, h'⟩ l) := by
  rw [idsB_eq]
  exact shapeCast_apply _ _ _ (ix2 (n0 := 1024) (n1 := 200) ⟨256 * q.val + b'.val, h'⟩ l)
    (by rw [Shape.rowMajor_val_one, Shape.rowMajor_val_two]
        show (256 * q.val + b'.val) * 200 + l.val = q.val * 51200 + (b'.val * 200 + l.val); omega)

/-- Under the ids' range, gather call q's chunk at row 200 b' + l, feature j: the word table's row at the token id of
    (256 q + b', l), feature j. -/
theorem gathVal_apply (hpre : IdsInRange m) (q : Fin 4) (b' : Fin 256) (l : Fin 200) (j : Fin 128) :
    gathVal m q d (ix2 (n0 := 51200) (n1 := 128) ⟨b'.val * 200 + l.val, by have := b'.isLt; have := l.isLt; omega⟩ j)
      = m (d, Proc.devRef .tc main_arg2) (ix2 (n0 := 100000) (n1 := 128)
          (Cert.Hand.Spec.rowIx 100000 (by decide)
            (m (d, Proc.devRef .tc main_arg0) (ix2 (n0 := 1024) (n1 := 200)
              ⟨256 * q.val + b'.val, by have := b'.isLt; have := q.isLt; omega⟩ l)).toNat) j) := by
  have hb := b'.isLt
  have hl := l.isLt
  have hq := q.isLt
  have hi := idsB_apply m d q b' l (by omega) (by omega)
  have hr := hpre d (ix1 (n := 204800) ⟨q.val * 51200 + (b'.val * 200 + l.val), by omega⟩)
  rw [hi] at hr
  unfold gathVal
  show m (tabLoc d) (ix2 (n0 := 100000) (n1 := 128)
      ⟨(idsB m d (ix1 (n := 204800) ⟨q.val * 51200 + (b'.val * 200 + l.val), _⟩)).toNat % 100000, _⟩ j) = _
  refine congrArg (fun r => m (tabLoc d) (ix2 (n0 := 100000) (n1 := 128) r j)) (Fin.ext ?_)
  show (idsB m d (ix1 (n := 204800) ⟨q.val * 51200 + (b'.val * 200 + l.val), _⟩)).toNat % 100000 = min _ (100000 - 1)
  rw [hi, Nat.mod_eq_of_lt hr]
  omega

end Cert.KernelIdeal.Hand

end
-- ==== Proof.TailValue.lean ====
/-
  The value of the tail's result array, block by block. Each region's output blocks are the four 64-sequence blocks of
  its quarter of the first axis, pairwise disjoint, so after the region block t of the result's array is what point t
  stored (the pure function of the input blocks the body's triple names) and every row outside the quarter is as the
  region found it.
  Chained through the four regions (each next result buffer starts as a copy of the previous result): row
  (t + 4 p) * 64 + r of the final result is what region p stored at point t, at local row r. The regions' input arrays
  are the contents the tail starts at (the last chunk: its reshape).
-/
import proofs.«203472_g22600117912246_cont_8to1_820_34_alg».proof.Proof.Tail
import Idealize.ShloMosaic.Lib.Pipeline.Value
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.ValueIdx

variable {F : FTy → Type} [FloatOps F]

local notation "𝕄" => MT nD τ sig (HIx 4) (Elt F) ℕ UU ℕ

/-! ## Region 0: what its exit leaves in the result's array -/

section Val4
variable (V : (c : Dev nD) → (b : Ref sig .tc) → Buf (Elt F) ((c : Thread nD τ).loc b))

/-- The output window's block index at point `t`, decided over the grid: block `t + 0` of the first axis. -/
theorem idx4_6 : ∀ t : Fin cfg4.N, win4_6.index t (0 : Fin 3) = t.val + 0 ∧ win4_6.index t (1 : Fin 3) = 0 ∧ win4_6.index t (2 : Fin 3) = 0 :=
  (by decide +kernel : ∀ t : Fin grid4.N, _)

/-- An index of the result's array is in point `t`'s block iff each coordinate is in the block's range on its axis. -/
theorem mem_blk4 (t : Fin cfg4.N) (i : S1024x200x128.Idx) :
    i ∈ ((cfg4.win 6).blk t).view.set ↔ ∀ a : Fin 3, win4_6.index t a * S64x200x128.size a ≤ (i a).val ∧ (i a).val < win4_6.index t a * S64x200x128.size a + S64x200x128.size a := by
  show i ∈ ((View.whole main_v13).slice (win4_6.rect t)).set ↔ _
  rw [View.set_slice_whole, Rect.mem_set_unit]
  exact Iff.rfl

/-- So its first coordinate is one of the 64 rows from `(t + 0) * 64`. -/
theorem mem_blk4_row (t : Fin cfg4.N) (i : S1024x200x128.Idx) (hi : i ∈ ((cfg4.win 6).blk t).view.set) :
    (t.val + 0) * 64 ≤ (i 0).val ∧ (i 0).val < (t.val + 0) * 64 + 64 := by
  rw [mem_blk4] at hi
  have b0 : win4_6.index t (0 : Fin 3) * 64 ≤ (i 0).val ∧ (i 0).val < win4_6.index t (0 : Fin 3) * 64 + 64 := hi 0
  obtain ⟨e0, -, -⟩ := idx4_6 t
  omega

/-- Two points' blocks do not meet. -/
theorem hdisj4 : ∀ t t' : Fin cfg4.N, (cfg4.win 6).flush t = true → (cfg4.win 6).flush t' = true → t ≠ t' →
    Disjoint ((cfg4.win 6).blk t).view.set ((cfg4.win 6).blk t').view.set := fun t t' _ _ hne =>
  Finset.disjoint_left.mpr fun i hi hi' => by
    have h1 := mem_blk4_row t i hi
    have h2 := mem_blk4_row t' i hi'
    exact hne (Fin.ext (by omega))

/-- The element of point `t`'s block at local index (r, l, k) sits in the array at row `(t + 0) * 64 + r`. -/
theorem emb4 (t : Fin cfg4.N) (r : Fin 64) (l : Fin 200) (k : Fin 128) (hb : (t.val + 0) * 64 + r.val < 1024) :
    ((cfg4.win 6).blk t).view.emb (ix3 r l k : S64x200x128.Idx) = (ix3 ⟨(t.val + 0) * 64 + r.val, hb⟩ l k : S1024x200x128.Idx) := by
  obtain ⟨e0, e1, e2⟩ := idx4_6 t
  funext a; apply Fin.ext
  match a with
  | ⟨0, _⟩ => show win4_6.index t (0 : Fin 3) * 64 + 1 * r.val = (t.val + 0) * 64 + r.val; omega
  | ⟨1, _⟩ => show win4_6.index t (1 : Fin 3) * 200 + 1 * l.val = l.val; omega
  | ⟨2, _⟩ => show win4_6.index t (2 : Fin 3) * 128 + 1 * k.val = k.val; omega

/-- Block `t` of the result's array at the region's exit is what point `t` stored: `out4_6` of the input blocks. -/
theorem exit4_blk (c : Dev nD) (t : Fin cfg4.N) (y : S64x200x128.Idx) :
    (dat4 V c).arrAt 6 cfg4.N (((cfg4.win 6).blk t).view.emb y) = out4_6 (iblk4 V c 0 t) (iblk4 V c 1 t) (iblk4 V c 2 t) (iblk4 V c 3 t) (iblk4 V c 4 t) (iblk4 V c 5 t) y := by
  refine ((dat4 V c).arrAt_emb_eq_flushed 6 hdisj4 t (flush4_6 t) y).trans ?_
  rw [cast_eq]
  show (cfg4.win 6).cut (grid4.coords t) ((dat4 V c).after 6 t) y = _
  rw [after4_6]
  rfl

/-- A row outside the region's quarter [0, 256) holds at the exit what it held at the entry. -/
theorem exit4_rest (c : Dev nD) (i : S1024x200x128.Idx) (hi : (i 0).val < 0 ∨ 256 ≤ (i 0).val) :
    (dat4 V c).arrAt 6 cfg4.N i = V c (Pipeline.arrRef spec4 6) i := by
  rw [(dat4 V c).arrAt_apply_of_forall_not_mem 6 cfg4.N i (fun t _ _ hmem => by
    have h1 := mem_blk4_row t i hmem
    have ht : t.val < 4 := lt_of_lt_of_eq t.isLt N_4
    omega), A_eq4]

end Val4

/-! ## Region 1: what its exit leaves in the result's array -/

section Val5
variable (V : (c : Dev nD) → (b : Ref sig .tc) → Buf (Elt F) ((c : Thread nD τ).loc b))

/-- The output window's block index at point `t`, decided over the grid: block `t + 4` of the first axis. -/
theorem idx5_6 : ∀ t : Fin cfg5.N, win5_6.index t (0 : Fin 3) = t.val + 4 ∧ win5_6.index t (1 : Fin 3) = 0 ∧ win5_6.index t (2 : Fin 3) = 0 :=
  (by decide +kernel : ∀ t : Fin grid5.N, _)

/-- An index of the result's array is in point `t`'s block iff each coordinate is in the block's range on its axis. -/
theorem mem_blk5 (t : Fin cfg5.N) (i : S1024x200x128.Idx) :
    i ∈ ((cfg5.win 6).blk t).view.set ↔ ∀ a : Fin 3, win5_6.index t a * S64x200x128.size a ≤ (i a).val ∧ (i a).val < win5_6.index t a * S64x200x128.size a + S64x200x128.size a := by
  show i ∈ ((View.whole main_v14).slice (win5_6.rect t)).set ↔ _
  rw [View.set_slice_whole, Rect.mem_set_unit]
  exact Iff.rfl

/-- So its first coordinate is one of the 64 rows from `(t + 4) * 64`. -/
theorem mem_blk5_row (t : Fin cfg5.N) (i : S1024x200x128.Idx) (hi : i ∈ ((cfg5.win 6).blk t).view.set) :
    (t.val + 4) * 64 ≤ (i 0).val ∧ (i 0).val < (t.val + 4) * 64 + 64 := by
  rw [mem_blk5] at hi
  have b0 : win5_6.index t (0 : Fin 3) * 64 ≤ (i 0).val ∧ (i 0).val < win5_6.index t (0 : Fin 3) * 64 + 64 := hi 0
  obtain ⟨e0, -, -⟩ := idx5_6 t
  omega

/-- Two points' blocks do not meet. -/
theorem hdisj5 : ∀ t t' : Fin cfg5.N, (cfg5.win 6).flush t = true → (cfg5.win 6).flush t' = true → t ≠ t' →
    Disjoint ((cfg5.win 6).blk t).view.set ((cfg5.win 6).blk t').view.set := fun t t' _ _ hne =>
  Finset.disjoint_left.mpr fun i hi hi' => by
    have h1 := mem_blk5_row t i hi
    have h2 := mem_blk5_row t' i hi'
    exact hne (Fin.ext (by omega))

/-- The element of point `t`'s block at local index (r, l, k) sits in the array at row `(t + 4) * 64 + r`. -/
theorem emb5 (t : Fin cfg5.N) (r : Fin 64) (l : Fin 200) (k : Fin 128) (hb : (t.val + 4) * 64 + r.val < 1024) :
    ((cfg5.win 6).blk t).view.emb (ix3 r l k : S64x200x128.Idx) = (ix3 ⟨(t.val + 4) * 64 + r.val, hb⟩ l k : S1024x200x128.Idx) := by
  obtain ⟨e0, e1, e2⟩ := idx5_6 t
  funext a; apply Fin.ext
  match a with
  | ⟨0, _⟩ => show win5_6.index t (0 : Fin 3) * 64 + 1 * r.val = (t.val + 4) * 64 + r.val; omega
  | ⟨1, _⟩ => show win5_6.index t (1 : Fin 3) * 200 + 1 * l.val = l.val; omega
  | ⟨2, _⟩ => show win5_6.index t (2 : Fin 3) * 128 + 1 * k.val = k.val; omega

/-- Block `t` of the result's array at the region's exit is what point `t` stored: `out5_6` of the input blocks. -/
theorem exit5_blk (c : Dev nD) (t : Fin cfg5.N) (y : S64x200x128.Idx) :
    (dat5 V c).arrAt 6 cfg5.N (((cfg5.win 6).blk t).view.emb y) = out5_6 (iblk5 V c 0 t) (iblk5 V c 1 t) (iblk5 V c 2 t) (iblk5 V c 3 t) (iblk5 V c 4 t) (iblk5 V c 5 t) y := by
  refine ((dat5 V c).arrAt_emb_eq_flushed 6 hdisj5 t (flush5_6 t) y).trans ?_
  rw [cast_eq]
  show (cfg5.win 6).cut (grid5.coords t) ((dat5 V c).after 6 t) y = _
  rw [after5_6]
  rfl

/-- A row outside the region's quarter [256, 512) holds at the exit what it held at the entry. -/
theorem exit5_rest (c : Dev nD) (i : S1024x200x128.Idx) (hi : (i 0).val < 256 ∨ 512 ≤ (i 0).val) :
    (dat5 V c).arrAt 6 cfg5.N i = V c (Pipeline.arrRef spec5 6) i := by
  rw [(dat5 V c).arrAt_apply_of_forall_not_mem 6 cfg5.N i (fun t _ _ hmem => by
    have h1 := mem_blk5_row t i hmem
    have ht : t.val < 4 := lt_of_lt_of_eq t.isLt N_5
    omega), A_eq5]

end Val5

/-! ## Region 2: what its exit leaves in the result's array -/

section Val6
variable (V : (c : Dev nD) → (b : Ref sig .tc) → Buf (Elt F) ((c : Thread nD τ).loc b))

/-- The output window's block index at point `t`, decided over the grid: block `t + 8` of the first axis. -/
theorem idx6_6 : ∀ t : Fin cfg6.N, win6_6.index t (0 : Fin 3) = t.val + 8 ∧ win6_6.index t (1 : Fin 3) = 0 ∧ win6_6.index t (2 : Fin 3) = 0 :=
  (by decide +kernel : ∀ t : Fin grid6.N, _)

/-- An index of the result's array is in point `t`'s block iff each coordinate is in the block's range on its axis. -/
theorem mem_blk6 (t : Fin cfg6.N) (i : S1024x200x128.Idx) :
    i ∈ ((cfg6.win 6).blk t).view.set ↔ ∀ a : Fin 3, win6_6.index t a * S64x200x128.size a ≤ (i a).val ∧ (i a).val < win6_6.index t a * S64x200x128.size a + S64x200x128.size a := by
  show i ∈ ((View.whole main_v15).slice (win6_6.rect t)).set ↔ _
  rw [View.set_slice_whole, Rect.mem_set_unit]
  exact Iff.rfl

/-- So its first coordinate is one of the 64 rows from `(t + 8) * 64`. -/
theorem mem_blk6_row (t : Fin cfg6.N) (i : S1024x200x128.Idx) (hi : i ∈ ((cfg6.win 6).blk t).view.set) :
    (t.val + 8) * 64 ≤ (i 0).val ∧ (i 0).val < (t.val + 8) * 64 + 64 := by
  rw [mem_blk6] at hi
  have b0 : win6_6.index t (0 : Fin 3) * 64 ≤ (i 0).val ∧ (i 0).val < win6_6.index t (0 : Fin 3) * 64 + 64 := hi 0
  obtain ⟨e0, -, -⟩ := idx6_6 t
  omega

/-- Two points' blocks do not meet. -/
theorem hdisj6 : ∀ t t' : Fin cfg6.N, (cfg6.win 6).flush t = true → (cfg6.win 6).flush t' = true → t ≠ t' →
    Disjoint ((cfg6.win 6).blk t).view.set ((cfg6.win 6).blk t').view.set := fun t t' _ _ hne =>
  Finset.disjoint_left.mpr fun i hi hi' => by
    have h1 := mem_blk6_row t i hi
    have h2 := mem_blk6_row t' i hi'
    exact hne (Fin.ext (by omega))

/-- The element of point `t`'s block at local index (r, l, k) sits in the array at row `(t + 8) * 64 + r`. -/
theorem emb6 (t : Fin cfg6.N) (r : Fin 64) (l : Fin 200) (k : Fin 128) (hb : (t.val + 8) * 64 + r.val < 1024) :
    ((cfg6.win 6).blk t).view.emb (ix3 r l k : S64x200x128.Idx) = (ix3 ⟨(t.val + 8) * 64 + r.val, hb⟩ l k : S1024x200x128.Idx) := by
  obtain ⟨e0, e1, e2⟩ := idx6_6 t
  funext a; apply Fin.ext
  match a with
  | ⟨0, _⟩ => show win6_6.index t (0 : Fin 3) * 64 + 1 * r.val = (t.val + 8) * 64 + r.val; omega
  | ⟨1, _⟩ => show win6_6.index t (1 : Fin 3) * 200 + 1 * l.val = l.val; omega
  | ⟨2, _⟩ => show win6_6.index t (2 : Fin 3) * 128 + 1 * k.val = k.val; omega

/-- Block `t` of the result's array at the region's exit is what point `t` stored: `out6_6` of the input blocks. -/
theorem exit6_blk (c : Dev nD) (t : Fin cfg6.N) (y : S64x200x128.Idx) :
    (dat6 V c).arrAt 6 cfg6.N (((cfg6.win 6).blk t).view.emb y) = out6_6 (iblk6 V c 0 t) (iblk6 V c 1 t) (iblk6 V c 2 t) (iblk6 V c 3 t) (iblk6 V c 4 t) (iblk6 V c 5 t) y := by
  refine ((dat6 V c).arrAt_emb_eq_flushed 6 hdisj6 t (flush6_6 t) y).trans ?_
  rw [cast_eq]
  show (cfg6.win 6).cut (grid6.coords t) ((dat6 V c).after 6 t) y = _
  rw [after6_6]
  rfl

/-- A row outside the region's quarter [512, 768) holds at the exit what it held at the entry. -/
theorem exit6_rest (c : Dev nD) (i : S1024x200x128.Idx) (hi : (i 0).val < 512 ∨ 768 ≤ (i 0).val) :
    (dat6 V c).arrAt 6 cfg6.N i = V c (Pipeline.arrRef spec6 6) i := by
  rw [(dat6 V c).arrAt_apply_of_forall_not_mem 6 cfg6.N i (fun t _ _ hmem => by
    have h1 := mem_blk6_row t i hmem
    have ht : t.val < 4 := lt_of_lt_of_eq t.isLt N_6
    omega), A_eq6]

end Val6

/-! ## Region 3: what its exit leaves in the result's array -/

section Val7
variable (V : (c : Dev nD) → (b : Ref sig .tc) → Buf (Elt F) ((c : Thread nD τ).loc b))

/-- The output window's block index at point `t`, decided over the grid: block `t + 12` of the first axis. -/
theorem idx7_6 : ∀ t : Fin cfg7.N, win7_6.index t (0 : Fin 3) = t.val + 12 ∧ win7_6.index t (1 : Fin 3) = 0 ∧ win7_6.index t (2 : Fin 3) = 0 :=
  (by decide +kernel : ∀ t : Fin grid7.N, _)

/-- An index of the result's array is in point `t`'s block iff each coordinate is in the block's range on its axis. -/
theorem mem_blk7 (t : Fin cfg7.N) (i : S1024x200x128.Idx) :
    i ∈ ((cfg7.win 6).blk t).view.set ↔ ∀ a : Fin 3, win7_6.index t a * S64x200x128.size a ≤ (i a).val ∧ (i a).val < win7_6.index t a * S64x200x128.size a + S64x200x128.size a := by
  show i ∈ ((View.whole main_v16).slice (win7_6.rect t)).set ↔ _
  rw [View.set_slice_whole, Rect.mem_set_unit]
  exact Iff.rfl

/-- So its first coordinate is one of the 64 rows from `(t + 12) * 64`. -/
theorem mem_blk7_row (t : Fin cfg7.N) (i : S1024x200x128.Idx) (hi : i ∈ ((cfg7.win 6).blk t).view.set) :
    (t.val + 12) * 64 ≤ (i 0).val ∧ (i 0).val < (t.val + 12) * 64 + 64 := by
  rw [mem_blk7] at hi
  have b0 : win7_6.index t (0 : Fin 3) * 64 ≤ (i 0).val ∧ (i 0).val < win7_6.index t (0 : Fin 3) * 64 + 64 := hi 0
  obtain ⟨e0, -, -⟩ := idx7_6 t
  omega

/-- Two points' blocks do not meet. -/
theorem hdisj7 : ∀ t t' : Fin cfg7.N, (cfg7.win 6).flush t = true → (cfg7.win 6).flush t' = true → t ≠ t' →
    Disjoint ((cfg7.win 6).blk t).view.set ((cfg7.win 6).blk t').view.set := fun t t' _ _ hne =>
  Finset.disjoint_left.mpr fun i hi hi' => by
    have h1 := mem_blk7_row t i hi
    have h2 := mem_blk7_row t' i hi'
    exact hne (Fin.ext (by omega))

/-- The element of point `t`'s block at local index (r, l, k) sits in the array at row `(t + 12) * 64 + r`. -/
theorem emb7 (t : Fin cfg7.N) (r : Fin 64) (l : Fin 200) (k : Fin 128) (hb : (t.val + 12) * 64 + r.val < 1024) :
    ((cfg7.win 6).blk t).view.emb (ix3 r l k : S64x200x128.Idx) = (ix3 ⟨(t.val + 12) * 64 + r.val, hb⟩ l k : S1024x200x128.Idx) := by
  obtain ⟨e0, e1, e2⟩ := idx7_6 t
  funext a; apply Fin.ext
  match a with
  | ⟨0, _⟩ => show win7_6.index t (0 : Fin 3) * 64 + 1 * r.val = (t.val + 12) * 64 + r.val; omega
  | ⟨1, _⟩ => show win7_6.index t (1 : Fin 3) * 200 + 1 * l.val = l.val; omega
  | ⟨2, _⟩ => show win7_6.index t (2 : Fin 3) * 128 + 1 * k.val = k.val; omega

/-- Block `t` of the result's array at the region's exit is what point `t` stored: `out7_6` of the input blocks. -/
theorem exit7_blk (c : Dev nD) (t : Fin cfg7.N) (y : S64x200x128.Idx) :
    (dat7 V c).arrAt 6 cfg7.N (((cfg7.win 6).blk t).view.emb y) = out7_6 (iblk7 V c 0 t) (iblk7 V c 1 t) (iblk7 V c 2 t) (iblk7 V c 3 t) (iblk7 V c 4 t) (iblk7 V c 5 t) y := by
  refine ((dat7 V c).arrAt_emb_eq_flushed 6 hdisj7 t (flush7_6 t) y).trans ?_
  rw [cast_eq]
  show (cfg7.win 6).cut (grid7.coords t) ((dat7 V c).after 6 t) y = _
  rw [after7_6]
  rfl

/-- A row outside the region's quarter [768, 1024) holds at the exit what it held at the entry. -/
theorem exit7_rest (c : Dev nD) (i : S1024x200x128.Idx) (hi : (i 0).val < 768 ∨ 1024 ≤ (i 0).val) :
    (dat7 V c).arrAt 6 cfg7.N i = V c (Pipeline.arrRef spec7 6) i := by
  rw [(dat7 V c).arrAt_apply_of_forall_not_mem 6 cfg7.N i (fun t _ _ hmem => by
    have h1 := mem_blk7_row t i hmem
    have ht : t.val < 4 := lt_of_lt_of_eq t.isLt N_7
    omega), A_eq7]

end Val7

/-! ## The run: the result's array through the four regions -/

section Chain
variable (Wt : Dev nD → Valuation τ sig (Elt F))

/-! ### Each region's result buffer starts as the previous region's result -/

theorem copy1 (c : Dev nD) : B3 Wt c (Proc.devRef .tc main_v14) = B2 Wt c (Proc.devRef .tc main_v13) := by
  show StableHlo.after [StableHlo.unary main_v13 main_v14 id] (B2 Wt c) (Proc.devRef .tc main_v14) = _
  simp only [StableHlo.after_cons, StableHlo.after_nil]
  rw [StableHlo.unary_result]
  rfl

/-- A row outside region 1's quarter holds after it what the previous region's result held. -/
theorem keep1 (c : Dev nD) (i : S1024x200x128.Idx) (hi : (i 0).val < 256 ∨ 512 ≤ (i 0).val) :
    B4 Wt c (Proc.devRef .tc main_v14) i = B2 Wt c (Proc.devRef .tc main_v13) i :=
  ((congrFun (B4_arr Wt c 6) i).trans (exit5_rest (VB3 Wt) c i hi)).trans (congrFun (copy1 Wt c) i)

theorem copy2 (c : Dev nD) : B5 Wt c (Proc.devRef .tc main_v15) = B4 Wt c (Proc.devRef .tc main_v14) := by
  show StableHlo.after [StableHlo.unary main_v14 main_v15 id] (B4 Wt c) (Proc.devRef .tc main_v15) = _
  simp only [StableHlo.after_cons, StableHlo.after_nil]
  rw [StableHlo.unary_result]
  rfl

/-- A row outside region 2's quarter holds after it what the previous region's result held. -/
theorem keep2 (c : Dev nD) (i : S1024x200x128.Idx) (hi : (i 0).val < 512 ∨ 768 ≤ (i 0).val) :
    B6 Wt c (Proc.devRef .tc main_v15) i = B4 Wt c (Proc.devRef .tc main_v14) i :=
  ((congrFun (B6_arr Wt c 6) i).trans (exit6_rest (VB5 Wt) c i hi)).trans (congrFun (copy2 Wt c) i)

theorem copy3 (c : Dev nD) : B7 Wt c (Proc.devRef .tc main_v16) = B6 Wt c (Proc.devRef .tc main_v15) := by
  show StableHlo.after [StableHlo.unary main_v15 main_v16 id] (B6 Wt c) (Proc.devRef .tc main_v16) = _
  simp only [StableHlo.after_cons, StableHlo.after_nil]
  rw [StableHlo.unary_result]
  rfl

/-- A row outside region 3's quarter holds after it what the previous region's result held. -/
theorem keep3 (c : Dev nD) (i : S1024x200x128.Idx) (hi : (i 0).val < 768 ∨ 1024 ≤ (i 0).val) :
    B8 Wt c (Proc.devRef .tc main_v16) i = B6 Wt c (Proc.devRef .tc main_v15) i :=
  ((congrFun (B8_arr Wt c 6) i).trans (exit7_rest (VB7 Wt) c i hi)).trans (congrFun (copy3 Wt c) i)

/-! ### The result: row `(t + 4 p) * 64 + r` is written by region `p` at point `t` -/

theorem Wend_v16_reg0 (c : Dev nD) (t : Fin cfg4.N) (r : Fin 64) (l : Fin 200) (k : Fin 128) (hb : (t.val + 0) * 64 + r.val < 1024) :
    Wend Wt c (Proc.devRef .tc main_v16) (ix3 ⟨(t.val + 0) * 64 + r.val, hb⟩ l k : S1024x200x128.Idx)
      = out4_6 (iblk4 (VB1 Wt) c 0 t) (iblk4 (VB1 Wt) c 1 t) (iblk4 (VB1 Wt) c 2 t) (iblk4 (VB1 Wt) c 3 t) (iblk4 (VB1 Wt) c 4 t) (iblk4 (VB1 Wt) c 5 t) (ix3 r l k) := by
  have ht : t.val < 4 := lt_of_lt_of_eq t.isLt N_4
  have hr : r.val < 64 := r.isLt
  show B8 Wt c (Proc.devRef .tc main_v16) _ = _
  rw [keep3 Wt c _ (by show (t.val + 0) * 64 + r.val < 768 ∨ 1024 ≤ (t.val + 0) * 64 + r.val; omega)]
  rw [keep2 Wt c _ (by show (t.val + 0) * 64 + r.val < 512 ∨ 768 ≤ (t.val + 0) * 64 + r.val; omega)]
  rw [keep1 Wt c _ (by show (t.val + 0) * 64 + r.val < 256 ∨ 512 ≤ (t.val + 0) * 64 + r.val; omega)]
  rw [← emb4 t r l k hb]
  exact (congrFun (B2_arr Wt c 6) _).trans (exit4_blk (VB1 Wt) c t _)

theorem Wend_v16_reg1 (c : Dev nD) (t : Fin cfg5.N) (r : Fin 64) (l : Fin 200) (k : Fin 128) (hb : (t.val + 4) * 64 + r.val < 1024) :
    Wend Wt c (Proc.devRef .tc main_v16) (ix3 ⟨(t.val + 4) * 64 + r.val, hb⟩ l k : S1024x200x128.Idx)
      = out5_6 (iblk5 (VB3 Wt) c 0 t) (iblk5 (VB3 Wt) c 1 t) (iblk5 (VB3 Wt) c 2 t) (iblk5 (VB3 Wt) c 3 t) (iblk5 (VB3 Wt) c 4 t) (iblk5 (VB3 Wt) c 5 t) (ix3 r l k) := by
  have ht : t.val < 4 := lt_of_lt_of_eq t.isLt N_5
  have hr : r.val < 64 := r.isLt
  show B8 Wt c (Proc.devRef .tc main_v16) _ = _
  rw [keep3 Wt c _ (by show (t.val + 4) * 64 + r.val < 768 ∨ 1024 ≤ (t.val + 4) * 64 + r.val; omega)]
  rw [keep2 Wt c _ (by show (t.val + 4) * 64 + r.val < 512 ∨ 768 ≤ (t.val + 4) * 64 + r.val; omega)]
  rw [← emb5 t r l k hb]
  exact (congrFun (B4_arr Wt c 6) _).trans (exit5_blk (VB3 Wt) c t _)

theorem Wend_v16_reg2 (c : Dev nD) (t : Fin cfg6.N) (r : Fin 64) (l : Fin 200) (k : Fin 128) (hb : (t.val + 8) * 64 + r.val < 1024) :
    Wend Wt c (Proc.devRef .tc main_v16) (ix3 ⟨(t.val + 8) * 64 + r.val, hb⟩ l k : S1024x200x128.Idx)
      = out6_6 (iblk6 (VB5 Wt) c 0 t) (iblk6 (VB5 Wt) c 1 t) (iblk6 (VB5 Wt) c 2 t) (iblk6 (VB5 Wt) c 3 t) (iblk6 (VB5 Wt) c 4 t) (iblk6 (VB5 Wt) c 5 t) (ix3 r l k) := by
  have ht : t.val < 4 := lt_of_lt_of_eq t.isLt N_6
  have hr : r.val < 64 := r.isLt
  show B8 Wt c (Proc.devRef .tc main_v16) _ = _
  rw [keep3 Wt c _ (by show (t.val + 8) * 64 + r.val < 768 ∨ 1024 ≤ (t.val + 8) * 64 + r.val; omega)]
  rw [← emb6 t r l k hb]
  exact (congrFun (B6_arr Wt c 6) _).trans (exit6_blk (VB5 Wt) c t _)

theorem Wend_v16_reg3 (c : Dev nD) (t : Fin cfg7.N) (r : Fin 64) (l : Fin 200) (k : Fin 128) (hb : (t.val + 12) * 64 + r.val < 1024) :
    Wend Wt c (Proc.devRef .tc main_v16) (ix3 ⟨(t.val + 12) * 64 + r.val, hb⟩ l k : S1024x200x128.Idx)
      = out7_6 (iblk7 (VB7 Wt) c 0 t) (iblk7 (VB7 Wt) c 1 t) (iblk7 (VB7 Wt) c 2 t) (iblk7 (VB7 Wt) c 3 t) (iblk7 (VB7 Wt) c 4 t) (iblk7 (VB7 Wt) c 5 t) (ix3 r l k) := by
  have ht : t.val < 4 := lt_of_lt_of_eq t.isLt N_7
  have hr : r.val < 64 := r.isLt
  show B8 Wt c (Proc.devRef .tc main_v16) _ = _
  rw [← emb7 t r l k hb]
  exact (congrFun (B8_arr Wt c 6) _).trans (exit7_blk (VB7 Wt) c t _)

/-! ### The regions' input arrays are the tail's entry contents: nothing before a region writes them -/

theorem Bin0_0 (c : Dev nD) : B1 Wt c (Proc.devRef .tc main_v6) = Wt c (Proc.devRef .tc main_v6) :=
  calc B1 Wt c (Proc.devRef .tc main_v6)
    _ = Wt c (Proc.devRef .tc main_v6) := StableHlo.after_of_forall_not_mem (b := Proc.devRef .tc main_v6) _ _ (List.forall_iff_forall_mem.mp (by
          simp only [hostT0, List.Forall, StableHlo.unary_writes, StableHlo.reshape_writes, Finset.mem_singleton]
          exact StableHlo.devRef_ne_of_ne (by decide)))

theorem Bin0_1 (c : Dev nD) : B1 Wt c (Proc.devRef .tc main_arg1) = Wt c (Proc.devRef .tc main_arg1) :=
  calc B1 Wt c (Proc.devRef .tc main_arg1)
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Bin0_2 (c : Dev nD) : B1 Wt c (Proc.devRef .tc main_v2) = Wt c (Proc.devRef .tc main_v2) :=
  calc B1 Wt c (Proc.devRef .tc main_v2)
    _ = Wt c (Proc.devRef .tc main_v2) := StableHlo.after_of_forall_not_mem (b := Proc.devRef .tc main_v2) _ _ (List.forall_iff_forall_mem.mp (by
          simp only [hostT0, List.Forall, StableHlo.unary_writes, StableHlo.reshape_writes, Finset.mem_singleton]
          exact StableHlo.devRef_ne_of_ne (by decide)))

theorem Bin0_3 (c : Dev nD) : B1 Wt c (Proc.devRef .tc main_arg4) = Wt c (Proc.devRef .tc main_arg4) :=
  calc B1 Wt c (Proc.devRef .tc main_arg4)
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Bin0_4 (c : Dev nD) : B1 Wt c (Proc.devRef .tc main_v3) = Wt c (Proc.devRef .tc main_v3) :=
  calc B1 Wt c (Proc.devRef .tc main_v3)
    _ = Wt c (Proc.devRef .tc main_v3) := StableHlo.after_of_forall_not_mem (b := Proc.devRef .tc main_v3) _ _ (List.forall_iff_forall_mem.mp (by
          simp only [hostT0, List.Forall, StableHlo.unary_writes, StableHlo.reshape_writes, Finset.mem_singleton]
          exact StableHlo.devRef_ne_of_ne (by decide)))

theorem Bin0_5 (c : Dev nD) : B1 Wt c (Proc.devRef .tc main_v4) = Wt c (Proc.devRef .tc main_v4) :=
  calc B1 Wt c (Proc.devRef .tc main_v4)
    _ = Wt c (Proc.devRef .tc main_v4) := StableHlo.after_of_forall_not_mem (b := Proc.devRef .tc main_v4) _ _ (List.forall_iff_forall_mem.mp (by
          simp only [hostT0, List.Forall, StableHlo.unary_writes, StableHlo.reshape_writes, Finset.mem_singleton]
          exact StableHlo.devRef_ne_of_ne (by decide)))

theorem Bin1_0 (c : Dev nD) : B3 Wt c (Proc.devRef .tc main_v8) = Wt c (Proc.devRef .tc main_v8) :=
  calc B3 Wt c (Proc.devRef .tc main_v8)
    _ = B2 Wt c (Proc.devRef .tc main_v8) := StableHlo.after_of_forall_not_mem (b := Proc.devRef .tc main_v8) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v8) := B2_of_ne Wt c main_v8 (by decide)
    _ = Wt c (Proc.devRef .tc main_v8) := StableHlo.after_of_forall_not_mem (b := Proc.devRef .tc main_v8) _ _ (List.forall_iff_forall_mem.mp (by
          simp only [hostT0, List.Forall, StableHlo.unary_writes, StableHlo.reshape_writes, Finset.mem_singleton]
          exact StableHlo.devRef_ne_of_ne (by decide)))

theorem Bin1_1 (c : Dev nD) : B3 Wt c (Proc.devRef .tc main_arg1) = Wt c (Proc.devRef .tc main_arg1) :=
  calc B3 Wt c (Proc.devRef .tc main_arg1)
    _ = B2 Wt c (Proc.devRef .tc main_arg1) := StableHlo.after_of_forall_not_mem (b := Proc.devRef .tc main_arg1) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg1) := (B2_arr Wt c 1).trans (((dat4 (VB1 Wt) c).arrAt_in 1 rfl _).trans (A_eq4 (VB1 Wt) c 1))
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Bin1_2 (c : Dev nD) : B3 Wt c (Proc.devRef .tc main_v2) = Wt c (Proc.devRef .tc main_v2) :=
  calc B3 Wt c (Proc.devRef .tc main_v2)
    _ = B2 Wt c (Proc.devRef .tc main_v2) := StableHlo.after_of_forall_not_mem (b := Proc.devRef .tc main_v2) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v2) := (B2_arr Wt c 2).trans (((dat4 (VB1 Wt) c).arrAt_in 2 rfl _).trans (A_eq4 (VB1 Wt) c 2))
    _ = Wt c (Proc.devRef .tc main_v2) := StableHlo.after_of_forall_not_mem (b := Proc.devRef .tc main_v2) _ _ (List.forall_iff_forall_mem.mp (by
          simp only [hostT0, List.Forall, StableHlo.unary_writes, StableHlo.reshape_writes, Finset.mem_singleton]
          exact StableHlo.devRef_ne_of_ne (by decide)))

theorem Bin1_3 (c : Dev nD) : B3 Wt c (Proc.devRef .tc main_arg4) = Wt c (Proc.devRef .tc main_arg4) :=
  calc B3 Wt c (Proc.devRef .tc main_arg4)
    _ = B2 Wt c (Proc.devRef .tc main_arg4) := StableHlo.after_of_forall_not_mem (b := Proc.devRef .tc main_arg4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg4) := (B2_arr Wt c 3).trans (((dat4 (VB1 Wt) c).arrAt_in 3 rfl _).trans (A_eq4 (VB1 Wt) c 3))
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Bin1_4 (c : Dev nD) : B3 Wt c (Proc.devRef .tc main_v3) = Wt c (Proc.devRef .tc main_v3) :=
  calc B3 Wt c (Proc.devRef .tc main_v3)
    _ = B2 Wt c (Proc.devRef .tc main_v3) := StableHlo.after_of_forall_not_mem (b := Proc.devRef .tc main_v3) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v3) := (B2_arr Wt c 4).trans (((dat4 (VB1 Wt) c).arrAt_in 4 rfl _).trans (A_eq4 (VB1 Wt) c 4))
    _ = Wt c (Proc.devRef .tc main_v3) := StableHlo.after_of_forall_not_mem (b := Proc.devRef .tc main_v3) _ _ (List.forall_iff_forall_mem.mp (by
          simp only [hostT0, List.Forall, StableHlo.unary_writes, StableHlo.reshape_writes, Finset.mem_singleton]
          exact StableHlo.devRef_ne_of_ne (by decide)))

theorem Bin1_5 (c : Dev nD) : B3 Wt c (Proc.devRef .tc main_v4) = Wt c (Proc.devRef .tc main_v4) :=
  calc B3 Wt c (Proc.devRef .tc main_v4)
    _ = B2 Wt c (Proc.devRef .tc main_v4) := StableHlo.after_of_forall_not_mem (b := Proc.devRef .tc main_v4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v4) := (B2_arr Wt c 5).trans (((dat4 (VB1 Wt) c).arrAt_in 5 rfl _).trans (A_eq4 (VB1 Wt) c 5))
    _ = Wt c (Proc.devRef .tc main_v4) := StableHlo.after_of_forall_not_mem (b := Proc.devRef .tc main_v4) _ _ (List.forall_iff_forall_mem.mp (by
          simp only [hostT0, List.Forall, StableHlo.unary_writes, StableHlo.reshape_writes, Finset.mem_singleton]
          exact StableHlo.devRef_ne_of_ne (by decide)))

theorem Bin2_0 (c : Dev nD) : B5 Wt c (Proc.devRef .tc main_v10) = Wt c (Proc.devRef .tc main_v10) :=
  calc B5 Wt c (Proc.devRef .tc main_v10)
    _ = B4 Wt c (Proc.devRef .tc main_v10) := StableHlo.after_of_forall_not_mem (b := Proc.devRef .tc main_v10) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v10) := B4_of_ne Wt c main_v10 (by decide)
    _ = B2 Wt c (Proc.devRef .tc main_v10) := StableHlo.after_of_forall_not_mem (b := Proc.devRef .tc main_v10) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v10) := B2_of_ne Wt c main_v10 (by decide)
    _ = Wt c (Proc.devRef .tc main_v10) := StableHlo.after_of_forall_not_mem (b := Proc.devRef .tc main_v10) _ _ (List.forall_iff_forall_mem.mp (by
          simp only [hostT0, List.Forall, StableHlo.unary_writes, StableHlo.reshape_writes, Finset.mem_singleton]
          exact StableHlo.devRef_ne_of_ne (by decide)))

theorem Bin2_1 (c : Dev nD) : B5 Wt c (Proc.devRef .tc main_arg1) = Wt c (Proc.devRef .tc main_arg1) :=
  calc B5 Wt c (Proc.devRef .tc main_arg1)
    _ = B4 Wt c (Proc.devRef .tc main_arg1) := StableHlo.after_of_forall_not_mem (b := Proc.devRef .tc main_arg1) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg1) := (B4_arr Wt c 1).trans (((dat5 (VB3 Wt) c).arrAt_in 1 rfl _).trans (A_eq5 (VB3 Wt) c 1))
    _ = B2 Wt c (Proc.devRef .tc main_arg1) := StableHlo.after_of_forall_not_mem (b := Proc.devRef .tc main_arg1) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg1) := (B2_arr Wt c 1).trans (((dat4 (VB1 Wt) c).arrAt_in 1 rfl _).trans (A_eq4 (VB1 Wt) c 1))
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Bin2_2 (c : Dev nD) : B5 Wt c (Proc.devRef .tc main_v2) = Wt c (Proc.devRef .tc main_v2) :=
  calc B5 Wt c (Proc.devRef .tc main_v2)
    _ = B4 Wt c (Proc.devRef .tc main_v2) := StableHlo.after_of_forall_not_mem (b := Proc.devRef .tc main_v2) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v2) := (B4_arr Wt c 2).trans (((dat5 (VB3 Wt) c).arrAt_in 2 rfl _).trans (A_eq5 (VB3 Wt) c 2))
    _ = B2 Wt c (Proc.devRef .tc main_v2) := StableHlo.after_of_forall_not_mem (b := Proc.devRef .tc main_v2) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v2) := (B2_arr Wt c 2).trans (((dat4 (VB1 Wt) c).arrAt_in 2 rfl _).trans (A_eq4 (VB1 Wt) c 2))
    _ = Wt c (Proc.devRef .tc main_v2) := StableHlo.after_of_forall_not_mem (b := Proc.devRef .tc main_v2) _ _ (List.forall_iff_forall_mem.mp (by
          simp only [hostT0, List.Forall, StableHlo.unary_writes, StableHlo.reshape_writes, Finset.mem_singleton]
          exact StableHlo.devRef_ne_of_ne (by decide)))

theorem Bin2_3 (c : Dev nD) : B5 Wt c (Proc.devRef .tc main_arg4) = Wt c (Proc.devRef .tc main_arg4) :=
  calc B5 Wt c (Proc.devRef .tc main_arg4)
    _ = B4 Wt c (Proc.devRef .tc main_arg4) := StableHlo.after_of_forall_not_mem (b := Proc.devRef .tc main_arg4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg4) := (B4_arr Wt c 3).trans (((dat5 (VB3 Wt) c).arrAt_in 3 rfl _).trans (A_eq5 (VB3 Wt) c 3))
    _ = B2 Wt c (Proc.devRef .tc main_arg4) := StableHlo.after_of_forall_not_mem (b := Proc.devRef .tc main_arg4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg4) := (B2_arr Wt c 3).trans (((dat4 (VB1 Wt) c).arrAt_in 3 rfl _).trans (A_eq4 (VB1 Wt) c 3))
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Bin2_4 (c : Dev nD) : B5 Wt c (Proc.devRef .tc main_v3) = Wt c (Proc.devRef .tc main_v3) :=
  calc B5 Wt c (Proc.devRef .tc main_v3)
    _ = B4 Wt c (Proc.devRef .tc main_v3) := StableHlo.after_of_forall_not_mem (b := Proc.devRef .tc main_v3) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v3) := (B4_arr Wt c 4).trans (((dat5 (VB3 Wt) c).arrAt_in 4 rfl _).trans (A_eq5 (VB3 Wt) c 4))
    _ = B2 Wt c (Proc.devRef .tc main_v3) := StableHlo.after_of_forall_not_mem (b := Proc.devRef .tc main_v3) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v3) := (B2_arr Wt c 4).trans (((dat4 (VB1 Wt) c).arrAt_in 4 rfl _).trans (A_eq4 (VB1 Wt) c 4))
    _ = Wt c (Proc.devRef .tc main_v3) := StableHlo.after_of_forall_not_mem (b := Proc.devRef .tc main_v3) _ _ (List.forall_iff_forall_mem.mp (by
          simp only [hostT0, List.Forall, StableHlo.unary_writes, StableHlo.reshape_writes, Finset.mem_singleton]
          exact StableHlo.devRef_ne_of_ne (by decide)))

theorem Bin2_5 (c : Dev nD) : B5 Wt c (Proc.devRef .tc main_v4) = Wt c (Proc.devRef .tc main_v4) :=
  calc B5 Wt c (Proc.devRef .tc main_v4)
    _ = B4 Wt c (Proc.devRef .tc main_v4) := StableHlo.after_of_forall_not_mem (b := Proc.devRef .tc main_v4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v4) := (B4_arr Wt c 5).trans (((dat5 (VB3 Wt) c).arrAt_in 5 rfl _).trans (A_eq5 (VB3 Wt) c 5))
    _ = B2 Wt c (Proc.devRef .tc main_v4) := StableHlo.after_of_forall_not_mem (b := Proc.devRef .tc main_v4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v4) := (B2_arr Wt c 5).trans (((dat4 (VB1 Wt) c).arrAt_in 5 rfl _).trans (A_eq4 (VB1 Wt) c 5))
    _ = Wt c (Proc.devRef .tc main_v4) := StableHlo.after_of_forall_not_mem (b := Proc.devRef .tc main_v4) _ _ (List.forall_iff_forall_mem.mp (by
          simp only [hostT0, List.Forall, StableHlo.unary_writes, StableHlo.reshape_writes, Finset.mem_singleton]
          exact StableHlo.devRef_ne_of_ne (by decide)))

theorem Bin3_1 (c : Dev nD) : B7 Wt c (Proc.devRef .tc main_arg1) = Wt c (Proc.devRef .tc main_arg1) :=
  calc B7 Wt c (Proc.devRef .tc main_arg1)
    _ = B6 Wt c (Proc.devRef .tc main_arg1) := StableHlo.after_of_forall_not_mem (b := Proc.devRef .tc main_arg1) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg1) := (B6_arr Wt c 1).trans (((dat6 (VB5 Wt) c).arrAt_in 1 rfl _).trans (A_eq6 (VB5 Wt) c 1))
    _ = B4 Wt c (Proc.devRef .tc main_arg1) := StableHlo.after_of_forall_not_mem (b := Proc.devRef .tc main_arg1) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg1) := (B4_arr Wt c 1).trans (((dat5 (VB3 Wt) c).arrAt_in 1 rfl _).trans (A_eq5 (VB3 Wt) c 1))
    _ = B2 Wt c (Proc.devRef .tc main_arg1) := StableHlo.after_of_forall_not_mem (b := Proc.devRef .tc main_arg1) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg1) := (B2_arr Wt c 1).trans (((dat4 (VB1 Wt) c).arrAt_in 1 rfl _).trans (A_eq4 (VB1 Wt) c 1))
    _ = Wt c (Proc.devRef .tc main_arg1) := StableHlo.after_of_forall_not_mem (b := Proc.devRef .tc main_arg1) _ _ (List.forall_iff_forall_mem.mp (by
          simp only [hostT0, List.Forall, StableHlo.unary_writes, StableHlo.reshape_writes, Finset.mem_singleton]
          exact StableHlo.devRef_ne_of_ne (by decide)))

theorem Bin3_2 (c : Dev nD) : B7 Wt c (Proc.devRef .tc main_v2) = Wt c (Proc.devRef .tc main_v2) :=
  calc B7 Wt c (Proc.devRef .tc main_v2)
    _ = B6 Wt c (Proc.devRef .tc main_v2) := StableHlo.after_of_forall_not_mem (b := Proc.devRef .tc main_v2) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_v2) := (B6_arr Wt c 2).trans (((dat6 (VB5 Wt) c).arrAt_in 2 rfl _).trans (A_eq6 (VB5 Wt) c 2))
    _ = B4 Wt c (Proc.devRef .tc main_v2) := StableHlo.after_of_forall_not_mem (b := Proc.devRef .tc main_v2) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v2) := (B4_arr Wt c 2).trans (((dat5 (VB3 Wt) c).arrAt_in 2 rfl _).trans (A_eq5 (VB3 Wt) c 2))
    _ = B2 Wt c (Proc.devRef .tc main_v2) := StableHlo.after_of_forall_not_mem (b := Proc.devRef .tc main_v2) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v2) := (B2_arr Wt c 2).trans (((dat4 (VB1 Wt) c).arrAt_in 2 rfl _).trans (A_eq4 (VB1 Wt) c 2))
    _ = Wt c (Proc.devRef .tc main_v2) := StableHlo.after_of_forall_not_mem (b := Proc.devRef .tc main_v2) _ _ (List.forall_iff_forall_mem.mp (by
          simp only [hostT0, List.Forall, StableHlo.unary_writes, StableHlo.reshape_writes, Finset.mem_singleton]
          exact StableHlo.devRef_ne_of_ne (by decide)))

theorem Bin3_3 (c : Dev nD) : B7 Wt c (Proc.devRef .tc main_arg4) = Wt c (Proc.devRef .tc main_arg4) :=
  calc B7 Wt c (Proc.devRef .tc main_arg4)
    _ = B6 Wt c (Proc.devRef .tc main_arg4) := StableHlo.after_of_forall_not_mem (b := Proc.devRef .tc main_arg4) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_arg4) := (B6_arr Wt c 3).trans (((dat6 (VB5 Wt) c).arrAt_in 3 rfl _).trans (A_eq6 (VB5 Wt) c 3))
    _ = B4 Wt c (Proc.devRef .tc main_arg4) := StableHlo.after_of_forall_not_mem (b := Proc.devRef .tc main_arg4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_arg4) := (B4_arr Wt c 3).trans (((dat5 (VB3 Wt) c).arrAt_in 3 rfl _).trans (A_eq5 (VB3 Wt) c 3))
    _ = B2 Wt c (Proc.devRef .tc main_arg4) := StableHlo.after_of_forall_not_mem (b := Proc.devRef .tc main_arg4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_arg4) := (B2_arr Wt c 3).trans (((dat4 (VB1 Wt) c).arrAt_in 3 rfl _).trans (A_eq4 (VB1 Wt) c 3))
    _ = Wt c (Proc.devRef .tc main_arg4) := StableHlo.after_of_forall_not_mem (b := Proc.devRef .tc main_arg4) _ _ (List.forall_iff_forall_mem.mp (by
          simp only [hostT0, List.Forall, StableHlo.unary_writes, StableHlo.reshape_writes, Finset.mem_singleton]
          exact StableHlo.devRef_ne_of_ne (by decide)))

theorem Bin3_4 (c : Dev nD) : B7 Wt c (Proc.devRef .tc main_v3) = Wt c (Proc.devRef .tc main_v3) :=
  calc B7 Wt c (Proc.devRef .tc main_v3)
    _ = B6 Wt c (Proc.devRef .tc main_v3) := StableHlo.after_of_forall_not_mem (b := Proc.devRef .tc main_v3) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_v3) := (B6_arr Wt c 4).trans (((dat6 (VB5 Wt) c).arrAt_in 4 rfl _).trans (A_eq6 (VB5 Wt) c 4))
    _ = B4 Wt c (Proc.devRef .tc main_v3) := StableHlo.after_of_forall_not_mem (b := Proc.devRef .tc main_v3) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v3) := (B4_arr Wt c 4).trans (((dat5 (VB3 Wt) c).arrAt_in 4 rfl _).trans (A_eq5 (VB3 Wt) c 4))
    _ = B2 Wt c (Proc.devRef .tc main_v3) := StableHlo.after_of_forall_not_mem (b := Proc.devRef .tc main_v3) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v3) := (B2_arr Wt c 4).trans (((dat4 (VB1 Wt) c).arrAt_in 4 rfl _).trans (A_eq4 (VB1 Wt) c 4))
    _ = Wt c (Proc.devRef .tc main_v3) := StableHlo.after_of_forall_not_mem (b := Proc.devRef .tc main_v3) _ _ (List.forall_iff_forall_mem.mp (by
          simp only [hostT0, List.Forall, StableHlo.unary_writes, StableHlo.reshape_writes, Finset.mem_singleton]
          exact StableHlo.devRef_ne_of_ne (by decide)))

theorem Bin3_5 (c : Dev nD) : B7 Wt c (Proc.devRef .tc main_v4) = Wt c (Proc.devRef .tc main_v4) :=
  calc B7 Wt c (Proc.devRef .tc main_v4)
    _ = B6 Wt c (Proc.devRef .tc main_v4) := StableHlo.after_of_forall_not_mem (b := Proc.devRef .tc main_v4) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_v4) := (B6_arr Wt c 5).trans (((dat6 (VB5 Wt) c).arrAt_in 5 rfl _).trans (A_eq6 (VB5 Wt) c 5))
    _ = B4 Wt c (Proc.devRef .tc main_v4) := StableHlo.after_of_forall_not_mem (b := Proc.devRef .tc main_v4) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v4) := (B4_arr Wt c 5).trans (((dat5 (VB3 Wt) c).arrAt_in 5 rfl _).trans (A_eq5 (VB3 Wt) c 5))
    _ = B2 Wt c (Proc.devRef .tc main_v4) := StableHlo.after_of_forall_not_mem (b := Proc.devRef .tc main_v4) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v4) := (B2_arr Wt c 5).trans (((dat4 (VB1 Wt) c).arrAt_in 5 rfl _).trans (A_eq4 (VB1 Wt) c 5))
    _ = Wt c (Proc.devRef .tc main_v4) := StableHlo.after_of_forall_not_mem (b := Proc.devRef .tc main_v4) _ _ (List.forall_iff_forall_mem.mp (by
          simp only [hostT0, List.Forall, StableHlo.unary_writes, StableHlo.reshape_writes, Finset.mem_singleton]
          exact StableHlo.devRef_ne_of_ne (by decide)))

/-- The last chunk as region 3 finds it: the fourth gathered chunk's 51200 rows read as 256 sequences of 200. -/
theorem Bin3_0 (c : Dev nD) : B7 Wt c (Proc.devRef .tc main_v12) = B1 Wt c (Proc.devRef .tc main_v12) :=
  calc B7 Wt c (Proc.devRef .tc main_v12)
    _ = B6 Wt c (Proc.devRef .tc main_v12) := StableHlo.after_of_forall_not_mem (b := Proc.devRef .tc main_v12) _ _ (List.forall_iff_forall_mem.mp (by
          simp only [hostT3, List.Forall, StableHlo.unary_writes, StableHlo.reshape_writes, Finset.mem_singleton]
          exact StableHlo.devRef_ne_of_ne (by decide)))
    _ = B5 Wt c (Proc.devRef .tc main_v12) := B6_of_ne Wt c main_v12 (by decide)
    _ = B4 Wt c (Proc.devRef .tc main_v12) := StableHlo.after_of_forall_not_mem (b := Proc.devRef .tc main_v12) _ _ (List.forall_iff_forall_mem.mp (by
          simp only [hostT2, List.Forall, StableHlo.unary_writes, StableHlo.reshape_writes, Finset.mem_singleton]
          exact StableHlo.devRef_ne_of_ne (by decide)))
    _ = B3 Wt c (Proc.devRef .tc main_v12) := B4_of_ne Wt c main_v12 (by decide)
    _ = B2 Wt c (Proc.devRef .tc main_v12) := StableHlo.after_of_forall_not_mem (b := Proc.devRef .tc main_v12) _ _ (List.forall_iff_forall_mem.mp (by
          simp only [hostT1, List.Forall, StableHlo.unary_writes, StableHlo.reshape_writes, Finset.mem_singleton]
          exact StableHlo.devRef_ne_of_ne (by decide)))
    _ = B1 Wt c (Proc.devRef .tc main_v12) := B2_of_ne Wt c main_v12 (by decide)

theorem B1_v12 (c : Dev nD) : B1 Wt c (Proc.devRef .tc main_v12)
    = fun i => shapeCast S256x200x128 (Wt c (Proc.devRef .tc main_v11)) shapeCasts_S51200x128_S256x200x128 i := by
  show StableHlo.after [StableHlo.reshape main_v11 main_v12 rfl shapeCasts_S51200x128_S256x200x128] (Wt c) (Proc.devRef .tc main_v12) = _
  simp only [StableHlo.after_cons, StableHlo.after_nil]
  rw [StableHlo.reshape_result]
  rfl

end Chain

end Cert.KernelIdeal.Hand

end
-- ==== Proof.KForm.lean ====
/-
  The kernel's form of the row normalisation, as functions of one row X of 128 extended reals: the mean as the row sum
  times 2^-7, the second moment likewise, the variance as their difference E[X²] − (E X)², and the result
  (X k − E X) · (var + ε)^(-1/2) · γ + β. The token-type row enters as row 0 plus tt times (row 1 − row 0).
-/
import proofs.«203472_g22600117912246_cont_8to1_820_34_alg».proof.Proof.Spec

noncomputable section

namespace Cert.Hand.Spec

open Idealize.ShloMosaic

/-- 2^-7, the kernel's 1/128. -/
def c7 : EReal := Ideal.ofBits .f32 0x3C000000#32
/-- Word entry + position entry + type row 0 + tt · (type row 1 − type row 0). -/
def kx (g p te0 te1 tt : EReal) : EReal := g + p + te0 + tt * (te1 - te0)
def kmean (X : Fin 128 → EReal) : EReal := (∑ j, X j) * c7
def kex2 (X : Fin 128 → EReal) : EReal := (∑ j, X j * X j) * c7
def kvar (X : Fin 128 → EReal) : EReal := kex2 X - kmean X * kmean X
def kout (X : Fin 128 → EReal) (γ β : EReal) (k : Fin 128) : EReal := (X k - kmean X) * Ideal.rsqrt (kvar X + eps) * γ + β

end Cert.Hand.Spec

end
-- ==== Proof.TailPay.lean ====
/-
  The body's stored value read at an index, at the exact values. A row of the block is a sequence position's 128
  summed embeddings X; the two matrix products against the all-ones 128 x 128 matrix are the row sums of X and of its
  squares; so the stored element is (X k - mean) * (var + eps)^(-1/2) * gamma k + beta k with mean = (sum X) * 2^-7 and
  var = (sum X^2) * 2^-7 - mean^2.
-/
import proofs.«203472_g22600117912246_cont_8to1_820_34_alg».proof.Proof.TailValue
import proofs.«203472_g22600117912246_cont_8to1_820_34_alg».proof.Proof.KForm
import Idealize.ShloMosaic.PureOps.Ideal.Laws
import Idealize.ShloMosaic.PureOps.IdealRules
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand.Spec
open scoped BigOperators

/-! ## The contraction's index maps -/

abbrev DD := dot_S12800x128_S128x128_S12800x128_1_0_0_1_n_n

theorem dd_lhs0 (j : S12800x128.Idx) (q : DD.contr.Idx) : (DD.lhsIdx j q 0 : ℕ) = j 0 := by
  simp [DotDims.lhsIdx, DD, dot_S12800x128_S128x128_S12800x128_1_0_0_1_n_n]; rfl
theorem dd_lhs1 (j : S12800x128.Idx) (q : DD.contr.Idx) : (DD.lhsIdx j q 1 : ℕ) = q ⟨0, by decide⟩ := by
  simp [DotDims.lhsIdx, DD, dot_S12800x128_S128x128_S12800x128_1_0_0_1_n_n]; rfl
theorem dd_rhs0 (j : S12800x128.Idx) (q : DD.contr.Idx) : (DD.rhsIdx j q 0 : ℕ) = q ⟨0, by decide⟩ := by
  simp [DotDims.rhsIdx, DD, dot_S12800x128_S128x128_S12800x128_1_0_0_1_n_n]; rfl
theorem dd_rhs1 (j : S12800x128.Idx) (q : DD.contr.Idx) : (DD.rhsIdx j q 1 : ℕ) = j 1 := by
  simp [DotDims.rhsIdx, DD, dot_S12800x128_S128x128_S12800x128_1_0_0_1_n_n]; rfl

/-- The contraction runs over the 128 features. -/
def ddEquiv : DD.contr.Idx ≃ Fin 128 := contrEquiv1 DD 128 (by decide) (by decide)

/-- The bf16 word 0x3F80 is one. -/
theorem one_bf16 : (Scalar.ofBits (F := Ideal) .bf16 0x3F80#16 : EReal) = 1 := IdealRules.sign_bit.ideal_onePat .bf16

/-- A 12800 x 128 matrix times the all-ones 128 x 128 matrix, into zero, read at (i, k): the sum of row i. -/
theorem rowsum (A : FVec Ideal S12800x128 .bf16) (i : Fin 12800) (k : Fin 128) :
    matmul DD none A (broadcast S128x128 (Scalar.ofBits .bf16 0x3F80#16)) (constant S12800x128 .f32 0x00000000#32) (ix2 i k)
      = ∑ j : Fin 128, A (ix2 i j) := by
  simp only [matmul]
  rw [Ideal.matmul_constant_zero_apply, ← Equiv.sum_comp ddEquiv.symm]
  refine Finset.sum_congr rfl fun j _ => ?_
  rw [broadcast_apply, one_bf16, mul_one]
  refine congrArg A (funext fun a => Fin.ext ?_)
  match a with
  | ⟨0, _⟩ => exact dd_lhs0 _ _
  | ⟨1, _⟩ => exact (dd_lhs1 _ _).trans (contrEquiv1_symm_val DD 128 (by decide) (by decide) j)

/-! ## The payload in three stages -/

theorem rsqrt_apply {s : Shape} {φ : FTy} (a : FVec Ideal s φ) (i : s.Idx) : rsqrt a i = Ideal.rsqrt (a i) := rfl

/-- Stage 2: the normalised rows from the summed rows. -/
def nrmOf (v20 : FVec Ideal S12800x128 .f32) : FVec Ideal S12800x128 .f32 :=
  have v21 : FVec Ideal S12800x128 .bf16 := truncf .bf16 v20 bitsLt_bf16_f32
  have v22 : FVec Ideal S128x128 .bf16 := broadcast S128x128 (Scalar.ofBits .bf16 0x3F80#16)
  have v23 : FVec Ideal S12800x128 .f32 := matmul DD none v21 v22 (constant S12800x128 .f32 0x00000000#32)
  have v25 : FVec Ideal S12800x128 .f32 := mulf v23 (broadcast S12800x128 (Scalar.ofBits .f32 0x3C000000#32))
  have v26 : FVec Ideal S12800x128 .bf16 := mulf v21 v21
  have v27 : FVec Ideal S12800x128 .f32 := matmul DD none v26 v22 (constant S12800x128 .f32 0x00000000#32)
  have v29 : FVec Ideal S12800x128 .f32 := mulf v27 (broadcast S12800x128 (Scalar.ofBits .f32 0x3C000000#32))
  have v30 : FVec Ideal S12800x128 .f32 := mulf v25 v25
  have v31 : FVec Ideal S12800x128 .f32 := subf v29 v30
  have v32 : FVec Ideal S12800x128 .f32 := subf v20 v25
  have v34 : FVec Ideal S12800x128 .f32 := addf v31 (broadcast S12800x128 (Scalar.ofBits .f32 0x2B8CBCCC#32))
  have v35 : FVec Ideal S12800x128 .f32 := rsqrt v34
  mulf v32 v35

/-- At row i, feature k: (X k - mean) * (var + eps)^(-1/2), X the row. -/
theorem nrmOf_apply (v20 : FVec Ideal S12800x128 .f32) (i : Fin 12800) (k : Fin 128) :
    nrmOf v20 (ix2 i k) = ((fun j => v20 (ix2 i j)) k - kmean (fun j => v20 (ix2 i j))) * Ideal.rsqrt (kvar (fun j => v20 (ix2 i j)) + eps) := by
  unfold nrmOf
  simp only [mulf_apply, subf_apply, addf_apply, broadcast_apply, rsqrt_apply, rowsum, truncf_apply]
  rfl

/-- Stage 3: times gamma, plus beta, read as 64 sequences of 200 rows. -/
def finOf (v36 : FVec Ideal S12800x128 .f32) (v37 v41 : Vec Ideal S1x128 .f32) : FVec Ideal S64x200x128 .f32 :=
  shapeCast S64x200x128
    (addf (mulf v36 (broadcastTo S12800x128 (shapeCast S1x128 v37 shapeCasts_S1x128_S1x128) broadcasts_S1x128_S12800x128))
      (broadcastTo S12800x128 (shapeCast S1x128 v41 shapeCasts_S1x128_S1x128) broadcasts_S1x128_S12800x128))
    shapeCasts_S12800x128_S64x200x128

theorem finOf_apply (v36 : FVec Ideal S12800x128 .f32) (v37 v41 : Vec Ideal S1x128 .f32) (r : Fin 64) (l : Fin 200) (k : Fin 128)
    (h : r.val * 200 + l.val < 12800) :
    finOf v36 v37 v41 (ix3 r l k) = v36 (ix2 ⟨r.val * 200 + l.val, h⟩ k) * v37 (ix2 0 k) + v41 (ix2 0 k) := by
  unfold finOf
  rw [shapeCast_apply _ _ (ix3 r l k : S64x200x128.Idx) (ix2 ⟨r.val * 200 + l.val, h⟩ k : S12800x128.Idx) (by
    rw [Shape.rowMajor_val_two, Shape.rowMajor_val_three]; rfl)]
  rw [addf_apply, mulf_apply, shapeCast_self, shapeCast_self]
  rw [broadcastTo_apply v37 broadcasts_S1x128_S12800x128 _ (ix2 0 k : S1x128.Idx) (fun a => by
      match a with
      | ⟨0, _⟩ => rfl
      | ⟨1, _⟩ => rfl),
    broadcastTo_apply v41 broadcasts_S1x128_S12800x128 _ (ix2 0 k : S1x128.Idx) (fun a => by
      match a with
      | ⟨0, _⟩ => rfl
      | ⟨1, _⟩ => rfl)]

/-- Stage 1: the summed embeddings of the block (word rows + position rows + type row 0 + token type times the
    difference of the type rows), as 12800 rows. -/
def xsOf (v0 : Vec Ideal S64x200x128 .f32) (v2 : Vec Ideal S1x200x128 .f32) (v6 : Vec Ideal S64x200 .i32) (v9 v11 : Vec Ideal S1x128 .f32) :
    FVec Ideal S12800x128 .f32 :=
  shapeCast S12800x128
    (addf
      (addf
        (addf (shapeCast S64x200x128 v0 shapeCasts_S64x200x128_S64x200x128)
          (broadcastTo S64x200x128 (shapeCast S1x200x128 v2 shapeCasts_S1x200x128_S1x200x128) broadcasts_S1x200x128_S64x200x128))
        (broadcastTo S64x200x128 (shapeCast S1x1x128 v9 shapeCasts_S1x128_S1x1x128) broadcasts_S1x1x128_S64x200x128))
      (mulf
        (broadcastTo S64x200x128 (shapeCast S64x200x1 (sitofp .f32 v6 : FVec Ideal S64x200 .f32) shapeCasts_S64x200_S64x200x1) broadcasts_S64x200x1_S64x200x128)
        (broadcastTo S64x200x128 (subf (shapeCast S1x1x128 v11 shapeCasts_S1x128_S1x1x128) (shapeCast S1x1x128 v9 shapeCasts_S1x128_S1x1x128)) broadcasts_S1x1x128_S64x200x128)))
    shapeCasts_S64x200x128_S12800x128

/-- A row of 128 read with two leading unit axes. -/
theorem cast11_apply (v : Vec Ideal S1x128 .f32) (k : Fin 128) :
    (shapeCast S1x1x128 v shapeCasts_S1x128_S1x1x128 : FVec Ideal S1x1x128 .f32) (ix3 0 0 k) = v (ix2 0 k) :=
  shapeCast_apply _ _ (ix3 0 0 k : S1x1x128.Idx) (ix2 0 k : S1x128.Idx) (by
    rw [Shape.rowMajor_val_two, Shape.rowMajor_val_three]; rfl)

theorem xsOf_apply (v0 : Vec Ideal S64x200x128 .f32) (v2 : Vec Ideal S1x200x128 .f32) (v6 : Vec Ideal S64x200 .i32) (v9 v11 : Vec Ideal S1x128 .f32)
    (r : Fin 64) (l : Fin 200) (k : Fin 128) (h : r.val * 200 + l.val < 12800) :
    xsOf v0 v2 v6 v9 v11 (ix2 ⟨r.val * 200 + l.val, h⟩ k)
      = kx (v0 (ix3 r l k)) (v2 (ix3 0 l k)) (v9 (ix2 0 k)) (v11 (ix2 0 k)) (FloatOps.sitofp (F := Ideal) .f32 (v6 (ix2 r l))) := by
  unfold xsOf
  rw [shapeCast_apply _ _ (ix2 ⟨r.val * 200 + l.val, h⟩ k : S12800x128.Idx) (ix3 r l k : S64x200x128.Idx) (by
    rw [Shape.rowMajor_val_two, Shape.rowMajor_val_three]; rfl)]
  rw [addf_apply, addf_apply, addf_apply, mulf_apply, shapeCast_self, shapeCast_self]
  rw [broadcastTo_apply v2 broadcasts_S1x200x128_S64x200x128 _ (ix3 0 l k : S1x200x128.Idx) (fun a => by
      match a with
      | ⟨0, _⟩ => rfl
      | ⟨1, _⟩ => rfl
      | ⟨2, _⟩ => rfl)]
  rw [broadcastTo_apply (shapeCast S1x1x128 v9 shapeCasts_S1x128_S1x1x128) broadcasts_S1x1x128_S64x200x128 _ (ix3 0 0 k : S1x1x128.Idx) (fun a => by
      match a with
      | ⟨0, _⟩ => rfl
      | ⟨1, _⟩ => rfl
      | ⟨2, _⟩ => rfl)]
  rw [broadcastTo_apply (shapeCast S64x200x1 (sitofp .f32 v6 : FVec Ideal S64x200 .f32) shapeCasts_S64x200_S64x200x1) broadcasts_S64x200x1_S64x200x128 _ (ix3 r l 0 : S64x200x1.Idx) (fun a => by
      match a with
      | ⟨0, _⟩ => rfl
      | ⟨1, _⟩ => rfl
      | ⟨2, _⟩ => rfl)]
  rw [broadcastTo_apply _ broadcasts_S1x1x128_S64x200x128 (ix3 r l k : S64x200x128.Idx) (ix3 0 0 k : S1x1x128.Idx) (fun a => by
      match a with
      | ⟨0, _⟩ => rfl
      | ⟨1, _⟩ => rfl
      | ⟨2, _⟩ => rfl)]
  rw [subf_apply, cast11_apply, cast11_apply]
  rw [shapeCast_apply (sitofp .f32 v6 : FVec Ideal S64x200 .f32) shapeCasts_S64x200_S64x200x1 (ix3 r l 0 : S64x200x1.Idx) (ix2 r l : S64x200.Idx) (by
    rw [Shape.rowMajor_val_two, Shape.rowMajor_val_three]
    show r.val * 200 + l.val = (r.val * 200 + l.val) * 1 + 0
    omega)]
  rfl

/-! ## The partial loads of the two type rows -/

theorem ld_row0 (x3 : Vec Ideal S2x128 .f32) (j : Fin 128) :
    View.ld x3 (Rect.unit (s := S2x128) ![0, 0] S1x128.size inb_S2x128_S1x128_0_0) (ix2 0 j) = x3 (ix2 0 j) := by
  show x3 ((Rect.unit (s := S2x128) ![0, 0] S1x128.size inb_S2x128_S1x128_0_0).emb (ix2 0 j)) = _
  refine congrArg x3 (funext fun a => Fin.ext ?_)
  rw [Rect.emb_apply]
  match a with
  | ⟨0, _⟩ => rfl
  | ⟨1, _⟩ => show 0 + 1 * j.val = j.val; omega

theorem ld_row1 (x3 : Vec Ideal S2x128 .f32) (j : Fin 128) :
    View.ld x3 (Rect.unit (s := S2x128) ![1, 0] S1x128.size inb_S2x128_S1x128_1_0) (ix2 0 j) = x3 (ix2 1 j) := by
  show x3 ((Rect.unit (s := S2x128) ![1, 0] S1x128.size inb_S2x128_S1x128_1_0).emb (ix2 0 j)) = _
  refine congrArg x3 (funext fun a => Fin.ext ?_)
  rw [Rect.emb_apply]
  match a with
  | ⟨0, _⟩ => rfl
  | ⟨1, _⟩ => show 0 + 1 * j.val = j.val; omega

theorem hz3 : (![0, 0, 0] : Fin 3 → Nat) = fun _ => 0 := funext fun a => by fin_cases a <;> rfl
theorem hz2 : (![0, 0] : Fin 2 → Nat) = fun _ => 0 := funext fun a => by fin_cases a <;> rfl

/-! ## Region 0's stored block at an index -/

theorem k4_pay2_eq (v0 : Vec Ideal S64x200x128 .f32) (v2 : Vec Ideal S1x200x128 .f32) (v6 : Vec Ideal S64x200 .i32) (v9 v11 : Vec Ideal S1x128 .f32) :
    k4_pay2 (F := Ideal) v0 v2 v6 v9 v11 = nrmOf (xsOf v0 v2 v6 v9 v11) := rfl
theorem k4_pay1_eq (v36 : FVec Ideal S12800x128 .f32) (v37 v41 : Vec Ideal S1x128 .f32) :
    k4_pay1 (F := Ideal) v36 (k4_pay3 v37) v41 = finOf v36 v37 v41 := rfl

/-- The block the body stores, at sequence r, position l, feature k: the normalisation of the row of summed
    embeddings, times gamma k, plus beta k. -/
theorem out4_6_apply (x0 : Vec Ideal S64x200x128 .f32) (x1 : Vec Ideal S64x200 .i32) (x2 : Vec Ideal S1x200x128 .f32) (x3 : Vec Ideal S2x128 .f32)
    (x4 x5 : Vec Ideal S1x128 .f32) (r : Fin 64) (l : Fin 200) (k : Fin 128) :
    out4_6 (F := Ideal) x0 x1 x2 x3 x4 x5 (ix3 r l k)
      = kout (fun j => kx (x0 (ix3 r l j)) (x2 (ix3 0 l j)) (x3 (ix2 0 j)) (x3 (ix2 1 j)) (FloatOps.sitofp (F := Ideal) .f32 (x1 (ix2 r l))))
          (x4 (ix2 0 k)) (x5 (ix2 0 k)) k := by
  have h : r.val * 200 + l.val < 12800 := by have := r.isLt; have := l.isLt; omega
  unfold out4_6
  rw [View.canon_unit_zero hz3]
  simp only [View.ld_unit_zero (S := S64x200x128) hz3, View.ld_unit_zero (S := S1x200x128) hz3, View.ld_unit_zero (S := S64x200) hz2,
    View.ld_unit_zero (S := S1x128) hz2]
  rw [k4_pay2_eq, k4_pay1_eq, finOf_apply _ _ _ r l k h, nrmOf_apply]
  have e0 : ∀ j : Fin 128, View.ld x3 r4_d0 (ix2 0 j) = x3 (ix2 0 j) := fun j => ld_row0 x3 j
  have e1 : ∀ j : Fin 128, View.ld x3 r4_d1 (ix2 0 j) = x3 (ix2 1 j) := fun j => ld_row1 x3 j
  simp only [xsOf_apply _ _ _ _ _ r l _ h, e0, e1]
  rfl

/-! ## Region 0's input blocks read at an index -/

section In4
variable {F : FTy → Type} [FloatOps F]
variable (V : (c : Dev nD) → (b : Ref sig .tc) → Buf (Elt F) ((c : Thread nD τ).loc b))

/-- The input windows' block indices at point `t`, decided over the grid: the chunk's block `t`, the token types'
    block `t + 0`, the four constant windows at block zero. -/
theorem idx4_in : ∀ t : Fin cfg4.N,
    win4_0.index t (0 : Fin 3) = t.val ∧ win4_0.index t (1 : Fin 3) = 0 ∧ win4_0.index t (2 : Fin 3) = 0
    ∧ win4_1.index t (0 : Fin 2) = t.val + 0 ∧ win4_1.index t (1 : Fin 2) = 0
    ∧ win4_2.index t (0 : Fin 3) = 0 ∧ win4_2.index t (1 : Fin 3) = 0 ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem iblk4_0_apply (c : Dev nD) (t : Fin cfg4.N) (r : Fin 64) (l : Fin 200) (j : Fin 128) (hc : t.val * 64 + r.val < 256) :
    iblk4 V c 0 t (ix3 r l j : S64x200x128.Idx) = V c (Pipeline.arrRef spec4 0) (ix3 ⟨t.val * 64 + r.val, hc⟩ l j : S256x200x128.Idx) := by
  obtain ⟨e0, e1, e2, -⟩ := idx4_in t
  show V c (Pipeline.arrRef spec4 0) (((cfg4.win 0).blk t).view.emb (ix3 r l j : S64x200x128.Idx)) = _
  refine congrArg (V c (Pipeline.arrRef spec4 0)) (funext fun a => Fin.ext ?_)
  match a with
  | ⟨0, _⟩ => show win4_0.index t (0 : Fin 3) * 64 + 1 * r.val = t.val * 64 + r.val; omega
  | ⟨1, _⟩ => show win4_0.index t (1 : Fin 3) * 200 + 1 * l.val = l.val; omega
  | ⟨2, _⟩ => show win4_0.index t (2 : Fin 3) * 128 + 1 * j.val = j.val; omega

theorem iblk4_1_apply (c : Dev nD) (t : Fin cfg4.N) (r : Fin 64) (l : Fin 200) (hb : (t.val + 0) * 64 + r.val < 1024) :
    iblk4 V c 1 t (ix2 r l : S64x200.Idx) = V c (Pipeline.arrRef spec4 1) (ix2 ⟨(t.val + 0) * 64 + r.val, hb⟩ l : S1024x200.Idx) := by
  obtain ⟨-, -, -, e0, e1, -⟩ := idx4_in t
  show V c (Pipeline.arrRef spec4 1) (((cfg4.win 1).blk t).view.emb (ix2 r l : S64x200.Idx)) = _
  refine congrArg (V c (Pipeline.arrRef spec4 1)) (funext fun a => Fin.ext ?_)
  match a with
  | ⟨0, _⟩ => show win4_1.index t (0 : Fin 2) * 64 + 1 * r.val = (t.val + 0) * 64 + r.val; omega
  | ⟨1, _⟩ => show win4_1.index t (1 : Fin 2) * 200 + 1 * l.val = l.val; omega

theorem iblk4_2_apply (c : Dev nD) (t : Fin cfg4.N) (y : S1x200x128.Idx) :
    iblk4 V c 2 t y = V c (Pipeline.arrRef spec4 2) y := by
  obtain ⟨-, -, -, -, -, a0, a1, a2, b0, b1, c0, c1, d0, d1⟩ := idx4_in t
  show V c (Pipeline.arrRef spec4 2) (((cfg4.win 2).blk t).view.emb y) = _
  refine congrArg (V c (Pipeline.arrRef spec4 2)) (funext fun a => Fin.ext ?_)
  match a with
  | ⟨0, _⟩ => show win4_2.index t (0 : Fin 3) * 1 + 1 * (y 0).val = (y 0).val; omega
  | ⟨1, _⟩ => show win4_2.index t (1 : Fin 3) * 200 + 1 * (y 1).val = (y 1).val; omega
  | ⟨2, _⟩ => show win4_2.index t (2 : Fin 3) * 128 + 1 * (y 2).val = (y 2).val; omega

theorem iblk4_3_apply (c : Dev nD) (t : Fin cfg4.N) (y : S2x128.Idx) :
    iblk4 V c 3 t y = V c (Pipeline.arrRef spec4 3) y := by
  obtain ⟨-, -, -, -, -, a0, a1, a2, b0, b1, c0, c1, d0, d1⟩ := idx4_in t
  show V c (Pipeline.arrRef spec4 3) (((cfg4.win 3).blk t).view.emb y) = _
  refine congrArg (V c (Pipeline.arrRef spec4 3)) (funext fun a => Fin.ext ?_)
  match a with
  | ⟨0, _⟩ => show win4_3.index t (0 : Fin 2) * 2 + 1 * (y 0).val = (y 0).val; omega
  | ⟨1, _⟩ => show win4_3.index t (1 : Fin 2) * 128 + 1 * (y 1).val = (y 1).val; omega

theorem iblk4_4_apply (c : Dev nD) (t : Fin cfg4.N) (y : S1x128.Idx) :
    iblk4 V c 4 t y = V c (Pipeline.arrRef spec4 4) y := by
  obtain ⟨-, -, -, -, -, a0, a1, a2, b0, b1, c0, c1, d0, d1⟩ := idx4_in t
  show V c (Pipeline.arrRef spec4 4) (((cfg4.win 4).blk t).view.emb y) = _
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem iblk4_5_apply (c : Dev nD) (t : Fin cfg4.N) (y : S1x128.Idx) :
    iblk4 V c 5 t y = V c (Pipeline.arrRef spec4 5) y := by
  obtain ⟨-, -, -, -, -, a0, a1, a2, b0, b1, c0, c1, d0, d1⟩ := idx4_in t
  show V c (Pipeline.arrRef spec4 5) (((cfg4.win 5).blk t).view.emb y) = _
  refine congrArg (V c (Pipeline.arrRef spec4 5)) (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

end In4

/-! ## Region 1's stored block at an index -/

theorem k5_pay2_eq (v0 : Vec Ideal S64x200x128 .f32) (v2 : Vec Ideal S1x200x128 .f32) (v6 : Vec Ideal S64x200 .i32) (v9 v11 : Vec Ideal S1x128 .f32) :
    k5_pay2 (F := Ideal) v0 v2 v6 v9 v11 = nrmOf (xsOf v0 v2 v6 v9 v11) := rfl
theorem k5_pay1_eq (v36 : FVec Ideal S12800x128 .f32) (v37 v41 : Vec Ideal S1x128 .f32) :
    k5_pay1 (F := Ideal) v36 (k5_pay3 v37) v41 = finOf v36 v37 v41 := rfl

/-- The block the body stores, at sequence r, position l, feature k: the normalisation of the row of summed
    embeddings, times gamma k, plus beta k. -/
theorem out5_6_apply (x0 : Vec Ideal S64x200x128 .f32) (x1 : Vec Ideal S64x200 .i32) (x2 : Vec Ideal S1x200x128 .f32) (x3 : Vec Ideal S2x128 .f32)
    (x4 x5 : Vec Ideal S1x128 .f32) (r : Fin 64) (l : Fin 200) (k : Fin 128) :
    out5_6 (F := Ideal) x0 x1 x2 x3 x4 x5 (ix3 r l k)
      = kout (fun j => kx (x0 (ix3 r l j)) (x2 (ix3 0 l j)) (x3 (ix2 0 j)) (x3 (ix2 1 j)) (FloatOps.sitofp (F := Ideal) .f32 (x1 (ix2 r l))))
          (x4 (ix2 0 k)) (x5 (ix2 0 k)) k := by
  have h : r.val * 200 + l.val < 12800 := by have := r.isLt; have := l.isLt; omega
  unfold out5_6
  rw [View.canon_unit_zero hz3]
  simp only [View.ld_unit_zero (S := S64x200x128) hz3, View.ld_unit_zero (S := S1x200x128) hz3, View.ld_unit_zero (S := S64x200) hz2,
    View.ld_unit_zero (S := S1x128) hz2]
  rw [k5_pay2_eq, k5_pay1_eq, finOf_apply _ _ _ r l k h, nrmOf_apply]
  have e0 : ∀ j : Fin 128, View.ld x3 r5_d0 (ix2 0 j) = x3 (ix2 0 j) := fun j => ld_row0 x3 j
  have e1 : ∀ j : Fin 128, View.ld x3 r5_d1 (ix2 0 j) = x3 (ix2 1 j) := fun j => ld_row1 x3 j
  simp only [xsOf_apply _ _ _ _ _ r l _ h, e0, e1]
  rfl

/-! ## Region 1's input blocks read at an index -/

section In5
variable {F : FTy → Type} [FloatOps F]
variable (V : (c : Dev nD) → (b : Ref sig .tc) → Buf (Elt F) ((c : Thread nD τ).loc b))

/-- The input windows' block indices at point `t`, decided over the grid: the chunk's block `t`, the token types'
    block `t + 4`, the four constant windows at block zero. -/
theorem idx5_in : ∀ t : Fin cfg5.N,
    win5_0.index t (0 : Fin 3) = t.val ∧ win5_0.index t (1 : Fin 3) = 0 ∧ win5_0.index t (2 : Fin 3) = 0
    ∧ win5_1.index t (0 : Fin 2) = t.val + 4 ∧ win5_1.index t (1 : Fin 2) = 0
    ∧ win5_2.index t (0 : Fin 3) = 0 ∧ win5_2.index t (1 : Fin 3) = 0 ∧ win5_2.index t (2 : Fin 3) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem iblk5_0_apply (c : Dev nD) (t : Fin cfg5.N) (r : Fin 64) (l : Fin 200) (j : Fin 128) (hc : t.val * 64 + r.val < 256) :
    iblk5 V c 0 t (ix3 r l j : S64x200x128.Idx) = V c (Pipeline.arrRef spec5 0) (ix3 ⟨t.val * 64 + r.val, hc⟩ l j : S256x200x128.Idx) := by
  obtain ⟨e0, e1, e2, -⟩ := idx5_in t
  show V c (Pipeline.arrRef spec5 0) (((cfg5.win 0).blk t).view.emb (ix3 r l j : S64x200x128.Idx)) = _
  refine congrArg (V c (Pipeline.arrRef spec5 0)) (funext fun a => Fin.ext ?_)
  match a with
  | ⟨0, _⟩ => show win5_0.index t (0 : Fin 3) * 64 + 1 * r.val = t.val * 64 + r.val; omega
  | ⟨1, _⟩ => show win5_0.index t (1 : Fin 3) * 200 + 1 * l.val = l.val; omega
  | ⟨2, _⟩ => show win5_0.index t (2 : Fin 3) * 128 + 1 * j.val = j.val; omega

theorem iblk5_1_apply (c : Dev nD) (t : Fin cfg5.N) (r : Fin 64) (l : Fin 200) (hb : (t.val + 4) * 64 + r.val < 1024) :
    iblk5 V c 1 t (ix2 r l : S64x200.Idx) = V c (Pipeline.arrRef spec5 1) (ix2 ⟨(t.val + 4) * 64 + r.val, hb⟩ l : S1024x200.Idx) := by
  obtain ⟨-, -, -, e0, e1, -⟩ := idx5_in t
  show V c (Pipeline.arrRef spec5 1) (((cfg5.win 1).blk t).view.emb (ix2 r l : S64x200.Idx)) = _
  refine congrArg (V c (Pipeline.arrRef spec5 1)) (funext fun a => Fin.ext ?_)
  match a with
  | ⟨0, _⟩ => show win5_1.index t (0 : Fin 2) * 64 + 1 * r.val = (t.val + 4) * 64 + r.val; omega
  | ⟨1, _⟩ => show win5_1.index t (1 : Fin 2) * 200 + 1 * l.val = l.val; omega

theorem iblk5_2_apply (c : Dev nD) (t : Fin cfg5.N) (y : S1x200x128.Idx) :
    iblk5 V c 2 t y = V c (Pipeline.arrRef spec5 2) y := by
  obtain ⟨-, -, -, -, -, a0, a1, a2, b0, b1, c0, c1, d0, d1⟩ := idx5_in t
  show V c (Pipeline.arrRef spec5 2) (((cfg5.win 2).blk t).view.emb y) = _
  refine congrArg (V c (Pipeline.arrRef spec5 2)) (funext fun a => Fin.ext ?_)
  match a with
  | ⟨0, _⟩ => show win5_2.index t (0 : Fin 3) * 1 + 1 * (y 0).val = (y 0).val; omega
  | ⟨1, _⟩ => show win5_2.index t (1 : Fin 3) * 200 + 1 * (y 1).val = (y 1).val; omega
  | ⟨2, _⟩ => show win5_2.index t (2 : Fin 3) * 128 + 1 * (y 2).val = (y 2).val; omega

theorem iblk5_3_apply (c : Dev nD) (t : Fin cfg5.N) (y : S2x128.Idx) :
    iblk5 V c 3 t y = V c (Pipeline.arrRef spec5 3) y := by
  obtain ⟨-, -, -, -, -, a0, a1, a2, b0, b1, c0, c1, d0, d1⟩ := idx5_in t
  show V c (Pipeline.arrRef spec5 3) (((cfg5.win 3).blk t).view.emb y) = _
  refine congrArg (V c (Pipeline.arrRef spec5 3)) (funext fun a => Fin.ext ?_)
  match a with
  | ⟨0, _⟩ => show win5_3.index t (0 : Fin 2) * 2 + 1 * (y 0).val = (y 0).val; omega
  | ⟨1, _⟩ => show win5_3.index t (1 : Fin 2) * 128 + 1 * (y 1).val = (y 1).val; omega

theorem iblk5_4_apply (c : Dev nD) (t : Fin cfg5.N) (y : S1x128.Idx) :
    iblk5 V c 4 t y = V c (Pipeline.arrRef spec5 4) y := by
  obtain ⟨-, -, -, -, -, a0, a1, a2, b0, b1, c0, c1, d0, d1⟩ := idx5_in t
  show V c (Pipeline.arrRef spec5 4) (((cfg5.win 4).blk t).view.emb y) = _
  refine congrArg (V c (Pipeline.arrRef spec5 4)) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

theorem iblk5_5_apply (c : Dev nD) (t : Fin cfg5.N) (y : S1x128.Idx) :
    iblk5 V c 5 t y = V c (Pipeline.arrRef spec5 5) y := by
  obtain ⟨-, -, -, -, -, a0, a1, a2, b0, b1, c0, c1, d0, d1⟩ := idx5_in t
  show V c (Pipeline.arrRef spec5 5) (((cfg5.win 5).blk t).view.emb y) = _
  refine congrArg (V c (Pipeline.arrRef spec5 5)) (funext fun a => Fin.ext ?_)
  match a with
  | ⟨0, _⟩ => show win5_5.index t (0 : Fin 2) * 1 + 1 * (y 0).val = (y 0).val; omega
  | ⟨1, _⟩ => show win5_5.index t (1 : Fin 2) * 128 + 1 * (y 1).val = (y 1).val; omega

end In5

/-! ## Region 2's stored block at an index -/

theorem k6_pay2_eq (v0 : Vec Ideal S64x200x128 .f32) (v2 : Vec Ideal S1x200x128 .f32) (v6 : Vec Ideal S64x200 .i32) (v9 v11 : Vec Ideal S1x128 .f32) :
    k6_pay2 (F := Ideal) v0 v2 v6 v9 v11 = nrmOf (xsOf v0 v2 v6 v9 v11) := rfl
theorem k6_pay1_eq (v36 : FVec Ideal S12800x128 .f32) (v37 v41 : Vec Ideal S1x128 .f32) :
    k6_pay1 (F := Ideal) v36 (k6_pay3 v37) v41 = finOf v36 v37 v41 := rfl

/-- The block the body stores, at sequence r, position l, feature k: the normalisation of the row of summed
    embeddings, times gamma k, plus beta k. -/
theorem out6_6_apply (x0 : Vec Ideal S64x200x128 .f32) (x1 : Vec Ideal S64x200 .i32) (x2 : Vec Ideal S1x200x128 .f32) (x3 : Vec Ideal S2x128 .f32)
    (x4 x5 : Vec Ideal S1x128 .f32) (r : Fin 64) (l : Fin 200) (k : Fin 128) :
    out6_6 (F := Ideal) x0 x1 x2 x3 x4 x5 (ix3 r l k)
      = kout (fun j => kx (x0 (ix3 r l j)) (x2 (ix3 0 l j)) (x3 (ix2 0 j)) (x3 (ix2 1 j)) (FloatOps.sitofp (F := Ideal) .f32 (x1 (ix2 r l))))
          (x4 (ix2 0 k)) (x5 (ix2 0 k)) k := by
  have h : r.val * 200 + l.val < 12800 := by have := r.isLt; have := l.isLt; omega
  unfold out6_6
  rw [View.canon_unit_zero hz3]
  simp only [View.ld_unit_zero (S := S64x200x128) hz3, View.ld_unit_zero (S := S1x200x128) hz3, View.ld_unit_zero (S := S64x200) hz2,
    View.ld_unit_zero (S := S1x128) hz2]
  rw [k6_pay2_eq, k6_pay1_eq, finOf_apply _ _ _ r l k h, nrmOf_apply]
  have e0 : ∀ j : Fin 128, View.ld x3 r6_d0 (ix2 0 j) = x3 (ix2 0 j) := fun j => ld_row0 x3 j
  have e1 : ∀ j : Fin 128, View.ld x3 r6_d1 (ix2 0 j) = x3 (ix2 1 j) := fun j => ld_row1 x3 j
  simp only [xsOf_apply _ _ _ _ _ r l _ h, e0, e1]
  rfl

/-! ## Region 2's input blocks read at an index -/

section In6
variable {F : FTy → Type} [FloatOps F]
variable (V : (c : Dev nD) → (b : Ref sig .tc) → Buf (Elt F) ((c : Thread nD τ).loc b))

/-- The input windows' block indices at point `t`, decided over the grid: the chunk's block `t`, the token types'
    block `t + 8`, the four constant windows at block zero. -/
theorem idx6_in : ∀ t : Fin cfg6.N,
    win6_0.index t (0 : Fin 3) = t.val ∧ win6_0.index t (1 : Fin 3) = 0 ∧ win6_0.index t (2 : Fin 3) = 0
    ∧ win6_1.index t (0 : Fin 2) = t.val + 8 ∧ win6_1.index t (1 : Fin 2) = 0
    ∧ win6_2.index t (0 : Fin 3) = 0 ∧ win6_2.index t (1 : Fin 3) = 0 ∧ win6_2.index t (2 : Fin 3) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

theorem iblk6_0_apply (c : Dev nD) (t : Fin cfg6.N) (r : Fin 64) (l : Fin 200) (j : Fin 128) (hc : t.val * 64 + r.val < 256) :
    iblk6 V c 0 t (ix3 r l j : S64x200x128.Idx) = V c (Pipeline.arrRef spec6 0) (ix3 ⟨t.val * 64 + r.val, hc⟩ l j : S256x200x128.Idx) := by
  obtain ⟨e0, e1, e2, -⟩ := idx6_in t
  show V c (Pipeline.arrRef spec6 0) (((cfg6.win 0).blk t).view.emb (ix3 r l j : S64x200x128.Idx)) = _
  refine congrArg (V c (Pipeline.arrRef spec6 0)) (funext fun a => Fin.ext ?_)
  match a with
  | ⟨0, _⟩ => show win6_0.index t (0 : Fin 3) * 64 + 1 * r.val = t.val * 64 + r.val; omega
  | ⟨1, _⟩ => show win6_0.index t (1 : Fin 3) * 200 + 1 * l.val = l.val; omega
  | ⟨2, _⟩ => show win6_0.index t (2 : Fin 3) * 128 + 1 * j.val = j.val; omega

theorem iblk6_1_apply (c : Dev nD) (t : Fin cfg6.N) (r : Fin 64) (l : Fin 200) (hb : (t.val + 8) * 64 + r.val < 1024) :
    iblk6 V c 1 t (ix2 r l : S64x200.Idx) = V c (Pipeline.arrRef spec6 1) (ix2 ⟨(t.val + 8) * 64 + r.val, hb⟩ l : S1024x200.Idx) := by
  obtain ⟨-, -, -, e0, e1, -⟩ := idx6_in t
  show V c (Pipeline.arrRef spec6 1) (((cfg6.win 1).blk t).view.emb (ix2 r l : S64x200.Idx)) = _
  refine congrArg (V c (Pipeline.arrRef spec6 1)) (funext fun a => Fin.ext ?_)
  match a with
  | ⟨0, _⟩ => show win6_1.index t (0 : Fin 2) * 64 + 1 * r.val = (t.val + 8) * 64 + r.val; omega
  | ⟨1, _⟩ => show win6_1.index t (1 : Fin 2) * 200 + 1 * l.val = l.val; omega

theorem iblk6_2_apply (c : Dev nD) (t : Fin cfg6.N) (y : S1x200x128.Idx) :
    iblk6 V c 2 t y = V c (Pipeline.arrRef spec6 2) y := by
  obtain ⟨-, -, -, -, -, a0, a1, a2, b0, b1, c0, c1, d0, d1⟩ := idx6_in t
  show V c (Pipeline.arrRef spec6 2) (((cfg6.win 2).blk t).view.emb y) = _
  refine congrArg (V c (Pipeline.arrRef spec6 2)) (funext fun a => Fin.ext ?_)
  match a with
  | ⟨0, _⟩ => show win6_2.index t (0 : Fin 3) * 1 + 1 * (y 0).val = (y 0).val; omega
  | ⟨1, _⟩ => show win6_2.index t (1 : Fin 3) * 200 + 1 * (y 1).val = (y 1).val; omega
  | ⟨2, _⟩ => show win6_2.index t (2 : Fin 3) * 128 + 1 * (y 2).val = (y 2).val; omega

theorem iblk6_3_apply (c : Dev nD) (t : Fin cfg6.N) (y : S2x128.Idx) :
    iblk6 V c 3 t y = V c (Pipeline.arrRef spec6 3) y := by
  obtain ⟨-, -, -, -, -, a0, a1, a2, b0, b1, c0, c1, d0, d1⟩ := idx6_in t
  show V c (Pipeline.arrRef spec6 3) (((cfg6.win 3).blk t).view.emb y) = _
  refine congrArg (V c (Pipeline.arrRef spec6 3)) (funext fun a => Fin.ext ?_)
  match a with
  | ⟨0, _⟩ => show win6_3.index t (0 : Fin 2) * 2 + 1 * (y 0).val = (y 0).val; omega
  | ⟨1, _⟩ => show win6_3.index t (1 : Fin 2) * 128 + 1 * (y 1).val = (y 1).val; omega

theorem iblk6_4_apply (c : Dev nD) (t : Fin cfg6.N) (y : S1x128.Idx) :
    iblk6 V c 4 t y = V c (Pipeline.arrRef spec6 4) y := by
  obtain ⟨-, -, -, -, -, a0, a1, a2, b0, b1, c0, c1, d0, d1⟩ := idx6_in t
  show V c (Pipeline.arrRef spec6 4) (((cfg6.win 4).blk t).view.emb y) = _
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

theorem iblk6_5_apply (c : Dev nD) (t : Fin cfg6.N) (y : S1x128.Idx) :
    iblk6 V c 5 t y = V c (Pipeline.arrRef spec6 5) y := by
  obtain ⟨-, -, -, -, -, a0, a1, a2, b0, b1, c0, c1, d0, d1⟩ := idx6_in t
  show V c (Pipeline.arrRef spec6 5) (((cfg6.win 5).blk t).view.emb y) = _
  refine congrArg (V c (Pipeline.arrRef spec6 5)) (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

end In6

/-! ## Region 3's stored block at an index -/

theorem k7_pay2_eq (v0 : Vec Ideal S64x200x128 .f32) (v2 : Vec Ideal S1x200x128 .f32) (v6 : Vec Ideal S64x200 .i32) (v9 v11 : Vec Ideal S1x128 .f32) :
    k7_pay2 (F := Ideal) v0 v2 v6 v9 v11 = nrmOf (xsOf v0 v2 v6 v9 v11) := rfl
theorem k7_pay1_eq (v36 : FVec Ideal S12800x128 .f32) (v37 v41 : Vec Ideal S1x128 .f32) :
    k7_pay1 (F := Ideal) v36 (k7_pay3 v37) v41 = finOf v36 v37 v41 := rfl

/-- The block the body stores, at sequence r, position l, feature k: the normalisation of the row of summed
    embeddings, times gamma k, plus beta k. -/
theorem out7_6_apply (x0 : Vec Ideal S64x200x128 .f32) (x1 : Vec Ideal S64x200 .i32) (x2 : Vec Ideal S1x200x128 .f32) (x3 : Vec Ideal S2x128 .f32)
    (x4 x5 : Vec Ideal S1x128 .f32) (r : Fin 64) (l : Fin 200) (k : Fin 128) :
    out7_6 (F := Ideal) x0 x1 x2 x3 x4 x5 (ix3 r l k)
      = kout (fun j => kx (x0 (ix3 r l j)) (x2 (ix3 0 l j)) (x3 (ix2 0 j)) (x3 (ix2 1 j)) (FloatOps.sitofp (F := Ideal) .f32 (x1 (ix2 r l))))
          (x4 (ix2 0 k)) (x5 (ix2 0 k)) k := by
  have h : r.val * 200 + l.val < 12800 := by have := r.isLt; have := l.isLt; omega
  unfold out7_6
  rw [View.canon_unit_zero hz3]
  simp only [View.ld_unit_zero (S := S64x200x128) hz3, View.ld_unit_zero (S := S1x200x128) hz3, View.ld_unit_zero (S := S64x200) hz2,
    View.ld_unit_zero (S := S1x128) hz2]
  rw [k7_pay2_eq, k7_pay1_eq, finOf_apply _ _ _ r l k h, nrmOf_apply]
  have e0 : ∀ j : Fin 128, View.ld x3 r7_d0 (ix2 0 j) = x3 (ix2 0 j) := fun j => ld_row0 x3 j
  have e1 : ∀ j : Fin 128, View.ld x3 r7_d1 (ix2 0 j) = x3 (ix2 1 j) := fun j => ld_row1 x3 j
  simp only [xsOf_apply _ _ _ _ _ r l _ h, e0, e1]
  rfl

/-! ## Region 3's input blocks read at an index -/

section In7
variable {F : FTy → Type} [FloatOps F]
variable (V : (c : Dev nD) → (b : Ref sig .tc) → Buf (Elt F) ((c : Thread nD τ).loc b))

/-- The input windows' block indices at point `t`, decided over the grid: the chunk's block `t`, the token types'
    block `t + 12`, the four constant windows at block zero. -/
theorem idx7_in : ∀ t : Fin cfg7.N,
    win7_0.index t (0 : Fin 3) = t.val ∧ win7_0.index t (1 : Fin 3) = 0 ∧ win7_0.index t (2 : Fin 3) = 0
    ∧ win7_1.index t (0 : Fin 2) = t.val + 12 ∧ win7_1.index t (1 : Fin 2) = 0
    ∧ win7_2.index t (0 : Fin 3) = 0 ∧ win7_2.index t (1 : Fin 3) = 0 ∧ win7_2.index t (2 : Fin 3) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

theorem iblk7_0_apply (c : Dev nD) (t : Fin cfg7.N) (r : Fin 64) (l : Fin 200) (j : Fin 128) (hc : t.val * 64 + r.val < 256) :
    iblk7 V c 0 t (ix3 r l j : S64x200x128.Idx) = V c (Pipeline.arrRef spec7 0) (ix3 ⟨t.val * 64 + r.val, hc⟩ l j : S256x200x128.Idx) := by
  obtain ⟨e0, e1, e2, -⟩ := idx7_in t
  show V c (Pipeline.arrRef spec7 0) (((cfg7.win 0).blk t).view.emb (ix3 r l j : S64x200x128.Idx)) = _
  refine congrArg (V c (Pipeline.arrRef spec7 0)) (funext fun a => Fin.ext ?_)
  match a with
  | ⟨0, _⟩ => show win7_0.index t (0 : Fin 3) * 64 + 1 * r.val = t.val * 64 + r.val; omega
  | ⟨1, _⟩ => show win7_0.index t (1 : Fin 3) * 200 + 1 * l.val = l.val; omega
  | ⟨2, _⟩ => show win7_0.index t (2 : Fin 3) * 128 + 1 * j.val = j.val; omega

theorem iblk7_1_apply (c : Dev nD) (t : Fin cfg7.N) (r : Fin 64) (l : Fin 200) (hb : (t.val + 12) * 64 + r.val < 1024) :
    iblk7 V c 1 t (ix2 r l : S64x200.Idx) = V c (Pipeline.arrRef spec7 1) (ix2 ⟨(t.val + 12) * 64 + r.val, hb⟩ l : S1024x200.Idx) := by
  obtain ⟨-, -, -, e0, e1, -⟩ := idx7_in t
  show V c (Pipeline.arrRef spec7 1) (((cfg7.win 1).blk t).view.emb (ix2 r l : S64x200.Idx)) = _
  refine congrArg (V c (Pipeline.arrRef spec7 1)) (funext fun a => Fin.ext ?_)
  match a with
  | ⟨0, _⟩ => show win7_1.index t (0 : Fin 2) * 64 + 1 * r.val = (t.val + 12) * 64 + r.val; omega
  | ⟨1, _⟩ => show win7_1.index t (1 : Fin 2) * 200 + 1 * l.val = l.val; omega

theorem iblk7_2_apply (c : Dev nD) (t : Fin cfg7.N) (y : S1x200x128.Idx) :
    iblk7 V c 2 t y = V c (Pipeline.arrRef spec7 2) y := by
  obtain ⟨-, -, -, -, -, a0, a1, a2, b0, b1, c0, c1, d0, d1⟩ := idx7_in t
  show V c (Pipeline.arrRef spec7 2) (((cfg7.win 2).blk t).view.emb y) = _
  refine congrArg (V c (Pipeline.arrRef spec7 2)) (funext fun a => Fin.ext ?_)
  match a with
  | ⟨0, _⟩ => show win7_2.index t (0 : Fin 3) * 1 + 1 * (y 0).val = (y 0).val; omega
  | ⟨1, _⟩ => show win7_2.index t (1 : Fin 3) * 200 + 1 * (y 1).val = (y 1).val; omega
  | ⟨2, _⟩ => show win7_2.index t (2 : Fin 3) * 128 + 1 * (y 2).val = (y 2).val; omega

theorem iblk7_3_apply (c : Dev nD) (t : Fin cfg7.N) (y : S2x128.Idx) :
    iblk7 V c 3 t y = V c (Pipeline.arrRef spec7 3) y := by
  obtain ⟨-, -, -, -, -, a0, a1, a2, b0, b1, c0, c1, d0, d1⟩ := idx7_in t
  show V c (Pipeline.arrRef spec7 3) (((cfg7.win 3).blk t).view.emb y) = _
  refine congrArg (V c (Pipeline.arrRef spec7 3)) (funext fun a => Fin.ext ?_)
  match a with
  | ⟨0, _⟩ => show win7_3.index t (0 : Fin 2) * 2 + 1 * (y 0).val = (y 0).val; omega
  | ⟨1, _⟩ => show win7_3.index t (1 : Fin 2) * 128 + 1 * (y 1).val = (y 1).val; omega

theorem iblk7_4_apply (c : Dev nD) (t : Fin cfg7.N) (y : S1x128.Idx) :
    iblk7 V c 4 t y = V c (Pipeline.arrRef spec7 4) y := by
  obtain ⟨-, -, -, -, -, a0, a1, a2, b0, b1, c0, c1, d0, d1⟩ := idx7_in t
  show V c (Pipeline.arrRef spec7 4) (((cfg7.win 4).blk t).view.emb y) = _
  refine congrArg (V c (Pipeline.arrRef spec7 4)) (funext fun a => Fin.ext ?_)
  match a with
  | ⟨0, _⟩ => show win7_4.index t (0 : Fin 2) * 1 + 1 * (y 0).val = (y 0).val; omega
  | ⟨1, _⟩ => show win7_4.index t (1 : Fin 2) * 128 + 1 * (y 1).val = (y 1).val; omega

theorem iblk7_5_apply (c : Dev nD) (t : Fin cfg7.N) (y : S1x128.Idx) :
    iblk7 V c 5 t y = V c (Pipeline.arrRef spec7 5) y := by
  obtain ⟨-, -, -, -, -, a0, a1, a2, b0, b1, c0, c1, d0, d1⟩ := idx7_in t
  show V c (Pipeline.arrRef spec7 5) (((cfg7.win 5).blk t).view.emb y) = _
  refine congrArg (V c (Pipeline.arrRef spec7 5)) (funext fun a => Fin.ext ?_)
  match a with
  | ⟨0, _⟩ => show win7_5.index t (0 : Fin 2) * 1 + 1 * (y 0).val = (y 0).val; omega
  | ⟨1, _⟩ => show win7_5.index t (1 : Fin 2) * 128 + 1 * (y 1).val = (y 1).val; omega

end In7

/-! ## The result, at the exact values, from the contents the tail starts at -/

section Final
variable (Wt : Dev nD → Valuation τ sig (Elt Ideal))

/-- Row `(t + 0) * 64 + r` of the result: region 0, point `t`, local row `r`. -/
theorem Wend_v16_kout0 (c : Dev nD) (t : Fin cfg4.N) (r : Fin 64) (l : Fin 200) (k : Fin 128)
    (hb : (t.val + 0) * 64 + r.val < 1024) (hc : t.val * 64 + r.val < 256) :
    Wend Wt c (Proc.devRef .tc main_v16) (ix3 ⟨(t.val + 0) * 64 + r.val, hb⟩ l k : S1024x200x128.Idx)
      = kout (fun j => kx (Wt c (Proc.devRef .tc main_v6) (ix3 ⟨t.val * 64 + r.val, hc⟩ l j))
            (Wt c (Proc.devRef .tc main_v2) (ix3 0 l j)) (Wt c (Proc.devRef .tc main_arg4) (ix2 0 j)) (Wt c (Proc.devRef .tc main_arg4) (ix2 1 j))
            (FloatOps.sitofp (F := Ideal) .f32 (Wt c (Proc.devRef .tc main_arg1) (ix2 ⟨(t.val + 0) * 64 + r.val, hb⟩ l))))
          (Wt c (Proc.devRef .tc main_v3) (ix2 0 k)) (Wt c (Proc.devRef .tc main_v4) (ix2 0 k)) k := by
  rw [Wend_v16_reg0 Wt c t r l k hb, out4_6_apply]
  have h0 : ∀ j : Fin 128, iblk4 (VB1 Wt) c 0 t (ix3 r l j : S64x200x128.Idx) = Wt c (Proc.devRef .tc main_v6) (ix3 ⟨t.val * 64 + r.val, hc⟩ l j) := fun j =>
    (iblk4_0_apply (VB1 Wt) c t r l j hc).trans (congrFun (Bin0_0 Wt c) _)
  have h1 : iblk4 (VB1 Wt) c 1 t (ix2 r l : S64x200.Idx) = Wt c (Proc.devRef .tc main_arg1) (ix2 ⟨(t.val + 0) * 64 + r.val, hb⟩ l) :=
    (iblk4_1_apply (VB1 Wt) c t r l hb).trans (congrFun (Bin0_1 Wt c) _)
  have h2 : ∀ y, iblk4 (VB1 Wt) c 2 t y = Wt c (Proc.devRef .tc main_v2) y := fun y =>
    (iblk4_2_apply (VB1 Wt) c t y).trans (congrFun (Bin0_2 Wt c) _)
  have h3 : ∀ y, iblk4 (VB1 Wt) c 3 t y = Wt c (Proc.devRef .tc main_arg4) y := fun y =>
    (iblk4_3_apply (VB1 Wt) c t y).trans (congrFun (Bin0_3 Wt c) _)
  have h4 : ∀ y, iblk4 (VB1 Wt) c 4 t y = Wt c (Proc.devRef .tc main_v3) y := fun y =>
    (iblk4_4_apply (VB1 Wt) c t y).trans (congrFun (Bin0_4 Wt c) _)
  have h5 : ∀ y, iblk4 (VB1 Wt) c 5 t y = Wt c (Proc.devRef .tc main_v4) y := fun y =>
    (iblk4_5_apply (VB1 Wt) c t y).trans (congrFun (Bin0_5 Wt c) _)
  simp only [h0, h1, h2, h3, h4, h5]

/-- Row `(t + 4) * 64 + r` of the result: region 1, point `t`, local row `r`. -/
theorem Wend_v16_kout1 (c : Dev nD) (t : Fin cfg5.N) (r : Fin 64) (l : Fin 200) (k : Fin 128)
    (hb : (t.val + 4) * 64 + r.val < 1024) (hc : t.val * 64 + r.val < 256) :
    Wend Wt c (Proc.devRef .tc main_v16) (ix3 ⟨(t.val + 4) * 64 + r.val, hb⟩ l k : S1024x200x128.Idx)
      = kout (fun j => kx (Wt c (Proc.devRef .tc main_v8) (ix3 ⟨t.val * 64 + r.val, hc⟩ l j))
            (Wt c (Proc.devRef .tc main_v2) (ix3 0 l j)) (Wt c (Proc.devRef .tc main_arg4) (ix2 0 j)) (Wt c (Proc.devRef .tc main_arg4) (ix2 1 j))
            (FloatOps.sitofp (F := Ideal) .f32 (Wt c (Proc.devRef .tc main_arg1) (ix2 ⟨(t.val + 4) * 64 + r.val, hb⟩ l))))
          (Wt c (Proc.devRef .tc main_v3) (ix2 0 k)) (Wt c (Proc.devRef .tc main_v4) (ix2 0 k)) k := by
  rw [Wend_v16_reg1 Wt c t r l k hb, out5_6_apply]
  have h0 : ∀ j : Fin 128, iblk5 (VB3 Wt) c 0 t (ix3 r l j : S64x200x128.Idx) = Wt c (Proc.devRef .tc main_v8) (ix3 ⟨t.val * 64 + r.val, hc⟩ l j) := fun j =>
    (iblk5_0_apply (VB3 Wt) c t r l j hc).trans (congrFun (Bin1_0 Wt c) _)
  have h1 : iblk5 (VB3 Wt) c 1 t (ix2 r l : S64x200.Idx) = Wt c (Proc.devRef .tc main_arg1) (ix2 ⟨(t.val + 4) * 64 + r.val, hb⟩ l) :=
    (iblk5_1_apply (VB3 Wt) c t r l hb).trans (congrFun (Bin1_1 Wt c) _)
  have h2 : ∀ y, iblk5 (VB3 Wt) c 2 t y = Wt c (Proc.devRef .tc main_v2) y := fun y =>
    (iblk5_2_apply (VB3 Wt) c t y).trans (congrFun (Bin1_2 Wt c) _)
  have h3 : ∀ y, iblk5 (VB3 Wt) c 3 t y = Wt c (Proc.devRef .tc main_arg4) y := fun y =>
    (iblk5_3_apply (VB3 Wt) c t y).trans (congrFun (Bin1_3 Wt c) _)
  have h4 : ∀ y, iblk5 (VB3 Wt) c 4 t y = Wt c (Proc.devRef .tc main_v3) y := fun y =>
    (iblk5_4_apply (VB3 Wt) c t y).trans (congrFun (Bin1_4 Wt c) _)
  have h5 : ∀ y, iblk5 (VB3 Wt) c 5 t y = Wt c (Proc.devRef .tc main_v4) y := fun y =>
    (iblk5_5_apply (VB3 Wt) c t y).trans (congrFun (Bin1_5 Wt c) _)
  simp only [h0, h1, h2, h3, h4, h5]

/-- Row `(t + 8) * 64 + r` of the result: region 2, point `t`, local row `r`. -/
theorem Wend_v16_kout2 (c : Dev nD) (t : Fin cfg6.N) (r : Fin 64) (l : Fin 200) (k : Fin 128)
    (hb : (t.val + 8) * 64 + r.val < 1024) (hc : t.val * 64 + r.val < 256) :
    Wend Wt c (Proc.devRef .tc main_v16) (ix3 ⟨(t.val + 8) * 64 + r.val, hb⟩ l k : S1024x200x128.Idx)
      = kout (fun j => kx (Wt c (Proc.devRef .tc main_v10) (ix3 ⟨t.val * 64 + r.val, hc⟩ l j))
            (Wt c (Proc.devRef .tc main_v2) (ix3 0 l j)) (Wt c (Proc.devRef .tc main_arg4) (ix2 0 j)) (Wt c (Proc.devRef .tc main_arg4) (ix2 1 j))
            (FloatOps.sitofp (F := Ideal) .f32 (Wt c (Proc.devRef .tc main_arg1) (ix2 ⟨(t.val + 8) * 64 + r.val, hb⟩ l))))
          (Wt c (Proc.devRef .tc main_v3) (ix2 0 k)) (Wt c (Proc.devRef .tc main_v4) (ix2 0 k)) k := by
  rw [Wend_v16_reg2 Wt c t r l k hb, out6_6_apply]
  have h0 : ∀ j : Fin 128, iblk6 (VB5 Wt) c 0 t (ix3 r l j : S64x200x128.Idx) = Wt c (Proc.devRef .tc main_v10) (ix3 ⟨t.val * 64 + r.val, hc⟩ l j) := fun j =>
    (iblk6_0_apply (VB5 Wt) c t r l j hc).trans (congrFun (Bin2_0 Wt c) _)
  have h1 : iblk6 (VB5 Wt) c 1 t (ix2 r l : S64x200.Idx) = Wt c (Proc.devRef .tc main_arg1) (ix2 ⟨(t.val + 8) * 64 + r.val, hb⟩ l) :=
    (iblk6_1_apply (VB5 Wt) c t r l hb).trans (congrFun (Bin2_1 Wt c) _)
  have h2 : ∀ y, iblk6 (VB5 Wt) c 2 t y = Wt c (Proc.devRef .tc main_v2) y := fun y =>
    (iblk6_2_apply (VB5 Wt) c t y).trans (congrFun (Bin2_2 Wt c) _)
  have h3 : ∀ y, iblk6 (VB5 Wt) c 3 t y = Wt c (Proc.devRef .tc main_arg4) y := fun y =>
    (iblk6_3_apply (VB5 Wt) c t y).trans (congrFun (Bin2_3 Wt c) _)
  have h4 : ∀ y, iblk6 (VB5 Wt) c 4 t y = Wt c (Proc.devRef .tc main_v3) y := fun y =>
    (iblk6_4_apply (VB5 Wt) c t y).trans (congrFun (Bin2_4 Wt c) _)
  have h5 : ∀ y, iblk6 (VB5 Wt) c 5 t y = Wt c (Proc.devRef .tc main_v4) y := fun y =>
    (iblk6_5_apply (VB5 Wt) c t y).trans (congrFun (Bin2_5 Wt c) _)
  simp only [h0, h1, h2, h3, h4, h5]

/-- Row `(t + 12) * 64 + r` of the result: region 3, point `t`, local row `r` (the last chunk is the reshape of the fourth gathered chunk: row (t * 64 + r) * 200 + l of its 51200). -/
theorem Wend_v16_kout3 (c : Dev nD) (t : Fin cfg7.N) (r : Fin 64) (l : Fin 200) (k : Fin 128)
    (hb : (t.val + 12) * 64 + r.val < 1024) (hc : t.val * 64 + r.val < 256) :
    Wend Wt c (Proc.devRef .tc main_v16) (ix3 ⟨(t.val + 12) * 64 + r.val, hb⟩ l k : S1024x200x128.Idx)
      = kout (fun j => kx (Wt c (Proc.devRef .tc main_v11) (ix2 ⟨(t.val * 64 + r.val) * 200 + l.val, by have := l.isLt; omega⟩ j))
            (Wt c (Proc.devRef .tc main_v2) (ix3 0 l j)) (Wt c (Proc.devRef .tc main_arg4) (ix2 0 j)) (Wt c (Proc.devRef .tc main_arg4) (ix2 1 j))
            (FloatOps.sitofp (F := Ideal) .f32 (Wt c (Proc.devRef .tc main_arg1) (ix2 ⟨(t.val + 12) * 64 + r.val, hb⟩ l))))
          (Wt c (Proc.devRef .tc main_v3) (ix2 0 k)) (Wt c (Proc.devRef .tc main_v4) (ix2 0 k)) k := by
  rw [Wend_v16_reg3 Wt c t r l k hb, out7_6_apply]
  have h0 : ∀ j : Fin 128, iblk7 (VB7 Wt) c 0 t (ix3 r l j : S64x200x128.Idx) = Wt c (Proc.devRef .tc main_v11) (ix2 ⟨(t.val * 64 + r.val) * 200 + l.val, by have := l.isLt; omega⟩ j) := fun j =>
    ((iblk7_0_apply (VB7 Wt) c t r l j hc).trans (congrFun ((Bin3_0 Wt c).trans (B1_v12 Wt c)) _)).trans
      (shapeCast_apply _ _ (ix3 ⟨t.val * 64 + r.val, hc⟩ l j : S256x200x128.Idx) (ix2 ⟨(t.val * 64 + r.val) * 200 + l.val, by have := l.isLt; omega⟩ j : S51200x128.Idx) (by
        rw [Shape.rowMajor_val_two, Shape.rowMajor_val_three]; rfl))
  have h1 : iblk7 (VB7 Wt) c 1 t (ix2 r l : S64x200.Idx) = Wt c (Proc.devRef .tc main_arg1) (ix2 ⟨(t.val + 12) * 64 + r.val, hb⟩ l) :=
    (iblk7_1_apply (VB7 Wt) c t r l hb).trans (congrFun (Bin3_1 Wt c) _)
  have h2 : ∀ y, iblk7 (VB7 Wt) c 2 t y = Wt c (Proc.devRef .tc main_v2) y := fun y =>
    (iblk7_2_apply (VB7 Wt) c t y).trans (congrFun (Bin3_2 Wt c) _)
  have h3 : ∀ y, iblk7 (VB7 Wt) c 3 t y = Wt c (Proc.devRef .tc main_arg4) y := fun y =>
    (iblk7_3_apply (VB7 Wt) c t y).trans (congrFun (Bin3_3 Wt c) _)
  have h4 : ∀ y, iblk7 (VB7 Wt) c 4 t y = Wt c (Proc.devRef .tc main_v3) y := fun y =>
    (iblk7_4_apply (VB7 Wt) c t y).trans (congrFun (Bin3_4 Wt c) _)
  have h5 : ∀ y, iblk7 (VB7 Wt) c 5 t y = Wt c (Proc.devRef .tc main_v4) y := fun y =>
    (iblk7_5_apply (VB7 Wt) c t y).trans (congrFun (Bin3_5 Wt c) _)
  simp only [h0, h1, h2, h3, h4, h5]

end Final

end Cert.KernelIdeal.Hand

end
-- ==== Proof.TailAt.lean ====
/-
  The result's array at an index of the full batch: sequence b lies in quarter b / 256, which the region of that
  number wrote at point (b % 256) / 64, local row b % 64, from its own gathered chunk at the local sequence b % 256.
-/
import proofs.«203472_g22600117912246_cont_8to1_820_34_alg».proof.Proof.TailPay
import Idealize.ShloMosaic.PureOps.Ideal.Laws
import Idealize.ShloMosaic.PureOps.IdealRules
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand.Spec
open scoped BigOperators

/-! ## The result at sequence b: the quarter b / 256 reads its own chunk -/

section AtB
variable (Wt : Dev nD → Valuation τ sig (Elt Ideal))

/-- The gathered word entry of sequence `b`, position `l`, feature `j`: quarter `b / 256` of the result reads chunk
    `b / 256` at its local sequence `b % 256` (the last chunk through its rows, 200 per sequence). -/
def chunkAt (c : Dev nD) (b : Fin 1024) (l : Fin 200) (j : Fin 128) : EReal :=
  if h0 : b.val < 256 then Wt c (Proc.devRef .tc main_v6) (ix3 ⟨b.val, h0⟩ l j)
  else if h1 : b.val < 512 then Wt c (Proc.devRef .tc main_v8) (ix3 ⟨b.val - 256, by omega⟩ l j)
  else if h2 : b.val < 768 then Wt c (Proc.devRef .tc main_v10) (ix3 ⟨b.val - 512, by omega⟩ l j)
  else Wt c (Proc.devRef .tc main_v11) (ix2 ⟨(b.val - 768) * 200 + l.val, by have := b.isLt; have := l.isLt; omega⟩ j)

theorem Wend_v16_at (c : Dev nD) (b : Fin 1024) (l : Fin 200) (k : Fin 128) :
    Wend Wt c (Proc.devRef .tc main_v16) (ix3 b l k : S1024x200x128.Idx)
      = kout (fun j => kx (chunkAt Wt c b l j)
            (Wt c (Proc.devRef .tc main_v2) (ix3 0 l j)) (Wt c (Proc.devRef .tc main_arg4) (ix2 0 j)) (Wt c (Proc.devRef .tc main_arg4) (ix2 1 j))
            (FloatOps.sitofp (F := Ideal) .f32 (Wt c (Proc.devRef .tc main_arg1) (ix2 b l))))
          (Wt c (Proc.devRef .tc main_v3) (ix2 0 k)) (Wt c (Proc.devRef .tc main_v4) (ix2 0 k)) k := by
  have hbl : b.val < 1024 := b.isLt
  have hll : l.val < 200 := l.isLt
  by_cases h0 : b.val < 256
  · -- quarter 0
    have hch : ∀ j, chunkAt Wt c b l j = Wt c (Proc.devRef .tc main_v6) (ix3 ⟨b.val, h0⟩ l j) := fun j => by
      unfold chunkAt; rw [dif_pos h0]
    let t : Fin cfg4.N := ⟨b.val / 64, lt_of_lt_of_eq (by omega : b.val / 64 < 4) N_4.symm⟩
    let r : Fin 64 := ⟨b.val % 64, by omega⟩
    have hb : (t.val + 0) * 64 + r.val < 1024 := by show (b.val / 64 + 0) * 64 + b.val % 64 < 1024; omega
    have hc : t.val * 64 + r.val < 256 := by show b.val / 64 * 64 + b.val % 64 < 256; omega
    have eb : (⟨(t.val + 0) * 64 + r.val, hb⟩ : Fin 1024) = b := Fin.ext (by show (b.val / 64 + 0) * 64 + b.val % 64 = b.val; omega)
    have e1 : (⟨t.val * 64 + r.val, hc⟩ : Fin 256) = ⟨b.val, h0⟩ := Fin.ext (by show b.val / 64 * 64 + b.val % 64 = b.val; omega)
    have key := Wend_v16_kout0 Wt c t r l k hb hc
    rw [eb, e1] at key
    rw [key]
    simp only [hch]
  by_cases h1 : b.val < 512
  · -- quarter 1
    have hch : ∀ j, chunkAt Wt c b l j = Wt c (Proc.devRef .tc main_v8) (ix3 ⟨b.val - 256, by omega⟩ l j) := fun j => by
      unfold chunkAt; rw [dif_neg h0, dif_pos h1]
    let t : Fin cfg5.N := ⟨(b.val - 256) / 64, lt_of_lt_of_eq (by omega : (b.val - 256) / 64 < 4) N_5.symm⟩
    let r : Fin 64 := ⟨b.val % 64, by omega⟩
    have hb : (t.val + 4) * 64 + r.val < 1024 := by show ((b.val - 256) / 64 + 4) * 64 + b.val % 64 < 1024; omega
    have hc : t.val * 64 + r.val < 256 := by show (b.val - 256) / 64 * 64 + b.val % 64 < 256; omega
    have eb : (⟨(t.val + 4) * 64 + r.val, hb⟩ : Fin 1024) = b := Fin.ext (by show ((b.val - 256) / 64 + 4) * 64 + b.val % 64 = b.val; omega)
    have e1 : (⟨t.val * 64 + r.val, hc⟩ : Fin 256) = ⟨b.val - 256, by omega⟩ := Fin.ext (by show (b.val - 256) / 64 * 64 + b.val % 64 = b.val - 256; omega)
    have key := Wend_v16_kout1 Wt c t r l k hb hc
    rw [eb, e1] at key
    rw [key]
    simp only [hch]
  by_cases h2 : b.val < 768
  · -- quarter 2
    have hch : ∀ j, chunkAt Wt c b l j = Wt c (Proc.devRef .tc main_v10) (ix3 ⟨b.val - 512, by omega⟩ l j) := fun j => by
      unfold chunkAt; rw [dif_neg h0, dif_neg h1, dif_pos h2]
    let t : Fin cfg6.N := ⟨(b.val - 512) / 64, lt_of_lt_of_eq (by omega : (b.val - 512) / 64 < 4) N_6.symm⟩
    let r : Fin 64 := ⟨b.val % 64, by omega⟩
    have hb : (t.val + 8) * 64 + r.val < 1024 := by show ((b.val - 512) / 64 + 8) * 64 + b.val % 64 < 1024; omega
    have hc : t.val * 64 + r.val < 256 := by show (b.val - 512) / 64 * 64 + b.val % 64 < 256; omega
    have eb : (⟨(t.val + 8) * 64 + r.val, hb⟩ : Fin 1024) = b := Fin.ext (by show ((b.val - 512) / 64 + 8) * 64 + b.val % 64 = b.val; omega)
    have e1 : (⟨t.val * 64 + r.val, hc⟩ : Fin 256) = ⟨b.val - 512, by omega⟩ := Fin.ext (by show (b.val - 512) / 64 * 64 + b.val % 64 = b.val - 512; omega)
    have key := Wend_v16_kout2 Wt c t r l k hb hc
    rw [eb, e1] at key
    rw [key]
    simp only [hch]
  · -- quarter 3
    have hch : ∀ j, chunkAt Wt c b l j = Wt c (Proc.devRef .tc main_v11) (ix2 ⟨(b.val - 768) * 200 + l.val, by omega⟩ j) := fun j => by
      unfold chunkAt; rw [dif_neg h0, dif_neg h1, dif_neg h2]
    let t : Fin cfg7.N := ⟨(b.val - 768) / 64, lt_of_lt_of_eq (by omega : (b.val - 768) / 64 < 4) N_7.symm⟩
    let r : Fin 64 := ⟨b.val % 64, by omega⟩
    have hb : (t.val + 12) * 64 + r.val < 1024 := by show ((b.val - 768) / 64 + 12) * 64 + b.val % 64 < 1024; omega
    have hc : t.val * 64 + r.val < 256 := by show (b.val - 768) / 64 * 64 + b.val % 64 < 256; omega
    have eb : (⟨(t.val + 12) * 64 + r.val, hb⟩ : Fin 1024) = b := Fin.ext (by show ((b.val - 768) / 64 + 12) * 64 + b.val % 64 = b.val; omega)
    have e1 : (⟨(t.val * 64 + r.val) * 200 + l.val, by omega⟩ : Fin 51200) = ⟨(b.val - 768) * 200 + l.val, by omega⟩ := Fin.ext (by show ((b.val - 768) / 64 * 64 + b.val % 64) * 200 + l.val = (b.val - 768) * 200 + l.val; omega)
    have key := Wend_v16_kout3 Wt c t r l k hb hc
    rw [eb, e1] at key
    rw [key]
    simp only [hch]

end AtB

end Cert.KernelIdeal.Hand

end
-- ==== Proof.KLaw.lean ====
import proofs.«203472_g22600117912246_cont_8to1_820_34_alg».proof.Proof.KForm
import Idealize.ShloMosaic.PureOps.Ideal.Laws
import Mathlib.Tactic

/-!
# The two forms of the row normalization agree

One row X of 128 real entries. The first form takes the mean as the row sum times 2^-7, the variance as the second
moment minus the squared mean, and multiplies the centred entry by the reciprocal square root of the variance plus ε;
the specification divides the row sum by 128, takes the variance as the mean of the squared deviations, and divides the
centred entry by the square root. The constants are the reals 1/128 and 128; over the reals the two variances are one
number, which is not negative, so with ε positive the argument of the root is a positive real, where multiplying by
the reciprocal root is dividing by the root. Reality of the entries is what lets the sums and products be taken in ℝ.
The type row enters the first form as row 0 plus tt times (row 1 minus row 0): for tt = 0 or 1 that is the selected row.
-/

noncomputable section

open scoped BigOperators

namespace Cert.Hand.Spec

open Idealize.ShloMosaic Idealize.ShloMosaic.ValueIdx

/-! ## The constants -/

/-- The word 0x3C000000 is the real 2^-7 = 1/128. -/
theorem c7_eq : c7 = (((1 : ℝ) / 128 : ℝ) : EReal) := by
  unfold c7
  simp [Ideal.ofBits, Ideal.ieee, -EReal.coe_mul]; norm_num

/-- The word 0x43000000 is the real 128. -/
theorem c128_eq : c128 = ((128 : ℝ) : EReal) := by
  unfold c128
  simp [Ideal.ofBits, Ideal.ieee, -EReal.coe_mul]; norm_num

/-- ε is a positive real. -/
theorem eps_pos : ∃ e : ℝ, 0 < e ∧ eps = (e : EReal) := by
  refine ⟨(9223372 : ℝ) * (2 : ℝ) ^ (-63 : ℤ), by positivity, ?_⟩
  unfold eps
  simp [Ideal.ofBits, Ideal.ieee, -EReal.coe_mul]

/-! ## Sums of reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared deviations from the mean sum to the squares' sum minus 128 squared means. -/
theorem sum_sq_dev (x : Fin 128 → ℝ) (μ : ℝ) (hμ : ∑ j, x j = 128 * μ) :
    ∑ j, (x j - μ) * (x j - μ) = ∑ j, x j * x j - 128 * (μ * μ) := by
  have e : ∀ j, (x j - μ) * (x j - μ) = x j * x j - (2 * μ) * x j + μ * μ := fun j => by ring
  rw [Finset.sum_congr rfl (fun j _ => e j), Finset.sum_add_distrib, Finset.sum_sub_distrib, ← Finset.mul_sum, hμ,
    Finset.sum_const, Finset.card_univ, Fintype.card_fin, nsmul_eq_mul]
  push_cast; ring

/-! ## Both forms on a real row -/

/-- The specification's mean of a real row. -/
theorem mean_coe (x : Fin 128 → ℝ) : mean (fun j => (x j : EReal)) = (((∑ j, x j) / 128 : ℝ) : EReal) := by
  unfold mean
  rw [c128_eq, Ideal.div_coe (by norm_num), ← coe_sum, ← EReal.coe_mul]
  congr 1; ring

/-- The first form's mean of a real row: the same real. -/
theorem kmean_coe (x : Fin 128 → ℝ) : kmean (fun j => (x j : EReal)) = (((∑ j, x j) / 128 : ℝ) : EReal) := by
  unfold kmean
  rw [c7_eq, ← coe_sum, ← EReal.coe_mul]
  congr 1; ring

/-- The variance of a real row, as a real: the second moment minus the squared mean. -/
def rvar (x : Fin 128 → ℝ) : ℝ := (∑ j, x j * x j) / 128 - ((∑ j, x j) / 128) * ((∑ j, x j) / 128)

/-- It is the mean of the squared deviations, so it is not negative. -/
theorem rvar_eq (x : Fin 128 → ℝ) :
    rvar x = (∑ j, (x j - (∑ i, x i) / 128) * (x j - (∑ i, x i) / 128)) / 128 := by
  unfold rvar
  rw [sum_sq_dev x ((∑ i, x i) / 128) (by ring)]
  ring

theorem rvar_nonneg (x : Fin 128 → ℝ) : 0 ≤ rvar x := by
  rw [rvar_eq]
  exact div_nonneg (Finset.sum_nonneg fun j _ => mul_self_nonneg _) (by norm_num)

/-- The first form's variance of a real row. -/
theorem kvar_coe (x : Fin 128 → ℝ) : kvar (fun j => (x j : EReal)) = (rvar x : EReal) := by
  unfold kvar kex2
  rw [kmean_coe]
  show (∑ j, (x j : EReal) * (x j : EReal)) * c7 - _ = _
  rw [c7_eq, Finset.sum_congr rfl (fun j _ => (EReal.coe_mul (x j) (x j)).symm), ← coe_sum, ← EReal.coe_mul,
    ← EReal.coe_mul, ← EReal.coe_sub]
  congr 1; unfold rvar; ring

/-- The specification's variance of a real row: the same real. -/
theorem var_coe (x : Fin 128 → ℝ) : var (fun j => (x j : EReal)) = (rvar x : EReal) := by
  unfold var
  rw [mean_coe x]
  show mean (fun k => ((x k : EReal) - (((∑ j, x j) / 128 : ℝ) : EReal)) * ((x k : EReal) - (((∑ j, x j) / 128 : ℝ) : EReal))) = _
  rw [show (fun k => ((x k : EReal) - (((∑ j, x j) / 128 : ℝ) : EReal)) * ((x k : EReal) - (((∑ j, x j) / 128 : ℝ) : EReal)))
      = fun k => (((x k - (∑ j, x j) / 128) * (x k - (∑ j, x j) / 128) : ℝ) : EReal) from
    funext fun k => by rw [← EReal.coe_sub, ← EReal.coe_mul]]
  rw [mean_coe, rvar_eq]

/-- At a positive real, multiplying by the reciprocal square root is dividing by the square root. -/
theorem mul_rsqrt_eq_div_sqrt (a : EReal) {v : ℝ} (hv : 0 < v) :
    a * Ideal.rsqrt (v : EReal) = Ideal.div a (Ideal.sqrt (v : EReal)) := by
  have hs : Real.sqrt v ≠ 0 := (Real.sqrt_pos.2 hv).ne'
  rw [Ideal.rsqrt_coe, Ideal.sqrt_coe, if_neg (not_lt.2 hv.le), if_neg hv.ne', if_neg (not_lt.2 hv.le),
    Ideal.div_coe hs, one_div]

/-! ## The law -/

/-- On a row of real entries the first form is the specification's. -/
theorem kout_eq (X : Fin 128 → EReal) (hX : ∀ j, ∃ r : ℝ, X j = r) (γ β : EReal) (k : Fin 128) :
    kout X γ β k = Ideal.div (X k - mean X) (Ideal.sqrt (var X + eps)) * γ + β := by
  choose x hx using hX
  obtain rfl : X = fun j => (x j : EReal) := funext hx
  obtain ⟨e, he, hee⟩ := eps_pos
  unfold kout
  rw [kmean_coe, kvar_coe, mean_coe, var_coe, hee, ← EReal.coe_add,
    mul_rsqrt_eq_div_sqrt _ (add_pos_of_nonneg_of_pos (rvar_nonneg x) he)]

/-! ## The type row -/

/-- With tt = 0 the first form's entry is word + position + type row 0. -/
theorem kx_zero (g p t0 t1 : ℝ) : kx g p t0 t1 (0 : EReal) = ((g + p + t0 : ℝ) : EReal) := by
  unfold kx
  rw [zero_mul, add_zero, EReal.coe_add, EReal.coe_add]

/-- With tt = 1 the first form's entry is word + position + type row 1. -/
theorem kx_one (g p t0 t1 : ℝ) : kx g p t0 t1 (1 : EReal) = ((g + p + t1 : ℝ) : EReal) := by
  unfold kx
  rw [one_mul, ← EReal.coe_sub, ← EReal.coe_add, ← EReal.coe_add, ← EReal.coe_add]
  congr 1; ring

/-- For a token type in {0, 1} the first form's entry is word + position + the selected type row. -/
theorem kx_eq (g p t0 t1 : ℝ) :
    kx g p t0 t1 (0 : EReal) = ((g + p + t0 : ℝ) : EReal) ∧ kx g p t0 t1 (1 : EReal) = ((g + p + t1 : ℝ) : EReal) :=
  ⟨kx_zero g p t0 t1, kx_one g p t0 t1⟩

/-! ## Against the specification -/

/-- The summed embeddings of real tables are real. -/
theorem x_real (ids tt : IVec ⟨2, ![1024, 200]⟩ 32) (w : FVec Ideal ⟨2, ![100000, 128]⟩ .f32)
    (p : FVec Ideal ⟨2, ![512, 128]⟩ .f32) (t : FVec Ideal ⟨2, ![2, 128]⟩ .f32)
    (hw : ∀ i, ∃ r : ℝ, w i = r) (hp : ∀ i, ∃ r : ℝ, p i = r) (ht : ∀ i, ∃ r : ℝ, t i = r)
    (b : Fin 1024) (l : Fin 200) (j : Fin 128) : ∃ r : ℝ, x ids tt w p t b l j = r := by
  obtain ⟨r1, h1⟩ := hw (ix2 (rowIx 100000 (by decide) (ids (ix2 b l)).toNat) j)
  obtain ⟨r2, h2⟩ := hp (ix2 (Fin.castLE (by decide : 200 ≤ 512) l) j)
  obtain ⟨r3, h3⟩ := ht (ix2 (rowIx 2 (by decide) (tt (ix2 b l)).toNat) j)
  refine ⟨r1 + r2 + r3, ?_⟩
  unfold x
  rw [h1, h2, h3, EReal.coe_add, EReal.coe_add]

/-- The first form's entries are the specification's summed embeddings, for real tables and a type id in {0, 1}: the
    type id enters the first form as the real its word denotes read signed. -/
theorem kx_eq_x (ids tt : IVec ⟨2, ![1024, 200]⟩ 32) (w : FVec Ideal ⟨2, ![100000, 128]⟩ .f32)
    (p : FVec Ideal ⟨2, ![512, 128]⟩ .f32) (t : FVec Ideal ⟨2, ![2, 128]⟩ .f32)
    (hw : ∀ i, ∃ r : ℝ, w i = r) (hp : ∀ i, ∃ r : ℝ, p i = r) (ht : ∀ i, ∃ r : ℝ, t i = r)
    (b : Fin 1024) (l : Fin 200) (htt : (tt (ix2 b l)).toNat ≤ 1) (j : Fin 128) :
    kx (w (ix2 (rowIx 100000 (by decide) (ids (ix2 b l)).toNat) j)) (p (ix2 (Fin.castLE (by decide : 200 ≤ 512) l) j))
        (t (ix2 (0 : Fin 2) j)) (t (ix2 (1 : Fin 2) j)) (((tt (ix2 b l)).toInt : ℝ) : EReal)
      = x ids tt w p t b l j := by
  obtain ⟨gw, hgw⟩ := hw (ix2 (rowIx 100000 (by decide) (ids (ix2 b l)).toNat) j)
  obtain ⟨pp, hpp⟩ := hp (ix2 (Fin.castLE (by decide : 200 ≤ 512) l) j)
  obtain ⟨t0, ht0⟩ := ht (ix2 (0 : Fin 2) j)
  obtain ⟨t1, ht1⟩ := ht (ix2 (1 : Fin 2) j)
  unfold x
  generalize tt (ix2 b l) = v at htt ⊢
  have e := BitVec.toInt_eq_toNat_cond v
  rw [if_pos (by omega : 2 * v.toNat < 2 ^ 32)] at e
  rcases (by omega : v.toNat = 0 ∨ v.toNat = 1) with h | h
  · have hr : rowIx 2 (by decide) v.toNat = (0 : Fin 2) := Fin.ext (by show min v.toNat (2 - 1) = 0; omega)
    have hi : v.toInt = 0 := by omega
    rw [hr, hi, hgw, hpp, ht0, ht1, Int.cast_zero, EReal.coe_zero, kx_zero, EReal.coe_add, EReal.coe_add]
  · have hr : rowIx 2 (by decide) v.toNat = (1 : Fin 2) := Fin.ext (by show min v.toNat (2 - 1) = 1; omega)
    have hi : v.toInt = 1 := by omega
    rw [hr, hi, hgw, hpp, ht0, ht1, Int.cast_one, EReal.coe_one, kx_one, EReal.coe_add, EReal.coe_add]

/-- The first form on the row at (b, l) is the specification at (b, l, k). -/
theorem kout_eq_G (ids tt : IVec ⟨2, ![1024, 200]⟩ 32) (w : FVec Ideal ⟨2, ![100000, 128]⟩ .f32)
    (p : FVec Ideal ⟨2, ![512, 128]⟩ .f32) (t : FVec Ideal ⟨2, ![2, 128]⟩ .f32)
    (gamma beta : FVec Ideal ⟨1, ![128]⟩ .f32)
    (hw : ∀ i, ∃ r : ℝ, w i = r) (hp : ∀ i, ∃ r : ℝ, p i = r) (ht : ∀ i, ∃ r : ℝ, t i = r)
    (b : Fin 1024) (l : Fin 200) (htt : (tt (ix2 b l)).toNat ≤ 1) (k : Fin 128) :
    kout (fun j => kx (w (ix2 (rowIx 100000 (by decide) (ids (ix2 b l)).toNat) j))
          (p (ix2 (Fin.castLE (by decide : 200 ≤ 512) l) j)) (t (ix2 (0 : Fin 2) j)) (t (ix2 (1 : Fin 2) j))
          (((tt (ix2 b l)).toInt : ℝ) : EReal))
        (gamma (ix1 k)) (beta (ix1 k)) k
      = G ids tt w p t gamma beta b l k := by
  rw [show (fun j => kx (w (ix2 (rowIx 100000 (by decide) (ids (ix2 b l)).toNat) j))
          (p (ix2 (Fin.castLE (by decide : 200 ≤ 512) l) j)) (t (ix2 (0 : Fin 2) j)) (t (ix2 (1 : Fin 2) j))
          (((tt (ix2 b l)).toInt : ℝ) : EReal)) = x ids tt w p t b l from
      funext fun j => kx_eq_x ids tt w p t hw hp ht b l htt j,
    kout_eq _ (x_real ids tt w p t hw hp ht b l)]
  rfl

end Cert.Hand.Spec

end
-- ==== Proof.PreReal.lean ====
import proofs.«203472_g22600117912246_cont_8to1_820_34_alg».proof.Pre_input_domain
import proofs.«203472_g22600117912246_cont_8to1_820_34_alg».proof.Proof.Gen.Pre_input_domain
import Idealize.ShloMosaic.Lib.ReduceAll
import Idealize.ShloMosaic.PureOps.Ideal

/-!
# The input domain's float conjuncts, at the exact values

The first five conjuncts of the input domain say, of each float argument, that every entry's absolute value is below
the word 0x7F800000, which denotes +∞. At the exact values an entry whose absolute value max x (−x) is below +∞ is
neither infinity: it is a real number. So under the input domain every entry of the three tables and of the two
per-feature vectors is a real.
-/

noncomputable section

namespace Cert.Hand.Ref

open Idealize.ShloMosaic Cert.Pre_input_domain

/-- An extended real whose absolute value compares below the word of +∞ is a real. -/
theorem real_of_abs_lt (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  have hlt : max x (-x) < ⊤ := by
    by_contra hn
    have h0 : Ideal.cmp .olt (max x (-x)) ⊤ = 0#1 := by
      unfold Ideal.cmp
      simp [hn]
    rw [h0] at h
    exact absurd h (by decide)
  induction x with
  | bot => simp at hlt
  | coe r => exact ⟨r, rfl⟩
  | top => simp at hlt

/-- Under the input domain, at the exact values, every entry of every float argument is a real. -/
theorem reals_of_fn (a0 a1 : IVec S1024x200 32) (a2 : FVec Ideal S100000x128 .f32) (a3 : FVec Ideal S512x128 .f32)
    (a4 : FVec Ideal S2x128 .f32) (a5 a6 : FVec Ideal S128 .f32)
    (h : Cert.Pre_input_domain.fn (F := Ideal) a0 a1 a2 a3 a4 a5 a6 = fun _ => 1#1) :
    (∀ i, ∃ r : ℝ, a2 i = r) ∧ (∀ i, ∃ r : ℝ, a3 i = r) ∧ (∀ i, ∃ r : ℝ, a4 i = r)
      ∧ (∀ i, ∃ r : ℝ, a5 i = r) ∧ (∀ i, ∃ r : ℝ, a6 i = r) := by
  haveI : Subsingleton S_.Idx := ⟨fun _ _ => funext fun d => d.elim0⟩
  have h := congrFun h (fun d => d.elim0)
  dsimp only [Cert.Pre_input_domain.fn, Cert.Pre_input_domain.fn_part1, Cert.Pre_input_domain.fn_part2] at h
  obtain ⟨h30, -⟩ := IntOp.andi_eq_one.1 h
  obtain ⟨h23, -⟩ := IntOp.andi_eq_one.1 h30
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_abs_lt (a2 i) (Host.reduce_andi_all _ _ _ _ _ h3 i),
    fun i => real_of_abs_lt (a3 i) (Host.reduce_andi_all _ _ _ _ _ h7 i),
    fun i => real_of_abs_lt (a4 i) (Host.reduce_andi_all _ _ _ _ _ h12 i),
    fun i => real_of_abs_lt (a5 i) (Host.reduce_andi_all _ _ _ _ _ h17 i),
    fun i => real_of_abs_lt (a6 i) (Host.reduce_andi_all _ _ _ _ _ h22 i)⟩

end Cert.Hand.Ref

end
-- ==== Proof.KLawPre.lean ====
import proofs.«203472_g22600117912246_cont_8to1_820_34_alg».proof.Proof.KLaw
import proofs.«203472_g22600117912246_cont_8to1_820_34_alg».proof.Proof.PreReal
import proofs.«203472_g22600117912246_cont_8to1_820_34_alg».proof.Proof.PreRange

/-!
# The law under the input domain

Under the input domain, at the exact values, every table entry is a real and every type id is 0 or 1, so the first
form of the row normalization on the row at (b, l) is the specification at (b, l, k).
-/

noncomputable section

namespace Cert.Hand.Spec

open Idealize.ShloMosaic Idealize.ShloMosaic.ValueIdx

/-- Under the input domain the first form on the row at (b, l) is the specification at (b, l, k). -/
theorem kout_eq_G_of_fn (a0 a1 : IVec ⟨2, ![1024, 200]⟩ 32) (a2 : FVec Ideal ⟨2, ![100000, 128]⟩ .f32)
    (a3 : FVec Ideal ⟨2, ![512, 128]⟩ .f32) (a4 : FVec Ideal ⟨2, ![2, 128]⟩ .f32) (a5 a6 : FVec Ideal ⟨1, ![128]⟩ .f32)
    (h : Cert.Pre_input_domain.fn (F := Ideal) a0 a1 a2 a3 a4 a5 a6 = fun _ => 1#1)
    (b : Fin 1024) (l : Fin 200) (k : Fin 128) :
    kout (fun j => kx (a2 (ix2 (rowIx 100000 (by decide) (a0 (ix2 b l)).toNat) j))
          (a3 (ix2 (Fin.castLE (by decide : 200 ≤ 512) l) j)) (a4 (ix2 (0 : Fin 2) j)) (a4 (ix2 (1 : Fin 2) j))
          (((a1 (ix2 b l)).toInt : ℝ) : EReal))
        (a5 (ix1 k)) (a6 (ix1 k)) k
      = G a0 a1 a2 a3 a4 a5 a6 b l k := by
  obtain ⟨h2, h3, h4, -, -⟩ := Cert.Hand.Ref.reals_of_fn a0 a1 a2 a3 a4 a5 a6 h
  exact kout_eq_G a0 a1 a2 a3 a4 a5 a6 h2 h3 h4 b l ((Cert.Hand.Ref.ids_range_of_fn a0 a1 a2 a3 a4 a5 a6 h).2 _) k

end Cert.Hand.Spec

end
-- ==== Proof.KernelValue.lean ====
import proofs.«203472_g22600117912246_cont_8to1_820_34_alg».proof.Proof.HeadValue
import proofs.«203472_g22600117912246_cont_8to1_820_34_alg».proof.Proof.TailAt
import proofs.«203472_g22600117912246_cont_8to1_820_34_alg».proof.Proof.KLawPre

/-!
# The kernel's result is the specification

When the four regions have run from the buffers the head leaves, the result array at (b, l, k) is the first form of
the row normalization on the row at (b, l): the gathered word entries of quarter b / 256, the position rows, the two
type rows and the type id read signed, gamma and beta. Read back to the launch memory — each gathered chunk's row is
the word table's row at its token id, the other buffers are reshapes, a slice, or untouched — and joined by the law
under the input domain, that is the specification G of the seven arguments.
-/

noncomputable section

namespace Cert.KernelIdeal.Hand

open Cert.KernelIdeal Cert.KernelIdeal.Gen
open Idealize.ShloMosaic Idealize.ShloMosaic.ValueIdx
open Cert.Hand.Spec

variable (m : (ℓ : Loc nD τ sig) → Buf (Elt Ideal) ℓ)

/-- Under the input domain every flattened token id names a row of the word table. -/
theorem idsInRange_of_pre (hpre : Cert.Pre_KernelIdeal (hPre_input_domain := Cert.Pre_input_domain.Gen.facts) m) :
    IdsInRange (F := Ideal) m := fun d j => by
  rw [idsB_eq]
  exact (Cert.Hand.Ref.ids_range_of_fn _ _ _ _ _ _ _ (hpre d)).1 _

variable (c : Dev nD) (f0 f1 f2 f3 : S51200x128.Idx → Elt Ideal .f32)

/-- The gathered word entry of sequence b, from the head's buffers: the word table's row at the token id of (b, l). -/
theorem chunkAt_V8 (hI : IdsInRange (F := Ideal) m) (h0 : RowsOK m 0 c Finset.univ f0) (h1 : RowsOK m 1 c Finset.univ f1)
    (h2 : RowsOK m 2 c Finset.univ f2) (h3 : RowsOK m 3 c Finset.univ f3) (b : Fin 1024) (l : Fin 200) (j : Fin 128) :
    chunkAt (fun d' => V8 m d' f0 f1 f2 f3) c b l j
      = m (c, (Proc.devRef .tc main_arg2)) (ix2 (n0 := 100000) (n1 := 128)
          (rowIx 100000 (by decide) (m (c, (Proc.devRef .tc main_arg0)) (ix2 (n0 := 1024) (n1 := 200) b l)).toNat) j) := by
  have hbl := b.isLt
  unfold chunkAt
  by_cases c0 : b.val < 256
  · rw [dif_pos c0]
    show V8 m c f0 f1 f2 f3 (Proc.devRef .tc main_v6) (ix3 (⟨b.val, c0⟩ : Fin 256) l j : S256x200x128.Idx) = _
    rw [V8_v6_apply, h0 _ (Finset.mem_univ _)]
    refine (gathVal_apply m c hI 0 ⟨b.val, c0⟩ l j).trans ?_
    refine congrArg (fun bb : Fin 1024 => m (c, (Proc.devRef .tc main_arg2)) (ix2 (n0 := 100000) (n1 := 128)
      (rowIx 100000 (by decide) (m (c, (Proc.devRef .tc main_arg0)) (ix2 (n0 := 1024) (n1 := 200) bb l)).toNat) j)) (Fin.ext ?_)
    show 256 * 0 + b.val = b.val
    omega
  rw [dif_neg c0]
  by_cases c1 : b.val < 512
  · rw [dif_pos c1]
    show V8 m c f0 f1 f2 f3 (Proc.devRef .tc main_v8) (ix3 (⟨b.val - 256, by omega⟩ : Fin 256) l j : S256x200x128.Idx) = _
    rw [V8_v8_apply, h1 _ (Finset.mem_univ _)]
    refine (gathVal_apply m c hI 1 ⟨b.val - 256, by omega⟩ l j).trans ?_
    refine congrArg (fun bb : Fin 1024 => m (c, (Proc.devRef .tc main_arg2)) (ix2 (n0 := 100000) (n1 := 128)
      (rowIx 100000 (by decide) (m (c, (Proc.devRef .tc main_arg0)) (ix2 (n0 := 1024) (n1 := 200) bb l)).toNat) j)) (Fin.ext ?_)
    show 256 * 1 + (b.val - 256) = b.val
    omega
  rw [dif_neg c1]
  by_cases c2 : b.val < 768
  · rw [dif_pos c2]
    show V8 m c f0 f1 f2 f3 (Proc.devRef .tc main_v10) (ix3 (⟨b.val - 512, by omega⟩ : Fin 256) l j : S256x200x128.Idx) = _
    rw [V8_v10_apply, h2 _ (Finset.mem_univ _)]
    refine (gathVal_apply m c hI 2 ⟨b.val - 512, by omega⟩ l j).trans ?_
    refine congrArg (fun bb : Fin 1024 => m (c, (Proc.devRef .tc main_arg2)) (ix2 (n0 := 100000) (n1 := 128)
      (rowIx 100000 (by decide) (m (c, (Proc.devRef .tc main_arg0)) (ix2 (n0 := 1024) (n1 := 200) bb l)).toNat) j)) (Fin.ext ?_)
    show 256 * 2 + (b.val - 512) = b.val
    omega
  rw [dif_neg c2]
  show V8 m c f0 f1 f2 f3 (Proc.devRef .tc main_v11) (ix2 (n0 := 51200) (n1 := 128) ⟨(b.val - 768) * 200 + l.val, _⟩ j) = _
  rw [V8_v11, h3 _ (Finset.mem_univ _)]
  refine (gathVal_apply m c hI 3 ⟨b.val - 768, by omega⟩ l j).trans ?_
  refine congrArg (fun bb : Fin 1024 => m (c, (Proc.devRef .tc main_arg2)) (ix2 (n0 := 100000) (n1 := 128)
    (rowIx 100000 (by decide) (m (c, (Proc.devRef .tc main_arg0)) (ix2 (n0 := 1024) (n1 := 200) bb l)).toNat) j)) (Fin.ext ?_)
  show 256 * 3 + (b.val - 768) = b.val
  omega

/-- The kernel's result array, from the head's buffers and gathered chunks that agree with the table rows their ids
    name, under the input domain: the specification of the launch memory's seven arguments. -/
theorem kernel_value (hpre : Cert.Pre_KernelIdeal (hPre_input_domain := Cert.Pre_input_domain.Gen.facts) m)
    (h0 : RowsOK m 0 c Finset.univ f0) (h1 : RowsOK m 1 c Finset.univ f1)
    (h2 : RowsOK m 2 c Finset.univ f2) (h3 : RowsOK m 3 c Finset.univ f3) :
    Wend (fun d' => V8 m d' f0 f1 f2 f3) c (Proc.devRef .tc main_v16)
      = fun (i : S1024x200x128.Idx) => G (m (c, (Proc.devRef .tc main_arg0))) (m (c, (Proc.devRef .tc main_arg1))) (m (c, (Proc.devRef .tc main_arg2))) (m (c, (Proc.devRef .tc main_arg3))) (m (c, (Proc.devRef .tc main_arg4))) (m (c, (Proc.devRef .tc main_arg5))) (m (c, (Proc.devRef .tc main_arg6))) (i 0) (i 1) (i 2) := by
  have hI := idsInRange_of_pre m hpre
  funext i
  obtain ⟨b, l, k, rfl⟩ : ∃ (b : Fin 1024) (l : Fin 200) (k : Fin 128), i = ix3 b l k := ⟨i 0, i 1, i 2, eq_ix3 i⟩
  rw [Wend_v16_at]
  show kout (fun j => kx (chunkAt (fun d' => V8 m d' f0 f1 f2 f3) c b l j)
        (V8 m c f0 f1 f2 f3 (Proc.devRef .tc main_v2) (ix3 (0 : Fin 1) l j : S1x200x128.Idx))
        (V8 m c f0 f1 f2 f3 (Proc.devRef .tc main_arg4) (ix2 (0 : Fin 2) j)) (V8 m c f0 f1 f2 f3 (Proc.devRef .tc main_arg4) (ix2 (1 : Fin 2) j))
        (((V8 m c f0 f1 f2 f3 (Proc.devRef .tc main_arg1) (ix2 b l)).toInt : ℝ) : EReal))
      (V8 m c f0 f1 f2 f3 (Proc.devRef .tc main_v3) (ix2 (0 : Fin 1) k : S1x128.Idx))
      (V8 m c f0 f1 f2 f3 (Proc.devRef .tc main_v4) (ix2 (0 : Fin 1) k : S1x128.Idx)) k
    = G (m (c, (Proc.devRef .tc main_arg0))) (m (c, (Proc.devRef .tc main_arg1))) (m (c, (Proc.devRef .tc main_arg2))) (m (c, (Proc.devRef .tc main_arg3))) (m (c, (Proc.devRef .tc main_arg4))) (m (c, (Proc.devRef .tc main_arg5))) (m (c, (Proc.devRef .tc main_arg6))) b l k
  rw [← kout_eq_G_of_fn (m (c, (Proc.devRef .tc main_arg0))) (m (c, (Proc.devRef .tc main_arg1))) (m (c, (Proc.devRef .tc main_arg2))) (m (c, (Proc.devRef .tc main_arg3))) (m (c, (Proc.devRef .tc main_arg4))) (m (c, (Proc.devRef .tc main_arg5))) (m (c, (Proc.devRef .tc main_arg6))) (hpre c) b l k]
  have hX : (fun j => kx (chunkAt (fun d' => V8 m d' f0 f1 f2 f3) c b l j)
        (V8 m c f0 f1 f2 f3 (Proc.devRef .tc main_v2) (ix3 (0 : Fin 1) l j : S1x200x128.Idx))
        (V8 m c f0 f1 f2 f3 (Proc.devRef .tc main_arg4) (ix2 (0 : Fin 2) j)) (V8 m c f0 f1 f2 f3 (Proc.devRef .tc main_arg4) (ix2 (1 : Fin 2) j))
        (((V8 m c f0 f1 f2 f3 (Proc.devRef .tc main_arg1) (ix2 b l)).toInt : ℝ) : EReal))
      = fun j => kx ((m (c, (Proc.devRef .tc main_arg2))) (ix2 (rowIx 100000 (by decide) ((m (c, (Proc.devRef .tc main_arg0))) (ix2 b l)).toNat) j))
          ((m (c, (Proc.devRef .tc main_arg3))) (ix2 (Fin.castLE (by decide : 200 ≤ 512) l) j)) ((m (c, (Proc.devRef .tc main_arg4))) (ix2 (0 : Fin 2) j)) ((m (c, (Proc.devRef .tc main_arg4))) (ix2 (1 : Fin 2) j))
          ((((m (c, (Proc.devRef .tc main_arg1))) (ix2 b l)).toInt : ℝ) : EReal) :=
    funext fun j => by
      rw [chunkAt_V8 m c f0 f1 f2 f3 hI h0 h1 h2 h3 b l j, V8_v2_apply, V8_arg4, V8_arg1]
  rw [hX, V8_v3_apply, V8_v4_apply]

end Cert.KernelIdeal.Hand

end
-- ==== Proof.RefOps.lean ====
import proofs.«203472_g22600117912246_cont_8to1_820_34_alg».proof.Defs
import proofs.«203472_g22600117912246_cont_8to1_820_34_alg».proof.Proof.Gen.ReferenceIdeal
import proofs.«203472_g22600117912246_cont_8to1_820_34_alg».proof.Proof.Gen.Pre_input_domain
import Idealize.ShloMosaic.Lib.StableHlo.Run

/-!
# The reference's operations

The reference is a straight line of host operations: three row lookups (of the word table at the token ids, of the
position table at the positions 0 … 199, of the type table at the type ids), their sum, and a layer normalization
over the last axis (mean, mean of the centred squares, plus ε, square root, divide, scale by gamma, shift by beta).
This module lists the operations in order — the three lookups' bodies written out at their call sites over the
buffers each call names —, shows that @main is that line, and reads the run back: every weakly fair execution
terminates with the result buffer at refOut of the arguments' launch contents and the arguments unchanged. refOut is
the operations' composition as one pure term, for any float values; no precondition is used (host operations are
total).
-/

noncomputable section

namespace Cert.Hand.Ref

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The positions 0 … 199 along the second axis, the same in every row: the index array of the position lookup. -/
def posIds : IVec S1024x200 32 :=
  broadcastInDim S1024x200 ![0, 1] bcast_S1x200_S1024x200_0_1
    (broadcastInDim S1x200 ![1] bcast_S200_S1x200_1 (iotaInDim S200 32 0))

/-- The index array a row lookup gathers at: a negative index is wrapped by adding the table's row count n, any
    other index is kept; then a unit axis is appended. -/
def wrapIdx (n : BitVec 32) (ids : IVec S1024x200 32) : IVec S1024x200x1 32 :=
  broadcastInDim S1024x200x1 ![0, 1] bcast_S1024x200_S1024x200x1_0_1
    (select (cmpi .slt ids (broadcastInDim S1024x200 ![] bcast_S_S1024x200 (constantI S_ 32 0#32)))
      (addi ids (broadcastInDim S1024x200 ![] bcast_S_S1024x200 (constantI S_ 32 n))) ids)

/-- The in-range mask of a row lookup: per position, whether the wrapped index lies between 0 and last. -/
def inRange (last : BitVec 32) (idx : IVec S1024x200x1 32) : IVec S1024x200 1 :=
  Host.reduce IntOp.andi
    (andi (cmpi .sge idx (broadcastInDim S1024x200x1 ![] bcast_S_S1024x200x1 (constantI S_ 32 0#32)))
      (cmpi .sle idx (broadcastInDim S1024x200x1 ![0, 1, 2] bcast_S1x1x1_S1024x200x1_0_1_2
        (broadcastInDim S1x1x1 ![2] bcast_S1_S1x1x1_2 (constantI S1 32 last)))))
    (constantI S_ 1 1#1) reducesTo_S1024x200x1_S1024x200_d2 h_S_

/-- A row lookup of a table with N rows of 128 as the reference prints it: the rows gathered at the wrapped indices
    where the index is in range, the fill value (the word 0x7FC00000) elsewhere. -/
def takeRows {N : Nat} (gd : GatherDims ⟨2, ![N, 128]⟩ S1024x200x1 S1024x200x128) (n last : BitVec 32)
    (x : FVec F ⟨2, ![N, 128]⟩ .f32) (ids : IVec S1024x200 32) : FVec F S1024x200x128 .f32 :=
  select (broadcastInDim S1024x200x128 ![0, 1] bcast_S1024x200_S1024x200x128_0_1 (inRange last (wrapIdx n ids)))
    (Host.gather gd x (wrapIdx n ids))
    (broadcastInDim S1024x200x128 ![] bcast_S_S1024x200x128 (constant S_ .f32 0x7FC00000#32))

/-- The summed embeddings: word rows at the token ids, position rows at the positions, type rows at the type ids. -/
def embSum (a0 a1 : IVec S1024x200 32) (a2 : FVec F S100000x128 .f32) (a3 : FVec F S512x128 .f32)
    (a4 : FVec F S2x128 .f32) : FVec F S1024x200x128 .f32 :=
  addf (addf (takeRows gather_S100000x128_S1024x200x1_S1024x200x128_2_0_n_n_0_2_1128 100000#32 99999#32 a2 a0)
      (takeRows gather_S512x128_S1024x200x1_S1024x200x128_2_0_n_n_0_2_1128 512#32 511#32 a3 posIds))
    (takeRows gather_S2x128_S1024x200x1_S1024x200x128_2_0_n_n_0_2_1128 2#32 1#32 a4 a1)

/-- The mean over the last axis, kept as a unit axis: the sum from zero, divided by 128.0. -/
def rowMean (y : FVec F S1024x200x128 .f32) : FVec F S1024x200x1 .f32 :=
  Host.divf
    (broadcastInDim S1024x200x1 ![0, 1] bcast_S1024x200_S1024x200x1_0_1
      (Host.reduceAdd y (constant S_ .f32 0x00000000#32) reducesTo_S1024x200x128_S1024x200_d2 h_S_))
    (broadcastInDim S1024x200x1 ![] bcast_S_S1024x200x1 (constant S_ .f32 0x43000000#32))

/-- A row minus its mean. -/
def centred (x : FVec F S1024x200x128 .f32) : FVec F S1024x200x128 .f32 :=
  subf x (broadcastInDim S1024x200x128 ![0, 1, 2] bcast_S1024x200x1_S1024x200x128_0_1_2 (rowMean x))

/-- The layer normalization over the last axis: the centred rows divided by the square root of their mean square
    plus ε (the word 0x2B8CBCCC), scaled by gamma and shifted by beta along the last axis. -/
def layerNorm (x : FVec F S1024x200x128 .f32) (gamma beta : FVec F S128 .f32) : FVec F S1024x200x128 .f32 :=
  addf
    (mulf
      (Host.divf (centred x)
        (broadcastInDim S1024x200x128 ![0, 1, 2] bcast_S1024x200x1_S1024x200x128_0_1_2
          (Host.sqrt (addf (rowMean (mulf (centred x) (centred x)))
            (broadcastInDim S1024x200x1 ![] bcast_S_S1024x200x1 (constant S_ .f32 0x2B8CBCCC#32))))))
      (broadcastInDim S1024x200x128 ![0, 1, 2] bcast_S1x1x128_S1024x200x128_0_1_2
        (broadcastInDim S1x1x128 ![2] bcast_S128_S1x1x128_2 gamma)))
    (broadcastInDim S1024x200x128 ![0, 1, 2] bcast_S1x1x128_S1024x200x128_0_1_2
      (broadcastInDim S1x1x128 ![2] bcast_S128_S1x1x128_2 beta))

/-- The reference's result as one pure term of its seven arguments. -/
def refOut (a0 a1 : IVec S1024x200 32) (a2 : FVec F S100000x128 .f32) (a3 : FVec F S512x128 .f32)
    (a4 : FVec F S2x128 .f32) (a5 a6 : FVec F S128 .f32) : FVec F S1024x200x128 .f32 :=
  layerNorm (embSum a0 a1 a2 a3 a4) a5 a6

/-! ## The operations -/

/-- @main's 103 operations in order, the three lookups' bodies (and the index select each of them calls) written
    out at their call sites over the buffers that call names. -/
abbrev ops : List (HloOp τ sig (Elt F)) :=
  [
    nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    unary main_v1 main_v2 (broadcastInDim S1024x200 ![0, 1] bcast_S1x200_S1024x200_0_1 : (⟨S1x200, .i32⟩ : BufTy).Contents (Elt F) → (⟨S1024x200, .i32⟩ : BufTy).Contents (Elt F)),
    TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg2) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    TRef.nullary main_call1.c (constantI S_ 32 0#32),
    TRef.unary main_call1.c main_call1.v0 (broadcastInDim S1024x200 ![] bcast_S_S1024x200),
    TRef.binary (.of main_v2) main_call1.v0 main_call1.v1 (cmpi .slt),
    TRef.nullary main_call1.c_0 (constantI S_ 32 512#32),
    TRef.unary main_call1.c_0 main_call1.v2 (broadcastInDim S1024x200 ![] bcast_S_S1024x200),
    TRef.binary (.of main_v2) main_call1.v2 main_call1.v3 addi,
    TRef.ternary main_call1.v1 main_call1.v3 (.of main_v2) main_call1.call0.v0 select,
    TRef.unary main_call1.call0.v0 main_call1.v5 (broadcastInDim S1024x200x1 ![0, 1] bcast_S1024x200_S1024x200x1_0_1),
    TRef.nullary main_call1.c_1 (constantI S1 32 511#32),
    TRef.nullary main_call1.c_2 (constantI S_ 32 0#32),
    TRef.unary main_call1.c_2 main_call1.v6 (broadcastInDim S1024x200x1 ![] bcast_S_S1024x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x200x1 ![0, 1, 2] bcast_S1x1x1_S1024x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x200x1_S1024x200_d2 h_S_),
    TRef.binary (.of main_arg3) main_call1.v5 main_call1.v13 (fun x i => Host.gather gather_S512x128_S1024x200x1_S1024x200x128_2_0_n_n_0_2_1128 x i),
    TRef.unary main_call1.v12 main_call1.v14 (broadcastInDim S1024x200x128 ![0, 1] bcast_S1024x200_S1024x200x128_0_1),
    TRef.nullary main_call1.cst (constant S_ .f32 0x7FC00000#32),
    TRef.unary main_call1.cst main_call1.v15 (broadcastInDim S1024x200x128 ![] bcast_S_S1024x200x128),
    TRef.ternary main_call1.v14 main_call1.v13 main_call1.v15 main_call1.v16 select,
    binary main_v3 main_v4 main_v5 (addf : (⟨S1024x200x128, .f32⟩ : BufTy).Contents (Elt F) → (⟨S1024x200x128, .f32⟩ : BufTy).Contents (Elt F) → (⟨S1024x200x128, .f32⟩ : BufTy).Contents (Elt F)),
    TRef.nullary main_call2.c (constantI S_ 32 0#32),
    TRef.unary main_call2.c main_call2.v0 (broadcastInDim S1024x200 ![] bcast_S_S1024x200),
    TRef.binary (.of main_arg1) main_call2.v0 main_call2.v1 (cmpi .slt),
    TRef.nullary main_call2.c_0 (constantI S_ 32 2#32),
    TRef.unary main_call2.c_0 main_call2.v2 (broadcastInDim S1024x200 ![] bcast_S_S1024x200),
    TRef.binary (.of main_arg1) main_call2.v2 main_call2.v3 addi,
    TRef.ternary main_call2.v1 main_call2.v3 (.of main_arg1) main_call2.call0.v0 select,
    TRef.unary main_call2.call0.v0 main_call2.v5 (broadcastInDim S1024x200x1 ![0, 1] bcast_S1024x200_S1024x200x1_0_1),
    TRef.nullary main_call2.c_1 (constantI S1 32 1#32),
    TRef.nullary main_call2.c_2 (constantI S_ 32 0#32),
    TRef.unary main_call2.c_2 main_call2.v6 (broadcastInDim S1024x200x1 ![] bcast_S_S1024x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x200x1 ![0, 1, 2] bcast_S1x1x1_S1024x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x200x1_S1024x200_d2 h_S_),
    TRef.binary (.of main_arg4) main_call2.v5 main_call2.v13 (fun x i => Host.gather gather_S2x128_S1024x200x1_S1024x200x128_2_0_n_n_0_2_1128 x i),
    TRef.unary main_call2.v12 main_call2.v14 (broadcastInDim S1024x200x128 ![0, 1] bcast_S1024x200_S1024x200x128_0_1),
    TRef.nullary main_call2.cst (constant S_ .f32 0x7FC00000#32),
    TRef.unary main_call2.cst main_call2.v15 (broadcastInDim S1024x200x128 ![] bcast_S_S1024x200x128),
    TRef.ternary main_call2.v14 main_call2.v13 main_call2.v15 main_call2.v16 select,
    binary main_v5 main_v6 main_v7 (addf : (⟨S1024x200x128, .f32⟩ : BufTy).Contents (Elt F) → (⟨S1024x200x128, .f32⟩ : BufTy).Contents (Elt F) → (⟨S1024x200x128, .f32⟩ : BufTy).Contents (Elt F)),
    nullary main_cst (constant S_ .f32 0x00000000#32),
    binary main_v7 main_cst main_v8 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v10 (broadcastInDim S1024x200x1 ![] bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v12 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v12 main_v13 (subf : (⟨S1024x200x128, .f32⟩ : BufTy).Contents (Elt F) → (⟨S1024x200x128, .f32⟩ : BufTy).Contents (Elt F) → (⟨S1024x200x128, .f32⟩ : BufTy).Contents (Elt F)),
    binary main_v13 main_v13 main_v14 (mulf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x00000000#32),
    binary main_v14 main_cst_1 main_v15 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v15 main_v16 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_2 (constant S_ .f32 0x43000000#32),
    unary main_cst_2 main_v17 (broadcastInDim S1024x200x1 ![] bcast_S_S1024x200x1 : (⟨S_, .f32⟩ : BufTy).Contents (Elt F) → (⟨S1024x200x1, .f32⟩ : BufTy).Contents (Elt F)),
    binary main_v16 main_v17 main_v18 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v19 main_v20 (subf : (⟨S1024x200x128, .f32⟩ : BufTy).Contents (Elt F) → (⟨S1024x200x128, .f32⟩ : BufTy).Contents (Elt F) → (⟨S1024x200x128, .f32⟩ : BufTy).Contents (Elt F)),
    nullary main_cst_3 (constant S_ .f32 0x2B8CBCCC#32),
    unary main_cst_3 main_v21 (broadcastInDim S1024x200x1 ![] bcast_S_S1024x200x1 : (⟨S_, .f32⟩ : BufTy).Contents (Elt F) → (⟨S1024x200x1, .f32⟩ : BufTy).Contents (Elt F)),
    binary main_v18 main_v21 main_v22 (addf : (⟨S1024x200x1, .f32⟩ : BufTy).Contents (Elt F) → (⟨S1024x200x1, .f32⟩ : BufTy).Contents (Elt F) → (⟨S1024x200x1, .f32⟩ : BufTy).Contents (Elt F)),
    unary main_v22 main_v23 (Host.sqrt : (⟨S1024x200x1, .f32⟩ : BufTy).Contents (Elt F) → (⟨S1024x200x1, .f32⟩ : BufTy).Contents (Elt F)),
    unary main_v23 main_v24 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v20 main_v24 main_v25 (Host.divf : (⟨S1024x200x128, .f32⟩ : BufTy).Contents (Elt F) → (⟨S1024x200x128, .f32⟩ : BufTy).Contents (Elt F) → (⟨S1024x200x128, .f32⟩ : BufTy).Contents (Elt F)),
    unary main_arg5 main_v26 (broadcastInDim S1x1x128 ![2] bcast_S128_S1x1x128_2 : (⟨S128, .f32⟩ : BufTy).Contents (Elt F) → (⟨S1x1x128, .f32⟩ : BufTy).Contents (Elt F)),
    unary main_v26 main_v27 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v25 main_v27 main_v28 (mulf : (⟨S1024x200x128, .f32⟩ : BufTy).Contents (Elt F) → (⟨S1024x200x128, .f32⟩ : BufTy).Contents (Elt F) → (⟨S1024x200x128, .f32⟩ : BufTy).Contents (Elt F)),
    unary main_arg6 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v28 main_v30 main_v31 (addf : (⟨S1024x200x128, .f32⟩ : BufTy).Contents (Elt F) → (⟨S1024x200x128, .f32⟩ : BufTy).Contents (Elt F) → (⟨S1024x200x128, .f32⟩ : BufTy).Contents (Elt F)) ]

set_option maxRecDepth 8192 in
set_option maxHeartbeats 4000000 in
/-- @main is that straight line: the lookups' definitions unfolded at their calls and the records at their fields,
    both sides are one chain of steps once sequencing is reassociated. -/
theorem main_eq (c : Dev nD) : main (F := F) c = seq ops := by
  simp only [main, fn_take.body, fn_take_0.body, fn_take_2.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- Every TensorCore buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Hand.Ref

end
-- ==== Proof.RefRun.lean ====
import proofs.«203472_g22600117912246_cont_8to1_820_34_alg».proof.Proof.RefOps

/-!
# The reference's run

The fold of the reference's operations over the launch contents, read at the result buffer, is the composed term
refOut of the arguments' contents, and at each argument buffer what was there; with the straight-line run this gives:
every weakly fair execution of @main terminates with the result at refOut of the arguments and the arguments
unchanged, for any float values and with no precondition (host operations are total).
-/

noncomputable section

namespace Cert.Hand.Ref

open Cert.ReferenceIdeal Cert.ReferenceIdeal.Gen Idealize.ShloMosaic Idealize.ShloMosaic.TcCoe Idealize.SL.Sem Idealize.ShloMosaic.StableHlo

variable {F : FTy → Type} [FloatOps F]

/-! ## The fold at the result and at the arguments -/

set_option maxRecDepth 8192 in
set_option maxHeartbeats 4000000 in
/-- The fold at the result buffer is the composed term of the arguments' contents: each operation's result at its own
    buffer is its function of its operands' contents (the typed references' transports are the identity at these
    literal buffers), and what is left is the composed term's definitions unfolded. -/
theorem out_eq (V : Valuation τ sig (Elt F)) :
    after ops V (main_v31 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [cast_cast, cast_eq]
  rfl

/-! No operation writes an argument: the fold leaves each argument buffer at its contents. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

/-! ## The run -/

/-- On every device, for any float values, from any memory with zero counters: every weakly fair execution of @main
    terminates with the result at the composed term of the arguments and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v31) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v31).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_all m g)

/-- The reference's frame: it runs and leaves its arguments unchanged (the precondition is not used). -/
theorem frame : Cert.frame_ReferenceIdeal (hReferenceIdeal := Cert.ReferenceIdeal.Gen.facts)
    (hPre_input_domain := Cert.Pre_input_domain.Gen.facts) :=
  fun m ρ _ => (θ_run _ _ _).mono (fun _ h c => (h c).2) (run (F := Ideal) m ρ)

end Cert.Hand.Ref

end
-- ==== Proof.RefValue.lean ====
import proofs.«203472_g22600117912246_cont_8to1_820_34_alg».proof.Proof.RefOps
import proofs.«203472_g22600117912246_cont_8to1_820_34_alg».proof.Proof.Spec
import Idealize.ShloMosaic.Lib.ReduceAll
import Idealize.ShloMosaic.Lib.IdealHost
import Idealize.ShloMosaic.Lib.Pipeline.Value
import Idealize.ShloMosaic.PureOps.Ideal.Laws

/-!
# The reference's composed term, index by index

Under the input domain (every token id in [0, 99999], every type id in [0, 1]) the reference's composed term refOut,
read at (b, l, k) at the exact values, is the specification G there: each row lookup's in-range mask is all ones and
its negative-index select keeps the index, so the lookup reads the table's row at the index; the position lookup's
indices are the positions themselves; the two sums over the last axis are sums over the 128 features.
-/

noncomputable section

open scoped BigOperators

namespace Cert.Hand.Ref

open Cert.ReferenceIdeal Cert.ReferenceIdeal.Gen Idealize.ShloMosaic Idealize.ShloMosaic.ValueIdx

/-! ## Layout operations at an index -/

/-- A broadcast appending a unit axis reads the operand at the first two coordinates. -/
theorem bcastUnit_apply {α : Type} (v : S1024x200.Idx → α) (b : Fin 1024) (l : Fin 200) (z : Fin 1) :
    broadcastInDim S1024x200x1 ![0, 1] bcast_S1024x200_S1024x200x1_0_1 v (ix3 b l z) = v (ix2 b l) :=
  broadcastInDim_apply _ _ v (ix3 b l z) (ix2 b l) (fun a => match a with | ⟨0, _⟩ => rfl | ⟨1, _⟩ => rfl)

/-- A broadcast along the last axis of a per-position value reads it at the position. -/
theorem bcastPos_apply {α : Type} (v : S1024x200.Idx → α) (b : Fin 1024) (l : Fin 200) (k : Fin 128) :
    broadcastInDim S1024x200x128 ![0, 1] bcast_S1024x200_S1024x200x128_0_1 v (ix3 b l k) = v (ix2 b l) :=
  broadcastInDim_apply _ _ v (ix3 b l k) (ix2 b l) (fun a => match a with | ⟨0, _⟩ => rfl | ⟨1, _⟩ => rfl)

/-- A broadcast of a kept unit last axis over the 128 features reads the unit entry. -/
theorem bcastLast_apply {α : Type} (v : S1024x200x1.Idx → α) (b : Fin 1024) (l : Fin 200) (k : Fin 128) :
    broadcastInDim S1024x200x128 ![0, 1, 2] bcast_S1024x200x1_S1024x200x128_0_1_2 v (ix3 b l k) = v (ix3 b l (0 : Fin 1)) :=
  broadcastInDim_apply _ _ v (ix3 b l k) (ix3 b l (0 : Fin 1))
    (fun a => match a with | ⟨0, _⟩ => rfl | ⟨1, _⟩ => rfl | ⟨2, _⟩ => rfl)

/-- A per-feature vector broadcast over batch and position reads the feature. -/
theorem bcastFeat_apply {α : Type} (g : S128.Idx → α) (b : Fin 1024) (l : Fin 200) (k : Fin 128) :
    broadcastInDim S1024x200x128 ![0, 1, 2] bcast_S1x1x128_S1024x200x128_0_1_2
      (broadcastInDim S1x1x128 ![2] bcast_S128_S1x1x128_2 g) (ix3 b l k) = g (ix1 k) :=
  (broadcastInDim_apply _ _ _ (ix3 b l k) (ix3 (0 : Fin 1) (0 : Fin 1) k)
    (fun a => match a with | ⟨0, _⟩ => rfl | ⟨1, _⟩ => rfl | ⟨2, _⟩ => rfl)).trans
  (broadcastInDim_apply _ _ g (ix3 (0 : Fin 1) (0 : Fin 1) k) (ix1 k) (fun a => match a with | ⟨0, _⟩ => rfl))

/-- The position index array at (b, l) is the word of l. -/
theorem posIds_apply (b : Fin 1024) (l : Fin 200) : posIds (ix2 b l) = BitVec.ofNat 32 l.val :=
  (broadcastInDim_apply _ _ _ (ix2 b l) (ix2 (0 : Fin 1) l) (fun a => match a with | ⟨0, _⟩ => rfl | ⟨1, _⟩ => rfl)).trans
  (broadcastInDim_apply _ _ (iotaInDim S200 32 0) (ix2 (0 : Fin 1) l) (ix1 l) (fun a => match a with | ⟨0, _⟩ => rfl))

/-! ## Words -/

/-- A word whose signed value is not negative has it as its unsigned value. -/
theorem toNat_toInt_of_nonneg {w : Nat} (v : BitVec w) (h : 0 ≤ v.toInt) : v.toInt.toNat = v.toNat := by
  have e := BitVec.toInt_eq_toNat_cond v
  by_cases c : 2 * v.toNat < 2 ^ w
  · rw [if_pos c] at e; omega
  · rw [if_neg c] at e; have := v.isLt; omega

/-- A fold by and, from 1, over words that are all 1 is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf => by
    rw [List.foldl_cons]
    exact foldl_andi_of_all f l _ (IntOp.andi_eq_one.2 ⟨h, hf a List.mem_cons_self⟩)
      (fun n hn => hf n (List.mem_cons_of_mem _ hn))

/-- A reduce by and, from 1, of an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_of_all x _ _ hi (fun i _ => hx i)

/-! ## A row lookup at an index -/

/-- The row lookup's dimension numbers for a table of N rows of 128: the printed records are this one at their N. -/
abbrev rowDims (N : Nat)
    (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- The gather of rows read at (b, l, k): the table at the start index of (b, l) — the word v —, read signed and
    clamped into the table, and at feature k. -/
theorem gather_rows_apply {α : Type} {N w : Nat} (hN : 0 < N)
    (wf : GatherDims.WF ⟨2, ![N, 128]⟩ S1024x200x1 S1024x200x128 [2] [0] [] [0] [] 2 ![1, 128])
    (x : (⟨2, ![N, 128]⟩ : Shape).Idx → α) (idx : IVec S1024x200x1 w) (b : Fin 1024) (l : Fin 200) (k : Fin 128)
    (v : BitVec w) (hv : idx (ix3 b l (0 : Fin 1)) = v) :
    Host.gather (rowDims N wf) x idx (ix3 b l k) = x (ix2 ⟨min v.toInt.toNat (N - 1), by omega⟩ k) := by
  subst hv
  unfold Host.gather
  congr 1
  funext a
  refine Fin.ext ?_
  show (rowDims N wf).start (ix3 b l k) idx a + (rowDims N wf).batchCoord (ix3 b l k) a
      + (rowDims N wf).offCoord (ix3 b l k) a = _
  rw [GatherDims.batchCoord_eq_zero _ _ _ List.not_mem_nil]
  have ha : a = (0 : Fin 2) ∨ a = (1 : Fin 2) := by
    rcases a with ⟨m, hm⟩
    have hm' : m < 2 := hm
    interval_cases m
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b l k) ⟨List.idxOf (0 : Fin 2) (rowDims N wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  · unfold GatherDims.start GatherDims.offCoord
    rw [dif_neg (show (1 : Fin 2) ∉ ([0] : List (Fin 2)) from by decide),
      dif_pos (show (1 : Fin 2) ∈ (rowDims N wf).sKept from
        (show (1 : Fin 2) ∈ ((List.finRange 2).filter (· ∉ ([0] : List (Fin 2)))) from by decide))]
    simp only [Nat.add_zero, Nat.zero_add]
    rfl

/-- The wrapped index at a position whose index is not negative is the index. -/
theorem wrapIdx_apply (n : BitVec 32) (ids : IVec S1024x200 32) (b : Fin 1024) (l : Fin 200) (z : Fin 1)
    (h0 : 0 ≤ (ids (ix2 b l)).toInt) : wrapIdx n ids (ix3 b l z) = ids (ix2 b l) := by
  unfold wrapIdx
  rw [bcastUnit_apply]
  show Scalar.select (IntOp.cmpi .slt (ids (ix2 b l)) 0#32) _ (ids (ix2 b l)) = _
  have hc : IntOp.cmpi .slt (ids (ix2 b l)) 0#32 = 0#1 :=
    eq_zero_of_ne_one (fun e => by
      have h' := IntOp.cmpi_slt.1 e
      rw [show (0#32 : BitVec 32).toInt = 0 from by decide] at h'
      omega)
  rw [hc, select_zero]

/-- The in-range mask is 1 wherever every index lies between 0 and last. -/
theorem inRange_eq_one (last : BitVec 32) (idx : IVec S1024x200x1 32)
    (h : ∀ i, 0 ≤ (idx i).toInt ∧ (idx i).toInt ≤ last.toInt) (j : S1024x200.Idx) : inRange last idx j = 1#1 := by
  unfold inRange
  refine reduce_andi_of_all _ _ _ _ j rfl (fun i => ?_)
  show IntOp.andi (IntOp.cmpi .sge (idx i) 0#32) (IntOp.cmpi .sle (idx i) last) = 1#1
  refine IntOp.andi_eq_one.2 ⟨IntOp.cmpi_sge.2 ?_, IntOp.cmpi_sle.2 (h i).2⟩
  rw [show (0#32 : BitVec 32).toInt = 0 from by decide]
  exact (h i).1

/-- A row lookup whose indices all lie between 0 and last, read at (b, l, k): the table's row at the index (clamped
    to the table, which under the hypothesis changes nothing), at feature k. -/
theorem takeRows_apply {N : Nat} (hN : 0 < N)
    (wf : GatherDims.WF ⟨2, ![N, 128]⟩ S1024x200x1 S1024x200x128 [2] [0] [] [0] [] 2 ![1, 128])
    (n last : BitVec 32) (x : FVec Ideal ⟨2, ![N, 128]⟩ .f32) (ids : IVec S1024x200 32)
    (hids : ∀ j, 0 ≤ (ids j).toInt ∧ (ids j).toInt ≤ last.toInt) (b : Fin 1024) (l : Fin 200) (k : Fin 128) :
    takeRows (F := Ideal) (rowDims N wf) n last x ids (ix3 b l k)
      = x (ix2 (Spec.rowIx N hN (ids (ix2 b l)).toNat) k) := by
  have hw : ∀ i : S1024x200x1.Idx, wrapIdx n ids i = ids (ix2 (i 0) (i 1)) := fun i =>
    (congrArg (wrapIdx n ids) (eq_ix3 i)).trans (wrapIdx_apply n ids (i 0) (i 1) (i 2) (hids _).1)
  unfold takeRows
  rw [select_apply, bcastPos_apply, inRange_eq_one last _ (fun i => by rw [hw i]; exact hids _), select_one,
    gather_rows_apply hN wf x _ b l k _ (wrapIdx_apply n ids b l 0 (hids _).1)]
  refine congrArg (fun r => x (ix2 r k)) (Fin.ext ?_)
  show min (ids (ix2 b l)).toInt.toNat (N - 1) = min (ids (ix2 b l)).toNat (N - 1)
  rw [toNat_toInt_of_nonneg _ (hids _).1]

/-! ## The input domain, decoded -/

instance : Subsingleton (⟨0, ![]⟩ : Shape).Idx := ⟨fun _ _ => funext fun d => d.elim0⟩

/-- What the input domain says of the two index arrays: every token id lies in [0, 99999] and every type id in
    [0, 1], read signed. -/
theorem ids_of_pre {a0 a1 : IVec S1024x200 32} {a2 : FVec Ideal S100000x128 .f32} {a3 : FVec Ideal S512x128 .f32}
    {a4 : FVec Ideal S2x128 .f32} {a5 a6 : FVec Ideal S128 .f32}
    (hpre : Cert.Pre_input_domain.fn (F := Ideal) a0 a1 a2 a3 a4 a5 a6 = fun _ => 1#1) :
    (∀ j, 0 ≤ (a0 j).toInt ∧ (a0 j).toInt ≤ (99999#32 : BitVec 32).toInt)
      ∧ (∀ j, 0 ≤ (a1 j).toInt ∧ (a1 j).toInt ≤ (1#32 : BitVec 32).toInt) := by
  have h := congrFun hpre ix0
  dsimp only [Cert.Pre_input_domain.fn, Cert.Pre_input_domain.fn_part1, Cert.Pre_input_domain.fn_part2] at h
  obtain ⟨h30, h36⟩ := IntOp.andi_eq_one.1 h
  obtain ⟨-, h29⟩ := IntOp.andi_eq_one.1 h30
  refine ⟨fun j => ?_, fun j => ?_⟩
  · obtain ⟨e1, e2⟩ := IntOp.andi_eq_one.1 (Host.reduce_andi_all _ _ _ _ ix0 h29 j)
    have e1' : (0#32 : BitVec 32).toInt ≤ (a0 j).toInt := IntOp.cmpi_sge.1 e1
    have e2' : (a0 j).toInt ≤ (99999#32 : BitVec 32).toInt := IntOp.cmpi_sle.1 e2
    rw [show (0#32 : BitVec 32).toInt = 0 from by decide] at e1'
    exact ⟨e1', e2'⟩
  · obtain ⟨e1, e2⟩ := IntOp.andi_eq_one.1 (Host.reduce_andi_all _ _ _ _ ix0 h36 j)
    have e1' : (0#32 : BitVec 32).toInt ≤ (a1 j).toInt := IntOp.cmpi_sge.1 e1
    have e2' : (a1 j).toInt ≤ (1#32 : BitVec 32).toInt := IntOp.cmpi_sle.1 e2
    rw [show (0#32 : BitVec 32).toInt = 0 from by decide] at e1'
    exact ⟨e1', e2'⟩

/-! ## The summed embeddings at an index -/

/-- The position lookup's indices lie in the position table. -/
theorem posIds_range (j : S1024x200.Idx) :
    0 ≤ (posIds j).toInt ∧ (posIds j).toInt ≤ (511#32 : BitVec 32).toInt := by
  obtain ⟨b, l, rfl⟩ : ∃ (b : Fin 1024) (l : Fin 200), j = ix2 b l := ⟨j 0, j 1, eq_ix2 j⟩
  have hl := l.isLt
  have e := BitVec.toInt_eq_toNat_cond (BitVec.ofNat 32 l.val)
  rw [BitVec.toNat_ofNat] at e
  have hc : 2 * (l.val % 2 ^ 32) < 2 ^ 32 := by omega
  rw [if_pos hc] at e
  rw [posIds_apply, e, show (511#32 : BitVec 32).toInt = 511 from by decide]
  omega

/-- Under the input domain the summed embeddings at (b, l, k) are the specification's. -/
theorem embSum_apply (a0 a1 : IVec S1024x200 32) (a2 : FVec Ideal S100000x128 .f32) (a3 : FVec Ideal S512x128 .f32)
    (a4 : FVec Ideal S2x128 .f32)
    (h0 : ∀ j, 0 ≤ (a0 j).toInt ∧ (a0 j).toInt ≤ (99999#32 : BitVec 32).toInt)
    (h1 : ∀ j, 0 ≤ (a1 j).toInt ∧ (a1 j).toInt ≤ (1#32 : BitVec 32).toInt)
    (b : Fin 1024) (l : Fin 200) (k : Fin 128) :
    embSum (F := Ideal) a0 a1 a2 a3 a4 (ix3 b l k) = Spec.x a0 a1 a2 a3 a4 b l k := by
  have hp : Spec.rowIx 512 (by decide) (posIds (ix2 b l)).toNat = Fin.castLE (by decide : 200 ≤ 512) l := by
    refine Fin.ext ?_
    show min (posIds (ix2 b l)).toNat (512 - 1) = l.val
    rw [posIds_apply, BitVec.toNat_ofNat]
    have := l.isLt
    omega
  unfold embSum Spec.x
  show takeRows (F := Ideal) (rowDims 100000 gather_S100000x128_S1024x200x1_S1024x200x128_2_0_n_n_0_2_1128_wf) 100000#32 99999#32 a2 a0 (ix3 b l k)
      + takeRows (F := Ideal) (rowDims 512 gather_S512x128_S1024x200x1_S1024x200x128_2_0_n_n_0_2_1128_wf) 512#32 511#32 a3 posIds (ix3 b l k)
      + takeRows (F := Ideal) (rowDims 2 gather_S2x128_S1024x200x1_S1024x200x128_2_0_n_n_0_2_1128_wf) 2#32 1#32 a4 a1 (ix3 b l k) = _
  rw [takeRows_apply (by decide) _ _ _ a2 a0 h0, takeRows_apply (by decide) _ _ _ a3 posIds posIds_range,
    takeRows_apply (by decide) _ _ _ a4 a1 h1, hp]

/-! ## The normalization at an index -/

/-- The index over (b, l) whose last coordinate is k. -/
theorem lift_ix3 (h : S1024x200x128.Reduces [2] S1024x200) (b : Fin 1024) (l : Fin 200) (k : Fin 128) :
    h.lift (ix2 b l) k = ix3 b l k := by
  funext c; apply Fin.ext
  fin_cases c <;> rfl

/-- The mean over the last axis at (b, l): the specification's mean of the 128 features there. -/
theorem rowMean_apply (y : FVec Ideal S1024x200x128 .f32) (b : Fin 1024) (l : Fin 200) (z : Fin 1) :
    rowMean (F := Ideal) y (ix3 b l z) = Spec.mean (fun k => y (ix3 b l k)) := by
  have hR : S1024x200x128.Reduces [2] S1024x200 := by decide
  unfold rowMean Spec.mean
  show Ideal.div (broadcastInDim S1024x200x1 ![0, 1] bcast_S1024x200_S1024x200x1_0_1
        (Host.reduceAdd y (constant S_ .f32 0x00000000#32) reducesTo_S1024x200x128_S1024x200_d2 h_S_) (ix3 b l z))
      Spec.c128 = _
  rw [bcastUnit_apply, hostReduceAdd_apply, Ideal.hostReduceAdd_single _ hR]
  show Ideal.div (Ideal.ofBits .f32 0x00000000#32 + ∑ k : Fin 128, y (hR.lift (ix2 b l) k)) Spec.c128 = _
  rw [Ideal.ofBits_zero_f32, zero_add]
  exact congrArg (fun s => Ideal.div s Spec.c128) (Finset.sum_congr rfl (fun k _ => congrArg y (lift_ix3 hR b l k)))

/-- A centred entry: the entry minus its row's mean. -/
theorem centred_apply (y : FVec Ideal S1024x200x128 .f32) (b : Fin 1024) (l : Fin 200) (k : Fin 128) :
    centred (F := Ideal) y (ix3 b l k) = y (ix3 b l k) - Spec.mean (fun k => y (ix3 b l k)) := by
  unfold centred
  rw [subf_apply, bcastLast_apply, rowMean_apply]

/-- The layer normalization at (b, l, k), over the row's 128 features. -/
theorem layerNorm_apply (y : FVec Ideal S1024x200x128 .f32) (gamma beta : FVec Ideal S128 .f32)
    (b : Fin 1024) (l : Fin 200) (k : Fin 128) :
    layerNorm (F := Ideal) y gamma beta (ix3 b l k)
      = Ideal.div (y (ix3 b l k) - Spec.mean (fun k => y (ix3 b l k)))
          (Ideal.sqrt (Spec.var (fun k => y (ix3 b l k)) + Spec.eps)) * gamma (ix1 k) + beta (ix1 k) := by
  have hv : (fun k' => (mulf (centred (F := Ideal) y) (centred (F := Ideal) y)) (ix3 b l k'))
      = fun k' => (y (ix3 b l k') - Spec.mean (fun k => y (ix3 b l k)))
          * (y (ix3 b l k') - Spec.mean (fun k => y (ix3 b l k))) :=
    funext fun k' => by rw [mulf_apply, centred_apply]
  unfold layerNorm
  rw [addf_apply, mulf_apply, hostDivf_apply, bcastFeat_apply, bcastFeat_apply, bcastLast_apply, centred_apply]
  show Ideal.div _ (Ideal.sqrt (rowMean (F := Ideal) (mulf (centred (F := Ideal) y) (centred (F := Ideal) y))
      (ix3 b l (0 : Fin 1)) + Spec.eps)) * _ + _ = _
  rw [rowMean_apply, hv]
  rfl

/-! ## The reference is the specification -/

/-- Under the input domain the reference's composed term at (b, l, k) is the specification there. -/
theorem refOut_apply {a0 a1 : IVec S1024x200 32} {a2 : FVec Ideal S100000x128 .f32} {a3 : FVec Ideal S512x128 .f32}
    {a4 : FVec Ideal S2x128 .f32} {a5 a6 : FVec Ideal S128 .f32}
    (hpre : Cert.Pre_input_domain.fn (F := Ideal) a0 a1 a2 a3 a4 a5 a6 = fun _ => 1#1)
    (b : Fin 1024) (l : Fin 200) (k : Fin 128) :
    refOut (F := Ideal) a0 a1 a2 a3 a4 a5 a6 (ix3 b l k) = Spec.G a0 a1 a2 a3 a4 a5 a6 b l k := by
  obtain ⟨h0, h1⟩ := ids_of_pre hpre
  have hx : (fun k' => embSum (F := Ideal) a0 a1 a2 a3 a4 (ix3 b l k')) = Spec.x a0 a1 a2 a3 a4 b l :=
    funext fun k' => embSum_apply a0 a1 a2 a3 a4 h0 h1 b l k'
  unfold refOut Spec.G
  rw [layerNorm_apply, hx, embSum_apply a0 a1 a2 a3 a4 h0 h1 b l k]

end Cert.Hand.Ref

end
-- ==== Proof.RefSpecRun.lean ====
import proofs.«203472_g22600117912246_cont_8to1_820_34_alg».proof.Proof.RefRun
import proofs.«203472_g22600117912246_cont_8to1_820_34_alg».proof.Proof.RefValue

/-!
# The reference's run against the specification

Under the input domain every weakly fair execution of the reference terminates with its result buffer at the
specification G of the arguments' launch contents, entry by entry, and its arguments unchanged: the run read back at
the composed term, and the composed term read index by index.
-/

noncomputable section

namespace Cert.Hand.Ref

open Cert.ReferenceIdeal Cert.ReferenceIdeal.Gen Idealize.ShloMosaic Idealize.ShloMosaic.TcCoe Idealize.SL.Sem Idealize.ShloMosaic.StableHlo Idealize.ShloMosaic.ValueIdx

/-- Under the input domain the composed term is the specification as a whole array. -/
theorem refOut_eq {a0 a1 : IVec S1024x200 32} {a2 : FVec Ideal S100000x128 .f32} {a3 : FVec Ideal S512x128 .f32}
    {a4 : FVec Ideal S2x128 .f32} {a5 a6 : FVec Ideal S128 .f32}
    (hpre : Cert.Pre_input_domain.fn (F := Ideal) a0 a1 a2 a3 a4 a5 a6 = fun _ => 1#1) :
    refOut (F := Ideal) a0 a1 a2 a3 a4 a5 a6 = fun i => Spec.G a0 a1 a2 a3 a4 a5 a6 (i 0) (i 1) (i 2) :=
  funext fun i => (congrArg (refOut (F := Ideal) a0 a1 a2 a3 a4 a5 a6) (eq_ix3 i)).trans
    (refOut_apply hpre (i 0) (i 1) (i 2))

/-- Under the input domain the reference runs to the specification of its arguments, the arguments unchanged. -/
theorem run_spec (m : (ℓ : Loc nD τ sig) → Buf (Elt Ideal) ℓ) (g : Dev nD → PrngReg)
    (hpre : Cert.Pre_ReferenceIdeal (hPre_input_domain := Cert.Pre_input_domain.Gen.facts) m) :
    θ_run (defs (F := Ideal)) (onTc (τ := τ) (main (F := Ideal))) ⟨m, fun _ => 0, g⟩ (fun r => ∀ c : Dev nD,
      r.2.mem ((c.tc : Thread nD τ).loc main_v31)
          = (fun i => Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (refOut_eq (hpre c)), (h c).2⟩) (run (F := Ideal) m g)

end Cert.Hand.Ref

end
-- ==== Proof.RefAlg.lean ====
import proofs.«203472_g22600117912246_cont_8to1_820_34_alg».proof.Proof.RefSpecRun

/-!
# The reference's half of the algebraic claim

From a memory that agrees with the kernel's on the seven arguments, and under the input domain of the kernel's
memory, the reference runs to the specification G of the KERNEL's arguments, entry by entry, its own arguments
unchanged: the input domain moves along the agreement, and the run against the specification is rewritten with it.
-/

noncomputable section

namespace Cert.Hand.Ref

open Idealize.ShloMosaic Idealize.ShloMosaic.TcCoe Idealize.SL.Sem Idealize.ShloMosaic.ValueIdx

/-- The input domain moves along an agreement on the arguments. -/
theorem pre_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Pre_ReferenceIdeal (hPre_input_domain := Cert.Pre_input_domain.Gen.facts) m' := fun c => by
  obtain ⟨e0, e1, e2, e3, e4, e5, e6⟩ := hagree c
  rw [e0, e1, e2, e3, e4, e5, e6]
  exact hpre c

/-- The reference's half of the algebraic claim, its result stated at the specification of the kernel's arguments. -/
theorem algebraic_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
      r.2.mem ((c.tc : Thread Cert.ReferenceIdeal.nD Cert.ReferenceIdeal.τ).loc Cert.ReferenceIdeal.main_v31)
          = (fun i => Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run _ _ _).mono (fun _ h c => by
      obtain ⟨e0, e1, e2, e3, e4, e5, e6⟩ := hagree c
      refine ⟨?_, (h c).2⟩
      rw [← e0, ← e1, ← e2, ← e3, ← e4, ← e5, ← e6]
      exact (h c).1)
    (run_spec m' g' (pre_of_agree m m' hpre hagree))

end Cert.Hand.Ref

end
-- ==== Proof.Alg.lean ====
/-
  The two idealized programs compute one function. The kernel's run ends with the result buffer at the tail's final
  contents; read at an index (b, l, k) that is the kernel's form of the normalised row — sums times 2^-7, E[X²] − (E X)²,
  the reciprocal square root — of x = word row + position row + token-type row, the word row being the table row the
  token id names because each gathered chunk agrees with the table rows its ids name; under the input domain (every
  entry a real, ids in range, token types 0 or 1) that form equals the reference's (mean and variance by division by
  128, division by the square root), which is what the reference's run ends at.
-/
import proofs.«203472_g22600117912246_cont_8to1_820_34_alg».proof.Proof.Frame
import proofs.«203472_g22600117912246_cont_8to1_820_34_alg».proof.Proof.KernelValue
import proofs.«203472_g22600117912246_cont_8to1_820_34_alg».proof.Proof.RefAlg

noncomputable section

namespace Cert.KernelIdeal.Hand

open Cert.KernelIdeal Cert.KernelIdeal.Gen
open Idealize.ShloMosaic Idealize.ShloMosaic.TcCoe Idealize.SL.Sem
open Idealize.ShloMosaic.SparseCore (S V T)

/-- The algebraic claim, given each gather call's obligation for one tile and its split among the tiles. -/
theorem algebraic_of
    (htile : ∀ (m : (ℓ : Loc nD τ sig) → Buf (Elt Ideal) ℓ), IdsInRange (F := Ideal) m → ∀ q : Fin 4, (K (F := Ideal)).TileObl (D (F := Ideal)) 𝒱 (P m) v₀ q)
    (hvec : ∀ (m : (ℓ : Loc nD τ sig) → Buf (Elt Ideal) ℓ) (q : Fin 4), (K (F := Ideal)).VecSplit' (P m) q) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => (fun (i : Cert.ReferenceIdeal.S1024x200x128.Idx) => Cert.Hand.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2)),
    ?_, Cert.Hand.Ref.algebraic_ref m m' g' hpre hagree⟩
  exact (θ_run Cert.KernelIdeal.defs _ _).mono (fun r h c => by
      obtain ⟨f0, f1, f2, f3, h0, h1, h2, h3, hb⟩ := h c
      exact ⟨(hb _ (mem_uc main_v16 (by decide))).trans (kernel_value m c f0 f1 f2 f3 hpre h0 h1 h2 h3),
        (hb _ (mem_uc main_arg0 (by decide))).trans ((Wend_main_arg0 _ c).trans (V8_keep m c f0 f1 f2 f3 main_arg0 (by decide) (by decide) (by decide) (by decide) (by decide) (by decide) (by decide) (by decide) (by decide) (by decide) (by decide) (by decide))),
        (hb _ (mem_uc main_arg1 (by decide))).trans ((Wend_main_arg1 _ c).trans (V8_keep m c f0 f1 f2 f3 main_arg1 (by decide) (by decide) (by decide) (by decide) (by decide) (by decide) (by decide) (by decide) (by decide) (by decide) (by decide) (by decide))),
        (hb _ (mem_uc main_arg2 (by decide))).trans ((Wend_main_arg2 _ c).trans (V8_keep m c f0 f1 f2 f3 main_arg2 (by decide) (by decide) (by decide) (by decide) (by decide) (by decide) (by decide) (by decide) (by decide) (by decide) (by decide) (by decide))),
        (hb _ (mem_uc main_arg3 (by decide))).trans ((Wend_main_arg3 _ c).trans (V8_keep m c f0 f1 f2 f3 main_arg3 (by decide) (by decide) (by decide) (by decide) (by decide) (by decide) (by decide) (by decide) (by decide) (by decide) (by decide) (by decide))),
        (hb _ (mem_uc main_arg4 (by decide))).trans ((Wend_main_arg4 _ c).trans (V8_keep m c f0 f1 f2 f3 main_arg4 (by decide) (by decide) (by decide) (by decide) (by decide) (by decide) (by decide) (by decide) (by decide) (by decide) (by decide) (by decide))),
        (hb _ (mem_uc main_arg5 (by decide))).trans ((Wend_main_arg5 _ c).trans (V8_keep m c f0 f1 f2 f3 main_arg5 (by decide) (by decide) (by decide) (by decide) (by decide) (by decide) (by decide) (by decide) (by decide) (by decide) (by decide) (by decide))),
        (hb _ (mem_uc main_arg6 (by decide))).trans ((Wend_main_arg6 _ c).trans (V8_keep m c f0 f1 f2 f3 main_arg6 (by decide) (by decide) (by decide) (by decide) (by decide) (by decide) (by decide) (by decide) (by decide) (by decide) (by decide) (by decide)))⟩)
    (run_main (F := Ideal) m g (htile m (ok_of_pre m hpre)) (hvec m))

end Cert.KernelIdeal.Hand

end
-- ==== Proof.lean ====
/-
  The certificate: an embedding lookup with position and token-type embeddings and a row normalisation, as a kernel
  (four SparseCore gather calls of 51200 word rows each, then four TensorCore regions of four 64-sequence blocks) against
  the jnp reference.
  The three frames: the kernel's two (the word-level program and its idealization are one text, so one proof generic in
  the float instance, stated twice) come from the kernel's run — every tile's task, the split of each call's operands
  among the tiles, @main's head and tail on the TensorCore, the launch element, the final memory read back to the launch
  contents of the arguments —; the reference's from its run of host operations. The idealization rewrote nothing, so
  there is nothing to preserve. The two idealized programs end at one function of the arguments: the row-normalised sum
  of the word row the token id names, the position row and the token-type row.
-/
import proofs.«203472_g22600117912246_cont_8to1_820_34_alg».proof.Defs
import proofs.«203472_g22600117912246_cont_8to1_820_34_alg».proof.Proof.Gen.Kernel
import proofs.«203472_g22600117912246_cont_8to1_820_34_alg».proof.Proof.Gen.KernelIdeal
import proofs.«203472_g22600117912246_cont_8to1_820_34_alg».proof.Proof.Gen.ReferenceIdeal
import proofs.«203472_g22600117912246_cont_8to1_820_34_alg».proof.Proof.Gen.Pre_input_domain
import proofs.«203472_g22600117912246_cont_8to1_820_34_alg».proof.Proof.Obls
import proofs.«203472_g22600117912246_cont_8to1_820_34_alg».proof.Proof.Bits.Obls
import proofs.«203472_g22600117912246_cont_8to1_820_34_alg».proof.Proof.Frame
import proofs.«203472_g22600117912246_cont_8to1_820_34_alg».proof.Proof.Bits.Frame
import proofs.«203472_g22600117912246_cont_8to1_820_34_alg».proof.Proof.Alg
import proofs.«203472_g22600117912246_cont_8to1_820_34_alg».proof.Proof.RefRun
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Kernel.Hand.frame_of (fun m h => Cert.Kernel.Hand.tileObls m h) (fun m => Cert.Kernel.Hand.vecSplits m),
    Cert.KernelIdeal.Hand.frame_of (fun m h => Cert.KernelIdeal.Hand.tileObls m h) (fun m => Cert.KernelIdeal.Hand.vecSplits m),
    Cert.Hand.Ref.frame,
    trivial,
    Cert.KernelIdeal.Hand.algebraic_of (fun m h => Cert.KernelIdeal.Hand.tileObls m h) (fun m => Cert.KernelIdeal.Hand.vecSplits m)⟩

end Cert.Proof

end
